-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S850000 : Shape := ⟨1, ![850000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S850000 : S_.BroadcastsInDim S850000 (![] : Fin 0 → Fin S850000.rank)
  reducesTo_S850000_S_d0 : S850000.ReducesTo [0] S_

variable [Facts]

def fn_part2 {F : FTy → Type} [FloatOps F] (main_arg1 : IVec S850000 32) (main_v33 : IVec S_ 1) : IVec S_ 1 :=
  let main_c_12 : IVec S_ 32 := constantI S_ 32 0#32
  let main_v34 : IVec S850000 32 := broadcastInDim S850000 ![] bcast_S_S850000 main_c_12
  let main_v35 : IVec S850000 1 := cmpi .sge main_arg1 main_v34
  let main_c_13 : IVec S_ 32 := constantI S_ 32 50000#32
  let main_v36 : IVec S850000 32 := broadcastInDim S850000 ![] bcast_S_S850000 main_c_13
  let main_v37 : IVec S850000 1 := cmpi .slt main_arg1 main_v36
  let main_v38 : IVec S850000 1 := andi main_v35 main_v37
  let main_c_14 : IVec S_ 1 := constantI S_ 1 1#1
  let main_v39 : IVec S_ 1 := (fun x v => Host.reduce IntOp.andi x v reducesTo_S850000_S_d0 h_S_) main_v38 main_c_14
  let main_v40 : IVec S_ 1 := andi main_v33 main_v39
  main_v40

def fn_part1 {F : FTy → Type} [FloatOps F] (main_arg1 : IVec S850000 32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S850000 32) (main_arg2 : IVec S850000 32) (main_arg3 : FVec F S128x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_v13 main_v16
-- ==== Kernel.lean ====
abbrev S50000x128 : Shape := ⟨2, ![50000, 128]⟩
abbrev S850000 : Shape := ⟨1, ![850000]⟩
abbrev S128x64 : Shape := ⟨2, ![128, 64]⟩
abbrev S64 : Shape := ⟨1, ![64]⟩
abbrev S64x64 : Shape := ⟨2, ![64, 64]⟩
abbrev S_ : Shape := ⟨0, ![]⟩
abbrev S50000 : Shape := ⟨1, ![50000]⟩
abbrev S850000x1 : Shape := ⟨2, ![850000, 1]⟩
abbrev S851968 : Shape := ⟨1, ![851968]⟩
abbrev S851968x1 : Shape := ⟨2, ![851968, 1]⟩
abbrev S50000x1 : Shape := ⟨2, ![50000, 1]⟩
abbrev S50000x64 : Shape := ⟨2, ![50000, 64]⟩
abbrev S851968x64 : Shape := ⟨2, ![851968, 64]⟩
abbrev S4096x1 : Shape := ⟨2, ![4096, 1]⟩
abbrev S2000x64 : Shape := ⟨2, ![2000, 64]⟩
abbrev S4096x64 : Shape := ⟨2, ![4096, 64]⟩
abbrev S4096x2000 : Shape := ⟨2, ![4096, 2000]⟩
abbrev S2000x1 : Shape := ⟨2, ![2000, 1]⟩
abbrev S1x64 : Shape := ⟨2, ![1, 64]⟩

abbrev nBuf : Space → Nat
  | .hbm => 95
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S850000, .i32⟩
  | .hbm, ⟨2, _⟩ => ⟨S850000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S850000, .f32⟩
  | .hbm, ⟨11, _⟩ => ⟨S_, .f32⟩
  | .hbm, ⟨12, _⟩ => ⟨S50000, .f32⟩
  | .hbm, ⟨13, _⟩ => ⟨S850000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S_, .i32⟩
  | .hbm, ⟨51, _⟩ => ⟨S_, .i32⟩
  | .hbm, ⟨52, _⟩ => ⟨S851968, .i32⟩
  | .hbm, ⟨53, _⟩ => ⟨S851968x1, .i32⟩
  | .hbm, ⟨54, _⟩ => ⟨S_, .i32⟩
  | .hbm, ⟨55, _⟩ => ⟨S_, .i32⟩
  | .hbm, ⟨56, _⟩ => ⟨S851968, .i32⟩
  | .hbm, ⟨57, _⟩ => ⟨S851968x1, .i32⟩
  | .hbm, ⟨58, _⟩ => ⟨S_, .f32⟩
  | .hbm, ⟨59, _⟩ => ⟨S_, .f32⟩
  | .hbm, ⟨60, _⟩ => ⟨S851968, .f32⟩
  | .hbm, ⟨61, _⟩ => ⟨S851968x1, .f32⟩
  | .hbm, ⟨62, _⟩ => ⟨S50000x1, .f32⟩
  | .hbm, ⟨63, _⟩ => ⟨S50000x64, .f32⟩
  | .hbm, ⟨64, _⟩ => ⟨S50000x64, .bf16⟩
  | .hbm, ⟨65, _⟩ => ⟨S851968x64, .bf16⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S50000x64, .bf16⟩
  | .hbm, ⟨74, _⟩ => ⟨S851968x64, .bf16⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S_, .f32⟩
  | .hbm, ⟨81, _⟩ => ⟨S50000x64, .f32⟩
  | .hbm, ⟨82, _⟩ => ⟨S50000x64, .f32⟩
  | .hbm, ⟨83, _⟩ => ⟨S50000x64, .bf16⟩
  | .hbm, ⟨84, _⟩ => ⟨S851968x64, .bf16⟩
  | .hbm, ⟨85, _⟩ => ⟨S50000x64, .f32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .local _ .vmem, ⟨0, _⟩ => ⟨S4096x1, .i32⟩
  | .local _ .vmem, ⟨1, _⟩ => ⟨S4096x1, .i32⟩
  | .local _ .vmem, ⟨2, _⟩ => ⟨S4096x1, .f32⟩
  | .local _ .vmem, ⟨3, _⟩ => ⟨S4096x1, .f32⟩
  | .local _ .vmem, ⟨4, _⟩ => ⟨S2000x64, .bf16⟩
  | .local _ .vmem, ⟨5, _⟩ => ⟨S2000x64, .bf16⟩
  | .local _ .vmem, ⟨6, _⟩ => ⟨S4096x64, .bf16⟩
  | .local _ .vmem, ⟨7, _⟩ => ⟨S4096x64, .bf16⟩
  | .local _ .vmem, ⟨8, _⟩ => ⟨S4096x64, .f32⟩
  | .local _ .vmem, ⟨9, _⟩ => ⟨S4096x1, .i32⟩
  | .local _ .vmem, ⟨10, _⟩ => ⟨S4096x1, .i32⟩
  | .local _ .vmem, ⟨11, _⟩ => ⟨S4096x64, .bf16⟩
  | .local _ .vmem, ⟨12, _⟩ => ⟨S4096x64, .bf16⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S4096x1, .i32⟩
  | .local _ .vmem, ⟨19, _⟩ => ⟨S4096x1, .i32⟩
  | .local _ .vmem, ⟨20, _⟩ => ⟨S4096x1, .f32⟩
  | .local _ .vmem, ⟨21, _⟩ => ⟨S4096x1, .f32⟩
  | .local _ .vmem, ⟨22, _⟩ => ⟨S2000x64, .bf16⟩
  | .local _ .vmem, ⟨23, _⟩ => ⟨S2000x64, .bf16⟩
  | .local _ .vmem, ⟨24, _⟩ => ⟨S4096x64, .bf16⟩
  | .local _ .vmem, ⟨25, _⟩ => ⟨S4096x64, .bf16⟩
  | .local _ .vmem, ⟨26, _⟩ => ⟨S4096x64, .f32⟩
  | .local _ .vmem, ⟨27, _⟩ => ⟨S4096x1, .i32⟩
  | .local _ .vmem, ⟨28, _⟩ => ⟨S4096x1, .i32⟩
  | .local _ .vmem, ⟨29, _⟩ => ⟨S4096x64, .bf16⟩
  | .local _ .vmem, ⟨30, _⟩ => ⟨S4096x64, .bf16⟩
  | .local _ .vmem, ⟨31, _⟩ => ⟨S2000x1, .f32⟩
  | .local _ .vmem, ⟨32, _⟩ => ⟨S2000x1, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S4096x1, .i32⟩
  | .local _ .vmem, ⟨37, _⟩ => ⟨S4096x1, .i32⟩
  | .local _ .vmem, ⟨38, _⟩ => ⟨S4096x1, .f32⟩
  | .local _ .vmem, ⟨39, _⟩ => ⟨S4096x1, .f32⟩
  | .local _ .vmem, ⟨40, _⟩ => ⟨S2000x64, .bf16⟩
  | .local _ .vmem, ⟨41, _⟩ => ⟨S2000x64, .bf16⟩
  | .local _ .vmem, ⟨42, _⟩ => ⟨S4096x64, .bf16⟩
  | .local _ .vmem, ⟨43, _⟩ => ⟨S4096x64, .bf16⟩
  | .local _ .vmem, ⟨44, _⟩ => ⟨S4096x64, .f32⟩
  | .local _ .vmem, ⟨45, _⟩ => ⟨S4096x1, .i32⟩
  | .local _ .vmem, ⟨46, _⟩ => ⟨S4096x1, .i32⟩
  | .local _ .vmem, ⟨47, _⟩ => ⟨S4096x64, .bf16⟩
  | .local _ .vmem, ⟨48, _⟩ => ⟨S4096x64, .bf16⟩
  | .local _ .vmem, ⟨49, _⟩ => ⟨S2000x1, .f32⟩
  | .local _ .vmem, ⟨50, _⟩ => ⟨S2000x1, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_call2_v0 : Ref sig .tc := ⟨.hbm, 51, rfl⟩
abbrev main_v26 : Ref sig .tc := ⟨.hbm, 52, rfl⟩
abbrev main_v27 : Ref sig .tc := ⟨.hbm, 53, rfl⟩
abbrev main_c_10 : Ref sig .tc := ⟨.hbm, 54, rfl⟩
abbrev main_call3_v0 : Ref sig .tc := ⟨.hbm, 55, rfl⟩
abbrev main_v28 : Ref sig .tc := ⟨.hbm, 56, rfl⟩
abbrev main_v29 : Ref sig .tc := ⟨.hbm, 57, rfl⟩
abbrev main_cst_11 : Ref sig .tc := ⟨.hbm, 58, rfl⟩
abbrev main_call4_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call5_cst : Ref sig .tc := ⟨.hbm, 70, rfl⟩
abbrev main_call5_v0 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call6_cst : Ref sig .tc := ⟨.hbm, 80, rfl⟩
abbrev main_call6_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call7_cst : Ref sig .tc := ⟨.hbm, 90, rfl⟩
abbrev main_call7_v0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨2, ![208, 25], ![false, false]⟩

def k0_cond2 (i : grid0.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 208], ![false, false]⟩

def k1_cond2 (i : grid1.Coords) : BitVec 1 :=
  let arg1 : BitVec 32 := BitVec.ofNat 32 (i 1).val
  let c207_i32 : BitVec 32 := 207#32
  let v22 : BitVec 1 := Scalar.cmpi .eq arg1 c207_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![208, 25], ![false, false]⟩

def k2_cond2 (i : grid2.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S4096x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 208], ![false, false]⟩

def k3_cond2 (i : grid3.Coords) : BitVec 1 :=
  let arg1 : BitVec 32 := BitVec.ofNat 32 (i 1).val
  let c207_i32 : BitVec 32 := 207#32
  let v22 : BitVec 1 := Scalar.cmpi .eq arg1 c207_i32
  let v23 : BitVec 32 := Scalar.extui v22
  let c0_i32_8 : BitVec 32 := 0#32
  let v24 : BitVec 1 := Scalar.cmpi .ne v23 c0_i32_8
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![208, 25], ![false, false]⟩

def k4_cond2 (i : grid4.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_8 : BitVec 32 := 0#32
  let v24 : BitVec 1 := Scalar.cmpi .ne v23 c0_i32_8
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S4096x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 208], ![false, false]⟩

def k5_cond2 (i : grid5.Coords) : BitVec 1 :=
  let arg1 : BitVec 32 := BitVec.ofNat 32 (i 1).val
  let c207_i32 : BitVec 32 := 207#32
  let v22 : BitVec 1 := Scalar.cmpi .eq arg1 c207_i32
  let v23 : BitVec 32 := Scalar.extui v22
  let c0_i32_8 : BitVec 32 := 0#32
  let v24 : BitVec 1 := Scalar.cmpi .ne v23 c0_i32_8
  v24

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S850000_S851968_019680 : S850000.Pads (![0] : Fin 1 → Nat) ![1968] ![0] S851968
  h_S_ : 0 < S_.numel
  shapeCasts_S851968_S851968x1 : S851968.ShapeCasts S851968x1
  shapeCasts_S50000_S50000x1 : S50000.ShapeCasts S50000x1
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S4096x2000_d1_w32 : S4096x2000.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x2000 : S4096x1.Broadcasts S4096x2000
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S4096x1_S4096x64 : S4096x1.Broadcasts S4096x64
  packedbf16_S4096x64_S4096x64_0_0 : (Rect.unit (s := S4096x64) ![0, 0] S4096x64.size inb_S4096x64_S4096x64_0_0).PackedRows (EltTy.packing .bf16)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  dot_S4096x2000_S2000x64_S4096x64_1_0_0_1_n_n_wf : DotDims.WF S4096x2000 S2000x64 S4096x64 [1] [0] [0] [1] [] []
  dot_S4096x2000_S4096x64_S2000x64_0_0_1_1_n_n_wf : DotDims.WF S4096x2000 S4096x64 S2000x64 [0] [0] [1] [1] [] []
  dot_S50000x64_S64x64_S50000x64_1_0_0_1_n_n_wf : DotDims.WF S50000x64 S64x64 S50000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S851968x1.size a
  hwx0_0 : ∀ i : grid0.Coords, EltTy.bits .i32 = 32 ∨ (Rect.block (s := S851968x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S851968x1.size a
  hwx0_1 : ∀ i : grid0.Coords, EltTy.bits .f32 = 32 ∨ (Rect.block (s := S851968x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .bf16 = 32 ∨ (Rect.block (s := S50000x64) S2000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S851968x64.size a
  hwx0_3 : ∀ i : grid0.Coords, EltTy.bits .bf16 = 32 ∨ (Rect.block (s := S851968x64) S4096x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S851968x1.size a
  hwx1_0 : ∀ i : grid1.Coords, EltTy.bits .i32 = 32 ∨ (Rect.block (s := S851968x1) S4096x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S851968x64.size a
  hwx1_1 : ∀ i : grid1.Coords, EltTy.bits .bf16 = 32 ∨ (Rect.block (s := S851968x64) S4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x1.size a ≤ S851968x1.size a
  hwx2_0 : ∀ i : grid2.Coords, EltTy.bits .i32 = 32 ∨ (Rect.block (s := S851968x1) S4096x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S851968x1.size a
  hwx2_1 : ∀ i : grid2.Coords, EltTy.bits .f32 = 32 ∨ (Rect.block (s := S851968x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .bf16 = 32 ∨ (Rect.block (s := S50000x64) S2000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S851968x64.size a
  hwx2_3 : ∀ i : grid2.Coords, EltTy.bits .bf16 = 32 ∨ (Rect.block (s := S851968x64) S4096x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x1.size a ≤ S851968x1.size a
  hwx3_0 : ∀ i : grid3.Coords, EltTy.bits .i32 = 32 ∨ (Rect.block (s := S851968x1) S4096x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S851968x64.size a
  hwx3_1 : ∀ i : grid3.Coords, EltTy.bits .bf16 = 32 ∨ (Rect.block (s := S851968x64) S4096x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x1.size a ≤ S851968x1.size a
  hwx4_0 : ∀ i : grid4.Coords, EltTy.bits .i32 = 32 ∨ (Rect.block (s := S851968x1) S4096x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S851968x1.size a
  hwx4_1 : ∀ i : grid4.Coords, EltTy.bits .f32 = 32 ∨ (Rect.block (s := S851968x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .bf16 = 32 ∨ (Rect.block (s := S50000x64) S2000x64.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S851968x64.size a
  hwx4_3 : ∀ i : grid4.Coords, EltTy.bits .bf16 = 32 ∨ (Rect.block (s := S851968x64) S4096x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x1.size a ≤ S851968x1.size a
  hwx5_0 : ∀ i : grid5.Coords, EltTy.bits .i32 = 32 ∨ (Rect.block (s := S851968x1) S4096x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x64.size a ≤ S851968x64.size a
  hwx5_1 : ∀ i : grid5.Coords, EltTy.bits .bf16 = 32 ∨ (Rect.block (s := S851968x64) S4096x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S4096x2000_S2000x64_S4096x64_1_0_0_1_n_n : DotDims S4096x2000 S2000x64 S4096x64 where
  lhsContracting := [1]
  rhsContracting := [0]
  lhsNonContracting := [0]
  rhsNonContracting := [1]
  lhsBatch := []
  rhsBatch := []
  wf := dot_S4096x2000_S2000x64_S4096x64_1_0_0_1_n_n_wf
def dot_S4096x2000_S4096x64_S2000x64_0_0_1_1_n_n : DotDims S4096x2000 S4096x64 S2000x64 where
  lhsContracting := [0]
  rhsContracting := [0]
  lhsNonContracting := [1]
  rhsNonContracting := [1]
  lhsBatch := []
  rhsBatch := []
  wf := dot_S4096x2000_S4096x64_S2000x64_0_0_1_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

abbrev win0_0 : Pipeline.Window sig grid0 :=
  Pipeline.Window.ofSpec (Memref.whole main_v27) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v29) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v27) S4096x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S4096x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v29) S4096x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v27) S4096x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v50) S4096x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v29) S4096x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S4096x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v51) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S850000 : Shape := ⟨1, ![850000]⟩
abbrev S128x64 : Shape := ⟨2, ![128, 64]⟩
abbrev S64 : Shape := ⟨1, ![64]⟩
abbrev S64x64 : Shape := ⟨2, ![64, 64]⟩
abbrev S_ : Shape := ⟨0, ![]⟩
abbrev S50000 : Shape := ⟨1, ![50000]⟩
abbrev S850000x1 : Shape := ⟨2, ![850000, 1]⟩
abbrev S50000x64 : Shape := ⟨2, ![50000, 64]⟩
abbrev S850000x64 : Shape := ⟨2, ![850000, 64]⟩
abbrev S50000x1 : Shape := ⟨2, ![50000, 1]⟩
abbrev S1x64 : Shape := ⟨2, ![1, 64]⟩
abbrev S1x50000x64 : Shape := ⟨3, ![1, 50000, 64]⟩
abbrev S3x50000x64 : Shape := ⟨3, ![3, 50000, 64]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S850000, .i32⟩
  | 2 => ⟨S850000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S_, .f32⟩
  | 10 => ⟨S850000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S50000x64, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S50000x1, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x64, .f32⟩
  | 85 => ⟨S850000x1, .f32⟩
  | 86 => ⟨S850000x64, .f32⟩
  | 87 => ⟨S850000x64, .f32⟩
  | 88 => ⟨S_, .f32⟩
  | 89 => ⟨S50000x64, .f32⟩
  | 90 => ⟨S850000x1, .i32⟩
  | 91 => ⟨S50000x64, .f32⟩
  | 92 => ⟨S50000x1, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x64, .f32⟩
  | 111 => ⟨S850000x1, .f32⟩
  | 112 => ⟨S850000x64, .f32⟩
  | 113 => ⟨S850000x64, .f32⟩
  | 114 => ⟨S_, .f32⟩
  | 115 => ⟨S50000x64, .f32⟩
  | 116 => ⟨S850000x1, .i32⟩
  | 117 => ⟨S50000x64, .f32⟩
  | 118 => ⟨S50000x1, .f32⟩
  | 119 => ⟨S50000x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_1 (i : Nat) : BufTy := match i % 128 with
  | 0 => ⟨S1x50000x64, .f32⟩
  | 1 => ⟨S1x50000x64, .f32⟩
  | 2 => ⟨S1x50000x64, .f32⟩
  | 3 => ⟨S3x50000x64, .f32⟩
  | 4 => ⟨S_, .f32⟩
  | 5 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_v27 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call2_cst : Ref sig .tc := ⟨.hbm, 73, rfl⟩
abbrev main_call2_v0 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_cst : Ref sig .tc := ⟨.hbm, 99, rfl⟩
abbrev main_call3_v0 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call4_cst : Ref sig .tc := ⟨.hbm, 125, rfl⟩
abbrev main_call4_v0 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩

abbrev nD : Nat := 1
abbrev τ : Topo := Topo.v7x

variable {F : FTy → Type} [FloatOps F]

class Facts₀ : Prop where
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x64_S1x50000x64_1_2 : S50000x64.BroadcastsInDim S1x50000x64 (![1, 2] : Fin 2 → Fin S1x50000x64.rank)
  concatenates_S1x50000x64_S1x50000x64_S1x50000x64_S3x50000x64_d0 : Shape.Concatenates [S1x50000x64, S1x50000x64, S1x50000x64] S3x50000x64 0
  reducesTo_S3x50000x64_S50000x64_d0 : S3x50000x64.ReducesTo [0] S50000x64
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.RunCond.lean ====
/-
  The run of the kernel program's @main as the list of its segments (the host stretches between the six
  kernel regions, and the regions), with a post that NAMES the result array: after the last segment a core holds
  every unscoped buffer at the last valuation, so the final memory's result array is that valuation's, and every
  argument array is the launch memory's (no stretch and no region writes one).
-/
import proofs.«118646_j60988535603568_1_alg».proof.Proof.Gen.Kernel.Regions

set_option maxRecDepth 1108

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- The run of @main given the six regions' records, each entered from the thread state before it and left at the one
    after it: every weakly fair execution from memory `m` with zero counters terminates, and every final memory holds
    the result array at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V11 m c) ∗ E 0 c) ⊢ R0.pre c)
    (hpost0 : ∀ c : Dev nD, R0.post c ⊢ iprop(StableHlo.held (c : Thread nD τ) (Pipeline.ucRefs τ sig) (V12 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V16 m outs c) ∗ E 2 c) ⊢ R2.pre c)
    (hpost2 : ∀ c : Dev nD, R2.post c ⊢ iprop(StableHlo.held (c : Thread nD τ) (Pipeline.ucRefs τ sig) (V17 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V17 m outs c) ∗ E 3 c) ⊢ R3.pre c)
    (hpost3 : ∀ c : Dev nD, R3.post c ⊢ iprop(StableHlo.held (c : Thread nD τ) (Pipeline.ucRefs τ sig) (V18 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V21 m outs c) ∗ E 4 c) ⊢ R4.pre c)
    (hpost4 : ∀ c : Dev nD, R4.post c ⊢ iprop(StableHlo.held (c : Thread nD τ) (Pipeline.ucRefs τ sig) (V22 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V22 m outs c) ∗ E 5 c) ⊢ R5.pre c)
    (hpost5 : ∀ c : Dev nD, R5.post c ⊢ iprop(StableHlo.held (c : Thread nD τ) (Pipeline.ucRefs τ sig) (V23 m outs c) ∗ E 6 c)) :
    θ_run defs (onTc (τ := τ) (main (F := F))) ⟨m, fun _ => 0, ρ⟩ (fun r => ∀ c : Dev nD,
      r.2.mem ((c.tc : Thread nD τ).loc main_v58) = V26 m outs c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6,
          StableHlo.seq hostOps6_1,
          StableHlo.seq hostOps6_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, .rfl, .rfl, .rfl, .rfl, .rfl, .rfl, .rfl, .rfl, .rfl, .rfl, hpre0 c, (hpost0 c).trans (hpre1 c), hpost1 c, .rfl, .rfl, hpre2 c, (hpost2 c).trans (hpre3 c), hpost3 c, .rfl, .rfl, hpre4 c, (hpost4 c).trans (hpre5 c), hpost5 c, .rfl, .rfl, sep_mono .rfl (hE6 c)⟩)
    (hinit := ?_) (QY := fun c s => s.mem ((c.tc : Thread nD τ).loc main_v58) = V26 m outs c main_v58 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact ⟨h (Proc.devRef .tc main_v58) (Finset.mem_filter.mpr ⟨StableHlo.devRef_mem_tcRefs main_v58, by decide⟩),
        (h (Proc.devRef .tc main_arg0) (Finset.mem_filter.mpr ⟨StableHlo.devRef_mem_tcRefs main_arg0, by decide⟩)).trans (V26_main_arg0 m outs c),
        (h (Proc.devRef .tc main_arg1) (Finset.mem_filter.mpr ⟨StableHlo.devRef_mem_tcRefs main_arg1, by decide⟩)).trans (V26_main_arg1 m outs c),
        (h (Proc.devRef .tc main_arg2) (Finset.mem_filter.mpr ⟨StableHlo.devRef_mem_tcRefs main_arg2, by decide⟩)).trans (V26_main_arg2 m outs c),
        (h (Proc.devRef .tc main_arg3) (Finset.mem_filter.mpr ⟨StableHlo.devRef_mem_tcRefs main_arg3, by decide⟩)).trans (V26_main_arg3 m outs c),
        (h (Proc.devRef .tc main_arg4) (Finset.mem_filter.mpr ⟨StableHlo.devRef_mem_tcRefs main_arg4, by decide⟩)).trans (V26_main_arg4 m outs c),
        (h (Proc.devRef .tc main_arg5) (Finset.mem_filter.mpr ⟨StableHlo.devRef_mem_tcRefs main_arg5, by decide⟩)).trans (V26_main_arg5 m outs c),
        (h (Proc.devRef .tc main_arg6) (Finset.mem_filter.mpr ⟨StableHlo.devRef_mem_tcRefs main_arg6, by decide⟩)).trans (V26_main_arg6 m outs c),
        (h (Proc.devRef .tc main_arg7) (Finset.mem_filter.mpr ⟨StableHlo.devRef_mem_tcRefs main_arg7, by decide⟩)).trans (V26_main_arg7 m outs c),
        (h (Proc.devRef .tc main_arg8) (Finset.mem_filter.mpr ⟨StableHlo.devRef_mem_tcRefs main_arg8, by decide⟩)).trans (V26_main_arg8 m outs c)⟩
    · iexact HSI

end Cert.Kernel.Hand

end
-- ==== Proof.K.Assemble.lean ====
/-
  The launch of the six kernel regions of the kernel program as segments of @main, given each region's
  half of the proof (its proof data and body obligation at any entry contents): the contents of every unscoped
  buffer between two segments, the six region records, and the run, whose post names the result array and keeps
  the arguments. Between two segments a core holds every unscoped buffer whole beside its generator register and
  its (empty) dues; a region takes its four arrays out of them, runs the pipeline, and puts them back with the
  output array at what the write-backs leave.
-/
import proofs.«118646_j60988535603568_1_alg».proof.Proof.Gen.Kernel.Regions
import proofs.«118646_j60988535603568_1_alg».proof.Proof.K.RunCond
import proofs.«118646_j60988535603568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- What region 0's half of the proof supplies, for any contents `V` the region is entered at: the proof data, with its
    arrays read off `V`, every share full, nothing owed, no bound on the recorded pairs, the invariant at the first
    point the launch's own, at the last point giving it back, and the body obligation at every point. -/
structure RD0 (F : FTy → Type) [FloatOps F] where
  dat : (V : (c : Dev nD) → (b : Ref sig .tc) → Buf (Elt F) ((c : Thread nD τ).loc b)) → (c : Dev nD) → Dat τ (Elt F) Unit ℕ (UR sig nD τ) ℕ cfg0 c
  hA : ∀ V c (w : Fin cfg0.W), (dat V c).A w = V c (Pipeline.arrRef spec0 w)
  hq : ∀ V c (w : Fin cfg0.W), (dat V c).q w = fullShare
  howed : ∀ V c t, (dat V c).owed t = 0
  hrec : ∀ V c t, (dat V c).recorded t = Set.univ
  hΦ0 : ∀ V c, (dat V c).Φ 0 = Pipeline.ΦA spec0 c
  hΦout : ∀ V c, (dat V c).Φ (Fin.last cfg0.N) ⊢ Pipeline.ΦA spec0 c
  hbody : ∀ V c, BodyObligation (dat V c) (defs₀ (F := F)) Variants.none () Set.univ

/-- What region 1's half of the proof supplies, for any contents `V` the region is entered at: the proof data, with its
    arrays read off `V`, every share full, nothing owed, no bound on the recorded pairs, the invariant at the first
    point the launch's own, at the last point giving it back, and the body obligation at every point. -/
structure RD1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  hA : ∀ V c (w : Fin cfg1.W), (dat V c).A w = V c (Pipeline.arrRef spec1 w)
  hq : ∀ V c (w : Fin cfg1.W), (dat V c).q w = fullShare
  howed : ∀ V c t, (dat V c).owed t = 0
  hrec : ∀ V c t, (dat V c).recorded t = Set.univ
  hΦ0 : ∀ V c, (dat V c).Φ 0 = Pipeline.ΦA spec1 c
  hΦout : ∀ V c, (dat V c).Φ (Fin.last cfg1.N) ⊢ Pipeline.ΦA spec1 c
  hbody : ∀ V c, BodyObligation (dat V c) (defs₀ (F := F)) Variants.none () Set.univ

/-- What region 2's half of the proof supplies, for any contents `V` the region is entered at: the proof data, with its
    arrays read off `V`, every share full, nothing owed, no bound on the recorded pairs, the invariant at the first
    point the launch's own, at the last point giving it back, and the body obligation at every point. -/
structure RD2 (F : FTy → Type) [FloatOps F] where
  dat : (V : (c : Dev nD) → (b : Ref sig .tc) → Buf (Elt F) ((c : Thread nD τ).loc b)) → (c : Dev nD) → Dat τ (Elt F) Unit ℕ (UR sig nD τ) ℕ cfg2 c
  hA : ∀ V c (w : Fin cfg2.W), (dat V c).A w = V c (Pipeline.arrRef spec2 w)
  hq : ∀ V c (w : Fin cfg2.W), (dat V c).q w = fullShare
  howed : ∀ V c t, (dat V c).owed t = 0
  hrec : ∀ V c t, (dat V c).recorded t = Set.univ
  hΦ0 : ∀ V c, (dat V c).Φ 0 = Pipeline.ΦA spec2 c
  hΦout : ∀ V c, (dat V c).Φ (Fin.last cfg2.N) ⊢ Pipeline.ΦA spec2 c
  hbody : ∀ V c, BodyObligation (dat V c) (defs₀ (F := F)) Variants.none () Set.univ

/-- What region 3's half of the proof supplies, for any contents `V` the region is entered at: the proof data, with its
    arrays read off `V`, every share full, nothing owed, no bound on the recorded pairs, the invariant at the first
    point the launch's own, at the last point giving it back, and the body obligation at every point. -/
structure RD3 (F : FTy → Type) [FloatOps F] where
  dat : (V : (c : Dev nD) → (b : Ref sig .tc) → Buf (Elt F) ((c : Thread nD τ).loc b)) → (c : Dev nD) → Dat τ (Elt F) Unit ℕ (UR sig nD τ) ℕ cfg3 c
  hA : ∀ V c (w : Fin cfg3.W), (dat V c).A w = V c (Pipeline.arrRef spec3 w)
  hq : ∀ V c (w : Fin cfg3.W), (dat V c).q w = fullShare
  howed : ∀ V c t, (dat V c).owed t = 0
  hrec : ∀ V c t, (dat V c).recorded t = Set.univ
  hΦ0 : ∀ V c, (dat V c).Φ 0 = Pipeline.ΦA spec3 c
  hΦout : ∀ V c, (dat V c).Φ (Fin.last cfg3.N) ⊢ Pipeline.ΦA spec3 c
  hbody : ∀ V c, BodyObligation (dat V c) (defs₀ (F := F)) Variants.none () Set.univ

/-- What region 4's half of the proof supplies, for any contents `V` the region is entered at: the proof data, with its
    arrays read off `V`, every share full, nothing owed, no bound on the recorded pairs, the invariant at the first
    point the launch's own, at the last point giving it back, and the body obligation at every point. -/
structure RD4 (F : FTy → Type) [FloatOps F] where
  dat : (V : (c : Dev nD) → (b : Ref sig .tc) → Buf (Elt F) ((c : Thread nD τ).loc b)) → (c : Dev nD) → Dat τ (Elt F) Unit ℕ (UR sig nD τ) ℕ cfg4 c
  hA : ∀ V c (w : Fin cfg4.W), (dat V c).A w = V c (Pipeline.arrRef spec4 w)
  hq : ∀ V c (w : Fin cfg4.W), (dat V c).q w = fullShare
  howed : ∀ V c t, (dat V c).owed t = 0
  hrec : ∀ V c t, (dat V c).recorded t = Set.univ
  hΦ0 : ∀ V c, (dat V c).Φ 0 = Pipeline.ΦA spec4 c
  hΦout : ∀ V c, (dat V c).Φ (Fin.last cfg4.N) ⊢ Pipeline.ΦA spec4 c
  hbody : ∀ V c, BodyObligation (dat V c) (defs₀ (F := F)) Variants.none () Set.univ

/-- What region 5's half of the proof supplies, for any contents `V` the region is entered at: the proof data, with its
    arrays read off `V`, every share full, nothing owed, no bound on the recorded pairs, the invariant at the first
    point the launch's own, at the last point giving it back, and the body obligation at every point. -/
structure RD5 (F : FTy → Type) [FloatOps F] where
  dat : (V : (c : Dev nD) → (b : Ref sig .tc) → Buf (Elt F) ((c : Thread nD τ).loc b)) → (c : Dev nD) → Dat τ (Elt F) Unit ℕ (UR sig nD τ) ℕ cfg5 c
  hA : ∀ V c (w : Fin cfg5.W), (dat V c).A w = V c (Pipeline.arrRef spec5 w)
  hq : ∀ V c (w : Fin cfg5.W), (dat V c).q w = fullShare
  howed : ∀ V c t, (dat V c).owed t = 0
  hrec : ∀ V c t, (dat V c).recorded t = Set.univ
  hΦ0 : ∀ V c, (dat V c).Φ 0 = Pipeline.ΦA spec5 c
  hΦout : ∀ V c, (dat V c).Φ (Fin.last cfg5.N) ⊢ Pipeline.ΦA spec5 c
  hbody : ∀ V c, BodyObligation (dat V c) (defs₀ (F := F)) Variants.none () Set.univ

variable (m : (ℓ : Loc nD τ sig) → Buf (Elt F) ℓ)
variable (D0 : RD0 F) (D1 : RD1 F) (D2 : RD2 F) (D3 : RD3 F) (D4 : RD4 F) (D5 : RD5 F)

/-! ## The contents of the unscoped buffers between segments -/

/-- Before region 0: the launch contents after the eleven host stretches. -/
abbrev U11 (c : Dev nD) : Valuation τ sig (Elt F) := V11 m c
/-- What region 0 leaves in its output array. -/
def A0 (c : Dev nD) : Buf (Elt F) ((c : Thread nD τ).loc main_v35) := (D0.dat (fun c b => U11 m c b) c).arrAt 3 cfg0.N
/-- After region 0. -/
def U12 (c : Dev nD) : Valuation τ sig (Elt F) := Function.update (U11 m c) main_v35 (A0 m D0 c)

/-- What region 1 leaves in its output array; after region 1; after the three host stretches that follow. -/
def A1 (c : Dev nD) : Buf (Elt F) ((c : Thread nD τ).loc main_v36) := (D1.dat (fun c b => U12 m D0 c b) c).arrAt 3 cfg1.N
def U13 (c : Dev nD) : Valuation τ sig (Elt F) := Function.update (U12 m D0 c) main_v36 (A1 m D0 D1 c)
abbrev U14 (c : Dev nD) : Valuation τ sig (Elt F) := StableHlo.after hostOps2 (U13 m D0 D1 c)
abbrev U15 (c : Dev nD) : Valuation τ sig (Elt F) := StableHlo.after hostOps2_1 (U14 m D0 D1 c)
abbrev U16 (c : Dev nD) : Valuation τ sig (Elt F) := StableHlo.after hostOps2_2 (U15 m D0 D1 c)
/-- Regions 2 and 3 and the host stretches after them. -/
def A2 (c : Dev nD) : Buf (Elt F) ((c : Thread nD τ).loc main_v42) := (D2.dat (fun c b => U16 m D0 D1 c b) c).arrAt 3 cfg2.N
def U17 (c : Dev nD) : Valuation τ sig (Elt F) := Function.update (U16 m D0 D1 c) main_v42 (A2 m D0 D1 D2 c)
def A3 (c : Dev nD) : Buf (Elt F) ((c : Thread nD τ).loc main_v43) := (D3.dat (fun c b => U17 m D0 D1 D2 c b) c).arrAt 3 cfg3.N
def U18 (c : Dev nD) : Valuation τ sig (Elt F) := Function.update (U17 m D0 D1 D2 c) main_v43 (A3 m D0 D1 D2 D3 c)
abbrev U19 (c : Dev nD) : Valuation τ sig (Elt F) := StableHlo.after hostOps4 (U18 m D0 D1 D2 D3 c)
abbrev U20 (c : Dev nD) : Valuation τ sig (Elt F) := StableHlo.after hostOps4_1 (U19 m D0 D1 D2 D3 c)
abbrev U21 (c : Dev nD) : Valuation τ sig (Elt F) := StableHlo.after hostOps4_2 (U20 m D0 D1 D2 D3 c)
/-- Regions 4 and 5. -/
def A4 (c : Dev nD) : Buf (Elt F) ((c : Thread nD τ).loc main_v50) := (D4.dat (fun c b => U21 m D0 D1 D2 D3 c b) c).arrAt 3 cfg4.N
def U22 (c : Dev nD) : Valuation τ sig (Elt F) := Function.update (U21 m D0 D1 D2 D3 c) main_v50 (A4 m D0 D1 D2 D3 D4 c)
def A5 (c : Dev nD) : Buf (Elt F) ((c : Thread nD τ).loc main_v51) := (D5.dat (fun c b => U22 m D0 D1 D2 D3 D4 c b) c).arrAt 3 cfg5.N
def U23 (c : Dev nD) : Valuation τ sig (Elt F) := Function.update (U22 m D0 D1 D2 D3 D4 c) main_v51 (A5 m D0 D1 D2 D3 D4 D5 c)

/-- The regions' outputs as the family the segment list is written over: read only at the six points below. -/
def outs : Outs (F := F) := fun J r c =>
  match J with
  | 12 => U12 m D0 c r
  | 13 => U13 m D0 D1 c r
  | 17 => U17 m D0 D1 D2 c r
  | 18 => U18 m D0 D1 D2 D3 c r
  | 22 => U22 m D0 D1 D2 D3 D4 c r
  | 23 => U23 m D0 D1 D2 D3 D4 D5 c r
  | _ => V0 m c r

theorem V12_eq (c : Dev nD) : V12 m (outs m D0 D1 D2 D3 D4 D5) c = U12 m D0 c := by
  show Function.update (V11 m c) main_v35 (U12 m D0 c main_v35) = U12 m D0 c
  unfold U12; rw [Function.update_self]
theorem V13_eq (c : Dev nD) : V13 m (outs m D0 D1 D2 D3 D4 D5) c = U13 m D0 D1 c := by
  show Function.update (V12 m (outs m D0 D1 D2 D3 D4 D5) c) main_v36 (U13 m D0 D1 c main_v36) = U13 m D0 D1 c
  rw [V12_eq]; unfold U13; rw [Function.update_self]
theorem V16_eq (c : Dev nD) : V16 m (outs m D0 D1 D2 D3 D4 D5) c = U16 m D0 D1 c := by
  show StableHlo.after hostOps2_2 (StableHlo.after hostOps2_1 (StableHlo.after hostOps2 (V13 m (outs m D0 D1 D2 D3 D4 D5) c))) = _
  rw [V13_eq]
theorem V17_eq (c : Dev nD) : V17 m (outs m D0 D1 D2 D3 D4 D5) c = U17 m D0 D1 D2 c := by
  show Function.update (V16 m (outs m D0 D1 D2 D3 D4 D5) c) main_v42 (U17 m D0 D1 D2 c main_v42) = U17 m D0 D1 D2 c
  rw [V16_eq]; unfold U17; rw [Function.update_self]
theorem V18_eq (c : Dev nD) : V18 m (outs m D0 D1 D2 D3 D4 D5) c = U18 m D0 D1 D2 D3 c := by
  show Function.update (V17 m (outs m D0 D1 D2 D3 D4 D5) c) main_v43 (U18 m D0 D1 D2 D3 c main_v43) = U18 m D0 D1 D2 D3 c
  rw [V17_eq]; unfold U18; rw [Function.update_self]
theorem V21_eq (c : Dev nD) : V21 m (outs m D0 D1 D2 D3 D4 D5) c = U21 m D0 D1 D2 D3 c := by
  show StableHlo.after hostOps4_2 (StableHlo.after hostOps4_1 (StableHlo.after hostOps4 (V18 m (outs m D0 D1 D2 D3 D4 D5) c))) = _
  rw [V18_eq]
theorem V22_eq (c : Dev nD) : V22 m (outs m D0 D1 D2 D3 D4 D5) c = U22 m D0 D1 D2 D3 D4 c := by
  show Function.update (V21 m (outs m D0 D1 D2 D3 D4 D5) c) main_v50 (U22 m D0 D1 D2 D3 D4 c main_v50) = U22 m D0 D1 D2 D3 D4 c
  rw [V21_eq]; unfold U22; rw [Function.update_self]
theorem V23_eq (c : Dev nD) : V23 m (outs m D0 D1 D2 D3 D4 D5) c = U23 m D0 D1 D2 D3 D4 D5 c := by
  show Function.update (V22 m (outs m D0 D1 D2 D3 D4 D5) c) main_v51 (U23 m D0 D1 D2 D3 D4 D5 c main_v51) = U23 m D0 D1 D2 D3 D4 D5 c
  rw [V22_eq]; unfold U23; rw [Function.update_self]

/-! ## The proof data family and what rides beside the buffers -/

/-- The prefetched tables' admissible contents: no pipeline has a table (the generated `adm`). Every pipeline's
    proof data, each at its region's entry contents — a literal match, so that the pinned configuration at a numeral
    reduces to the printed one. -/
def pdats : (p : Fin 6) → (c : Dev nD) → Dat τ (Elt F) Unit ℕ (UR sig nD τ) ℕ (Pipeline.pin (pcfgs (F := F)) adm p) c
  | ⟨0, _⟩ => fun c => D0.dat (fun c b => U11 m c b) c
  | ⟨1, _⟩ => fun c => D1.dat (fun c b => U12 m D0 c b) c
  | ⟨2, _⟩ => fun c => D2.dat (fun c b => U16 m D0 D1 c b) c
  | ⟨3, _⟩ => fun c => D3.dat (fun c b => U17 m D0 D1 D2 c b) c
  | ⟨4, _⟩ => fun c => D4.dat (fun c b => U21 m D0 D1 D2 D3 c b) c
  | ⟨5, _⟩ => fun c => D5.dat (fun c b => U22 m D0 D1 D2 D3 D4 c b) c
/-- No core owes another anything: no level is assigned. -/
abbrev L0 : GSem nD τ sig → Finset Unit := fun _ => ∅
abbrev lv0 : GSem nD τ sig → Unit → ℕ := fun _ _ => 0
/-- What rides beside the buffers through every segment: the core's generator register at some state and its dues, at nothing. -/
abbrev Rr (c : Dev nD) : sProp 𝕄 := iprop((∃ r, prngReg c r) ∗ ∃ W, owes (c : Thread nD τ) (0 : CellTallies nD τ sig Unit) W)

/-! ## Region 0 -/

/-- At region 0's exit each of its arrays holds what the pipeline leaves: the three inputs as entered, the output
    at the write-backs' fold. -/
theorem hF0 (c : Dev nD) (w : Fin cfg0.W) :
    (D0.dat (fun c b => U11 m c b) c).arrAt w cfg0.N = (U12 m D0 c) (Pipeline.arrRef spec0 w) := by
  match w with
  | ⟨0, _⟩ => exact ((D0.dat _ c).arrAt_in 0 rfl _).trans ((D0.hA _ c 0).trans
      (by unfold U12; exact (Function.update_of_ne (StableHlo.devRef_ne_of_ne (by decide)) _ _).symm))
  | ⟨1, _⟩ => exact ((D0.dat _ c).arrAt_in 1 rfl _).trans ((D0.hA _ c 1).trans
      (by unfold U12; exact (Function.update_of_ne (StableHlo.devRef_ne_of_ne (by decide)) _ _).symm))
  | ⟨2, _⟩ => exact ((D0.dat _ c).arrAt_in 2 rfl _).trans ((D0.hA _ c 2).trans
      (by unfold U12; exact (Function.update_of_ne (StableHlo.devRef_ne_of_ne (by decide)) _ _).symm))
  | ⟨3, _⟩ =>
    show A0 m D0 c = U12 m D0 c (Proc.devRef .tc main_v35)
    unfold U12; rw [Function.update_self]
/-- and every other buffer what it held at entry. -/
theorem hrest0 (c : Dev nD) : ∀ b, b ∉ Finset.univ.image (Pipeline.arrRef spec0) → (U12 m D0 c) b = (U11 m c) b := fun b hb => by
  unfold U12
  exact Function.update_of_ne (StableHlo.devRef_ne_of_ne fun e => hb (Finset.mem_image.mpr ⟨3, Finset.mem_univ _, e.symm⟩)) _ _

set_option backward.isDefEq.respectTransparency.types false in
/-- Region 0 over the thread state: entered from every unscoped buffer at the contents before it, left at the
    contents after it. Its arrays split out of the unscoped buffers and put back at the exit contents; the generator
    register into the invariant and out; nothing owed; no semaphore of the kernel's own. -/
def reg0 : RegionSeg (pcfgs (F := F)) adm (pdats m D0 D1 D2 D3 D4 D5) () defs₀ Variants.none L0 lv0 0 where
  win := launch0.win.to₀
  block_pos := launch0.block_pos
  stage_whole := launch0.stage_whole
  K := PEmpty
  osem k := k.elim
  ho := Pipeline.OwnSemFacts.none _
  hbody c := (D0.hbody _ c).loose
  hwaits := Pipeline.hwaits_of_owed_zero _ _ _ _ L0 lv0 0 fun c t => D0.howed _ c t
  pre c := iprop(StableHlo.held (c : Thread nD τ) (Pipeline.ucRefs τ sig) (U11 m c) ∗ Rr c)
  post c := iprop(StableHlo.held (c : Thread nD τ) (Pipeline.ucRefs τ sig) (U12 m D0 c) ∗ Rr c)
  X c := iprop(∃ r, prngReg c r)
  Y c := iprop(∃ r, prngReg c r)
  Z c := Pipeline.unscopedRest (Ix := Unit) (Name := ℕ) (U := UR sig nD τ) (Lvl := ℕ) spec0 c (fun b => U11 m c b)
  hentry c := by
    rw [Pipeline.ownSems0_none]
    have hsplit := Pipeline.arrays_of_unscopedBufs (p := 0) (pcfgs (F := F)) adm (pdats m D0 D1 D2 D3 D4 D5) launch0.win launch0.arr_whole c
      ((pdats m D0 D1 D2 D3 D4 D5 0 c).share_full fun w => D0.hq _ c w) (fun b => U11 m c b) fun w => D0.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 0 c).recorded 0 = Set.univ from D0.hrec _ c 0]; trivial)
      rw [show (pdats m D0 D1 D2 D3 D4 D5 0 c).owed 0 = 0 from D0.howed _ c 0]
      iexact HO
    isplitl [Hp]; · iexact Hp
    iexact Hrest
  hin c := by
    rw [show (pdats m D0 D1 D2 D3 D4 D5 0 c).Φ 0 = Pipeline.ΦA spec0 c from D0.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 0 c).Φ (Fin.last _) ⊢ Pipeline.ΦA spec0 c from D0.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3 D4 D5) ((pdats m D0 D1 D2 D3 D4 D5 0 c).share_full fun w => D0.hq _ c w)
      (fun b => U11 m c b) (fun b => U12 m D0 c b) ((pdats m D0 D1 D2 D3 D4 D5 0 c).arrAt · cfg0.N) (hF0 m D0 c) (hrest0 m D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 0 c).owed (Fin.last _) = 0 from D0.howed _ c _]
    iexact HO

/-! ## Region 1 -/

/-- At region 1's exit each of its arrays holds what the pipeline leaves: the three inputs as entered, the output
    at the write-backs' fold. -/
theorem hF1 (c : Dev nD) (w : Fin cfg1.W) :
    (D1.dat (fun c b => U12 m D0 c b) c).arrAt w cfg1.N = (U13 m D0 D1 c) (Pipeline.arrRef spec1 w) := by
  match w with
  | ⟨0, _⟩ => exact ((D1.dat _ c).arrAt_in 0 rfl _).trans ((D1.hA _ c 0).trans
      (by unfold U13; exact (Function.update_of_ne (StableHlo.devRef_ne_of_ne (by decide)) _ _).symm))
  | ⟨1, _⟩ => exact ((D1.dat _ c).arrAt_in 1 rfl _).trans ((D1.hA _ c 1).trans
      (by unfold U13; exact (Function.update_of_ne (StableHlo.devRef_ne_of_ne (by decide)) _ _).symm))
  | ⟨2, _⟩ => exact ((D1.dat _ c).arrAt_in 2 rfl _).trans ((D1.hA _ c 2).trans
      (by unfold U13; exact (Function.update_of_ne (StableHlo.devRef_ne_of_ne (by decide)) _ _).symm))
  | ⟨3, _⟩ =>
    show A1 m D0 D1 c = U13 m D0 D1 c (Proc.devRef .tc main_v36)
    unfold U13; rw [Function.update_self]
/-- and every other buffer what it held at entry. -/
theorem hrest1 (c : Dev nD) : ∀ b, b ∉ Finset.univ.image (Pipeline.arrRef spec1) → (U13 m D0 D1 c) b = (U12 m D0 c) b := fun b hb => by
  unfold U13
  exact Function.update_of_ne (StableHlo.devRef_ne_of_ne fun e => hb (Finset.mem_image.mpr ⟨3, Finset.mem_univ _, e.symm⟩)) _ _

set_option backward.isDefEq.respectTransparency.types false in
/-- Region 1 over the thread state: entered from every unscoped buffer at the contents before it, left at the
    contents after it. Its arrays split out of the unscoped buffers and put back at the exit contents; the generator
    register into the invariant and out; nothing owed; no semaphore of the kernel's own. -/
def reg1 : RegionSeg (pcfgs (F := F)) adm (pdats m D0 D1 D2 D3 D4 D5) () defs₀ Variants.none L0 lv0 1 where
  win := launch1.win.to₀
  block_pos := launch1.block_pos
  stage_whole := launch1.stage_whole
  K := PEmpty
  osem k := k.elim
  ho := Pipeline.OwnSemFacts.none _
  hbody c := (D1.hbody _ c).loose
  hwaits := Pipeline.hwaits_of_owed_zero _ _ _ _ L0 lv0 1 fun c t => D1.howed _ c t
  pre c := iprop(StableHlo.held (c : Thread nD τ) (Pipeline.ucRefs τ sig) (U12 m D0 c) ∗ Rr c)
  post c := iprop(StableHlo.held (c : Thread nD τ) (Pipeline.ucRefs τ sig) (U13 m D0 D1 c) ∗ Rr c)
  X c := iprop(∃ r, prngReg c r)
  Y c := iprop(∃ r, prngReg c r)
  Z c := Pipeline.unscopedRest (Ix := Unit) (Name := ℕ) (U := UR sig nD τ) (Lvl := ℕ) spec1 c (fun b => U12 m D0 c b)
  hentry c := by
    rw [Pipeline.ownSems0_none]
    have hsplit := Pipeline.arrays_of_unscopedBufs (p := 1) (pcfgs (F := F)) adm (pdats m D0 D1 D2 D3 D4 D5) launch1.win launch1.arr_whole c
      ((pdats m D0 D1 D2 D3 D4 D5 1 c).share_full fun w => D1.hq _ c w) (fun b => U12 m D0 c b) fun w => D1.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 1 c).recorded 0 = Set.univ from D1.hrec _ c 0]; trivial)
      rw [show (pdats m D0 D1 D2 D3 D4 D5 1 c).owed 0 = 0 from D1.howed _ c 0]
      iexact HO
    isplitl [Hp]; · iexact Hp
    iexact Hrest
  hin c := by
    rw [show (pdats m D0 D1 D2 D3 D4 D5 1 c).Φ 0 = Pipeline.ΦA spec1 c from D1.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 1 c).Φ (Fin.last _) ⊢ Pipeline.ΦA spec1 c from D1.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3 D4 D5) ((pdats m D0 D1 D2 D3 D4 D5 1 c).share_full fun w => D1.hq _ c w)
      (fun b => U12 m D0 c b) (fun b => U13 m D0 D1 c b) ((pdats m D0 D1 D2 D3 D4 D5 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 1 c).owed (Fin.last _) = 0 from D1.howed _ c _]
    iexact HO

/-! ## Region 2 -/

/-- At region 2's exit each of its arrays holds what the pipeline leaves: the three inputs as entered, the output
    at the write-backs' fold. -/
theorem hF2 (c : Dev nD) (w : Fin cfg2.W) :
    (D2.dat (fun c b => U16 m D0 D1 c b) c).arrAt w cfg2.N = (U17 m D0 D1 D2 c) (Pipeline.arrRef spec2 w) := by
  match w with
  | ⟨0, _⟩ => exact ((D2.dat _ c).arrAt_in 0 rfl _).trans ((D2.hA _ c 0).trans
      (by unfold U17; exact (Function.update_of_ne (StableHlo.devRef_ne_of_ne (by decide)) _ _).symm))
  | ⟨1, _⟩ => exact ((D2.dat _ c).arrAt_in 1 rfl _).trans ((D2.hA _ c 1).trans
      (by unfold U17; exact (Function.update_of_ne (StableHlo.devRef_ne_of_ne (by decide)) _ _).symm))
  | ⟨2, _⟩ => exact ((D2.dat _ c).arrAt_in 2 rfl _).trans ((D2.hA _ c 2).trans
      (by unfold U17; exact (Function.update_of_ne (StableHlo.devRef_ne_of_ne (by decide)) _ _).symm))
  | ⟨3, _⟩ =>
    show A2 m D0 D1 D2 c = U17 m D0 D1 D2 c (Proc.devRef .tc main_v42)
    unfold U17; rw [Function.update_self]
/-- and every other buffer what it held at entry. -/
theorem hrest2 (c : Dev nD) : ∀ b, b ∉ Finset.univ.image (Pipeline.arrRef spec2) → (U17 m D0 D1 D2 c) b = (U16 m D0 D1 c) b := fun b hb => by
  unfold U17
  exact Function.update_of_ne (StableHlo.devRef_ne_of_ne fun e => hb (Finset.mem_image.mpr ⟨3, Finset.mem_univ _, e.symm⟩)) _ _

set_option backward.isDefEq.respectTransparency.types false in
/-- Region 2 over the thread state: entered from every unscoped buffer at the contents before it, left at the
    contents after it. Its arrays split out of the unscoped buffers and put back at the exit contents; the generator
    register into the invariant and out; nothing owed; no semaphore of the kernel's own. -/
def reg2 : RegionSeg (pcfgs (F := F)) adm (pdats m D0 D1 D2 D3 D4 D5) () defs₀ Variants.none L0 lv0 2 where
  win := launch2.win.to₀
  block_pos := launch2.block_pos
  stage_whole := launch2.stage_whole
  K := PEmpty
  osem k := k.elim
  ho := Pipeline.OwnSemFacts.none _
  hbody c := (D2.hbody _ c).loose
  hwaits := Pipeline.hwaits_of_owed_zero _ _ _ _ L0 lv0 2 fun c t => D2.howed _ c t
  pre c := iprop(StableHlo.held (c : Thread nD τ) (Pipeline.ucRefs τ sig) (U16 m D0 D1 c) ∗ Rr c)
  post c := iprop(StableHlo.held (c : Thread nD τ) (Pipeline.ucRefs τ sig) (U17 m D0 D1 D2 c) ∗ Rr c)
  X c := iprop(∃ r, prngReg c r)
  Y c := iprop(∃ r, prngReg c r)
  Z c := Pipeline.unscopedRest (Ix := Unit) (Name := ℕ) (U := UR sig nD τ) (Lvl := ℕ) spec2 c (fun b => U16 m D0 D1 c b)
  hentry c := by
    rw [Pipeline.ownSems0_none]
    have hsplit := Pipeline.arrays_of_unscopedBufs (p := 2) (pcfgs (F := F)) adm (pdats m D0 D1 D2 D3 D4 D5) launch2.win launch2.arr_whole c
      ((pdats m D0 D1 D2 D3 D4 D5 2 c).share_full fun w => D2.hq _ c w) (fun b => U16 m D0 D1 c b) fun w => D2.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 2 c).recorded 0 = Set.univ from D2.hrec _ c 0]; trivial)
      rw [show (pdats m D0 D1 D2 D3 D4 D5 2 c).owed 0 = 0 from D2.howed _ c 0]
      iexact HO
    isplitl [Hp]; · iexact Hp
    iexact Hrest
  hin c := by
    rw [show (pdats m D0 D1 D2 D3 D4 D5 2 c).Φ 0 = Pipeline.ΦA spec2 c from D2.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 2 c).Φ (Fin.last _) ⊢ Pipeline.ΦA spec2 c from D2.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3 D4 D5) ((pdats m D0 D1 D2 D3 D4 D5 2 c).share_full fun w => D2.hq _ c w)
      (fun b => U16 m D0 D1 c b) (fun b => U17 m D0 D1 D2 c b) ((pdats m D0 D1 D2 D3 D4 D5 2 c).arrAt · cfg2.N) (hF2 m D0 D1 D2 c) (hrest2 m D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 2 c).owed (Fin.last _) = 0 from D2.howed _ c _]
    iexact HO

/-! ## Region 3 -/

/-- At region 3's exit each of its arrays holds what the pipeline leaves: the three inputs as entered, the output
    at the write-backs' fold. -/
theorem hF3 (c : Dev nD) (w : Fin cfg3.W) :
    (D3.dat (fun c b => U17 m D0 D1 D2 c b) c).arrAt w cfg3.N = (U18 m D0 D1 D2 D3 c) (Pipeline.arrRef spec3 w) := by
  match w with
  | ⟨0, _⟩ => exact ((D3.dat _ c).arrAt_in 0 rfl _).trans ((D3.hA _ c 0).trans
      (by unfold U18; exact (Function.update_of_ne (StableHlo.devRef_ne_of_ne (by decide)) _ _).symm))
  | ⟨1, _⟩ => exact ((D3.dat _ c).arrAt_in 1 rfl _).trans ((D3.hA _ c 1).trans
      (by unfold U18; exact (Function.update_of_ne (StableHlo.devRef_ne_of_ne (by decide)) _ _).symm))
  | ⟨2, _⟩ => exact ((D3.dat _ c).arrAt_in 2 rfl _).trans ((D3.hA _ c 2).trans
      (by unfold U18; exact (Function.update_of_ne (StableHlo.devRef_ne_of_ne (by decide)) _ _).symm))
  | ⟨3, _⟩ =>
    show A3 m D0 D1 D2 D3 c = U18 m D0 D1 D2 D3 c (Proc.devRef .tc main_v43)
    unfold U18; rw [Function.update_self]
/-- and every other buffer what it held at entry. -/
theorem hrest3 (c : Dev nD) : ∀ b, b ∉ Finset.univ.image (Pipeline.arrRef spec3) → (U18 m D0 D1 D2 D3 c) b = (U17 m D0 D1 D2 c) b := fun b hb => by
  unfold U18
  exact Function.update_of_ne (StableHlo.devRef_ne_of_ne fun e => hb (Finset.mem_image.mpr ⟨3, Finset.mem_univ _, e.symm⟩)) _ _

set_option backward.isDefEq.respectTransparency.types false in
/-- Region 3 over the thread state: entered from every unscoped buffer at the contents before it, left at the
    contents after it. Its arrays split out of the unscoped buffers and put back at the exit contents; the generator
    register into the invariant and out; nothing owed; no semaphore of the kernel's own. -/
def reg3 : RegionSeg (pcfgs (F := F)) adm (pdats m D0 D1 D2 D3 D4 D5) () defs₀ Variants.none L0 lv0 3 where
  win := launch3.win.to₀
  block_pos := launch3.block_pos
  stage_whole := launch3.stage_whole
  K := PEmpty
  osem k := k.elim
  ho := Pipeline.OwnSemFacts.none _
  hbody c := (D3.hbody _ c).loose
  hwaits := Pipeline.hwaits_of_owed_zero _ _ _ _ L0 lv0 3 fun c t => D3.howed _ c t
  pre c := iprop(StableHlo.held (c : Thread nD τ) (Pipeline.ucRefs τ sig) (U17 m D0 D1 D2 c) ∗ Rr c)
  post c := iprop(StableHlo.held (c : Thread nD τ) (Pipeline.ucRefs τ sig) (U18 m D0 D1 D2 D3 c) ∗ Rr c)
  X c := iprop(∃ r, prngReg c r)
  Y c := iprop(∃ r, prngReg c r)
  Z c := Pipeline.unscopedRest (Ix := Unit) (Name := ℕ) (U := UR sig nD τ) (Lvl := ℕ) spec3 c (fun b => U17 m D0 D1 D2 c b)
  hentry c := by
    rw [Pipeline.ownSems0_none]
    have hsplit := Pipeline.arrays_of_unscopedBufs (p := 3) (pcfgs (F := F)) adm (pdats m D0 D1 D2 D3 D4 D5) launch3.win launch3.arr_whole c
      ((pdats m D0 D1 D2 D3 D4 D5 3 c).share_full fun w => D3.hq _ c w) (fun b => U17 m D0 D1 D2 c b) fun w => D3.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 3 c).recorded 0 = Set.univ from D3.hrec _ c 0]; trivial)
      rw [show (pdats m D0 D1 D2 D3 D4 D5 3 c).owed 0 = 0 from D3.howed _ c 0]
      iexact HO
    isplitl [Hp]; · iexact Hp
    iexact Hrest
  hin c := by
    rw [show (pdats m D0 D1 D2 D3 D4 D5 3 c).Φ 0 = Pipeline.ΦA spec3 c from D3.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 3 c).Φ (Fin.last _) ⊢ Pipeline.ΦA spec3 c from D3.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3 D4 D5) ((pdats m D0 D1 D2 D3 D4 D5 3 c).share_full fun w => D3.hq _ c w)
      (fun b => U17 m D0 D1 D2 c b) (fun b => U18 m D0 D1 D2 D3 c b) ((pdats m D0 D1 D2 D3 D4 D5 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 3 c).owed (Fin.last _) = 0 from D3.howed _ c _]
    iexact HO

/-! ## Region 4 -/

/-- At region 4's exit each of its arrays holds what the pipeline leaves: the three inputs as entered, the output
    at the write-backs' fold. -/
theorem hF4 (c : Dev nD) (w : Fin cfg4.W) :
    (D4.dat (fun c b => U21 m D0 D1 D2 D3 c b) c).arrAt w cfg4.N = (U22 m D0 D1 D2 D3 D4 c) (Pipeline.arrRef spec4 w) := by
  match w with
  | ⟨0, _⟩ => exact ((D4.dat _ c).arrAt_in 0 rfl _).trans ((D4.hA _ c 0).trans
      (by unfold U22; exact (Function.update_of_ne (StableHlo.devRef_ne_of_ne (by decide)) _ _).symm))
  | ⟨1, _⟩ => exact ((D4.dat _ c).arrAt_in 1 rfl _).trans ((D4.hA _ c 1).trans
      (by unfold U22; exact (Function.update_of_ne (StableHlo.devRef_ne_of_ne (by decide)) _ _).symm))
  | ⟨2, _⟩ => exact ((D4.dat _ c).arrAt_in 2 rfl _).trans ((D4.hA _ c 2).trans
      (by unfold U22; exact (Function.update_of_ne (StableHlo.devRef_ne_of_ne (by decide)) _ _).symm))
  | ⟨3, _⟩ =>
    show A4 m D0 D1 D2 D3 D4 c = U22 m D0 D1 D2 D3 D4 c (Proc.devRef .tc main_v50)
    unfold U22; rw [Function.update_self]
/-- and every other buffer what it held at entry. -/
theorem hrest4 (c : Dev nD) : ∀ b, b ∉ Finset.univ.image (Pipeline.arrRef spec4) → (U22 m D0 D1 D2 D3 D4 c) b = (U21 m D0 D1 D2 D3 c) b := fun b hb => by
  unfold U22
  exact Function.update_of_ne (StableHlo.devRef_ne_of_ne fun e => hb (Finset.mem_image.mpr ⟨3, Finset.mem_univ _, e.symm⟩)) _ _

set_option backward.isDefEq.respectTransparency.types false in
/-- Region 4 over the thread state: entered from every unscoped buffer at the contents before it, left at the
    contents after it. Its arrays split out of the unscoped buffers and put back at the exit contents; the generator
    register into the invariant and out; nothing owed; no semaphore of the kernel's own. -/
def reg4 : RegionSeg (pcfgs (F := F)) adm (pdats m D0 D1 D2 D3 D4 D5) () defs₀ Variants.none L0 lv0 4 where
  win := launch4.win.to₀
  block_pos := launch4.block_pos
  stage_whole := launch4.stage_whole
  K := PEmpty
  osem k := k.elim
  ho := Pipeline.OwnSemFacts.none _
  hbody c := (D4.hbody _ c).loose
  hwaits := Pipeline.hwaits_of_owed_zero _ _ _ _ L0 lv0 4 fun c t => D4.howed _ c t
  pre c := iprop(StableHlo.held (c : Thread nD τ) (Pipeline.ucRefs τ sig) (U21 m D0 D1 D2 D3 c) ∗ Rr c)
  post c := iprop(StableHlo.held (c : Thread nD τ) (Pipeline.ucRefs τ sig) (U22 m D0 D1 D2 D3 D4 c) ∗ Rr c)
  X c := iprop(∃ r, prngReg c r)
  Y c := iprop(∃ r, prngReg c r)
  Z c := Pipeline.unscopedRest (Ix := Unit) (Name := ℕ) (U := UR sig nD τ) (Lvl := ℕ) spec4 c (fun b => U21 m D0 D1 D2 D3 c b)
  hentry c := by
    rw [Pipeline.ownSems0_none]
    have hsplit := Pipeline.arrays_of_unscopedBufs (p := 4) (pcfgs (F := F)) adm (pdats m D0 D1 D2 D3 D4 D5) launch4.win launch4.arr_whole c
      ((pdats m D0 D1 D2 D3 D4 D5 4 c).share_full fun w => D4.hq _ c w) (fun b => U21 m D0 D1 D2 D3 c b) fun w => D4.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 4 c).recorded 0 = Set.univ from D4.hrec _ c 0]; trivial)
      rw [show (pdats m D0 D1 D2 D3 D4 D5 4 c).owed 0 = 0 from D4.howed _ c 0]
      iexact HO
    isplitl [Hp]; · iexact Hp
    iexact Hrest
  hin c := by
    rw [show (pdats m D0 D1 D2 D3 D4 D5 4 c).Φ 0 = Pipeline.ΦA spec4 c from D4.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 4 c).Φ (Fin.last _) ⊢ Pipeline.ΦA spec4 c from D4.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m D0 D1 D2 D3 D4 D5) ((pdats m D0 D1 D2 D3 D4 D5 4 c).share_full fun w => D4.hq _ c w)
      (fun b => U21 m D0 D1 D2 D3 c b) (fun b => U22 m D0 D1 D2 D3 D4 c b) ((pdats m D0 D1 D2 D3 D4 D5 4 c).arrAt · cfg4.N) (hF4 m D0 D1 D2 D3 D4 c) (hrest4 m D0 D1 D2 D3 D4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 4 c).owed (Fin.last _) = 0 from D4.howed _ c _]
    iexact HO

/-! ## Region 5 -/

/-- At region 5's exit each of its arrays holds what the pipeline leaves: the three inputs as entered, the output
    at the write-backs' fold. -/
theorem hF5 (c : Dev nD) (w : Fin cfg5.W) :
    (D5.dat (fun c b => U22 m D0 D1 D2 D3 D4 c b) c).arrAt w cfg5.N = (U23 m D0 D1 D2 D3 D4 D5 c) (Pipeline.arrRef spec5 w) := by
  match w with
  | ⟨0, _⟩ => exact ((D5.dat _ c).arrAt_in 0 rfl _).trans ((D5.hA _ c 0).trans
      (by unfold U23; exact (Function.update_of_ne (StableHlo.devRef_ne_of_ne (by decide)) _ _).symm))
  | ⟨1, _⟩ => exact ((D5.dat _ c).arrAt_in 1 rfl _).trans ((D5.hA _ c 1).trans
      (by unfold U23; exact (Function.update_of_ne (StableHlo.devRef_ne_of_ne (by decide)) _ _).symm))
  | ⟨2, _⟩ => exact ((D5.dat _ c).arrAt_in 2 rfl _).trans ((D5.hA _ c 2).trans
      (by unfold U23; exact (Function.update_of_ne (StableHlo.devRef_ne_of_ne (by decide)) _ _).symm))
  | ⟨3, _⟩ =>
    show A5 m D0 D1 D2 D3 D4 D5 c = U23 m D0 D1 D2 D3 D4 D5 c (Proc.devRef .tc main_v51)
    unfold U23; rw [Function.update_self]
/-- and every other buffer what it held at entry. -/
theorem hrest5 (c : Dev nD) : ∀ b, b ∉ Finset.univ.image (Pipeline.arrRef spec5) → (U23 m D0 D1 D2 D3 D4 D5 c) b = (U22 m D0 D1 D2 D3 D4 c) b := fun b hb => by
  unfold U23
  exact Function.update_of_ne (StableHlo.devRef_ne_of_ne fun e => hb (Finset.mem_image.mpr ⟨3, Finset.mem_univ _, e.symm⟩)) _ _

set_option backward.isDefEq.respectTransparency.types false in
/-- Region 5 over the thread state: entered from every unscoped buffer at the contents before it, left at the
    contents after it. Its arrays split out of the unscoped buffers and put back at the exit contents; the generator
    register into the invariant and out; nothing owed; no semaphore of the kernel's own. -/
def reg5 : RegionSeg (pcfgs (F := F)) adm (pdats m D0 D1 D2 D3 D4 D5) () defs₀ Variants.none L0 lv0 5 where
  win := launch5.win.to₀
  block_pos := launch5.block_pos
  stage_whole := launch5.stage_whole
  K := PEmpty
  osem k := k.elim
  ho := Pipeline.OwnSemFacts.none _
  hbody c := (D5.hbody _ c).loose
  hwaits := Pipeline.hwaits_of_owed_zero _ _ _ _ L0 lv0 5 fun c t => D5.howed _ c t
  pre c := iprop(StableHlo.held (c : Thread nD τ) (Pipeline.ucRefs τ sig) (U22 m D0 D1 D2 D3 D4 c) ∗ Rr c)
  post c := iprop(StableHlo.held (c : Thread nD τ) (Pipeline.ucRefs τ sig) (U23 m D0 D1 D2 D3 D4 D5 c) ∗ Rr c)
  X c := iprop(∃ r, prngReg c r)
  Y c := iprop(∃ r, prngReg c r)
  Z c := Pipeline.unscopedRest (Ix := Unit) (Name := ℕ) (U := UR sig nD τ) (Lvl := ℕ) spec5 c (fun b => U22 m D0 D1 D2 D3 D4 c b)
  hentry c := by
    rw [Pipeline.ownSems0_none]
    have hsplit := Pipeline.arrays_of_unscopedBufs (p := 5) (pcfgs (F := F)) adm (pdats m D0 D1 D2 D3 D4 D5) launch5.win launch5.arr_whole c
      ((pdats m D0 D1 D2 D3 D4 D5 5 c).share_full fun w => D5.hq _ c w) (fun b => U22 m D0 D1 D2 D3 D4 c b) fun w => D5.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 5 c).recorded 0 = Set.univ from D5.hrec _ c 0]; trivial)
      rw [show (pdats m D0 D1 D2 D3 D4 D5 5 c).owed 0 = 0 from D5.howed _ c 0]
      iexact HO
    isplitl [Hp]; · iexact Hp
    iexact Hrest
  hin c := by
    rw [show (pdats m D0 D1 D2 D3 D4 D5 5 c).Φ 0 = Pipeline.ΦA spec5 c from D5.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 5 c).Φ (Fin.last _) ⊢ Pipeline.ΦA spec5 c from D5.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m D0 D1 D2 D3 D4 D5) ((pdats m D0 D1 D2 D3 D4 D5 5 c).share_full fun w => D5.hq _ c w)
      (fun b => U22 m D0 D1 D2 D3 D4 c b) (fun b => U23 m D0 D1 D2 D3 D4 D5 c b) ((pdats m D0 D1 D2 D3 D4 D5 5 c).arrAt · cfg5.N) (hF5 m D0 D1 D2 D3 D4 D5 c) (hrest5 m D0 D1 D2 D3 D4 D5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 5 c).owed (Fin.last _) = 0 from D5.howed _ c _]
    iexact HO

/-! ## The run -/

set_option backward.isDefEq.respectTransparency.types false in
/-- Every weakly fair execution of @main from memory `m` with zero counters terminates, nothing faulting; the final
    memory's result array is the last valuation's — the host stretches' fold over the launch memory with each region's
    output array at what its write-backs leave — and every argument array is as launched. -/
theorem run_value (ρ : Dev nD → PrngReg) :
    θ_run defs (onTc (τ := τ) (main (F := F))) ⟨m, fun _ => 0, ρ⟩ (fun r => ∀ c : Dev nD,
      r.2.mem ((c.tc : Thread nD τ).loc main_v58) = V26 m (outs m D0 D1 D2 D3 D4 D5) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond (m := m) (outs := outs m D0 D1 D2 D3 D4 D5) (Ix := Unit) (U := UR sig nD τ) (Lvl := ℕ) (EP := emb₁) (ι := ()) (𝒱₀ := Variants.none)
    (L := L0) (lv := lv0) (hL := fun _ _ => rfl) (ρ := ρ) (pdats := pdats m D0 D1 D2 D3 D4 D5) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L0 lv0 fun c => ?_
      iintro ⟨⟨-, HO, -, Hp, -⟩, -⟩
      imodintro
      isplitl [Hp]; · iexists _; iexact Hp
      iexists ∅; iexact HO)
    (hE6 := fun c => by iintro ⟨-, HO⟩; iexact HO)
    (R0 := reg0 m D0 D1 D2 D3 D4 D5) (hpre0 := fun c => .rfl) (hpost0 := fun c => by rw [V12_eq]; exact .rfl)
    (R1 := reg1 m D0 D1 D2 D3 D4 D5) (hpre1 := fun c => by rw [V12_eq]; exact .rfl) (hpost1 := fun c => by rw [V13_eq]; exact .rfl)
    (R2 := reg2 m D0 D1 D2 D3 D4 D5) (hpre2 := fun c => by rw [V16_eq]; exact .rfl) (hpost2 := fun c => by rw [V17_eq]; exact .rfl)
    (R3 := reg3 m D0 D1 D2 D3 D4 D5) (hpre3 := fun c => by rw [V17_eq]; exact .rfl) (hpost3 := fun c => by rw [V18_eq]; exact .rfl)
    (R4 := reg4 m D0 D1 D2 D3 D4 D5) (hpre4 := fun c => by rw [V21_eq]; exact .rfl) (hpost4 := fun c => by rw [V22_eq]; exact .rfl)
    (R5 := reg5 m D0 D1 D2 D3 D4 D5) (hpre5 := fun c => by rw [V22_eq]; exact .rfl) (hpost5 := fun c => by rw [V23_eq]; exact .rfl)

end Cert.Kernel.Hand

end
-- ==== Proof.K.G0Runs.lean ====
/- Region 0 (the gather kernel) of the compiled program: what its three whole-body runs share.
   The grid is 208 edge blocks by 25 node tiles, point t = 25 * e + k. The body zeroes its accumulator at
   tile 0, adds one tile's one-hot product at every tile, and at tile 24 scales the accumulator by the
   norm block and stores it as the output block. -/
import proofs.«118646_j60988535603568_1_alg».proof.Proof.Gen.Kernel.Launch
import proofs.«118646_j60988535603568_1_alg».proof.Proof.Gen.Kernel.Skeleton
import proofs.«118646_j60988535603568_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid coordinates -/

/-- The first conditional: the node-tile coordinate is 0. -/
abbrev cond0_0 (i : grid0.Coords) : Prop := (Scalar.cmpi .ne (Scalar.extui (Scalar.cmpi .eq (BitVec.ofNat 32 (i 1).val) 0#32)) 0#32) = 1#1
/-- It holds exactly at the first tile of each edge block. -/
theorem hcond0_0 : ∀ t : Fin cfg0.N, cond0_0 (grid0.coords t) ↔ t.val % 25 = 0 :=
  (by decide +kernel : ∀ t : Fin grid0.N, cond0_0 (grid0.coords t) ↔ t.val % 25 = 0)

/-- The second conditional: the node-tile coordinate is 24. -/
abbrev cond0_1 (i : grid0.Coords) : Prop := k0_cond2 i = 1#1
/-- It holds exactly at the last tile of each edge block. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-- The output window is idle exactly where the second conditional fails. -/
theorem idle0_3_eq (i : grid0.Coords) : cfg0.idle 3 i = !(k0_cond2 i == 1#1) := rfl

/-- Away from the last tile the output window is idle: nothing is stored into it. -/
theorem idleAt0_3 (t : Fin cfg0.N) (hc1 : ¬cond0_1 (grid0.coords t)) : cfg0.idle 3 (grid0.coords t) = true := by
  rw [idle0_3_eq]; simp only [Bool.not_eq_eq_eq_not, Bool.not_true, beq_eq_false_iff_ne, ne_eq]; exact hc1
/-- Away from the last tile the output block is not written back. -/
theorem noFlush0_3 (t : Fin cfg0.N) (hc1 : ¬cond0_1 (grid0.coords t)) : (cfg0.win 3).flush t = false :=
  Bool.eq_false_iff.2 fun h => hc1 ((hcond0_1 t).2 ((flush0_3 t).1 h))
/-- At the last tile the output window is live. -/
theorem liveAt0_3 (t : Fin cfg0.N) (hc1 : cond0_1 (grid0.coords t)) : cfg0.idle 3 (grid0.coords t) = false := by
  rw [idle0_3_eq]; simp only [Bool.not_eq_eq_eq_not, Bool.not_false, beq_iff_eq]; exact hc1

/-! ## The staging memrefs at a point, the scratch, and the views contents are stated through -/

abbrev VO0_3 : View sig .tc .vmem S4096x64 .bf16 := (Memref.whole cc0_stg3_0 : Memref sig .tc .vmem S4096x64 .bf16).view
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x64 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S4096x64 .f32 := Memref.whole cc0_scratch0
abbrev VS0_0 : View sig .tc .vmem S4096x64 .f32 := scM0_0.view

/-- The region's invariant with the accumulator taken out of the scoped rest as a memref owned at some
    contents; the remainder of the scoped rest stays one unopened conjunct. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The windows' blocks at the region's entry contents -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end Blocks

end Cert.Kernel.Hand

end
-- ==== Proof.K.G0RunA.lean ====
/- Region 0 (the gather kernel): the whole-body run at the first tile of an edge block: the accumulator, found at any contents, is zeroed and one tile's product added; the output buffer is handed back untouched. -/
import proofs.«118646_j60988535603568_1_alg».proof.Proof.K.G0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A, the first tile of an edge block: the accumulator, found at any contents, is zeroed and one tile's product added; the output buffer is handed back untouched.
    The pieces the stores leave in the output buffer (`L3`) and in the accumulator (`LS0`), last first, are
    read off the body's stores; with them the body's triple on whole memrefs holds: the three inputs are owned at
    their contents before and after. -/
noncomputable def kernelRun0_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond0_0 i) (hc1 : ¬cond0_1 i)
    (x0 : Vec F S4096x1 .i32) (x1 : Vec F S4096x1 .f32) (x2 : Vec F S2000x64 .bf16) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.G0RunB.lean ====
/- Region 0 (the gather kernel): the whole-body run at a middle tile of an edge block: one tile's product is added to the accumulator the tile before left; the output buffer is handed back untouched. -/
import proofs.«118646_j60988535603568_1_alg».proof.Proof.K.G0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B, a middle tile of an edge block: one tile's product is added to the accumulator the tile before left; the output buffer is handed back untouched.
    The pieces the stores leave in the output buffer (`L3`) and in the accumulator (`LS0`), last first, are
    read off the body's stores; with them the body's triple on whole memrefs holds: the three inputs are owned at
    their contents before and after. -/
noncomputable def kernelRun0_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : ¬cond0_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.G0RunC.lean ====
/- Region 0 (the gather kernel): the whole-body run at the last tile of an edge block: one tile's product is added to the accumulator the tile before left, and the scaled accumulator is stored into the output buffer, found at any contents. -/
import proofs.«118646_j60988535603568_1_alg».proof.Proof.K.G0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C, the last tile of an edge block: one tile's product is added to the accumulator the tile before left, and the scaled accumulator is stored into the output buffer, found at any contents.
    The pieces the stores leave in the output buffer (`L3`) and in the accumulator (`LS0`), last first, are
    read off the body's stores; with them the body's triple on whole memrefs holds: the three inputs are owned at
    their contents before and after. -/
noncomputable def kernelRun0_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.G0Body.lean ====
/- Region 0 (the gather kernel): what the accumulator and the output buffer hold after each grid point, the
   proof data of the region at any entry contents, and the body obligation. -/
import proofs.«118646_j60988535603568_1_alg».proof.Proof.K.G0RunA
import proofs.«118646_j60988535603568_1_alg».proof.Proof.K.G0RunB
import proofs.«118646_j60988535603568_1_alg».proof.Proof.K.G0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the pieces cover the buffers -/

/-- Case A's stores into the accumulator tile it. -/
theorem scover0_A_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond0_0 i) (hc1 : ¬cond0_1 i)
    (x0 : Vec F S4096x1 .i32) (x1 : Vec F S4096x1 .f32) (x2 : Vec F S2000x64 .bf16) (y : S4096x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S4096x64.size (by sl_kernel_rfl) y

/-- What case A leaves in the accumulator. -/
def sout0_A_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond0_0 i) (hc1 : ¬cond0_1 i)
    (x0 : Vec F S4096x1 .i32) (x1 : Vec F S4096x1 .f32) (x2 : Vec F S2000x64 .bf16) : Vec F S4096x64 .f32 :=
  VS0_0.read (Elt F) (VS0_0.writes (Elt F) VS0_0.junk (kernelRun0_A c i arg2 harg2 arg3 harg3 arg4 harg4 arg5 harg5 arg6 harg6 hc0 hc1 x0 x1 x2).2.1)

/-- Case B's stores into the accumulator tile it. -/
theorem scover0_B_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : ¬cond0_1 i)
    (x0 : Vec F S4096x1 .i32) (x1 : Vec F S4096x1 .f32) (x2 : Vec F S2000x64 .bf16) (xs0 : Vec F S4096x64 .f32) (y : S4096x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S4096x64.size (by sl_kernel_rfl) y

/-- What case B leaves in the accumulator. -/
def sout0_B_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : ¬cond0_1 i)
    (x0 : Vec F S4096x1 .i32) (x1 : Vec F S4096x1 .f32) (x2 : Vec F S2000x64 .bf16) (xs0 : Vec F S4096x64 .f32) : Vec F S4096x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's stores into the accumulator tile it. -/
theorem scover0_C_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) (y : S4096x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S4096x64.size (by sl_kernel_rfl) y

/-- What case C leaves in the accumulator. -/
def sout0_C_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) : Vec F S4096x64 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- Case C's store into the output buffer tiles it. -/
theorem cover0_C_3 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) (y : S4096x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S4096x64.size (by sl_kernel_rfl) y

/-- What case C leaves in the output buffer. -/
def out0_C_3 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) : Vec F S4096x64 .bf16 :=
  VO0_3.read (Elt F) (VO0_3.writes (Elt F) VO0_3.junk (kernelRun0_C c i arg2 harg2 arg3 harg3 arg4 harg4 arg5 harg5 arg6 harg6 hc0 hc1 x0 x1 x2 xs0).1)

/-- The output window's contents named at a point where the body stores nothing into it: never consulted, since
    there the block is neither written back nor read at the next point. -/
def out0_idle : Vec F S4096x64 .bf16 := VO0_3.read (Elt F) VO0_3.junk

/-! ## The conditions from the point's arithmetic -/

theorem r0hc0_of (t : Fin cfg0.N) (h : t.val % 25 = 0) : cond0_0 (grid0.coords t) := (hcond0_0 t).mpr h
theorem r0nhc0_of (t : Fin cfg0.N) (h : ¬t.val % 25 = 0) : ¬cond0_0 (grid0.coords t) := fun h' => h ((hcond0_0 t).mp h')
theorem r0hc1_of (t : Fin cfg0.N) (h : t.val % 25 = 24) : cond0_1 (grid0.coords t) := (hcond0_1 t).mpr h
theorem r0nhc1_of (t : Fin cfg0.N) (h : ¬t.val % 25 = 24) : ¬cond0_1 (grid0.coords t) := fun h' => h ((hcond0_1 t).mp h')
theorem r0nhc1_of0 (t : Fin cfg0.N) (h : t.val % 25 = 0) : ¬cond0_1 (grid0.coords t) := r0nhc1_of t (by omega)
theorem r0nhc0_of1 (t : Fin cfg0.N) (h : t.val % 25 = 24) : ¬cond0_0 (grid0.coords t) := r0nhc0_of t (by omega)

section Region
variable (V : (c : Dev nD) → (b : Ref sig .tc) → Buf (Elt F) ((c : Thread nD τ).loc b))

/-! ## One point's step, at the point's memrefs and input blocks -/

/-- The accumulator after a first tile. -/
def stepA0 (c : Dev nD) (t : Fin cfg0.N) (h0 : t.val % 25 = 0) : Vec F S4096x64 .f32 :=
  sout0_A_0 c (grid0.coords t) (ms0_0 t) (hs0_0 t) (ms0_1 t) (hs0_1 t) (ms0_2 t) (hs0_2 t) (ms0_3 t) (hs0_3 t) scM0_0 (Memref.isWhole_whole _) (r0hc0_of t h0) (r0nhc1_of0 t h0) (iblk0 V c 0 t) (iblk0 V c 1 t) (iblk0 V c 2 t)
/-- The accumulator after a middle tile, from what the tile before left. -/
def stepB0 (c : Dev nD) (t : Fin cfg0.N) (h0 : ¬t.val % 25 = 0) (h1 : ¬t.val % 25 = 24) (xs : Vec F S4096x64 .f32) : Vec F S4096x64 .f32 :=
  sout0_B_0 c (grid0.coords t) (ms0_0 t) (hs0_0 t) (ms0_1 t) (hs0_1 t) (ms0_2 t) (hs0_2 t) (ms0_3 t) (hs0_3 t) scM0_0 (Memref.isWhole_whole _) (r0nhc0_of t h0) (r0nhc1_of t h1) (iblk0 V c 0 t) (iblk0 V c 1 t) (iblk0 V c 2 t) xs
/-- The accumulator after a last tile, from what the tile before left. -/
def stepC0 (c : Dev nD) (t : Fin cfg0.N) (h1 : t.val % 25 = 24) (xs : Vec F S4096x64 .f32) : Vec F S4096x64 .f32 :=
  sout0_C_0 c (grid0.coords t) (ms0_0 t) (hs0_0 t) (ms0_1 t) (hs0_1 t) (ms0_2 t) (hs0_2 t) (ms0_3 t) (hs0_3 t) scM0_0 (Memref.isWhole_whole _) (r0nhc0_of1 t h1) (r0hc1_of t h1) (iblk0 V c 0 t) (iblk0 V c 1 t) (iblk0 V c 2 t) xs
/-- The output buffer after a last tile, from what the tile before left in the accumulator. -/
def stepO0 (c : Dev nD) (t : Fin cfg0.N) (h1 : t.val % 25 = 24) (xs : Vec F S4096x64 .f32) : Vec F S4096x64 .bf16 :=
  out0_C_3 c (grid0.coords t) (ms0_0 t) (hs0_0 t) (ms0_1 t) (hs0_1 t) (ms0_2 t) (hs0_2 t) (ms0_3 t) (hs0_3 t) scM0_0 (Memref.isWhole_whole _) (r0nhc0_of1 t h1) (r0hc1_of t h1) (iblk0 V c 0 t) (iblk0 V c 1 t) (iblk0 V c 2 t) xs

/-! ## What the output buffer and the accumulator hold after each point -/

/-- The accumulation, by recursion on the point: (the output buffer, the accumulator) after the body at point `n`.
    A first tile restarts the accumulator; a middle tile adds to what the point before left; a last tile adds and
    also stores the scaled accumulator as the output block. -/
def outsAt0 (c : Dev nD) : (n : ℕ) → n < cfg0.N → Vec F S4096x64 .bf16 × Vec F S4096x64 .f32
  | 0, hn => (out0_idle, stepA0 V c ⟨0, hn⟩ (Nat.zero_mod _))
  | n + 1, hn =>
    if h0 : (n + 1) % 25 = 0 then
      (out0_idle, stepA0 V c ⟨n + 1, hn⟩ h0)
    else
      if h1 : (n + 1) % 25 = 24 then
        (stepO0 V c ⟨n + 1, hn⟩ h1 (outsAt0 c n (Nat.lt_of_succ_lt hn)).2, stepC0 V c ⟨n + 1, hn⟩ h1 (outsAt0 c n (Nat.lt_of_succ_lt hn)).2)
      else
        (out0_idle, stepB0 V c ⟨n + 1, hn⟩ h0 h1 (outsAt0 c n (Nat.lt_of_succ_lt hn)).2)

/-- The accumulator the point before `t` left. -/
abbrev prevS0 (c : Dev nD) (t : Fin cfg0.N) : Vec F S4096x64 .f32 :=
  (outsAt0 V c (t.val - 1) (Nat.lt_of_le_of_lt (Nat.sub_le _ _) t.isLt)).2

theorem outsAt0_A (c : Dev nD) (t : Fin cfg0.N) (h0 : t.val % 25 = 0) :
    outsAt0 V c t.val t.isLt = (out0_idle, stepA0 V c t h0) := by
  obtain ⟨n, hn⟩ := t
  cases n with
  | zero => exact rfl
  | succ n => exact (dif_pos h0).trans rfl

theorem outsAt0_B (c : Dev nD) (t : Fin cfg0.N) (h0 : ¬t.val % 25 = 0) (h1 : ¬t.val % 25 = 24) :
    outsAt0 V c t.val t.isLt = (out0_idle, stepB0 V c t h0 h1 (prevS0 V c t)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h1 : t.val % 25 = 24) :
    outsAt0 V c t.val t.isLt = (stepO0 V c t h1 (prevS0 V c t), stepC0 V c t h1 (prevS0 V c t)) := by
  obtain ⟨n, hn⟩ := t
  cases n with
  | zero => exact (by exfalso; (try dsimp only at h1); omega)
  | succ n => exact (dif_neg (show ¬(n + 1) % 25 = 0 from fun h => by (try dsimp only at h1); omega)).trans ((dif_pos h1).trans rfl)

/-! ## The region's invariant, point by point -/

/-- Before the first point the region's own invariant (the accumulator at anything); afterwards the accumulator at
    what the point before left, the remainder of the scoped rest unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The region's proof data -/

/-- The arrays as the region finds them; after the body each input's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem Phi0_zero (c : Dev nD) : (dat0 V c).Φ 0 = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the point's residue mod 25 says which of the
    three cases it is in; the invariant hands the body the accumulator at what the point before left (at anything
    at the very first point) and takes it back at this point's contents; away from a last tile the output buffer
    is handed back as found, at a last tile it holds the case's store. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 5200 := lt_of_lt_of_eq t.isLt (show cfg0.N = 5200 from N_0)
  by_cases h0 : t.val % 25 = 0
  · rw [Dat.leavesExact_idle (dat0 V c) 3 t (idleAt0_3 t (r0nhc1_of0 t h0)) (noFlush0_3 t (r0nhc1_of0 t h0))]
    rw [outsAt0_A V c t h0]
    unfold stepA0 sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ (r0hc0_of t h0) (r0nhc1_of0 t h0) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ (r0hc0_of t h0) (r0nhc1_of0 t h0) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 25 = 24
    · rw [show (dat0 V c).leavesExact 3 t = owns (c : Thread nD τ) (ms0_3 t) fullShare ((dat0 V c).after 3 t) from by
        unfold Dat.leavesExact; rw [liveAt0_3 t (r0hc1_of t h1)], after0_3]
      rw [outsAt0_C V c t h1]
      unfold stepO0 stepC0 out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (r0nhc0_of1 t h1) (r0hc1_of t h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (r0nhc1_of t h1)) (noFlush0_3 t (r0nhc1_of t h1))]
      rw [outsAt0_B V c t h0 h1]
      unfold stepB0 sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (r0nhc0_of t h0) (r0nhc1_of t h1) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [Phi0_zero]
  try exact Idealize.SL.BI.Entails.refl _

/-- After any point but the first the invariant gives the region's own back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 5200 := N_0; omega)

end Region

end Cert.Kernel.Hand

end
-- ==== Proof.K.S1Runs.lean ====
/-
  Region 1 (the scatter kernel): what the three control cases of its body share.
  The grid is 25 node tiles by 208 edge blocks; point t is node tile t / 208, edge block t % 208.
  The first conditional (zero the accumulator) holds exactly at edge block 0, the second (scale the
  accumulator by the node norms and store the output block) exactly at edge block 207.
-/
import proofs.«118646_j60988535603568_1_alg».proof.Proof.Gen.Kernel.Launch
import proofs.«118646_j60988535603568_1_alg».proof.Proof.Gen.Kernel.Skeleton
import proofs.«118646_j60988535603568_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition: the edge-block coordinate is 0. -/
abbrev cond1_0 (i : grid1.Coords) : Prop := (Scalar.cmpi .ne (Scalar.extui (Scalar.cmpi .eq (BitVec.ofNat 32 (i 1).val) 0#32)) 0#32) = 1#1
/-- It holds exactly at the first edge block of each node tile. -/
theorem hcond1_0 : ∀ t : Fin cfg1.N, cond1_0 (grid1.coords t) ↔ t.val % 208 = 0 :=
  (by decide +kernel : ∀ t : Fin grid1.N, cond1_0 (grid1.coords t) ↔ t.val % 208 = 0)

/-- The second conditional's condition: the edge-block coordinate is 207. -/
abbrev cond1_1 (i : grid1.Coords) : Prop := k1_cond2 i = 1#1
/-- It holds exactly at the last edge block of each node tile. -/
theorem hcond1_1 : ∀ t : Fin cfg1.N, cond1_1 (grid1.coords t) ↔ t.val % 208 = 207 :=
  (by decide +kernel : ∀ t : Fin grid1.N, cond1_1 (grid1.coords t) ↔ t.val % 208 = 207)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Away from the last edge block the output window is idle: the body stores nothing into it. -/
theorem idleAt1_3 : ∀ t : Fin cfg1.N, ¬cond1_1 (grid1.coords t) → cfg1.idle 3 (grid1.coords t) = true := by
  intro t h
  show (!(k1_cond2 (grid1.coords t) == 1#1)) = true
  rw [Bool.not_eq_true', beq_eq_false_iff_ne]; exact h
/-- Away from the last edge block the output block is not written back. -/
theorem noFlush1_3 : ∀ t : Fin cfg1.N, ¬cond1_1 (grid1.coords t) → (cfg1.win 3).flush t = false := by
  intro t h
  rw [← Bool.not_eq_true]; intro hf
  exact h ((hcond1_1 t).mpr ((flush1_3 t).mp hf))
/-- At the last edge block the output window is live: the body stores its block. -/
theorem liveAt1_3 : ∀ t : Fin cfg1.N, cond1_1 (grid1.coords t) → cfg1.idle 3 (grid1.coords t) = false := by
  intro t h
  show (!(k1_cond2 (grid1.coords t) == 1#1)) = false
  rw [Bool.not_eq_false', beq_iff_eq]; exact h

/-! ## The memrefs the body is called with -/

/-- One staging buffer of the output window, through which its contents are stated. -/
abbrev VO1_3 : View sig .tc .vmem S2000x64 .f32 := (Memref.whole cc1_stg3_0 : Memref sig .tc .vmem S2000x64 .f32).view
/-- Each window's current staging memref at point t, and its wholeness. -/
abbrev ms1_0 (t : Fin cfg1.N) : Memref sig .tc .vmem S4096x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x64 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2000x64 .f32 := Memref.whole cc1_scratch0
/-- The accumulator as a view: what it holds is stated through it. -/
abbrev VS1_0 : View sig .tc .vmem S2000x64 .f32 := scM1_0.view

/-- The region's invariant with the accumulator taken out of the scoped rest as a memref owned at some
    contents; every other scoped buffer stays one unopened conjunct. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.S1RunA.lean ====
/-
  Region 1 (the scatter kernel), control case A: the whole-body run.
-/
import proofs.«118646_j60988535603568_1_alg».proof.Proof.K.S1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case A — the first edge block of a node tile: the accumulator, found at any contents, is zeroed, then
    the block's contribution is added; the output window is idle and handed back untouched —,
    with the proof that on whole memrefs (the three inputs owned at their contents) the body runs to the
    continuation holding the inputs as they were and each stored buffer with its pieces written. -/
noncomputable def kernelRun1_A (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.S1RunB.lean ====
/-
  Region 1 (the scatter kernel), control case B: the whole-body run.
-/
import proofs.«118646_j60988535603568_1_alg».proof.Proof.K.S1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case B — an edge block strictly between the first and the last: the block's contribution is added to the
    accumulator the point before left; the output window is idle and handed back untouched —,
    with the proof that on whole memrefs (the three inputs owned at their contents) the body runs to the
    continuation holding the inputs as they were and each stored buffer with its pieces written. -/
noncomputable def kernelRun1_B (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.S1RunC.lean ====
/-
  Region 1 (the scatter kernel), control case C: the whole-body run.
-/
import proofs.«118646_j60988535603568_1_alg».proof.Proof.K.S1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case C — the last edge block of a node tile: the block's contribution is added to the accumulator the
    point before left, and the accumulator scaled row by row by the node norms is stored as the output block —,
    with the proof that on whole memrefs (the three inputs owned at their contents) the body runs to the
    continuation holding the inputs as they were and each stored buffer with its pieces written. -/
noncomputable def kernelRun1_C (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.S1Body.lean ====
/-
  Region 1 (the scatter kernel): what the output's staging buffer and the accumulator hold after each
  grid point, the region's proof data at any entry contents V, and the body obligation.
-/
import proofs.«118646_j60988535603568_1_alg».proof.Proof.K.S1RunA
import proofs.«118646_j60988535603568_1_alg».proof.Proof.K.S1RunB
import proofs.«118646_j60988535603568_1_alg».proof.Proof.K.S1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: at an
    unfetched point the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: at an
    unfetched point the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: at an
    unfetched point the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the accumulator -/

/-- Case A's pieces for the accumulator cover it: whole-buffer stores. -/
theorem scover1_A_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) (y : S2000x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2000x64.size (by sl_kernel_rfl) y

/-- What case A leaves in the accumulator: its pieces read back. -/
def sout1_A_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) : Vec F S2000x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case A stores nothing into the output: no pieces. The value is a placeholder nothing consults, since at these
    points the window is neither written back nor read at the next point. -/
def out1_A_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) : Vec F S2000x64 .f32 :=
  VO1_3.read (Elt F) (VO1_3.writes (Elt F) VO1_3.junk (kernelRun1_A c i arg2 harg2 arg3 harg3 arg4 harg4 arg5 harg5 arg6 harg6 hc0 hc1 x0 x1 x2).1)

/-- Case B's pieces for the accumulator cover it: whole-buffer stores. -/
theorem scover1_B_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) (y : S2000x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2000x64.size (by sl_kernel_rfl) y

/-- What case B leaves in the accumulator: its pieces read back. -/
def sout1_B_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) : Vec F S2000x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case B stores nothing into the output: no pieces. The value is a placeholder nothing consults, since at these
    points the window is neither written back nor read at the next point. -/
def out1_B_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) : Vec F S2000x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case C's pieces for the accumulator cover it: whole-buffer stores. -/
theorem scover1_C_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) (y : S2000x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2000x64.size (by sl_kernel_rfl) y

/-- What case C leaves in the accumulator: its pieces read back. -/
def sout1_C_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) : Vec F S2000x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- Case C's pieces for the output cover its block: one whole-buffer store. -/
theorem cover1_C_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) (y : S2000x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2000x64.size (by sl_kernel_rfl) y

/-- What case C leaves in the output's staging buffer: its pieces read back. -/
def out1_C_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) : Vec F S2000x64 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## What the output's buffer and the accumulator hold after each point -/

/-- THE ACCUMULATION. What the output's staging buffer (first component) and the accumulator (second component)
    hold after the body at position n: the case the closed forms select at n, run at the point's memrefs and input
    blocks, over the accumulator the point before left. -/
def outsAt1 (c : Dev nD) : (n : ℕ) → n < cfg1.N → Vec F S2000x64 .f32 × Vec F S2000x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 208 = 0 then
      if h1 : (n + 1) % 208 = 207 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 208 = 207 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- The accumulation at a point of case A. -/
theorem outsAt1_A (c : Dev nD) (t : Fin cfg1.N) (h0 : t.val % 208 = 0) (h1 : ¬t.val % 208 = 207) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- The accumulation at a point of case B: over what the point before left. -/
theorem outsAt1_B (c : Dev nD) (t : Fin cfg1.N) (h0 : ¬t.val % 208 = 0) (h1 : ¬t.val % 208 = 207) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: over what the point before left. -/
theorem outsAt1_C (c : Dev nD) (t : Fin cfg1.N) (h0 : ¬t.val % 208 = 0) (h1 : t.val % 208 = 207) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The region invariant before position n: before the first point the launch's (every scoped buffer at anything);
    afterwards the accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of region 1 on core c at the entry contents V: the arrays as the region finds them; after the body
    at point t each input's buffer at its block and the output's at the accumulation's first component; the invariant
    point by point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Before the first point the invariant is the launch's. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the first point),
    the other scoped buffers unopened and the generator register at some state, and takes the accumulator back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 208 = 0
  · by_cases h1 : t.val % 208 = 207
    · exfalso; omega
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h1 ((hcond1_1 t).mp h))) (noFlush1_3 t (fun h => h1 ((hcond1_1 t).mp h)))]
        rw [outsAt1_A V c t h0 h1]
        unfold sout1_A_0; (try dsimp only)

        by_cases hz : t.val = 0
        · rw [PhiS1_castSucc V c t, PhiS1_zero V c _ _ hz, PhiA1_eq]
          iintro ⟨⟨⟨HS0, HR⟩, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
        · rw [PhiS1_castSucc V c t, PhiS1_pos V c _ _ hz]
          iintro ⟨⟨⟨HS0, HR⟩, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
          isplitl [H0]; · iexact H0
          isplitl [H1]; · iexact H1
          isplitl [H2]; · iexact H2
          isplitl [H3]; · iexact H3
          isplitl [HS0]; · iexists _; iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
  · by_cases h1 : t.val % 208 = 207
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_1 t).mpr h1)], after1_3]
        rw [outsAt1_C V c t h0 h1]
        unfold out1_C_3 sout1_C_0; (try dsimp only)
        have hz : t.val ≠ 0 := fun e => h0 (by rw [e])
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h1 ((hcond1_1 t).mp h))) (noFlush1_3 t (fun h => h1 ((hcond1_1 t).mp h)))]
        rw [outsAt1_B V c t h0 h1]
        unfold sout1_B_0; (try dsimp only)
        have hz : t.val ≠ 0 := fun e => h0 (by rw [e])
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [Phi1_zero]
  try exact Idealize.SL.BI.Entails.refl _

/-- After any point but the first the invariant gives the launch's back: the accumulator's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 5200 := N_1; omega)

end Region1

end Cert.Kernel.Hand

end
-- ==== Proof.K.G2Runs.lean ====
/- Region 2 (the gather kernel) of the compiled program: what its three whole-body runs share.
   The grid is 208 edge blocks by 25 node tiles, point t = 25 * e + k. The body zeroes its accumulator at
   tile 0, adds one tile's one-hot product at every tile, and at tile 24 scales the accumulator by the
   norm block and stores it as the output block. -/
import proofs.«118646_j60988535603568_1_alg».proof.Proof.Gen.Kernel.Launch
import proofs.«118646_j60988535603568_1_alg».proof.Proof.Gen.Kernel.Skeleton
import proofs.«118646_j60988535603568_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid coordinates -/

/-- The first conditional: the node-tile coordinate is 0. -/
abbrev cond2_0 (i : grid2.Coords) : Prop := (Scalar.cmpi .ne (Scalar.extui (Scalar.cmpi .eq (BitVec.ofNat 32 (i 1).val) 0#32)) 0#32) = 1#1
/-- It holds exactly at the first tile of each edge block. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional: the node-tile coordinate is 24. -/
abbrev cond2_1 (i : grid2.Coords) : Prop := k2_cond2 i = 1#1
/-- It holds exactly at the last tile of each edge block. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

/-- The output window is idle exactly where the second conditional fails. -/
theorem idle2_3_eq (i : grid2.Coords) : cfg2.idle 3 i = !(k2_cond2 i == 1#1) := rfl

/-- Away from the last tile the output window is idle: nothing is stored into it. -/
theorem idleAt2_3 (t : Fin cfg2.N) (hc1 : ¬cond2_1 (grid2.coords t)) : cfg2.idle 3 (grid2.coords t) = true := by
  rw [idle2_3_eq]; simp only [Bool.not_eq_eq_eq_not, Bool.not_true, beq_eq_false_iff_ne, ne_eq]; exact hc1
/-- Away from the last tile the output block is not written back. -/
theorem noFlush2_3 (t : Fin cfg2.N) (hc1 : ¬cond2_1 (grid2.coords t)) : (cfg2.win 3).flush t = false :=
  Bool.eq_false_iff.2 fun h => hc1 ((hcond2_1 t).2 ((flush2_3 t).1 h))
/-- At the last tile the output window is live. -/
theorem liveAt2_3 (t : Fin cfg2.N) (hc1 : cond2_1 (grid2.coords t)) : cfg2.idle 3 (grid2.coords t) = false := by
  rw [idle2_3_eq]; simp only [Bool.not_eq_eq_eq_not, Bool.not_false, beq_iff_eq]; exact hc1

/-! ## The staging memrefs at a point, the scratch, and the views contents are stated through -/

abbrev VO2_3 : View sig .tc .vmem S4096x64 .bf16 := (Memref.whole cc2_stg3_0 : Memref sig .tc .vmem S4096x64 .bf16).view
abbrev ms2_0 (t : Fin cfg2.N) : Memref sig .tc .vmem S4096x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x64 .bf16 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S4096x64 .f32 := Memref.whole cc2_scratch0
abbrev VS2_0 : View sig .tc .vmem S4096x64 .f32 := scM2_0.view

/-- The region's invariant with the accumulator taken out of the scoped rest as a memref owned at some
    contents; the remainder of the scoped rest stays one unopened conjunct. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The windows' blocks at the region's entry contents -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched,
    the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end Blocks

end Cert.Kernel.Hand

end
-- ==== Proof.K.G2RunA.lean ====
/- Region 2 (the gather kernel): the whole-body run at the first tile of an edge block: the accumulator, found at any contents, is zeroed and one tile's product added; the output buffer is handed back untouched. -/
import proofs.«118646_j60988535603568_1_alg».proof.Proof.K.G2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A, the first tile of an edge block: the accumulator, found at any contents, is zeroed and one tile's product added; the output buffer is handed back untouched.
    The pieces the stores leave in the output buffer (`L3`) and in the accumulator (`LS0`), last first, are
    read off the body's stores; with them the body's triple on whole memrefs holds: the three inputs are owned at
    their contents before and after. -/
noncomputable def kernelRun2_A (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond2_0 i) (hc1 : ¬cond2_1 i)
    (x0 : Vec F S4096x1 .i32) (x1 : Vec F S4096x1 .f32) (x2 : Vec F S2000x64 .bf16) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.G2RunB.lean ====
/- Region 2 (the gather kernel): the whole-body run at a middle tile of an edge block: one tile's product is added to the accumulator the tile before left; the output buffer is handed back untouched. -/
import proofs.«118646_j60988535603568_1_alg».proof.Proof.K.G2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B, a middle tile of an edge block: one tile's product is added to the accumulator the tile before left; the output buffer is handed back untouched.
    The pieces the stores leave in the output buffer (`L3`) and in the accumulator (`LS0`), last first, are
    read off the body's stores; with them the body's triple on whole memrefs holds: the three inputs are owned at
    their contents before and after. -/
noncomputable def kernelRun2_B (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : ¬cond2_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.G2RunC.lean ====
/- Region 2 (the gather kernel): the whole-body run at the last tile of an edge block: one tile's product is added to the accumulator the tile before left, and the scaled accumulator is stored into the output buffer, found at any contents. -/
import proofs.«118646_j60988535603568_1_alg».proof.Proof.K.G2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C, the last tile of an edge block: one tile's product is added to the accumulator the tile before left, and the scaled accumulator is stored into the output buffer, found at any contents.
    The pieces the stores leave in the output buffer (`L3`) and in the accumulator (`LS0`), last first, are
    read off the body's stores; with them the body's triple on whole memrefs holds: the three inputs are owned at
    their contents before and after. -/
noncomputable def kernelRun2_C (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.G2Body.lean ====
/- Region 2 (the gather kernel): what the accumulator and the output buffer hold after each grid point, the
   proof data of the region at any entry contents, and the body obligation. -/
import proofs.«118646_j60988535603568_1_alg».proof.Proof.K.G2RunA
import proofs.«118646_j60988535603568_1_alg».proof.Proof.K.G2RunB
import proofs.«118646_j60988535603568_1_alg».proof.Proof.K.G2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the pieces cover the buffers -/

/-- Case A's stores into the accumulator tile it. -/
theorem scover2_A_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond2_0 i) (hc1 : ¬cond2_1 i)
    (x0 : Vec F S4096x1 .i32) (x1 : Vec F S4096x1 .f32) (x2 : Vec F S2000x64 .bf16) (y : S4096x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S4096x64.size (by sl_kernel_rfl) y

/-- What case A leaves in the accumulator. -/
def sout2_A_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond2_0 i) (hc1 : ¬cond2_1 i)
    (x0 : Vec F S4096x1 .i32) (x1 : Vec F S4096x1 .f32) (x2 : Vec F S2000x64 .bf16) : Vec F S4096x64 .f32 :=
  VS2_0.read (Elt F) (VS2_0.writes (Elt F) VS2_0.junk (kernelRun2_A c i arg2 harg2 arg3 harg3 arg4 harg4 arg5 harg5 arg6 harg6 hc0 hc1 x0 x1 x2).2.1)

/-- Case B's stores into the accumulator tile it. -/
theorem scover2_B_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : ¬cond2_1 i)
    (x0 : Vec F S4096x1 .i32) (x1 : Vec F S4096x1 .f32) (x2 : Vec F S2000x64 .bf16) (xs0 : Vec F S4096x64 .f32) (y : S4096x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S4096x64.size (by sl_kernel_rfl) y

/-- What case B leaves in the accumulator. -/
def sout2_B_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : ¬cond2_1 i)
    (x0 : Vec F S4096x1 .i32) (x1 : Vec F S4096x1 .f32) (x2 : Vec F S2000x64 .bf16) (xs0 : Vec F S4096x64 .f32) : Vec F S4096x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's stores into the accumulator tile it. -/
theorem scover2_C_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) (y : S4096x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S4096x64.size (by sl_kernel_rfl) y

/-- What case C leaves in the accumulator. -/
def sout2_C_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) : Vec F S4096x64 .f32 :=
  VS2_0.read (Elt F) (VS2_0.writes (Elt F) VS2_0.junk (kernelRun2_C c i arg2 harg2 arg3 harg3 arg4 harg4 arg5 harg5 arg6 harg6 hc0 hc1 x0 x1 x2 xs0).2.1)

/-- Case C's store into the output buffer tiles it. -/
theorem cover2_C_3 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) (y : S4096x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S4096x64.size (by sl_kernel_rfl) y

/-- What case C leaves in the output buffer. -/
def out2_C_3 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) : Vec F S4096x64 .bf16 :=
  VO2_3.read (Elt F) (VO2_3.writes (Elt F) VO2_3.junk (kernelRun2_C c i arg2 harg2 arg3 harg3 arg4 harg4 arg5 harg5 arg6 harg6 hc0 hc1 x0 x1 x2 xs0).1)

/-- The output window's contents named at a point where the body stores nothing into it: never consulted, since
    there the block is neither written back nor read at the next point. -/
def out2_idle : Vec F S4096x64 .bf16 := VO2_3.read (Elt F) VO2_3.junk

/-! ## The conditions from the point's arithmetic -/

theorem r2hc0_of (t : Fin cfg2.N) (h : t.val % 25 = 0) : cond2_0 (grid2.coords t) := (hcond2_0 t).mpr h
theorem r2nhc0_of (t : Fin cfg2.N) (h : ¬t.val % 25 = 0) : ¬cond2_0 (grid2.coords t) := fun h' => h ((hcond2_0 t).mp h')
theorem r2hc1_of (t : Fin cfg2.N) (h : t.val % 25 = 24) : cond2_1 (grid2.coords t) := (hcond2_1 t).mpr h
theorem r2nhc1_of (t : Fin cfg2.N) (h : ¬t.val % 25 = 24) : ¬cond2_1 (grid2.coords t) := fun h' => h ((hcond2_1 t).mp h')
theorem r2nhc1_of0 (t : Fin cfg2.N) (h : t.val % 25 = 0) : ¬cond2_1 (grid2.coords t) := r2nhc1_of t (by omega)
theorem r2nhc0_of1 (t : Fin cfg2.N) (h : t.val % 25 = 24) : ¬cond2_0 (grid2.coords t) := r2nhc0_of t (by omega)

section Region
variable (V : (c : Dev nD) → (b : Ref sig .tc) → Buf (Elt F) ((c : Thread nD τ).loc b))

/-! ## One point's step, at the point's memrefs and input blocks -/

/-- The accumulator after a first tile. -/
def stepA2 (c : Dev nD) (t : Fin cfg2.N) (h0 : t.val % 25 = 0) : Vec F S4096x64 .f32 :=
  sout2_A_0 c (grid2.coords t) (ms2_0 t) (hs2_0 t) (ms2_1 t) (hs2_1 t) (ms2_2 t) (hs2_2 t) (ms2_3 t) (hs2_3 t) scM2_0 (Memref.isWhole_whole _) (r2hc0_of t h0) (r2nhc1_of0 t h0) (iblk2 V c 0 t) (iblk2 V c 1 t) (iblk2 V c 2 t)
/-- The accumulator after a middle tile, from what the tile before left. -/
def stepB2 (c : Dev nD) (t : Fin cfg2.N) (h0 : ¬t.val % 25 = 0) (h1 : ¬t.val % 25 = 24) (xs : Vec F S4096x64 .f32) : Vec F S4096x64 .f32 :=
  sout2_B_0 c (grid2.coords t) (ms2_0 t) (hs2_0 t) (ms2_1 t) (hs2_1 t) (ms2_2 t) (hs2_2 t) (ms2_3 t) (hs2_3 t) scM2_0 (Memref.isWhole_whole _) (r2nhc0_of t h0) (r2nhc1_of t h1) (iblk2 V c 0 t) (iblk2 V c 1 t) (iblk2 V c 2 t) xs
/-- The accumulator after a last tile, from what the tile before left. -/
def stepC2 (c : Dev nD) (t : Fin cfg2.N) (h1 : t.val % 25 = 24) (xs : Vec F S4096x64 .f32) : Vec F S4096x64 .f32 :=
  sout2_C_0 c (grid2.coords t) (ms2_0 t) (hs2_0 t) (ms2_1 t) (hs2_1 t) (ms2_2 t) (hs2_2 t) (ms2_3 t) (hs2_3 t) scM2_0 (Memref.isWhole_whole _) (r2nhc0_of1 t h1) (r2hc1_of t h1) (iblk2 V c 0 t) (iblk2 V c 1 t) (iblk2 V c 2 t) xs
/-- The output buffer after a last tile, from what the tile before left in the accumulator. -/
def stepO2 (c : Dev nD) (t : Fin cfg2.N) (h1 : t.val % 25 = 24) (xs : Vec F S4096x64 .f32) : Vec F S4096x64 .bf16 :=
  out2_C_3 c (grid2.coords t) (ms2_0 t) (hs2_0 t) (ms2_1 t) (hs2_1 t) (ms2_2 t) (hs2_2 t) (ms2_3 t) (hs2_3 t) scM2_0 (Memref.isWhole_whole _) (r2nhc0_of1 t h1) (r2hc1_of t h1) (iblk2 V c 0 t) (iblk2 V c 1 t) (iblk2 V c 2 t) xs

/-! ## What the output buffer and the accumulator hold after each point -/

/-- The accumulation, by recursion on the point: (the output buffer, the accumulator) after the body at point `n`.
    A first tile restarts the accumulator; a middle tile adds to what the point before left; a last tile adds and
    also stores the scaled accumulator as the output block. -/
def outsAt2 (c : Dev nD) : (n : ℕ) → n < cfg2.N → Vec F S4096x64 .bf16 × Vec F S4096x64 .f32
  | 0, hn => (out2_idle, stepA2 V c ⟨0, hn⟩ (Nat.zero_mod _))
  | n + 1, hn =>
    if h0 : (n + 1) % 25 = 0 then
      (out2_idle, stepA2 V c ⟨n + 1, hn⟩ h0)
    else
      if h1 : (n + 1) % 25 = 24 then
        (stepO2 V c ⟨n + 1, hn⟩ h1 (outsAt2 c n (Nat.lt_of_succ_lt hn)).2, stepC2 V c ⟨n + 1, hn⟩ h1 (outsAt2 c n (Nat.lt_of_succ_lt hn)).2)
      else
        (out2_idle, stepB2 V c ⟨n + 1, hn⟩ h0 h1 (outsAt2 c n (Nat.lt_of_succ_lt hn)).2)

/-- The accumulator the point before `t` left. -/
abbrev prevS2 (c : Dev nD) (t : Fin cfg2.N) : Vec F S4096x64 .f32 :=
  (outsAt2 V c (t.val - 1) (Nat.lt_of_le_of_lt (Nat.sub_le _ _) t.isLt)).2

theorem outsAt2_A (c : Dev nD) (t : Fin cfg2.N) (h0 : t.val % 25 = 0) :
    outsAt2 V c t.val t.isLt = (out2_idle, stepA2 V c t h0) := by
  obtain ⟨n, hn⟩ := t
  cases n with
  | zero => exact rfl
  | succ n => exact (dif_pos h0).trans rfl

theorem outsAt2_B (c : Dev nD) (t : Fin cfg2.N) (h0 : ¬t.val % 25 = 0) (h1 : ¬t.val % 25 = 24) :
    outsAt2 V c t.val t.isLt = (out2_idle, stepB2 V c t h0 h1 (prevS2 V c t)) := by
  obtain ⟨n, hn⟩ := t
  cases n with
  | zero => exact absurd (Nat.zero_mod _) h0
  | succ n => exact (dif_neg h0).trans ((dif_neg h1).trans rfl)

theorem outsAt2_C (c : Dev nD) (t : Fin cfg2.N) (h1 : t.val % 25 = 24) :
    outsAt2 V c t.val t.isLt = (stepO2 V c t h1 (prevS2 V c t), stepC2 V c t h1 (prevS2 V c t)) := by
  obtain ⟨n, hn⟩ := t
  cases n with
  | zero => exact (by exfalso; (try dsimp only at h1); omega)
  | succ n => exact (dif_neg (show ¬(n + 1) % 25 = 0 from fun h => by (try dsimp only at h1); omega)).trans ((dif_pos h1).trans rfl)

/-! ## The region's invariant, point by point -/

/-- Before the first point the region's own invariant (the accumulator at anything); afterwards the accumulator at
    what the point before left, the remainder of the scoped rest unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The region's proof data -/

/-- The arrays as the region finds them; after the body each input's buffer at its block and the output's at
    `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem Phi2_zero (c : Dev nD) : (dat2 V c).Φ 0 = Pipeline.ΦA spec2 c := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the point's residue mod 25 says which of the
    three cases it is in; the invariant hands the body the accumulator at what the point before left (at anything
    at the very first point) and takes it back at this point's contents; away from a last tile the output buffer
    is handed back as found, at a last tile it holds the case's store. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 5200 := lt_of_lt_of_eq t.isLt (show cfg2.N = 5200 from N_2)
  by_cases h0 : t.val % 25 = 0
  · rw [Dat.leavesExact_idle (dat2 V c) 3 t (idleAt2_3 t (r2nhc1_of0 t h0)) (noFlush2_3 t (r2nhc1_of0 t h0))]
    rw [outsAt2_A V c t h0]
    unfold stepA2 sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ (r2hc0_of t h0) (r2nhc1_of0 t h0) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ (r2hc0_of t h0) (r2nhc1_of0 t h0) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 25 = 24
    · rw [show (dat2 V c).leavesExact 3 t = owns (c : Thread nD τ) (ms2_3 t) fullShare ((dat2 V c).after 3 t) from by
        unfold Dat.leavesExact; rw [liveAt2_3 t (r2hc1_of t h1)], after2_3]
      rw [outsAt2_C V c t h1]
      unfold stepO2 stepC2 out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (r2nhc0_of1 t h1) (r2hc1_of t h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (r2nhc1_of t h1)) (noFlush2_3 t (r2nhc1_of t h1))]
      rw [outsAt2_B V c t h0 h1]
      unfold stepB2 sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (r2nhc0_of t h0) (r2nhc1_of t h1) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [Phi2_zero]
  try exact Idealize.SL.BI.Entails.refl _

/-- After any point but the first the invariant gives the region's own back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 5200 := N_2; omega)

end Region

end Cert.Kernel.Hand

end
-- ==== Proof.K.S3Runs.lean ====
/-
  Region 3 (the scatter kernel): what the three control cases of its body share.
  The grid is 25 node tiles by 208 edge blocks; point t is node tile t / 208, edge block t % 208.
  The first conditional (zero the accumulator) holds exactly at edge block 0, the second (scale the
  accumulator by the node norms and store the output block) exactly at edge block 207.
-/
import proofs.«118646_j60988535603568_1_alg».proof.Proof.Gen.Kernel.Launch
import proofs.«118646_j60988535603568_1_alg».proof.Proof.Gen.Kernel.Skeleton
import proofs.«118646_j60988535603568_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition: the edge-block coordinate is 0. -/
abbrev cond3_0 (i : grid3.Coords) : Prop := (Scalar.cmpi .ne (Scalar.extui (Scalar.cmpi .eq (BitVec.ofNat 32 (i 1).val) 0#32)) 0#32) = 1#1
/-- It holds exactly at the first edge block of each node tile. -/
theorem hcond3_0 : ∀ t : Fin cfg3.N, cond3_0 (grid3.coords t) ↔ t.val % 208 = 0 :=
  (by decide +kernel : ∀ t : Fin grid3.N, cond3_0 (grid3.coords t) ↔ t.val % 208 = 0)

/-- The second conditional's condition: the edge-block coordinate is 207. -/
abbrev cond3_1 (i : grid3.Coords) : Prop := k3_cond2 i = 1#1
/-- It holds exactly at the last edge block of each node tile. -/
theorem hcond3_1 : ∀ t : Fin cfg3.N, cond3_1 (grid3.coords t) ↔ t.val % 208 = 207 :=
  (by decide +kernel : ∀ t : Fin grid3.N, cond3_1 (grid3.coords t) ↔ t.val % 208 = 207)

/-! ## Where the windows are idle -/

/-- The three input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

/-- Away from the last edge block the output window is idle: the body stores nothing into it. -/
theorem idleAt3_3 : ∀ t : Fin cfg3.N, ¬cond3_1 (grid3.coords t) → cfg3.idle 3 (grid3.coords t) = true := by
  intro t h
  show (!(k3_cond2 (grid3.coords t) == 1#1)) = true
  rw [Bool.not_eq_true', beq_eq_false_iff_ne]; exact h
/-- Away from the last edge block the output block is not written back. -/
theorem noFlush3_3 : ∀ t : Fin cfg3.N, ¬cond3_1 (grid3.coords t) → (cfg3.win 3).flush t = false := by
  intro t h
  rw [← Bool.not_eq_true]; intro hf
  exact h ((hcond3_1 t).mpr ((flush3_3 t).mp hf))
/-- At the last edge block the output window is live: the body stores its block. -/
theorem liveAt3_3 : ∀ t : Fin cfg3.N, cond3_1 (grid3.coords t) → cfg3.idle 3 (grid3.coords t) = false := by
  intro t h
  show (!(k3_cond2 (grid3.coords t) == 1#1)) = false
  rw [Bool.not_eq_false', beq_iff_eq]; exact h

/-! ## The memrefs the body is called with -/

/-- One staging buffer of the output window, through which its contents are stated. -/
abbrev VO3_3 : View sig .tc .vmem S2000x64 .f32 := (Memref.whole cc3_stg3_0 : Memref sig .tc .vmem S2000x64 .f32).view
/-- Each window's current staging memref at point t, and its wholeness. -/
abbrev ms3_0 (t : Fin cfg3.N) : Memref sig .tc .vmem S4096x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x64 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S2000x64 .f32 := Memref.whole cc3_scratch0
/-- The accumulator as a view: what it holds is stated through it. -/
abbrev VS3_0 : View sig .tc .vmem S2000x64 .f32 := scM3_0.view

/-- The region's invariant with the accumulator taken out of the scoped rest as a memref owned at some
    contents; every other scoped buffer stays one unopened conjunct. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.K.S3RunA.lean ====
/-
  Region 3 (the scatter kernel), control case A: the whole-body run.
-/
import proofs.«118646_j60988535603568_1_alg».proof.Proof.K.S3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case A — the first edge block of a node tile: the accumulator, found at any contents, is zeroed, then
    the block's contribution is added; the output window is idle and handed back untouched —,
    with the proof that on whole memrefs (the three inputs owned at their contents) the body runs to the
    continuation holding the inputs as they were and each stored buffer with its pieces written. -/
noncomputable def kernelRun3_A (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.S3RunB.lean ====
/-
  Region 3 (the scatter kernel), control case B: the whole-body run.
-/
import proofs.«118646_j60988535603568_1_alg».proof.Proof.K.S3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case B — an edge block strictly between the first and the last: the block's contribution is added to the
    accumulator the point before left; the output window is idle and handed back untouched —,
    with the proof that on whole memrefs (the three inputs owned at their contents) the body runs to the
    continuation holding the inputs as they were and each stored buffer with its pieces written. -/
noncomputable def kernelRun3_B (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.S3RunC.lean ====
/-
  Region 3 (the scatter kernel), control case C: the whole-body run.
-/
import proofs.«118646_j60988535603568_1_alg».proof.Proof.K.S3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case C — the last edge block of a node tile: the block's contribution is added to the accumulator the
    point before left, and the accumulator scaled row by row by the node norms is stored as the output block —,
    with the proof that on whole memrefs (the three inputs owned at their contents) the body runs to the
    continuation holding the inputs as they were and each stored buffer with its pieces written. -/
noncomputable def kernelRun3_C (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨?_, ?_, fun E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.S3Body.lean ====
/-
  Region 3 (the scatter kernel): what the output's staging buffer and the accumulator hold after each
  grid point, the region's proof data at any entry contents V, and the body obligation.
-/
import proofs.«118646_j60988535603568_1_alg».proof.Proof.K.S3RunA
import proofs.«118646_j60988535603568_1_alg».proof.Proof.K.S3RunB
import proofs.«118646_j60988535603568_1_alg».proof.Proof.K.S3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: at an
    unfetched point the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: at an
    unfetched point the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: at an
    unfetched point the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the output's buffer and in the accumulator -/

/-- Case A's pieces for the accumulator cover it: whole-buffer stores. -/
theorem scover3_A_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) (y : S2000x64.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2000x64.size (by sl_kernel_rfl) y

/-- What case A leaves in the accumulator: its pieces read back. -/
def sout3_A_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) : Vec F S2000x64 .f32 :=
  VS3_0.read (Elt F) (VS3_0.writes (Elt F) VS3_0.junk (kernelRun3_A c i arg2 harg2 arg3 harg3 arg4 harg4 arg5 harg5 arg6 harg6 hc0 hc1 x0 x1 x2).2.1)

/-- Case A stores nothing into the output: no pieces. The value is a placeholder nothing consults, since at these
    points the window is neither written back nor read at the next point. -/
def out3_A_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) : Vec F S2000x64 .f32 :=
  VO3_3.read (Elt F) (VO3_3.writes (Elt F) VO3_3.junk (kernelRun3_A c i arg2 harg2 arg3 harg3 arg4 harg4 arg5 harg5 arg6 harg6 hc0 hc1 x0 x1 x2).1)

/-- Case B's pieces for the accumulator cover it: whole-buffer stores. -/
theorem scover3_B_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) (y : S2000x64.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2000x64.size (by sl_kernel_rfl) y

/-- What case B leaves in the accumulator: its pieces read back. -/
def sout3_B_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) : Vec F S2000x64 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case B stores nothing into the output: no pieces. The value is a placeholder nothing consults, since at these
    points the window is neither written back nor read at the next point. -/
def out3_B_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) : Vec F S2000x64 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case C's pieces for the accumulator cover it: whole-buffer stores. -/
theorem scover3_C_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) (y : S2000x64.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2000x64.size (by sl_kernel_rfl) y

/-- What case C leaves in the accumulator: its pieces read back. -/
def sout3_C_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) : Vec F S2000x64 .f32 :=
  VS3_0.read (Elt F) (VS3_0.writes (Elt F) VS3_0.junk (kernelRun3_C c i arg2 harg2 arg3 harg3 arg4 harg4 arg5 harg5 arg6 harg6 hc0 hc1 x0 x1 x2 xs0).2.1)

/-- Case C's pieces for the output cover its block: one whole-buffer store. -/
theorem cover3_C_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) (y : S2000x64.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2000x64.size (by sl_kernel_rfl) y

/-- What case C leaves in the output's staging buffer: its pieces read back. -/
def out3_C_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) : Vec F S2000x64 .f32 :=
  VO3_3.read (Elt F) (VO3_3.writes (Elt F) VO3_3.junk (kernelRun3_C c i arg2 harg2 arg3 harg3 arg4 harg4 arg5 harg5 arg6 harg6 hc0 hc1 x0 x1 x2 xs0).1)

/-! ## What the output's buffer and the accumulator hold after each point -/

/-- THE ACCUMULATION. What the output's staging buffer (first component) and the accumulator (second component)
    hold after the body at position n: the case the closed forms select at n, run at the point's memrefs and input
    blocks, over the accumulator the point before left. -/
def outsAt3 (c : Dev nD) : (n : ℕ) → n < cfg3.N → Vec F S2000x64 .f32 × Vec F S2000x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 208 = 0 then
      if h1 : (n + 1) % 208 = 207 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 208 = 207 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- The accumulation at a point of case A. -/
theorem outsAt3_A (c : Dev nD) (t : Fin cfg3.N) (h0 : t.val % 208 = 0) (h1 : ¬t.val % 208 = 207) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- The accumulation at a point of case B: over what the point before left. -/
theorem outsAt3_B (c : Dev nD) (t : Fin cfg3.N) (h0 : ¬t.val % 208 = 0) (h1 : ¬t.val % 208 = 207) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: over what the point before left. -/
theorem outsAt3_C (c : Dev nD) (t : Fin cfg3.N) (h0 : ¬t.val % 208 = 0) (h1 : t.val % 208 = 207) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The region invariant before position n: before the first point the launch's (every scoped buffer at anything);
    afterwards the accumulator at what the point before left in it, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of region 3 on core c at the entry contents V: the arrays as the region finds them; after the body
    at point t each input's buffer at its block and the output's at the accumulation's first component; the invariant
    point by point; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- Before the first point the invariant is the launch's. -/
theorem Phi3_zero (c : Dev nD) : (dat3 V c).Φ 0 = Pipeline.ΦA spec3 c := by
  rw [show (dat3 V c).Φ 0 = PhiS3 V c 0 (Nat.zero_le _) from rfl, PhiS3_zero V c 0 _ rfl]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in;
    the invariant hands the body the accumulator at what the point before left (at anything at the first point),
    the other scoped buffers unopened and the generator register at some state, and takes the accumulator back at
    this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  by_cases h0 : t.val % 208 = 0
  · by_cases h1 : t.val % 208 = 207
    · exfalso; omega
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [Dat.leavesExact_idle (dat3 V c) 3 t (idleAt3_3 t (fun h => h1 ((hcond3_1 t).mp h))) (noFlush3_3 t (fun h => h1 ((hcond3_1 t).mp h)))]
        rw [outsAt3_A V c t h0 h1]
        unfold sout3_A_0; (try dsimp only)

        by_cases hz : t.val = 0
        · rw [PhiS3_castSucc V c t, PhiS3_zero V c _ _ hz, PhiA3_eq]
          iintro ⟨⟨⟨HS0, HR⟩, Hg⟩, Ho, ⟨%d0, H0⟩, ⟨%d1, H1⟩, ⟨%d2, H2⟩, ⟨%d3, H3⟩⟩
          iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover3_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
        · rw [PhiS3_castSucc V c t, PhiS3_pos V c _ _ hz]
          iintro ⟨⟨⟨HS0, HR⟩, Hg⟩, Ho, ⟨%d0, H0⟩, ⟨%d1, H1⟩, ⟨%d2, H2⟩, ⟨%d3, H3⟩⟩
          iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
          isplitl [H0]; · iexact H0
          isplitl [H1]; · iexact H1
          isplitl [H2]; · iexact H2
          isplitl [H3]; · iexact H3
          isplitl [HS0]; · iexists _; iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover3_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
  · by_cases h1 : t.val % 208 = 207
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t ((hcond3_1 t).mpr h1)], after3_3]
        rw [outsAt3_C V c t h0 h1]
        unfold out3_C_3 sout3_C_0; (try dsimp only)
        have hz : t.val ≠ 0 := fun e => h0 (by rw [e])
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [Dat.leavesExact_idle (dat3 V c) 3 t (idleAt3_3 t (fun h => h1 ((hcond3_1 t).mp h))) (noFlush3_3 t (fun h => h1 ((hcond3_1 t).mp h)))]
        rw [outsAt3_B V c t h0 h1]
        unfold sout3_B_0; (try dsimp only)
        have hz : t.val ≠ 0 := fun e => h0 (by rw [e])
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [Phi3_zero]
  try exact Idealize.SL.BI.Entails.refl _

/-- After any point but the first the invariant gives the launch's back: the accumulator's named contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi3_out V c _ (by rw [Fin.val_last]; have : cfg3.N = 5200 := N_3; omega)

end Region3

end Cert.Kernel.Hand

end
-- ==== Proof.K.G4Runs.lean ====
/- Region 4 (the gather kernel) of the compiled program: what its three whole-body runs share.
   The grid is 208 edge blocks by 25 node tiles, point t = 25 * e + k. The body zeroes its accumulator at
   tile 0, adds one tile's one-hot product at every tile, and at tile 24 scales the accumulator by the
   norm block and stores it as the output block. -/
import proofs.«118646_j60988535603568_1_alg».proof.Proof.Gen.Kernel.Launch
import proofs.«118646_j60988535603568_1_alg».proof.Proof.Gen.Kernel.Skeleton
import proofs.«118646_j60988535603568_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid coordinates -/

/-- The first conditional: the node-tile coordinate is 0. -/
abbrev cond4_0 (i : grid4.Coords) : Prop := (Scalar.cmpi .ne (Scalar.extui (Scalar.cmpi .eq (BitVec.ofNat 32 (i 1).val) 0#32)) 0#32) = 1#1
/-- It holds exactly at the first tile of each edge block. -/
theorem hcond4_0 : ∀ t : Fin cfg4.N, cond4_0 (grid4.coords t) ↔ t.val % 25 = 0 :=
  (by decide +kernel : ∀ t : Fin grid4.N, cond4_0 (grid4.coords t) ↔ t.val % 25 = 0)

/-- The second conditional: the node-tile coordinate is 24. -/
abbrev cond4_1 (i : grid4.Coords) : Prop := k4_cond2 i = 1#1
/-- It holds exactly at the last tile of each edge block. -/
theorem hcond4_1 : ∀ t : Fin cfg4.N, cond4_1 (grid4.coords t) ↔ t.val % 25 = 24 :=
  (by decide +kernel : ∀ t : Fin grid4.N, cond4_1 (grid4.coords t) ↔ t.val % 25 = 24)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

/-- The output window is idle exactly where the second conditional fails. -/
theorem idle4_3_eq (i : grid4.Coords) : cfg4.idle 3 i = !(k4_cond2 i == 1#1) := rfl

/-- Away from the last tile the output window is idle: nothing is stored into it. -/
theorem idleAt4_3 (t : Fin cfg4.N) (hc1 : ¬cond4_1 (grid4.coords t)) : cfg4.idle 3 (grid4.coords t) = true := by
  rw [idle4_3_eq]; simp only [Bool.not_eq_eq_eq_not, Bool.not_true, beq_eq_false_iff_ne, ne_eq]; exact hc1
/-- Away from the last tile the output block is not written back. -/
theorem noFlush4_3 (t : Fin cfg4.N) (hc1 : ¬cond4_1 (grid4.coords t)) : (cfg4.win 3).flush t = false :=
  Bool.eq_false_iff.2 fun h => hc1 ((hcond4_1 t).2 ((flush4_3 t).1 h))
/-- At the last tile the output window is live. -/
theorem liveAt4_3 (t : Fin cfg4.N) (hc1 : cond4_1 (grid4.coords t)) : cfg4.idle 3 (grid4.coords t) = false := by
  rw [idle4_3_eq]; simp only [Bool.not_eq_eq_eq_not, Bool.not_false, beq_iff_eq]; exact hc1

/-! ## The staging memrefs at a point, the scratch, and the views contents are stated through -/

abbrev VO4_3 : View sig .tc .vmem S4096x64 .bf16 := (Memref.whole cc4_stg3_0 : Memref sig .tc .vmem S4096x64 .bf16).view
abbrev ms4_0 (t : Fin cfg4.N) : Memref sig .tc .vmem S4096x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x64 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x64 .bf16 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows. -/
abbrev scM4_0 : Memref sig .tc .vmem S4096x64 .f32 := Memref.whole cc4_scratch0
abbrev VS4_0 : View sig .tc .vmem S4096x64 .f32 := scM4_0.view

/-- The region's invariant with the accumulator taken out of the scoped rest as a memref owned at some
    contents; the remainder of the scoped rest stays one unopened conjunct. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The windows' blocks at the region's entry contents -/

section Blocks
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (unfetched,
    the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
end Blocks

end Cert.Kernel.Hand

end
-- ==== Proof.K.G4RunA.lean ====
/- Region 4 (the gather kernel): the whole-body run at the first tile of an edge block: the accumulator, found at any contents, is zeroed and one tile's product added; the output buffer is handed back untouched. -/
import proofs.«118646_j60988535603568_1_alg».proof.Proof.K.G4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A, the first tile of an edge block: the accumulator, found at any contents, is zeroed and one tile's product added; the output buffer is handed back untouched.
    The pieces the stores leave in the output buffer (`L3`) and in the accumulator (`LS0`), last first, are
    read off the body's stores; with them the body's triple on whole memrefs holds: the three inputs are owned at
    their contents before and after. -/
noncomputable def kernelRun4_A (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond4_0 i) (hc1 : ¬cond4_1 i)
    (x0 : Vec F S4096x1 .i32) (x1 : Vec F S4096x1 .f32) (x2 : Vec F S2000x64 .bf16) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.G4RunB.lean ====
/- Region 4 (the gather kernel): the whole-body run at a middle tile of an edge block: one tile's product is added to the accumulator the tile before left; the output buffer is handed back untouched. -/
import proofs.«118646_j60988535603568_1_alg».proof.Proof.K.G4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B, a middle tile of an edge block: one tile's product is added to the accumulator the tile before left; the output buffer is handed back untouched.
    The pieces the stores leave in the output buffer (`L3`) and in the accumulator (`LS0`), last first, are
    read off the body's stores; with them the body's triple on whole memrefs holds: the three inputs are owned at
    their contents before and after. -/
noncomputable def kernelRun4_B (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : ¬cond4_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.G4RunC.lean ====
/- Region 4 (the gather kernel): the whole-body run at the last tile of an edge block: one tile's product is added to the accumulator the tile before left, and the scaled accumulator is stored into the output buffer, found at any contents. -/
import proofs.«118646_j60988535603568_1_alg».proof.Proof.K.G4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C, the last tile of an edge block: one tile's product is added to the accumulator the tile before left, and the scaled accumulator is stored into the output buffer, found at any contents.
    The pieces the stores leave in the output buffer (`L3`) and in the accumulator (`LS0`), last first, are
    read off the body's stores; with them the body's triple on whole memrefs holds: the three inputs are owned at
    their contents before and after. -/
noncomputable def kernelRun4_C (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.G4Body.lean ====
/- Region 4 (the gather kernel): what the accumulator and the output buffer hold after each grid point, the
   proof data of the region at any entry contents, and the body obligation. -/
import proofs.«118646_j60988535603568_1_alg».proof.Proof.K.G4RunA
import proofs.«118646_j60988535603568_1_alg».proof.Proof.K.G4RunB
import proofs.«118646_j60988535603568_1_alg».proof.Proof.K.G4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the pieces cover the buffers -/

/-- Case A's stores into the accumulator tile it. -/
theorem scover4_A_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond4_0 i) (hc1 : ¬cond4_1 i)
    (x0 : Vec F S4096x1 .i32) (x1 : Vec F S4096x1 .f32) (x2 : Vec F S2000x64 .bf16) (y : S4096x64.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S4096x64.size (by sl_kernel_rfl) y

/-- What case A leaves in the accumulator. -/
def sout4_A_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond4_0 i) (hc1 : ¬cond4_1 i)
    (x0 : Vec F S4096x1 .i32) (x1 : Vec F S4096x1 .f32) (x2 : Vec F S2000x64 .bf16) : Vec F S4096x64 .f32 :=
  VS4_0.read (Elt F) (VS4_0.writes (Elt F) VS4_0.junk (kernelRun4_A c i arg2 harg2 arg3 harg3 arg4 harg4 arg5 harg5 arg6 harg6 hc0 hc1 x0 x1 x2).2.1)

/-- Case B's stores into the accumulator tile it. -/
theorem scover4_B_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : ¬cond4_1 i)
    (x0 : Vec F S4096x1 .i32) (x1 : Vec F S4096x1 .f32) (x2 : Vec F S2000x64 .bf16) (xs0 : Vec F S4096x64 .f32) (y : S4096x64.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S4096x64.size (by sl_kernel_rfl) y

/-- What case B leaves in the accumulator. -/
def sout4_B_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : ¬cond4_1 i)
    (x0 : Vec F S4096x1 .i32) (x1 : Vec F S4096x1 .f32) (x2 : Vec F S2000x64 .bf16) (xs0 : Vec F S4096x64 .f32) : Vec F S4096x64 .f32 :=
  VS4_0.read (Elt F) (VS4_0.writes (Elt F) VS4_0.junk (kernelRun4_B c i arg2 harg2 arg3 harg3 arg4 harg4 arg5 harg5 arg6 harg6 hc0 hc1 x0 x1 x2 xs0).2.1)

/-- Case C's stores into the accumulator tile it. -/
theorem scover4_C_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) (y : S4096x64.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S4096x64.size (by sl_kernel_rfl) y

/-- What case C leaves in the accumulator. -/
def sout4_C_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) : Vec F S4096x64 .f32 :=
  VS4_0.read (Elt F) (VS4_0.writes (Elt F) VS4_0.junk (kernelRun4_C c i arg2 harg2 arg3 harg3 arg4 harg4 arg5 harg5 arg6 harg6 hc0 hc1 x0 x1 x2 xs0).2.1)

/-- Case C's store into the output buffer tiles it. -/
theorem cover4_C_3 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) (y : S4096x64.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S4096x64.size (by sl_kernel_rfl) y

/-- What case C leaves in the output buffer. -/
def out4_C_3 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) : Vec F S4096x64 .bf16 :=
  VO4_3.read (Elt F) (VO4_3.writes (Elt F) VO4_3.junk (kernelRun4_C c i arg2 harg2 arg3 harg3 arg4 harg4 arg5 harg5 arg6 harg6 hc0 hc1 x0 x1 x2 xs0).1)

/-- The output window's contents named at a point where the body stores nothing into it: never consulted, since
    there the block is neither written back nor read at the next point. -/
def out4_idle : Vec F S4096x64 .bf16 := VO4_3.read (Elt F) VO4_3.junk

/-! ## The conditions from the point's arithmetic -/

theorem r4hc0_of (t : Fin cfg4.N) (h : t.val % 25 = 0) : cond4_0 (grid4.coords t) := (hcond4_0 t).mpr h
theorem r4nhc0_of (t : Fin cfg4.N) (h : ¬t.val % 25 = 0) : ¬cond4_0 (grid4.coords t) := fun h' => h ((hcond4_0 t).mp h')
theorem r4hc1_of (t : Fin cfg4.N) (h : t.val % 25 = 24) : cond4_1 (grid4.coords t) := (hcond4_1 t).mpr h
theorem r4nhc1_of (t : Fin cfg4.N) (h : ¬t.val % 25 = 24) : ¬cond4_1 (grid4.coords t) := fun h' => h ((hcond4_1 t).mp h')
theorem r4nhc1_of0 (t : Fin cfg4.N) (h : t.val % 25 = 0) : ¬cond4_1 (grid4.coords t) := r4nhc1_of t (by omega)
theorem r4nhc0_of1 (t : Fin cfg4.N) (h : t.val % 25 = 24) : ¬cond4_0 (grid4.coords t) := r4nhc0_of t (by omega)

section Region
variable (V : (c : Dev nD) → (b : Ref sig .tc) → Buf (Elt F) ((c : Thread nD τ).loc b))

/-! ## One point's step, at the point's memrefs and input blocks -/

/-- The accumulator after a first tile. -/
def stepA4 (c : Dev nD) (t : Fin cfg4.N) (h0 : t.val % 25 = 0) : Vec F S4096x64 .f32 :=
  sout4_A_0 c (grid4.coords t) (ms4_0 t) (hs4_0 t) (ms4_1 t) (hs4_1 t) (ms4_2 t) (hs4_2 t) (ms4_3 t) (hs4_3 t) scM4_0 (Memref.isWhole_whole _) (r4hc0_of t h0) (r4nhc1_of0 t h0) (iblk4 V c 0 t) (iblk4 V c 1 t) (iblk4 V c 2 t)
/-- The accumulator after a middle tile, from what the tile before left. -/
def stepB4 (c : Dev nD) (t : Fin cfg4.N) (h0 : ¬t.val % 25 = 0) (h1 : ¬t.val % 25 = 24) (xs : Vec F S4096x64 .f32) : Vec F S4096x64 .f32 :=
  sout4_B_0 c (grid4.coords t) (ms4_0 t) (hs4_0 t) (ms4_1 t) (hs4_1 t) (ms4_2 t) (hs4_2 t) (ms4_3 t) (hs4_3 t) scM4_0 (Memref.isWhole_whole _) (r4nhc0_of t h0) (r4nhc1_of t h1) (iblk4 V c 0 t) (iblk4 V c 1 t) (iblk4 V c 2 t) xs
/-- The accumulator after a last tile, from what the tile before left. -/
def stepC4 (c : Dev nD) (t : Fin cfg4.N) (h1 : t.val % 25 = 24) (xs : Vec F S4096x64 .f32) : Vec F S4096x64 .f32 :=
  sout4_C_0 c (grid4.coords t) (ms4_0 t) (hs4_0 t) (ms4_1 t) (hs4_1 t) (ms4_2 t) (hs4_2 t) (ms4_3 t) (hs4_3 t) scM4_0 (Memref.isWhole_whole _) (r4nhc0_of1 t h1) (r4hc1_of t h1) (iblk4 V c 0 t) (iblk4 V c 1 t) (iblk4 V c 2 t) xs
/-- The output buffer after a last tile, from what the tile before left in the accumulator. -/
def stepO4 (c : Dev nD) (t : Fin cfg4.N) (h1 : t.val % 25 = 24) (xs : Vec F S4096x64 .f32) : Vec F S4096x64 .bf16 :=
  out4_C_3 c (grid4.coords t) (ms4_0 t) (hs4_0 t) (ms4_1 t) (hs4_1 t) (ms4_2 t) (hs4_2 t) (ms4_3 t) (hs4_3 t) scM4_0 (Memref.isWhole_whole _) (r4nhc0_of1 t h1) (r4hc1_of t h1) (iblk4 V c 0 t) (iblk4 V c 1 t) (iblk4 V c 2 t) xs

/-! ## What the output buffer and the accumulator hold after each point -/

/-- The accumulation, by recursion on the point: (the output buffer, the accumulator) after the body at point `n`.
    A first tile restarts the accumulator; a middle tile adds to what the point before left; a last tile adds and
    also stores the scaled accumulator as the output block. -/
def outsAt4 (c : Dev nD) : (n : ℕ) → n < cfg4.N → Vec F S4096x64 .bf16 × Vec F S4096x64 .f32
  | 0, hn => (out4_idle, stepA4 V c ⟨0, hn⟩ (Nat.zero_mod _))
  | n + 1, hn =>
    if h0 : (n + 1) % 25 = 0 then
      (out4_idle, stepA4 V c ⟨n + 1, hn⟩ h0)
    else
      if h1 : (n + 1) % 25 = 24 then
        (stepO4 V c ⟨n + 1, hn⟩ h1 (outsAt4 c n (Nat.lt_of_succ_lt hn)).2, stepC4 V c ⟨n + 1, hn⟩ h1 (outsAt4 c n (Nat.lt_of_succ_lt hn)).2)
      else
        (out4_idle, stepB4 V c ⟨n + 1, hn⟩ h0 h1 (outsAt4 c n (Nat.lt_of_succ_lt hn)).2)

/-- The accumulator the point before `t` left. -/
abbrev prevS4 (c : Dev nD) (t : Fin cfg4.N) : Vec F S4096x64 .f32 :=
  (outsAt4 V c (t.val - 1) (Nat.lt_of_le_of_lt (Nat.sub_le _ _) t.isLt)).2

theorem outsAt4_A (c : Dev nD) (t : Fin cfg4.N) (h0 : t.val % 25 = 0) :
    outsAt4 V c t.val t.isLt = (out4_idle, stepA4 V c t h0) := by
  obtain ⟨n, hn⟩ := t
  cases n with
  | zero => exact rfl
  | succ n => exact (dif_pos h0).trans rfl

theorem outsAt4_B (c : Dev nD) (t : Fin cfg4.N) (h0 : ¬t.val % 25 = 0) (h1 : ¬t.val % 25 = 24) :
    outsAt4 V c t.val t.isLt = (out4_idle, stepB4 V c t h0 h1 (prevS4 V c t)) := by
  obtain ⟨n, hn⟩ := t
  cases n with
  | zero => exact absurd (Nat.zero_mod _) h0
  | succ n => exact (dif_neg h0).trans ((dif_neg h1).trans rfl)

theorem outsAt4_C (c : Dev nD) (t : Fin cfg4.N) (h1 : t.val % 25 = 24) :
    outsAt4 V c t.val t.isLt = (stepO4 V c t h1 (prevS4 V c t), stepC4 V c t h1 (prevS4 V c t)) := by
  obtain ⟨n, hn⟩ := t
  cases n with
  | zero => exact (by exfalso; (try dsimp only at h1); omega)
  | succ n => exact (dif_neg (show ¬(n + 1) % 25 = 0 from fun h => by (try dsimp only at h1); omega)).trans ((dif_pos h1).trans rfl)

/-! ## The region's invariant, point by point -/

/-- Before the first point the region's own invariant (the accumulator at anything); afterwards the accumulator at
    what the point before left, the remainder of the scoped rest unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The region's proof data -/

/-- The arrays as the region finds them; after the body each input's buffer at its block and the output's at
    `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem Phi4_zero (c : Dev nD) : (dat4 V c).Φ 0 = Pipeline.ΦA spec4 c := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point. The inputs' memrefs hold their blocks; the point's residue mod 25 says which of the
    three cases it is in; the invariant hands the body the accumulator at what the point before left (at anything
    at the very first point) and takes it back at this point's contents; away from a last tile the output buffer
    is handed back as found, at a last tile it holds the case's store. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 5200 := lt_of_lt_of_eq t.isLt (show cfg4.N = 5200 from N_4)
  by_cases h0 : t.val % 25 = 0
  · rw [Dat.leavesExact_idle (dat4 V c) 3 t (idleAt4_3 t (r4nhc1_of0 t h0)) (noFlush4_3 t (r4nhc1_of0 t h0))]
    rw [outsAt4_A V c t h0]
    unfold stepA4 sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (r4hc0_of t h0) (r4nhc1_of0 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (r4hc0_of t h0) (r4nhc1_of0 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 25 = 24
    · rw [show (dat4 V c).leavesExact 3 t = owns (c : Thread nD τ) (ms4_3 t) fullShare ((dat4 V c).after 3 t) from by
        unfold Dat.leavesExact; rw [liveAt4_3 t (r4hc1_of t h1)], after4_3]
      rw [outsAt4_C V c t h1]
      unfold stepO4 stepC4 out4_C_3 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_C c (grid4.coords t) _ _ _ _ _ _ _ _ _ _ (r4nhc0_of1 t h1) (r4hc1_of t h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3 t (r4nhc1_of t h1)) (noFlush4_3 t (r4nhc1_of t h1))]
      rw [outsAt4_B V c t h0 h1]
      unfold stepB4 sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_B c (grid4.coords t) _ _ _ _ _ _ _ _ _ _ (r4nhc0_of t h0) (r4nhc1_of t h1) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [Phi4_zero]
  try exact Idealize.SL.BI.Entails.refl _

/-- After any point but the first the invariant gives the region's own back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 5200 := N_4; omega)

end Region

end Cert.Kernel.Hand

end
-- ==== Proof.K.S5Runs.lean ====
/-
  Region 5 (the scatter kernel): what the three control cases of its body share.
  The grid is 25 node tiles by 208 edge blocks; point t is node tile t / 208, edge block t % 208.
  The first conditional (zero the accumulator) holds exactly at edge block 0, the second (scale the
  accumulator by the node norms and store the output block) exactly at edge block 207.
-/
import proofs.«118646_j60988535603568_1_alg».proof.Proof.Gen.Kernel.Launch
import proofs.«118646_j60988535603568_1_alg».proof.Proof.Gen.Kernel.Skeleton
import proofs.«118646_j60988535603568_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition: the edge-block coordinate is 0. -/
abbrev cond5_0 (i : grid5.Coords) : Prop := (Scalar.cmpi .ne (Scalar.extui (Scalar.cmpi .eq (BitVec.ofNat 32 (i 1).val) 0#32)) 0#32) = 1#1
/-- It holds exactly at the first edge block of each node tile. -/
theorem hcond5_0 : ∀ t : Fin cfg5.N, cond5_0 (grid5.coords t) ↔ t.val % 208 = 0 :=
  (by decide +kernel : ∀ t : Fin grid5.N, cond5_0 (grid5.coords t) ↔ t.val % 208 = 0)

/-- The second conditional's condition: the edge-block coordinate is 207. -/
abbrev cond5_1 (i : grid5.Coords) : Prop := k5_cond2 i = 1#1
/-- It holds exactly at the last edge block of each node tile. -/
theorem hcond5_1 : ∀ t : Fin cfg5.N, cond5_1 (grid5.coords t) ↔ t.val % 208 = 207 :=
  (by decide +kernel : ∀ t : Fin grid5.N, cond5_1 (grid5.coords t) ↔ t.val % 208 = 207)

/-! ## Where the windows are idle -/

/-- The three input windows are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl

/-- Away from the last edge block the output window is idle: the body stores nothing into it. -/
theorem idleAt5_3 : ∀ t : Fin cfg5.N, ¬cond5_1 (grid5.coords t) → cfg5.idle 3 (grid5.coords t) = true := by
  intro t h
  show (!(k5_cond2 (grid5.coords t) == 1#1)) = true
  rw [Bool.not_eq_true', beq_eq_false_iff_ne]; exact h
/-- Away from the last edge block the output block is not written back. -/
theorem noFlush5_3 : ∀ t : Fin cfg5.N, ¬cond5_1 (grid5.coords t) → (cfg5.win 3).flush t = false := by
  intro t h
  rw [← Bool.not_eq_true]; intro hf
  exact h ((hcond5_1 t).mpr ((flush5_3 t).mp hf))
/-- At the last edge block the output window is live: the body stores its block. -/
theorem liveAt5_3 : ∀ t : Fin cfg5.N, cond5_1 (grid5.coords t) → cfg5.idle 3 (grid5.coords t) = false := by
  intro t h
  show (!(k5_cond2 (grid5.coords t) == 1#1)) = false
  rw [Bool.not_eq_false', beq_iff_eq]; exact h

/-! ## The memrefs the body is called with -/

/-- One staging buffer of the output window, through which its contents are stated. -/
abbrev VO5_3 : View sig .tc .vmem S2000x64 .f32 := (Memref.whole cc5_stg3_0 : Memref sig .tc .vmem S2000x64 .f32).view
/-- Each window's current staging memref at point t, and its wholeness. -/
abbrev ms5_0 (t : Fin cfg5.N) : Memref sig .tc .vmem S4096x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2000x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2000x64 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows. -/
abbrev scM5_0 : Memref sig .tc .vmem S2000x64 .f32 := Memref.whole cc5_scratch0
/-- The accumulator as a view: what it holds is stated through it. -/
abbrev VS5_0 : View sig .tc .vmem S2000x64 .f32 := scM5_0.view

/-- The region's invariant with the accumulator taken out of the scoped rest as a memref owned at some
    contents; every other scoped buffer stays one unopened conjunct. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.K.S5RunA.lean ====
/-
  Region 5 (the scatter kernel), control case A: the whole-body run.
-/
import proofs.«118646_j60988535603568_1_alg».proof.Proof.K.S5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case A — the first edge block of a node tile: the accumulator, found at any contents, is zeroed, then
    the block's contribution is added; the output window is idle and handed back untouched —,
    with the proof that on whole memrefs (the three inputs owned at their contents) the body runs to the
    continuation holding the inputs as they were and each stored buffer with its pieces written. -/
noncomputable def kernelRun5_A (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.S5RunB.lean ====
/-
  Region 5 (the scatter kernel), control case B: the whole-body run.
-/
import proofs.«118646_j60988535603568_1_alg».proof.Proof.K.S5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case B — an edge block strictly between the first and the last: the block's contribution is added to the
    accumulator the point before left; the output window is idle and handed back untouched —,
    with the proof that on whole memrefs (the three inputs owned at their contents) the body runs to the
    continuation holding the inputs as they were and each stored buffer with its pieces written. -/
noncomputable def kernelRun5_B (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.S5RunC.lean ====
/-
  Region 5 (the scatter kernel), control case C: the whole-body run.
-/
import proofs.«118646_j60988535603568_1_alg».proof.Proof.K.S5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case C — the last edge block of a node tile: the block's contribution is added to the accumulator the
    point before left, and the accumulator scaled row by row by the node norms is stored as the output block —,
    with the proof that on whole memrefs (the three inputs owned at their contents) the body runs to the
    continuation holding the inputs as they were and each stored buffer with its pieces written. -/
noncomputable def kernelRun5_C (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.S5Body.lean ====
/-
  Region 5 (the scatter kernel): what the output's staging buffer and the accumulator hold after each
  grid point, the region's proof data at any entry contents V, and the body obligation.
-/
import proofs.«118646_j60988535603568_1_alg».proof.Proof.K.S5RunA
import proofs.«118646_j60988535603568_1_alg».proof.Proof.K.S5RunB
import proofs.«118646_j60988535603568_1_alg».proof.Proof.K.S5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: at an
    unfetched point the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: at an
    unfetched point the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: at an
    unfetched point the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves in the output's buffer and in the accumulator -/

/-- Case A's pieces for the accumulator cover it: whole-buffer stores. -/
theorem scover5_A_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) (y : S2000x64.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S2000x64.size (by sl_kernel_rfl) y

/-- What case A leaves in the accumulator: its pieces read back. -/
def sout5_A_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) : Vec F S2000x64 .f32 :=
  VS5_0.read (Elt F) (VS5_0.writes (Elt F) VS5_0.junk (kernelRun5_A c i arg2 harg2 arg3 harg3 arg4 harg4 arg5 harg5 arg6 harg6 hc0 hc1 x0 x1 x2).2.1)

/-- Case A stores nothing into the output: no pieces. The value is a placeholder nothing consults, since at these
    points the window is neither written back nor read at the next point. -/
def out5_A_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) : Vec F S2000x64 .f32 :=
  VO5_3.read (Elt F) (VO5_3.writes (Elt F) VO5_3.junk (kernelRun5_A c i arg2 harg2 arg3 harg3 arg4 harg4 arg5 harg5 arg6 harg6 hc0 hc1 x0 x1 x2).1)

/-- Case B's pieces for the accumulator cover it: whole-buffer stores. -/
theorem scover5_B_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) (y : S2000x64.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S2000x64.size (by sl_kernel_rfl) y

/-- What case B leaves in the accumulator: its pieces read back. -/
def sout5_B_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) : Vec F S2000x64 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- Case B stores nothing into the output: no pieces. The value is a placeholder nothing consults, since at these
    points the window is neither written back nor read at the next point. -/
def out5_B_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) : Vec F S2000x64 .f32 :=
  VO5_3.read (Elt F) (VO5_3.writes (Elt F) VO5_3.junk (kernelRun5_B c i arg2 harg2 arg3 harg3 arg4 harg4 arg5 harg5 arg6 harg6 hc0 hc1 x0 x1 x2 xs0).1)

/-- Case C's pieces for the accumulator cover it: whole-buffer stores. -/
theorem scover5_C_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) (y : S2000x64.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S2000x64.size (by sl_kernel_rfl) y

/-- What case C leaves in the accumulator: its pieces read back. -/
def sout5_C_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) : Vec F S2000x64 .f32 :=
  VS5_0.read (Elt F) (VS5_0.writes (Elt F) VS5_0.junk (kernelRun5_C c i arg2 harg2 arg3 harg3 arg4 harg4 arg5 harg5 arg6 harg6 hc0 hc1 x0 x1 x2 xs0).2.1)

/-- Case C's pieces for the output cover its block: one whole-buffer store. -/
theorem cover5_C_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) (y : S2000x64.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S2000x64.size (by sl_kernel_rfl) y

/-- What case C leaves in the output's staging buffer: its pieces read back. -/
def out5_C_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) : Vec F S2000x64 .f32 :=
  VO5_3.read (Elt F) (VO5_3.writes (Elt F) VO5_3.junk (kernelRun5_C c i arg2 harg2 arg3 harg3 arg4 harg4 arg5 harg5 arg6 harg6 hc0 hc1 x0 x1 x2 xs0).1)

/-! ## What the output's buffer and the accumulator hold after each point -/

/-- THE ACCUMULATION. What the output's staging buffer (first component) and the accumulator (second component)
    hold after the body at position n: the case the closed forms select at n, run at the point's memrefs and input
    blocks, over the accumulator the point before left. -/
def outsAt5 (c : Dev nD) : (n : ℕ) → n < cfg5.N → Vec F S2000x64 .f32 × Vec F S2000x64 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h' => by (try dsimp only at h'); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h' => by (try dsimp only at h'); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 208 = 0 then
      if h1 : (n + 1) % 208 = 207 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 208 = 207 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- The accumulation at a point of case A. -/
theorem outsAt5_A (c : Dev nD) (t : Fin cfg5.N) (h0 : t.val % 208 = 0) (h1 : ¬t.val % 208 = 207) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- The accumulation at a point of case B: over what the point before left. -/
theorem outsAt5_B (c : Dev nD) (t : Fin cfg5.N) (h0 : ¬t.val % 208 = 0) (h1 : ¬t.val % 208 = 207) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: over what the point before left. -/
theorem outsAt5_C (c : Dev nD) (t : Fin cfg5.N) (h0 : ¬t.val % 208 = 0) (h1 : t.val % 208 = 207) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The region invariant before position n: before the first point the launch's (every scoped buffer at anything);
    afterwards the accumulator at what the point before left in it, the other scoped buffers unopened, and the
    generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point n (before point n + 1): the accumulator at that point's contents. -/
theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of region 5 on core c at the entry contents V: the arrays as the region finds them; after the body
    at point t each input's buffer at its block and the output's at the accumulation's first component; the invariant
    point by point; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- Before the first point the invariant is the launch's. -/
theorem Phi5_zero (c : Dev nD) : (dat5 V c).Φ 0 = Pipeline.ΦA spec5 c := by
  rw [show (dat5 V c).Φ 0 = PhiS5 V c 0 (Nat.zero_le _) from rfl, PhiS5_zero V c 0 _ rfl]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in;
    the invariant hands the body the accumulator at what the point before left (at anything at the first point),
    the other scoped buffers unopened and the generator register at some state, and takes the accumulator back at
    this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  by_cases h0 : t.val % 208 = 0
  · by_cases h1 : t.val % 208 = 207
    · exfalso; omega
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [Dat.leavesExact_idle (dat5 V c) 3 t (idleAt5_3 t (fun h => h1 ((hcond5_1 t).mp h))) (noFlush5_3 t (fun h => h1 ((hcond5_1 t).mp h)))]
        rw [outsAt5_A V c t h0 h1]
        unfold sout5_A_0; (try dsimp only)

        by_cases hz : t.val = 0
        · rw [PhiS5_castSucc V c t, PhiS5_zero V c _ _ hz, PhiA5_eq]
          iintro ⟨⟨⟨HS0, HR⟩, Hg⟩, Ho, ⟨%d0, H0⟩, ⟨%d1, H1⟩, ⟨%d2, H2⟩, ⟨%d3, H3⟩⟩
          iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover5_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
        · rw [PhiS5_castSucc V c t, PhiS5_pos V c _ _ hz]
          iintro ⟨⟨⟨HS0, HR⟩, Hg⟩, Ho, ⟨%d0, H0⟩, ⟨%d1, H1⟩, ⟨%d2, H2⟩, ⟨%d3, H3⟩⟩
          iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
          isplitl [H0]; · iexact H0
          isplitl [H1]; · iexact H1
          isplitl [H2]; · iexact H2
          isplitl [H3]; · iexact H3
          isplitl [HS0]; · iexists _; iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover5_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
  · by_cases h1 : t.val % 208 = 207
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t ((hcond5_1 t).mpr h1)], after5_3]
        rw [outsAt5_C V c t h0 h1]
        unfold out5_C_3 sout5_C_0; (try dsimp only)
        have hz : t.val ≠ 0 := fun e => h0 (by rw [e])
        rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [Dat.leavesExact_idle (dat5 V c) 3 t (idleAt5_3 t (fun h => h1 ((hcond5_1 t).mp h))) (noFlush5_3 t (fun h => h1 ((hcond5_1 t).mp h)))]
        rw [outsAt5_B V c t h0 h1]
        unfold sout5_B_0; (try dsimp only)
        have hz : t.val ≠ 0 := fun e => h0 (by rw [e])
        rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [Phi5_zero]
  try exact Idealize.SL.BI.Entails.refl _

/-- After any point but the first the invariant gives the launch's back: the accumulator's named contents are forgotten. -/
theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi5_out V c _ (by rw [Fin.val_last]; have : cfg5.N = 5200 := N_5; omega)

end Region5

end Cert.Kernel.Hand

end
-- ==== Proof.K.Frames.lean ====
/-
  The six regions' halves put together: each region's proof data, arrays, invariant and body obligation as the
  record the launch takes, and the program's run and frame from them.
-/
import proofs.«118646_j60988535603568_1_alg».proof.Defs
import proofs.«118646_j60988535603568_1_alg».proof.Proof.Gen.Kernel
import proofs.«118646_j60988535603568_1_alg».proof.Proof.Gen.Pre_finite_inputs
import proofs.«118646_j60988535603568_1_alg».proof.Proof.K.Assemble
import proofs.«118646_j60988535603568_1_alg».proof.Proof.K.G0Body
import proofs.«118646_j60988535603568_1_alg».proof.Proof.K.S1Body
import proofs.«118646_j60988535603568_1_alg».proof.Proof.K.G2Body
import proofs.«118646_j60988535603568_1_alg».proof.Proof.K.S3Body
import proofs.«118646_j60988535603568_1_alg».proof.Proof.K.G4Body
import proofs.«118646_j60988535603568_1_alg».proof.Proof.K.S5Body

noncomputable section

namespace Cert.Kernel.Hand

open Cert.Kernel Cert.Kernel.Gen
open Idealize.ShloMosaic Idealize.ShloMosaic.TcCoe Idealize.SL.Sem

variable {F : FTy → Type} [FloatOps F]

/-- Region 0's record. -/
def D0 : RD0 F := ⟨dat0, A_eq0, fun _ _ _ => rfl, fun _ _ _ => rfl, fun _ _ _ => rfl, Phi0_zero, hout0, body_obligation0⟩
/-- Region 1's record. -/
def D1 : RD1 F := ⟨dat1, A_eq1, fun _ _ _ => rfl, fun _ _ _ => rfl, fun _ _ _ => rfl, Phi1_zero, hout1, body_obligation1⟩
/-- Region 2's record. -/
def D2 : RD2 F := ⟨dat2, A_eq2, fun _ _ _ => rfl, fun _ _ _ => rfl, fun _ _ _ => rfl, Phi2_zero, hout2, body_obligation2⟩
/-- Region 3's record. -/
def D3 : RD3 F := ⟨dat3, A_eq3, fun _ _ _ => rfl, fun _ _ _ => rfl, fun _ _ _ => rfl, Phi3_zero, hout3, body_obligation3⟩
/-- Region 4's record. -/
def D4 : RD4 F := ⟨dat4, A_eq4, fun _ _ _ => rfl, fun _ _ _ => rfl, fun _ _ _ => rfl, Phi4_zero, hout4, body_obligation4⟩
/-- Region 5's record. -/
def D5 : RD5 F := ⟨dat5, A_eq5, fun _ _ _ => rfl, fun _ _ _ => rfl, fun _ _ _ => rfl, Phi5_zero, hout5, body_obligation5⟩

/-- The program's run: it terminates, nothing faulting, with the result array at the last valuation and the arguments kept. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v58) = V26 m (outs m (D0 (F := F)) D1 D2 D3 D4 D5) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_value m (D0 (F := F)) D1 D2 D3 D4 D5 ρ

end Cert.Kernel.Hand

namespace Cert.Proof.KernelClaims

open Idealize.ShloMosaic Idealize.SL.Sem

/-- The frame: the run, its result forgotten. -/
theorem frame : Cert.frame_Kernel := fun m ρ _ =>
  (θ_run (Cert.Kernel.defs (F := Bits)) _ _).mono (fun _ h c => (h c).2) (Cert.Kernel.Hand.run_all (F := Bits) m ρ)

end Cert.Proof.KernelClaims

end
-- ==== Proof.KI.RunCond.lean ====
/-
  The run of the idealized kernel program's @main as the list of its segments (the host stretches between the six
  kernel regions, and the regions), with a post that NAMES the result array: after the last segment a core holds
  every unscoped buffer at the last valuation, so the final memory's result array is that valuation's, and every
  argument array is the launch memory's (no stretch and no region writes one).
-/
import proofs.«118646_j60988535603568_1_alg».proof.Proof.Gen.KernelIdeal.Regions

set_option maxRecDepth 1108

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- The run of @main given the six regions' records, each entered from the thread state before it and left at the one
    after it: every weakly fair execution from memory `m` with zero counters terminates, and every final memory holds
    the result array at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V11 m c) ∗ E 0 c) ⊢ R0.pre c)
    (hpost0 : ∀ c : Dev nD, R0.post c ⊢ iprop(StableHlo.held (c : Thread nD τ) (Pipeline.ucRefs τ sig) (V12 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V16 m outs c) ∗ E 2 c) ⊢ R2.pre c)
    (hpost2 : ∀ c : Dev nD, R2.post c ⊢ iprop(StableHlo.held (c : Thread nD τ) (Pipeline.ucRefs τ sig) (V17 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V17 m outs c) ∗ E 3 c) ⊢ R3.pre c)
    (hpost3 : ∀ c : Dev nD, R3.post c ⊢ iprop(StableHlo.held (c : Thread nD τ) (Pipeline.ucRefs τ sig) (V18 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V21 m outs c) ∗ E 4 c) ⊢ R4.pre c)
    (hpost4 : ∀ c : Dev nD, R4.post c ⊢ iprop(StableHlo.held (c : Thread nD τ) (Pipeline.ucRefs τ sig) (V22 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V22 m outs c) ∗ E 5 c) ⊢ R5.pre c)
    (hpost5 : ∀ c : Dev nD, R5.post c ⊢ iprop(StableHlo.held (c : Thread nD τ) (Pipeline.ucRefs τ sig) (V23 m outs c) ∗ E 6 c)) :
    θ_run defs (onTc (τ := τ) (main (F := F))) ⟨m, fun _ => 0, ρ⟩ (fun r => ∀ c : Dev nD,
      r.2.mem ((c.tc : Thread nD τ).loc main_v58) = V26 m outs c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6,
          StableHlo.seq hostOps6_1,
          StableHlo.seq hostOps6_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, .rfl, .rfl, .rfl, .rfl, .rfl, .rfl, .rfl, .rfl, .rfl, .rfl, hpre0 c, (hpost0 c).trans (hpre1 c), hpost1 c, .rfl, .rfl, hpre2 c, (hpost2 c).trans (hpre3 c), hpost3 c, .rfl, .rfl, hpre4 c, (hpost4 c).trans (hpre5 c), hpost5 c, .rfl, .rfl, sep_mono .rfl (hE6 c)⟩)
    (hinit := ?_) (QY := fun c s => s.mem ((c.tc : Thread nD τ).loc main_v58) = V26 m outs c main_v58 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact ⟨h (Proc.devRef .tc main_v58) (Finset.mem_filter.mpr ⟨StableHlo.devRef_mem_tcRefs main_v58, by decide⟩),
        (h (Proc.devRef .tc main_arg0) (Finset.mem_filter.mpr ⟨StableHlo.devRef_mem_tcRefs main_arg0, by decide⟩)).trans (V26_main_arg0 m outs c),
        (h (Proc.devRef .tc main_arg1) (Finset.mem_filter.mpr ⟨StableHlo.devRef_mem_tcRefs main_arg1, by decide⟩)).trans (V26_main_arg1 m outs c),
        (h (Proc.devRef .tc main_arg2) (Finset.mem_filter.mpr ⟨StableHlo.devRef_mem_tcRefs main_arg2, by decide⟩)).trans (V26_main_arg2 m outs c),
        (h (Proc.devRef .tc main_arg3) (Finset.mem_filter.mpr ⟨StableHlo.devRef_mem_tcRefs main_arg3, by decide⟩)).trans (V26_main_arg3 m outs c),
        (h (Proc.devRef .tc main_arg4) (Finset.mem_filter.mpr ⟨StableHlo.devRef_mem_tcRefs main_arg4, by decide⟩)).trans (V26_main_arg4 m outs c),
        (h (Proc.devRef .tc main_arg5) (Finset.mem_filter.mpr ⟨StableHlo.devRef_mem_tcRefs main_arg5, by decide⟩)).trans (V26_main_arg5 m outs c),
        (h (Proc.devRef .tc main_arg6) (Finset.mem_filter.mpr ⟨StableHlo.devRef_mem_tcRefs main_arg6, by decide⟩)).trans (V26_main_arg6 m outs c),
        (h (Proc.devRef .tc main_arg7) (Finset.mem_filter.mpr ⟨StableHlo.devRef_mem_tcRefs main_arg7, by decide⟩)).trans (V26_main_arg7 m outs c),
        (h (Proc.devRef .tc main_arg8) (Finset.mem_filter.mpr ⟨StableHlo.devRef_mem_tcRefs main_arg8, by decide⟩)).trans (V26_main_arg8 m outs c)⟩
    · iexact HSI

end Cert.KernelIdeal.Hand

end
-- ==== Proof.KI.Assemble.lean ====
/-
  The launch of the six kernel regions of the idealized kernel program as segments of @main, given each region's
  half of the proof (its proof data and body obligation at any entry contents): the contents of every unscoped
  buffer between two segments, the six region records, and the run, whose post names the result array and keeps
  the arguments. Between two segments a core holds every unscoped buffer whole beside its generator register and
  its (empty) dues; a region takes its four arrays out of them, runs the pipeline, and puts them back with the
  output array at what the write-backs leave.
-/
import proofs.«118646_j60988535603568_1_alg».proof.Proof.Gen.KernelIdeal.Regions
import proofs.«118646_j60988535603568_1_alg».proof.Proof.KI.RunCond
import proofs.«118646_j60988535603568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- What region 0's half of the proof supplies, for any contents `V` the region is entered at: the proof data, with its
    arrays read off `V`, every share full, nothing owed, no bound on the recorded pairs, the invariant at the first
    point the launch's own, at the last point giving it back, and the body obligation at every point. -/
structure RD0 (F : FTy → Type) [FloatOps F] where
  dat : (V : (c : Dev nD) → (b : Ref sig .tc) → Buf (Elt F) ((c : Thread nD τ).loc b)) → (c : Dev nD) → Dat τ (Elt F) Unit ℕ (UR sig nD τ) ℕ cfg0 c
  hA : ∀ V c (w : Fin cfg0.W), (dat V c).A w = V c (Pipeline.arrRef spec0 w)
  hq : ∀ V c (w : Fin cfg0.W), (dat V c).q w = fullShare
  howed : ∀ V c t, (dat V c).owed t = 0
  hrec : ∀ V c t, (dat V c).recorded t = Set.univ
  hΦ0 : ∀ V c, (dat V c).Φ 0 = Pipeline.ΦA spec0 c
  hΦout : ∀ V c, (dat V c).Φ (Fin.last cfg0.N) ⊢ Pipeline.ΦA spec0 c
  hbody : ∀ V c, BodyObligation (dat V c) (defs₀ (F := F)) Variants.none () Set.univ

/-- What region 1's half of the proof supplies, for any contents `V` the region is entered at: the proof data, with its
    arrays read off `V`, every share full, nothing owed, no bound on the recorded pairs, the invariant at the first
    point the launch's own, at the last point giving it back, and the body obligation at every point. -/
structure RD1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  hA : ∀ V c (w : Fin cfg1.W), (dat V c).A w = V c (Pipeline.arrRef spec1 w)
  hq : ∀ V c (w : Fin cfg1.W), (dat V c).q w = fullShare
  howed : ∀ V c t, (dat V c).owed t = 0
  hrec : ∀ V c t, (dat V c).recorded t = Set.univ
  hΦ0 : ∀ V c, (dat V c).Φ 0 = Pipeline.ΦA spec1 c
  hΦout : ∀ V c, (dat V c).Φ (Fin.last cfg1.N) ⊢ Pipeline.ΦA spec1 c
  hbody : ∀ V c, BodyObligation (dat V c) (defs₀ (F := F)) Variants.none () Set.univ

/-- What region 2's half of the proof supplies, for any contents `V` the region is entered at: the proof data, with its
    arrays read off `V`, every share full, nothing owed, no bound on the recorded pairs, the invariant at the first
    point the launch's own, at the last point giving it back, and the body obligation at every point. -/
structure RD2 (F : FTy → Type) [FloatOps F] where
  dat : (V : (c : Dev nD) → (b : Ref sig .tc) → Buf (Elt F) ((c : Thread nD τ).loc b)) → (c : Dev nD) → Dat τ (Elt F) Unit ℕ (UR sig nD τ) ℕ cfg2 c
  hA : ∀ V c (w : Fin cfg2.W), (dat V c).A w = V c (Pipeline.arrRef spec2 w)
  hq : ∀ V c (w : Fin cfg2.W), (dat V c).q w = fullShare
  howed : ∀ V c t, (dat V c).owed t = 0
  hrec : ∀ V c t, (dat V c).recorded t = Set.univ
  hΦ0 : ∀ V c, (dat V c).Φ 0 = Pipeline.ΦA spec2 c
  hΦout : ∀ V c, (dat V c).Φ (Fin.last cfg2.N) ⊢ Pipeline.ΦA spec2 c
  hbody : ∀ V c, BodyObligation (dat V c) (defs₀ (F := F)) Variants.none () Set.univ

/-- What region 3's half of the proof supplies, for any contents `V` the region is entered at: the proof data, with its
    arrays read off `V`, every share full, nothing owed, no bound on the recorded pairs, the invariant at the first
    point the launch's own, at the last point giving it back, and the body obligation at every point. -/
structure RD3 (F : FTy → Type) [FloatOps F] where
  dat : (V : (c : Dev nD) → (b : Ref sig .tc) → Buf (Elt F) ((c : Thread nD τ).loc b)) → (c : Dev nD) → Dat τ (Elt F) Unit ℕ (UR sig nD τ) ℕ cfg3 c
  hA : ∀ V c (w : Fin cfg3.W), (dat V c).A w = V c (Pipeline.arrRef spec3 w)
  hq : ∀ V c (w : Fin cfg3.W), (dat V c).q w = fullShare
  howed : ∀ V c t, (dat V c).owed t = 0
  hrec : ∀ V c t, (dat V c).recorded t = Set.univ
  hΦ0 : ∀ V c, (dat V c).Φ 0 = Pipeline.ΦA spec3 c
  hΦout : ∀ V c, (dat V c).Φ (Fin.last cfg3.N) ⊢ Pipeline.ΦA spec3 c
  hbody : ∀ V c, BodyObligation (dat V c) (defs₀ (F := F)) Variants.none () Set.univ

/-- What region 4's half of the proof supplies, for any contents `V` the region is entered at: the proof data, with its
    arrays read off `V`, every share full, nothing owed, no bound on the recorded pairs, the invariant at the first
    point the launch's own, at the last point giving it back, and the body obligation at every point. -/
structure RD4 (F : FTy → Type) [FloatOps F] where
  dat : (V : (c : Dev nD) → (b : Ref sig .tc) → Buf (Elt F) ((c : Thread nD τ).loc b)) → (c : Dev nD) → Dat τ (Elt F) Unit ℕ (UR sig nD τ) ℕ cfg4 c
  hA : ∀ V c (w : Fin cfg4.W), (dat V c).A w = V c (Pipeline.arrRef spec4 w)
  hq : ∀ V c (w : Fin cfg4.W), (dat V c).q w = fullShare
  howed : ∀ V c t, (dat V c).owed t = 0
  hrec : ∀ V c t, (dat V c).recorded t = Set.univ
  hΦ0 : ∀ V c, (dat V c).Φ 0 = Pipeline.ΦA spec4 c
  hΦout : ∀ V c, (dat V c).Φ (Fin.last cfg4.N) ⊢ Pipeline.ΦA spec4 c
  hbody : ∀ V c, BodyObligation (dat V c) (defs₀ (F := F)) Variants.none () Set.univ

/-- What region 5's half of the proof supplies, for any contents `V` the region is entered at: the proof data, with its
    arrays read off `V`, every share full, nothing owed, no bound on the recorded pairs, the invariant at the first
    point the launch's own, at the last point giving it back, and the body obligation at every point. -/
structure RD5 (F : FTy → Type) [FloatOps F] where
  dat : (V : (c : Dev nD) → (b : Ref sig .tc) → Buf (Elt F) ((c : Thread nD τ).loc b)) → (c : Dev nD) → Dat τ (Elt F) Unit ℕ (UR sig nD τ) ℕ cfg5 c
  hA : ∀ V c (w : Fin cfg5.W), (dat V c).A w = V c (Pipeline.arrRef spec5 w)
  hq : ∀ V c (w : Fin cfg5.W), (dat V c).q w = fullShare
  howed : ∀ V c t, (dat V c).owed t = 0
  hrec : ∀ V c t, (dat V c).recorded t = Set.univ
  hΦ0 : ∀ V c, (dat V c).Φ 0 = Pipeline.ΦA spec5 c
  hΦout : ∀ V c, (dat V c).Φ (Fin.last cfg5.N) ⊢ Pipeline.ΦA spec5 c
  hbody : ∀ V c, BodyObligation (dat V c) (defs₀ (F := F)) Variants.none () Set.univ

variable (m : (ℓ : Loc nD τ sig) → Buf (Elt F) ℓ)
variable (D0 : RD0 F) (D1 : RD1 F) (D2 : RD2 F) (D3 : RD3 F) (D4 : RD4 F) (D5 : RD5 F)

/-! ## The contents of the unscoped buffers between segments -/

/-- Before region 0: the launch contents after the eleven host stretches. -/
abbrev U11 (c : Dev nD) : Valuation τ sig (Elt F) := V11 m c
/-- What region 0 leaves in its output array. -/
def A0 (c : Dev nD) : Buf (Elt F) ((c : Thread nD τ).loc main_v35) := (D0.dat (fun c b => U11 m c b) c).arrAt 3 cfg0.N
/-- After region 0. -/
def U12 (c : Dev nD) : Valuation τ sig (Elt F) := Function.update (U11 m c) main_v35 (A0 m D0 c)

/-- What region 1 leaves in its output array; after region 1; after the three host stretches that follow. -/
def A1 (c : Dev nD) : Buf (Elt F) ((c : Thread nD τ).loc main_v36) := (D1.dat (fun c b => U12 m D0 c b) c).arrAt 3 cfg1.N
def U13 (c : Dev nD) : Valuation τ sig (Elt F) := Function.update (U12 m D0 c) main_v36 (A1 m D0 D1 c)
abbrev U14 (c : Dev nD) : Valuation τ sig (Elt F) := StableHlo.after hostOps2 (U13 m D0 D1 c)
abbrev U15 (c : Dev nD) : Valuation τ sig (Elt F) := StableHlo.after hostOps2_1 (U14 m D0 D1 c)
abbrev U16 (c : Dev nD) : Valuation τ sig (Elt F) := StableHlo.after hostOps2_2 (U15 m D0 D1 c)
/-- Regions 2 and 3 and the host stretches after them. -/
def A2 (c : Dev nD) : Buf (Elt F) ((c : Thread nD τ).loc main_v42) := (D2.dat (fun c b => U16 m D0 D1 c b) c).arrAt 3 cfg2.N
def U17 (c : Dev nD) : Valuation τ sig (Elt F) := Function.update (U16 m D0 D1 c) main_v42 (A2 m D0 D1 D2 c)
def A3 (c : Dev nD) : Buf (Elt F) ((c : Thread nD τ).loc main_v43) := (D3.dat (fun c b => U17 m D0 D1 D2 c b) c).arrAt 3 cfg3.N
def U18 (c : Dev nD) : Valuation τ sig (Elt F) := Function.update (U17 m D0 D1 D2 c) main_v43 (A3 m D0 D1 D2 D3 c)
abbrev U19 (c : Dev nD) : Valuation τ sig (Elt F) := StableHlo.after hostOps4 (U18 m D0 D1 D2 D3 c)
abbrev U20 (c : Dev nD) : Valuation τ sig (Elt F) := StableHlo.after hostOps4_1 (U19 m D0 D1 D2 D3 c)
abbrev U21 (c : Dev nD) : Valuation τ sig (Elt F) := StableHlo.after hostOps4_2 (U20 m D0 D1 D2 D3 c)
/-- Regions 4 and 5. -/
def A4 (c : Dev nD) : Buf (Elt F) ((c : Thread nD τ).loc main_v50) := (D4.dat (fun c b => U21 m D0 D1 D2 D3 c b) c).arrAt 3 cfg4.N
def U22 (c : Dev nD) : Valuation τ sig (Elt F) := Function.update (U21 m D0 D1 D2 D3 c) main_v50 (A4 m D0 D1 D2 D3 D4 c)
def A5 (c : Dev nD) : Buf (Elt F) ((c : Thread nD τ).loc main_v51) := (D5.dat (fun c b => U22 m D0 D1 D2 D3 D4 c b) c).arrAt 3 cfg5.N
def U23 (c : Dev nD) : Valuation τ sig (Elt F) := Function.update (U22 m D0 D1 D2 D3 D4 c) main_v51 (A5 m D0 D1 D2 D3 D4 D5 c)

/-- The regions' outputs as the family the segment list is written over: read only at the six points below. -/
def outs : Outs (F := F) := fun J r c =>
  match J with
  | 12 => U12 m D0 c r
  | 13 => U13 m D0 D1 c r
  | 17 => U17 m D0 D1 D2 c r
  | 18 => U18 m D0 D1 D2 D3 c r
  | 22 => U22 m D0 D1 D2 D3 D4 c r
  | 23 => U23 m D0 D1 D2 D3 D4 D5 c r
  | _ => V0 m c r

theorem V12_eq (c : Dev nD) : V12 m (outs m D0 D1 D2 D3 D4 D5) c = U12 m D0 c := by
  show Function.update (V11 m c) main_v35 (U12 m D0 c main_v35) = U12 m D0 c
  unfold U12; rw [Function.update_self]
theorem V13_eq (c : Dev nD) : V13 m (outs m D0 D1 D2 D3 D4 D5) c = U13 m D0 D1 c := by
  show Function.update (V12 m (outs m D0 D1 D2 D3 D4 D5) c) main_v36 (U13 m D0 D1 c main_v36) = U13 m D0 D1 c
  rw [V12_eq]; unfold U13; rw [Function.update_self]
theorem V16_eq (c : Dev nD) : V16 m (outs m D0 D1 D2 D3 D4 D5) c = U16 m D0 D1 c := by
  show StableHlo.after hostOps2_2 (StableHlo.after hostOps2_1 (StableHlo.after hostOps2 (V13 m (outs m D0 D1 D2 D3 D4 D5) c))) = _
  rw [V13_eq]
theorem V17_eq (c : Dev nD) : V17 m (outs m D0 D1 D2 D3 D4 D5) c = U17 m D0 D1 D2 c := by
  show Function.update (V16 m (outs m D0 D1 D2 D3 D4 D5) c) main_v42 (U17 m D0 D1 D2 c main_v42) = U17 m D0 D1 D2 c
  rw [V16_eq]; unfold U17; rw [Function.update_self]
theorem V18_eq (c : Dev nD) : V18 m (outs m D0 D1 D2 D3 D4 D5) c = U18 m D0 D1 D2 D3 c := by
  show Function.update (V17 m (outs m D0 D1 D2 D3 D4 D5) c) main_v43 (U18 m D0 D1 D2 D3 c main_v43) = U18 m D0 D1 D2 D3 c
  rw [V17_eq]; unfold U18; rw [Function.update_self]
theorem V21_eq (c : Dev nD) : V21 m (outs m D0 D1 D2 D3 D4 D5) c = U21 m D0 D1 D2 D3 c := by
  show StableHlo.after hostOps4_2 (StableHlo.after hostOps4_1 (StableHlo.after hostOps4 (V18 m (outs m D0 D1 D2 D3 D4 D5) c))) = _
  rw [V18_eq]
theorem V22_eq (c : Dev nD) : V22 m (outs m D0 D1 D2 D3 D4 D5) c = U22 m D0 D1 D2 D3 D4 c := by
  show Function.update (V21 m (outs m D0 D1 D2 D3 D4 D5) c) main_v50 (U22 m D0 D1 D2 D3 D4 c main_v50) = U22 m D0 D1 D2 D3 D4 c
  rw [V21_eq]; unfold U22; rw [Function.update_self]
theorem V23_eq (c : Dev nD) : V23 m (outs m D0 D1 D2 D3 D4 D5) c = U23 m D0 D1 D2 D3 D4 D5 c := by
  show Function.update (V22 m (outs m D0 D1 D2 D3 D4 D5) c) main_v51 (U23 m D0 D1 D2 D3 D4 D5 c main_v51) = U23 m D0 D1 D2 D3 D4 D5 c
  rw [V22_eq]; unfold U23; rw [Function.update_self]

/-! ## The proof data family and what rides beside the buffers -/

/-- The prefetched tables' admissible contents: no pipeline has a table (the generated `adm`). Every pipeline's
    proof data, each at its region's entry contents — a literal match, so that the pinned configuration at a numeral
    reduces to the printed one. -/
def pdats : (p : Fin 6) → (c : Dev nD) → Dat τ (Elt F) Unit ℕ (UR sig nD τ) ℕ (Pipeline.pin (pcfgs (F := F)) adm p) c
  | ⟨0, _⟩ => fun c => D0.dat (fun c b => U11 m c b) c
  | ⟨1, _⟩ => fun c => D1.dat (fun c b => U12 m D0 c b) c
  | ⟨2, _⟩ => fun c => D2.dat (fun c b => U16 m D0 D1 c b) c
  | ⟨3, _⟩ => fun c => D3.dat (fun c b => U17 m D0 D1 D2 c b) c
  | ⟨4, _⟩ => fun c => D4.dat (fun c b => U21 m D0 D1 D2 D3 c b) c
  | ⟨5, _⟩ => fun c => D5.dat (fun c b => U22 m D0 D1 D2 D3 D4 c b) c
/-- No core owes another anything: no level is assigned. -/
abbrev L0 : GSem nD τ sig → Finset Unit := fun _ => ∅
abbrev lv0 : GSem nD τ sig → Unit → ℕ := fun _ _ => 0
/-- What rides beside the buffers through every segment: the core's generator register at some state and its dues, at nothing. -/
abbrev Rr (c : Dev nD) : sProp 𝕄 := iprop((∃ r, prngReg c r) ∗ ∃ W, owes (c : Thread nD τ) (0 : CellTallies nD τ sig Unit) W)

/-! ## Region 0 -/

/-- At region 0's exit each of its arrays holds what the pipeline leaves: the three inputs as entered, the output
    at the write-backs' fold. -/
theorem hF0 (c : Dev nD) (w : Fin cfg0.W) :
    (D0.dat (fun c b => U11 m c b) c).arrAt w cfg0.N = (U12 m D0 c) (Pipeline.arrRef spec0 w) := by
  match w with
  | ⟨0, _⟩ => exact ((D0.dat _ c).arrAt_in 0 rfl _).trans ((D0.hA _ c 0).trans
      (by unfold U12; exact (Function.update_of_ne (StableHlo.devRef_ne_of_ne (by decide)) _ _).symm))
  | ⟨1, _⟩ => exact ((D0.dat _ c).arrAt_in 1 rfl _).trans ((D0.hA _ c 1).trans
      (by unfold U12; exact (Function.update_of_ne (StableHlo.devRef_ne_of_ne (by decide)) _ _).symm))
  | ⟨2, _⟩ => exact ((D0.dat _ c).arrAt_in 2 rfl _).trans ((D0.hA _ c 2).trans
      (by unfold U12; exact (Function.update_of_ne (StableHlo.devRef_ne_of_ne (by decide)) _ _).symm))
  | ⟨3, _⟩ =>
    show A0 m D0 c = U12 m D0 c (Proc.devRef .tc main_v35)
    unfold U12; rw [Function.update_self]
/-- and every other buffer what it held at entry. -/
theorem hrest0 (c : Dev nD) : ∀ b, b ∉ Finset.univ.image (Pipeline.arrRef spec0) → (U12 m D0 c) b = (U11 m c) b := fun b hb => by
  unfold U12
  exact Function.update_of_ne (StableHlo.devRef_ne_of_ne fun e => hb (Finset.mem_image.mpr ⟨3, Finset.mem_univ _, e.symm⟩)) _ _

set_option backward.isDefEq.respectTransparency.types false in
/-- Region 0 over the thread state: entered from every unscoped buffer at the contents before it, left at the
    contents after it. Its arrays split out of the unscoped buffers and put back at the exit contents; the generator
    register into the invariant and out; nothing owed; no semaphore of the kernel's own. -/
def reg0 : RegionSeg (pcfgs (F := F)) adm (pdats m D0 D1 D2 D3 D4 D5) () defs₀ Variants.none L0 lv0 0 where
  win := launch0.win.to₀
  block_pos := launch0.block_pos
  stage_whole := launch0.stage_whole
  K := PEmpty
  osem k := k.elim
  ho := Pipeline.OwnSemFacts.none _
  hbody c := (D0.hbody _ c).loose
  hwaits := Pipeline.hwaits_of_owed_zero _ _ _ _ L0 lv0 0 fun c t => D0.howed _ c t
  pre c := iprop(StableHlo.held (c : Thread nD τ) (Pipeline.ucRefs τ sig) (U11 m c) ∗ Rr c)
  post c := iprop(StableHlo.held (c : Thread nD τ) (Pipeline.ucRefs τ sig) (U12 m D0 c) ∗ Rr c)
  X c := iprop(∃ r, prngReg c r)
  Y c := iprop(∃ r, prngReg c r)
  Z c := Pipeline.unscopedRest (Ix := Unit) (Name := ℕ) (U := UR sig nD τ) (Lvl := ℕ) spec0 c (fun b => U11 m c b)
  hentry c := by
    rw [Pipeline.ownSems0_none]
    have hsplit := Pipeline.arrays_of_unscopedBufs (p := 0) (pcfgs (F := F)) adm (pdats m D0 D1 D2 D3 D4 D5) launch0.win launch0.arr_whole c
      ((pdats m D0 D1 D2 D3 D4 D5 0 c).share_full fun w => D0.hq _ c w) (fun b => U11 m c b) fun w => D0.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 0 c).recorded 0 = Set.univ from D0.hrec _ c 0]; trivial)
      rw [show (pdats m D0 D1 D2 D3 D4 D5 0 c).owed 0 = 0 from D0.howed _ c 0]
      iexact HO
    isplitl [Hp]; · iexact Hp
    iexact Hrest
  hin c := by
    rw [show (pdats m D0 D1 D2 D3 D4 D5 0 c).Φ 0 = Pipeline.ΦA spec0 c from D0.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 0 c).Φ (Fin.last _) ⊢ Pipeline.ΦA spec0 c from D0.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3 D4 D5) ((pdats m D0 D1 D2 D3 D4 D5 0 c).share_full fun w => D0.hq _ c w)
      (fun b => U11 m c b) (fun b => U12 m D0 c b) ((pdats m D0 D1 D2 D3 D4 D5 0 c).arrAt · cfg0.N) (hF0 m D0 c) (hrest0 m D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 0 c).owed (Fin.last _) = 0 from D0.howed _ c _]
    iexact HO

/-! ## Region 1 -/

/-- At region 1's exit each of its arrays holds what the pipeline leaves: the three inputs as entered, the output
    at the write-backs' fold. -/
theorem hF1 (c : Dev nD) (w : Fin cfg1.W) :
    (D1.dat (fun c b => U12 m D0 c b) c).arrAt w cfg1.N = (U13 m D0 D1 c) (Pipeline.arrRef spec1 w) := by
  match w with
  | ⟨0, _⟩ => exact ((D1.dat _ c).arrAt_in 0 rfl _).trans ((D1.hA _ c 0).trans
      (by unfold U13; exact (Function.update_of_ne (StableHlo.devRef_ne_of_ne (by decide)) _ _).symm))
  | ⟨1, _⟩ => exact ((D1.dat _ c).arrAt_in 1 rfl _).trans ((D1.hA _ c 1).trans
      (by unfold U13; exact (Function.update_of_ne (StableHlo.devRef_ne_of_ne (by decide)) _ _).symm))
  | ⟨2, _⟩ => exact ((D1.dat _ c).arrAt_in 2 rfl _).trans ((D1.hA _ c 2).trans
      (by unfold U13; exact (Function.update_of_ne (StableHlo.devRef_ne_of_ne (by decide)) _ _).symm))
  | ⟨3, _⟩ =>
    show A1 m D0 D1 c = U13 m D0 D1 c (Proc.devRef .tc main_v36)
    unfold U13; rw [Function.update_self]
/-- and every other buffer what it held at entry. -/
theorem hrest1 (c : Dev nD) : ∀ b, b ∉ Finset.univ.image (Pipeline.arrRef spec1) → (U13 m D0 D1 c) b = (U12 m D0 c) b := fun b hb => by
  unfold U13
  exact Function.update_of_ne (StableHlo.devRef_ne_of_ne fun e => hb (Finset.mem_image.mpr ⟨3, Finset.mem_univ _, e.symm⟩)) _ _

set_option backward.isDefEq.respectTransparency.types false in
/-- Region 1 over the thread state: entered from every unscoped buffer at the contents before it, left at the
    contents after it. Its arrays split out of the unscoped buffers and put back at the exit contents; the generator
    register into the invariant and out; nothing owed; no semaphore of the kernel's own. -/
def reg1 : RegionSeg (pcfgs (F := F)) adm (pdats m D0 D1 D2 D3 D4 D5) () defs₀ Variants.none L0 lv0 1 where
  win := launch1.win.to₀
  block_pos := launch1.block_pos
  stage_whole := launch1.stage_whole
  K := PEmpty
  osem k := k.elim
  ho := Pipeline.OwnSemFacts.none _
  hbody c := (D1.hbody _ c).loose
  hwaits := Pipeline.hwaits_of_owed_zero _ _ _ _ L0 lv0 1 fun c t => D1.howed _ c t
  pre c := iprop(StableHlo.held (c : Thread nD τ) (Pipeline.ucRefs τ sig) (U12 m D0 c) ∗ Rr c)
  post c := iprop(StableHlo.held (c : Thread nD τ) (Pipeline.ucRefs τ sig) (U13 m D0 D1 c) ∗ Rr c)
  X c := iprop(∃ r, prngReg c r)
  Y c := iprop(∃ r, prngReg c r)
  Z c := Pipeline.unscopedRest (Ix := Unit) (Name := ℕ) (U := UR sig nD τ) (Lvl := ℕ) spec1 c (fun b => U12 m D0 c b)
  hentry c := by
    rw [Pipeline.ownSems0_none]
    have hsplit := Pipeline.arrays_of_unscopedBufs (p := 1) (pcfgs (F := F)) adm (pdats m D0 D1 D2 D3 D4 D5) launch1.win launch1.arr_whole c
      ((pdats m D0 D1 D2 D3 D4 D5 1 c).share_full fun w => D1.hq _ c w) (fun b => U12 m D0 c b) fun w => D1.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 1 c).recorded 0 = Set.univ from D1.hrec _ c 0]; trivial)
      rw [show (pdats m D0 D1 D2 D3 D4 D5 1 c).owed 0 = 0 from D1.howed _ c 0]
      iexact HO
    isplitl [Hp]; · iexact Hp
    iexact Hrest
  hin c := by
    rw [show (pdats m D0 D1 D2 D3 D4 D5 1 c).Φ 0 = Pipeline.ΦA spec1 c from D1.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 1 c).Φ (Fin.last _) ⊢ Pipeline.ΦA spec1 c from D1.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3 D4 D5) ((pdats m D0 D1 D2 D3 D4 D5 1 c).share_full fun w => D1.hq _ c w)
      (fun b => U12 m D0 c b) (fun b => U13 m D0 D1 c b) ((pdats m D0 D1 D2 D3 D4 D5 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 1 c).owed (Fin.last _) = 0 from D1.howed _ c _]
    iexact HO

/-! ## Region 2 -/

/-- At region 2's exit each of its arrays holds what the pipeline leaves: the three inputs as entered, the output
    at the write-backs' fold. -/
theorem hF2 (c : Dev nD) (w : Fin cfg2.W) :
    (D2.dat (fun c b => U16 m D0 D1 c b) c).arrAt w cfg2.N = (U17 m D0 D1 D2 c) (Pipeline.arrRef spec2 w) := by
  match w with
  | ⟨0, _⟩ => exact ((D2.dat _ c).arrAt_in 0 rfl _).trans ((D2.hA _ c 0).trans
      (by unfold U17; exact (Function.update_of_ne (StableHlo.devRef_ne_of_ne (by decide)) _ _).symm))
  | ⟨1, _⟩ => exact ((D2.dat _ c).arrAt_in 1 rfl _).trans ((D2.hA _ c 1).trans
      (by unfold U17; exact (Function.update_of_ne (StableHlo.devRef_ne_of_ne (by decide)) _ _).symm))
  | ⟨2, _⟩ => exact ((D2.dat _ c).arrAt_in 2 rfl _).trans ((D2.hA _ c 2).trans
      (by unfold U17; exact (Function.update_of_ne (StableHlo.devRef_ne_of_ne (by decide)) _ _).symm))
  | ⟨3, _⟩ =>
    show A2 m D0 D1 D2 c = U17 m D0 D1 D2 c (Proc.devRef .tc main_v42)
    unfold U17; rw [Function.update_self]
/-- and every other buffer what it held at entry. -/
theorem hrest2 (c : Dev nD) : ∀ b, b ∉ Finset.univ.image (Pipeline.arrRef spec2) → (U17 m D0 D1 D2 c) b = (U16 m D0 D1 c) b := fun b hb => by
  unfold U17
  exact Function.update_of_ne (StableHlo.devRef_ne_of_ne fun e => hb (Finset.mem_image.mpr ⟨3, Finset.mem_univ _, e.symm⟩)) _ _

set_option backward.isDefEq.respectTransparency.types false in
/-- Region 2 over the thread state: entered from every unscoped buffer at the contents before it, left at the
    contents after it. Its arrays split out of the unscoped buffers and put back at the exit contents; the generator
    register into the invariant and out; nothing owed; no semaphore of the kernel's own. -/
def reg2 : RegionSeg (pcfgs (F := F)) adm (pdats m D0 D1 D2 D3 D4 D5) () defs₀ Variants.none L0 lv0 2 where
  win := launch2.win.to₀
  block_pos := launch2.block_pos
  stage_whole := launch2.stage_whole
  K := PEmpty
  osem k := k.elim
  ho := Pipeline.OwnSemFacts.none _
  hbody c := (D2.hbody _ c).loose
  hwaits := Pipeline.hwaits_of_owed_zero _ _ _ _ L0 lv0 2 fun c t => D2.howed _ c t
  pre c := iprop(StableHlo.held (c : Thread nD τ) (Pipeline.ucRefs τ sig) (U16 m D0 D1 c) ∗ Rr c)
  post c := iprop(StableHlo.held (c : Thread nD τ) (Pipeline.ucRefs τ sig) (U17 m D0 D1 D2 c) ∗ Rr c)
  X c := iprop(∃ r, prngReg c r)
  Y c := iprop(∃ r, prngReg c r)
  Z c := Pipeline.unscopedRest (Ix := Unit) (Name := ℕ) (U := UR sig nD τ) (Lvl := ℕ) spec2 c (fun b => U16 m D0 D1 c b)
  hentry c := by
    rw [Pipeline.ownSems0_none]
    have hsplit := Pipeline.arrays_of_unscopedBufs (p := 2) (pcfgs (F := F)) adm (pdats m D0 D1 D2 D3 D4 D5) launch2.win launch2.arr_whole c
      ((pdats m D0 D1 D2 D3 D4 D5 2 c).share_full fun w => D2.hq _ c w) (fun b => U16 m D0 D1 c b) fun w => D2.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 2 c).recorded 0 = Set.univ from D2.hrec _ c 0]; trivial)
      rw [show (pdats m D0 D1 D2 D3 D4 D5 2 c).owed 0 = 0 from D2.howed _ c 0]
      iexact HO
    isplitl [Hp]; · iexact Hp
    iexact Hrest
  hin c := by
    rw [show (pdats m D0 D1 D2 D3 D4 D5 2 c).Φ 0 = Pipeline.ΦA spec2 c from D2.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 2 c).Φ (Fin.last _) ⊢ Pipeline.ΦA spec2 c from D2.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3 D4 D5) ((pdats m D0 D1 D2 D3 D4 D5 2 c).share_full fun w => D2.hq _ c w)
      (fun b => U16 m D0 D1 c b) (fun b => U17 m D0 D1 D2 c b) ((pdats m D0 D1 D2 D3 D4 D5 2 c).arrAt · cfg2.N) (hF2 m D0 D1 D2 c) (hrest2 m D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 2 c).owed (Fin.last _) = 0 from D2.howed _ c _]
    iexact HO

/-! ## Region 3 -/

/-- At region 3's exit each of its arrays holds what the pipeline leaves: the three inputs as entered, the output
    at the write-backs' fold. -/
theorem hF3 (c : Dev nD) (w : Fin cfg3.W) :
    (D3.dat (fun c b => U17 m D0 D1 D2 c b) c).arrAt w cfg3.N = (U18 m D0 D1 D2 D3 c) (Pipeline.arrRef spec3 w) := by
  match w with
  | ⟨0, _⟩ => exact ((D3.dat _ c).arrAt_in 0 rfl _).trans ((D3.hA _ c 0).trans
      (by unfold U18; exact (Function.update_of_ne (StableHlo.devRef_ne_of_ne (by decide)) _ _).symm))
  | ⟨1, _⟩ => exact ((D3.dat _ c).arrAt_in 1 rfl _).trans ((D3.hA _ c 1).trans
      (by unfold U18; exact (Function.update_of_ne (StableHlo.devRef_ne_of_ne (by decide)) _ _).symm))
  | ⟨2, _⟩ => exact ((D3.dat _ c).arrAt_in 2 rfl _).trans ((D3.hA _ c 2).trans
      (by unfold U18; exact (Function.update_of_ne (StableHlo.devRef_ne_of_ne (by decide)) _ _).symm))
  | ⟨3, _⟩ =>
    show A3 m D0 D1 D2 D3 c = U18 m D0 D1 D2 D3 c (Proc.devRef .tc main_v43)
    unfold U18; rw [Function.update_self]
/-- and every other buffer what it held at entry. -/
theorem hrest3 (c : Dev nD) : ∀ b, b ∉ Finset.univ.image (Pipeline.arrRef spec3) → (U18 m D0 D1 D2 D3 c) b = (U17 m D0 D1 D2 c) b := fun b hb => by
  unfold U18
  exact Function.update_of_ne (StableHlo.devRef_ne_of_ne fun e => hb (Finset.mem_image.mpr ⟨3, Finset.mem_univ _, e.symm⟩)) _ _

set_option backward.isDefEq.respectTransparency.types false in
/-- Region 3 over the thread state: entered from every unscoped buffer at the contents before it, left at the
    contents after it. Its arrays split out of the unscoped buffers and put back at the exit contents; the generator
    register into the invariant and out; nothing owed; no semaphore of the kernel's own. -/
def reg3 : RegionSeg (pcfgs (F := F)) adm (pdats m D0 D1 D2 D3 D4 D5) () defs₀ Variants.none L0 lv0 3 where
  win := launch3.win.to₀
  block_pos := launch3.block_pos
  stage_whole := launch3.stage_whole
  K := PEmpty
  osem k := k.elim
  ho := Pipeline.OwnSemFacts.none _
  hbody c := (D3.hbody _ c).loose
  hwaits := Pipeline.hwaits_of_owed_zero _ _ _ _ L0 lv0 3 fun c t => D3.howed _ c t
  pre c := iprop(StableHlo.held (c : Thread nD τ) (Pipeline.ucRefs τ sig) (U17 m D0 D1 D2 c) ∗ Rr c)
  post c := iprop(StableHlo.held (c : Thread nD τ) (Pipeline.ucRefs τ sig) (U18 m D0 D1 D2 D3 c) ∗ Rr c)
  X c := iprop(∃ r, prngReg c r)
  Y c := iprop(∃ r, prngReg c r)
  Z c := Pipeline.unscopedRest (Ix := Unit) (Name := ℕ) (U := UR sig nD τ) (Lvl := ℕ) spec3 c (fun b => U17 m D0 D1 D2 c b)
  hentry c := by
    rw [Pipeline.ownSems0_none]
    have hsplit := Pipeline.arrays_of_unscopedBufs (p := 3) (pcfgs (F := F)) adm (pdats m D0 D1 D2 D3 D4 D5) launch3.win launch3.arr_whole c
      ((pdats m D0 D1 D2 D3 D4 D5 3 c).share_full fun w => D3.hq _ c w) (fun b => U17 m D0 D1 D2 c b) fun w => D3.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 3 c).recorded 0 = Set.univ from D3.hrec _ c 0]; trivial)
      rw [show (pdats m D0 D1 D2 D3 D4 D5 3 c).owed 0 = 0 from D3.howed _ c 0]
      iexact HO
    isplitl [Hp]; · iexact Hp
    iexact Hrest
  hin c := by
    rw [show (pdats m D0 D1 D2 D3 D4 D5 3 c).Φ 0 = Pipeline.ΦA spec3 c from D3.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 3 c).Φ (Fin.last _) ⊢ Pipeline.ΦA spec3 c from D3.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3 D4 D5) ((pdats m D0 D1 D2 D3 D4 D5 3 c).share_full fun w => D3.hq _ c w)
      (fun b => U17 m D0 D1 D2 c b) (fun b => U18 m D0 D1 D2 D3 c b) ((pdats m D0 D1 D2 D3 D4 D5 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 3 c).owed (Fin.last _) = 0 from D3.howed _ c _]
    iexact HO

/-! ## Region 4 -/

/-- At region 4's exit each of its arrays holds what the pipeline leaves: the three inputs as entered, the output
    at the write-backs' fold. -/
theorem hF4 (c : Dev nD) (w : Fin cfg4.W) :
    (D4.dat (fun c b => U21 m D0 D1 D2 D3 c b) c).arrAt w cfg4.N = (U22 m D0 D1 D2 D3 D4 c) (Pipeline.arrRef spec4 w) := by
  match w with
  | ⟨0, _⟩ => exact ((D4.dat _ c).arrAt_in 0 rfl _).trans ((D4.hA _ c 0).trans
      (by unfold U22; exact (Function.update_of_ne (StableHlo.devRef_ne_of_ne (by decide)) _ _).symm))
  | ⟨1, _⟩ => exact ((D4.dat _ c).arrAt_in 1 rfl _).trans ((D4.hA _ c 1).trans
      (by unfold U22; exact (Function.update_of_ne (StableHlo.devRef_ne_of_ne (by decide)) _ _).symm))
  | ⟨2, _⟩ => exact ((D4.dat _ c).arrAt_in 2 rfl _).trans ((D4.hA _ c 2).trans
      (by unfold U22; exact (Function.update_of_ne (StableHlo.devRef_ne_of_ne (by decide)) _ _).symm))
  | ⟨3, _⟩ =>
    show A4 m D0 D1 D2 D3 D4 c = U22 m D0 D1 D2 D3 D4 c (Proc.devRef .tc main_v50)
    unfold U22; rw [Function.update_self]
/-- and every other buffer what it held at entry. -/
theorem hrest4 (c : Dev nD) : ∀ b, b ∉ Finset.univ.image (Pipeline.arrRef spec4) → (U22 m D0 D1 D2 D3 D4 c) b = (U21 m D0 D1 D2 D3 c) b := fun b hb => by
  unfold U22
  exact Function.update_of_ne (StableHlo.devRef_ne_of_ne fun e => hb (Finset.mem_image.mpr ⟨3, Finset.mem_univ _, e.symm⟩)) _ _

set_option backward.isDefEq.respectTransparency.types false in
/-- Region 4 over the thread state: entered from every unscoped buffer at the contents before it, left at the
    contents after it. Its arrays split out of the unscoped buffers and put back at the exit contents; the generator
    register into the invariant and out; nothing owed; no semaphore of the kernel's own. -/
def reg4 : RegionSeg (pcfgs (F := F)) adm (pdats m D0 D1 D2 D3 D4 D5) () defs₀ Variants.none L0 lv0 4 where
  win := launch4.win.to₀
  block_pos := launch4.block_pos
  stage_whole := launch4.stage_whole
  K := PEmpty
  osem k := k.elim
  ho := Pipeline.OwnSemFacts.none _
  hbody c := (D4.hbody _ c).loose
  hwaits := Pipeline.hwaits_of_owed_zero _ _ _ _ L0 lv0 4 fun c t => D4.howed _ c t
  pre c := iprop(StableHlo.held (c : Thread nD τ) (Pipeline.ucRefs τ sig) (U21 m D0 D1 D2 D3 c) ∗ Rr c)
  post c := iprop(StableHlo.held (c : Thread nD τ) (Pipeline.ucRefs τ sig) (U22 m D0 D1 D2 D3 D4 c) ∗ Rr c)
  X c := iprop(∃ r, prngReg c r)
  Y c := iprop(∃ r, prngReg c r)
  Z c := Pipeline.unscopedRest (Ix := Unit) (Name := ℕ) (U := UR sig nD τ) (Lvl := ℕ) spec4 c (fun b => U21 m D0 D1 D2 D3 c b)
  hentry c := by
    rw [Pipeline.ownSems0_none]
    have hsplit := Pipeline.arrays_of_unscopedBufs (p := 4) (pcfgs (F := F)) adm (pdats m D0 D1 D2 D3 D4 D5) launch4.win launch4.arr_whole c
      ((pdats m D0 D1 D2 D3 D4 D5 4 c).share_full fun w => D4.hq _ c w) (fun b => U21 m D0 D1 D2 D3 c b) fun w => D4.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 4 c).recorded 0 = Set.univ from D4.hrec _ c 0]; trivial)
      rw [show (pdats m D0 D1 D2 D3 D4 D5 4 c).owed 0 = 0 from D4.howed _ c 0]
      iexact HO
    isplitl [Hp]; · iexact Hp
    iexact Hrest
  hin c := by
    rw [show (pdats m D0 D1 D2 D3 D4 D5 4 c).Φ 0 = Pipeline.ΦA spec4 c from D4.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 4 c).Φ (Fin.last _) ⊢ Pipeline.ΦA spec4 c from D4.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m D0 D1 D2 D3 D4 D5) ((pdats m D0 D1 D2 D3 D4 D5 4 c).share_full fun w => D4.hq _ c w)
      (fun b => U21 m D0 D1 D2 D3 c b) (fun b => U22 m D0 D1 D2 D3 D4 c b) ((pdats m D0 D1 D2 D3 D4 D5 4 c).arrAt · cfg4.N) (hF4 m D0 D1 D2 D3 D4 c) (hrest4 m D0 D1 D2 D3 D4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 4 c).owed (Fin.last _) = 0 from D4.howed _ c _]
    iexact HO

/-! ## Region 5 -/

/-- At region 5's exit each of its arrays holds what the pipeline leaves: the three inputs as entered, the output
    at the write-backs' fold. -/
theorem hF5 (c : Dev nD) (w : Fin cfg5.W) :
    (D5.dat (fun c b => U22 m D0 D1 D2 D3 D4 c b) c).arrAt w cfg5.N = (U23 m D0 D1 D2 D3 D4 D5 c) (Pipeline.arrRef spec5 w) := by
  match w with
  | ⟨0, _⟩ => exact ((D5.dat _ c).arrAt_in 0 rfl _).trans ((D5.hA _ c 0).trans
      (by unfold U23; exact (Function.update_of_ne (StableHlo.devRef_ne_of_ne (by decide)) _ _).symm))
  | ⟨1, _⟩ => exact ((D5.dat _ c).arrAt_in 1 rfl _).trans ((D5.hA _ c 1).trans
      (by unfold U23; exact (Function.update_of_ne (StableHlo.devRef_ne_of_ne (by decide)) _ _).symm))
  | ⟨2, _⟩ => exact ((D5.dat _ c).arrAt_in 2 rfl _).trans ((D5.hA _ c 2).trans
      (by unfold U23; exact (Function.update_of_ne (StableHlo.devRef_ne_of_ne (by decide)) _ _).symm))
  | ⟨3, _⟩ =>
    show A5 m D0 D1 D2 D3 D4 D5 c = U23 m D0 D1 D2 D3 D4 D5 c (Proc.devRef .tc main_v51)
    unfold U23; rw [Function.update_self]
/-- and every other buffer what it held at entry. -/
theorem hrest5 (c : Dev nD) : ∀ b, b ∉ Finset.univ.image (Pipeline.arrRef spec5) → (U23 m D0 D1 D2 D3 D4 D5 c) b = (U22 m D0 D1 D2 D3 D4 c) b := fun b hb => by
  unfold U23
  exact Function.update_of_ne (StableHlo.devRef_ne_of_ne fun e => hb (Finset.mem_image.mpr ⟨3, Finset.mem_univ _, e.symm⟩)) _ _

set_option backward.isDefEq.respectTransparency.types false in
/-- Region 5 over the thread state: entered from every unscoped buffer at the contents before it, left at the
    contents after it. Its arrays split out of the unscoped buffers and put back at the exit contents; the generator
    register into the invariant and out; nothing owed; no semaphore of the kernel's own. -/
def reg5 : RegionSeg (pcfgs (F := F)) adm (pdats m D0 D1 D2 D3 D4 D5) () defs₀ Variants.none L0 lv0 5 where
  win := launch5.win.to₀
  block_pos := launch5.block_pos
  stage_whole := launch5.stage_whole
  K := PEmpty
  osem k := k.elim
  ho := Pipeline.OwnSemFacts.none _
  hbody c := (D5.hbody _ c).loose
  hwaits := Pipeline.hwaits_of_owed_zero _ _ _ _ L0 lv0 5 fun c t => D5.howed _ c t
  pre c := iprop(StableHlo.held (c : Thread nD τ) (Pipeline.ucRefs τ sig) (U22 m D0 D1 D2 D3 D4 c) ∗ Rr c)
  post c := iprop(StableHlo.held (c : Thread nD τ) (Pipeline.ucRefs τ sig) (U23 m D0 D1 D2 D3 D4 D5 c) ∗ Rr c)
  X c := iprop(∃ r, prngReg c r)
  Y c := iprop(∃ r, prngReg c r)
  Z c := Pipeline.unscopedRest (Ix := Unit) (Name := ℕ) (U := UR sig nD τ) (Lvl := ℕ) spec5 c (fun b => U22 m D0 D1 D2 D3 D4 c b)
  hentry c := by
    rw [Pipeline.ownSems0_none]
    have hsplit := Pipeline.arrays_of_unscopedBufs (p := 5) (pcfgs (F := F)) adm (pdats m D0 D1 D2 D3 D4 D5) launch5.win launch5.arr_whole c
      ((pdats m D0 D1 D2 D3 D4 D5 5 c).share_full fun w => D5.hq _ c w) (fun b => U22 m D0 D1 D2 D3 D4 c b) fun w => D5.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m D0 D1 D2 D3 D4 D5 5 c).recorded 0 = Set.univ from D5.hrec _ c 0]; trivial)
      rw [show (pdats m D0 D1 D2 D3 D4 D5 5 c).owed 0 = 0 from D5.howed _ c 0]
      iexact HO
    isplitl [Hp]; · iexact Hp
    iexact Hrest
  hin c := by
    rw [show (pdats m D0 D1 D2 D3 D4 D5 5 c).Φ 0 = Pipeline.ΦA spec5 c from D5.hΦ0 _ c]; unfold Pipeline.ΦA
    iintro ⟨Hp, -, Hr⟩
    isplitl [Hr]; · iexact Hr
    iexact Hp
  hout c := by
    rw [Pipeline.ownSems0_none]
    refine (show (pdats m D0 D1 D2 D3 D4 D5 5 c).Φ (Fin.last _) ⊢ Pipeline.ΦA spec5 c from D5.hΦout _ c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m D0 D1 D2 D3 D4 D5) ((pdats m D0 D1 D2 D3 D4 D5 5 c).share_full fun w => D5.hq _ c w)
      (fun b => U22 m D0 D1 D2 D3 D4 c b) (fun b => U23 m D0 D1 D2 D3 D4 D5 c b) ((pdats m D0 D1 D2 D3 D4 D5 5 c).arrAt · cfg5.N) (hF5 m D0 D1 D2 D3 D4 D5 c) (hrest5 m D0 D1 D2 D3 D4 D5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 D5 5 c).owed (Fin.last _) = 0 from D5.howed _ c _]
    iexact HO

/-! ## The run -/

set_option backward.isDefEq.respectTransparency.types false in
/-- Every weakly fair execution of @main from memory `m` with zero counters terminates, nothing faulting; the final
    memory's result array is the last valuation's — the host stretches' fold over the launch memory with each region's
    output array at what its write-backs leave — and every argument array is as launched. -/
theorem run_value (ρ : Dev nD → PrngReg) :
    θ_run defs (onTc (τ := τ) (main (F := F))) ⟨m, fun _ => 0, ρ⟩ (fun r => ∀ c : Dev nD,
      r.2.mem ((c.tc : Thread nD τ).loc main_v58) = V26 m (outs m D0 D1 D2 D3 D4 D5) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond (m := m) (outs := outs m D0 D1 D2 D3 D4 D5) (Ix := Unit) (U := UR sig nD τ) (Lvl := ℕ) (EP := emb₁) (ι := ()) (𝒱₀ := Variants.none)
    (L := L0) (lv := lv0) (hL := fun _ _ => rfl) (ρ := ρ) (pdats := pdats m D0 D1 D2 D3 D4 D5) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L0 lv0 fun c => ?_
      iintro ⟨⟨-, HO, -, Hp, -⟩, -⟩
      imodintro
      isplitl [Hp]; · iexists _; iexact Hp
      iexists ∅; iexact HO)
    (hE6 := fun c => by iintro ⟨-, HO⟩; iexact HO)
    (R0 := reg0 m D0 D1 D2 D3 D4 D5) (hpre0 := fun c => .rfl) (hpost0 := fun c => by rw [V12_eq]; exact .rfl)
    (R1 := reg1 m D0 D1 D2 D3 D4 D5) (hpre1 := fun c => by rw [V12_eq]; exact .rfl) (hpost1 := fun c => by rw [V13_eq]; exact .rfl)
    (R2 := reg2 m D0 D1 D2 D3 D4 D5) (hpre2 := fun c => by rw [V16_eq]; exact .rfl) (hpost2 := fun c => by rw [V17_eq]; exact .rfl)
    (R3 := reg3 m D0 D1 D2 D3 D4 D5) (hpre3 := fun c => by rw [V17_eq]; exact .rfl) (hpost3 := fun c => by rw [V18_eq]; exact .rfl)
    (R4 := reg4 m D0 D1 D2 D3 D4 D5) (hpre4 := fun c => by rw [V21_eq]; exact .rfl) (hpost4 := fun c => by rw [V22_eq]; exact .rfl)
    (R5 := reg5 m D0 D1 D2 D3 D4 D5) (hpre5 := fun c => by rw [V22_eq]; exact .rfl) (hpost5 := fun c => by rw [V23_eq]; exact .rfl)

end Cert.KernelIdeal.Hand

end
-- ==== Proof.KI.G0Runs.lean ====
/- Region 0 (the gather kernel) of the idealized program: what its three whole-body runs share.
   The grid is 208 edge blocks by 25 node tiles, point t = 25 * e + k. The body zeroes its accumulator at
   tile 0, adds one tile's one-hot product at every tile, and at tile 24 scales the accumulator by the
   norm block and stores it as the output block. -/
import proofs.«118646_j60988535603568_1_alg».proof.Proof.Gen.KernelIdeal.Launch
import proofs.«118646_j60988535603568_1_alg».proof.Proof.Gen.KernelIdeal.Skeleton
import proofs.«118646_j60988535603568_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid coordinates -/

/-- The first conditional: the node-tile coordinate is 0. -/
abbrev cond0_0 (i : grid0.Coords) : Prop := (Scalar.cmpi .ne (Scalar.extui (Scalar.cmpi .eq (BitVec.ofNat 32 (i 1).val) 0#32)) 0#32) = 1#1
/-- It holds exactly at the first tile of each edge block. -/
theorem hcond0_0 : ∀ t : Fin cfg0.N, cond0_0 (grid0.coords t) ↔ t.val % 25 = 0 :=
  (by decide +kernel : ∀ t : Fin grid0.N, cond0_0 (grid0.coords t) ↔ t.val % 25 = 0)

/-- The second conditional: the node-tile coordinate is 24. -/
abbrev cond0_1 (i : grid0.Coords) : Prop := k0_cond2 i = 1#1
/-- It holds exactly at the last tile of each edge block. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-- The output window is idle exactly where the second conditional fails. -/
theorem idle0_3_eq (i : grid0.Coords) : cfg0.idle 3 i = !(k0_cond2 i == 1#1) := rfl

/-- Away from the last tile the output window is idle: nothing is stored into it. -/
theorem idleAt0_3 (t : Fin cfg0.N) (hc1 : ¬cond0_1 (grid0.coords t)) : cfg0.idle 3 (grid0.coords t) = true := by
  rw [idle0_3_eq]; simp only [Bool.not_eq_eq_eq_not, Bool.not_true, beq_eq_false_iff_ne, ne_eq]; exact hc1
/-- Away from the last tile the output block is not written back. -/
theorem noFlush0_3 (t : Fin cfg0.N) (hc1 : ¬cond0_1 (grid0.coords t)) : (cfg0.win 3).flush t = false :=
  Bool.eq_false_iff.2 fun h => hc1 ((hcond0_1 t).2 ((flush0_3 t).1 h))
/-- At the last tile the output window is live. -/
theorem liveAt0_3 (t : Fin cfg0.N) (hc1 : cond0_1 (grid0.coords t)) : cfg0.idle 3 (grid0.coords t) = false := by
  rw [idle0_3_eq]; simp only [Bool.not_eq_eq_eq_not, Bool.not_false, beq_iff_eq]; exact hc1

/-! ## The staging memrefs at a point, the scratch, and the views contents are stated through -/

abbrev VO0_3 : View sig .tc .vmem S4096x64 .bf16 := (Memref.whole cc0_stg3_0 : Memref sig .tc .vmem S4096x64 .bf16).view
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x64 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S4096x64 .f32 := Memref.whole cc0_scratch0
abbrev VS0_0 : View sig .tc .vmem S4096x64 .f32 := scM0_0.view

/-- The region's invariant with the accumulator taken out of the scoped rest as a memref owned at some
    contents; the remainder of the scoped rest stays one unopened conjunct. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The windows' blocks at the region's entry contents -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end Blocks

end Cert.KernelIdeal.Hand

end
-- ==== Proof.KI.G0RunA.lean ====
/- Region 0 (the gather kernel): the whole-body run at the first tile of an edge block: the accumulator, found at any contents, is zeroed and one tile's product added; the output buffer is handed back untouched. -/
import proofs.«118646_j60988535603568_1_alg».proof.Proof.KI.G0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A, the first tile of an edge block: the accumulator, found at any contents, is zeroed and one tile's product added; the output buffer is handed back untouched.
    The pieces the stores leave in the output buffer (`L3`) and in the accumulator (`LS0`), last first, are
    read off the body's stores; with them the body's triple on whole memrefs holds: the three inputs are owned at
    their contents before and after. -/
noncomputable def kernelRun0_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond0_0 i) (hc1 : ¬cond0_1 i)
    (x0 : Vec F S4096x1 .i32) (x1 : Vec F S4096x1 .f32) (x2 : Vec F S2000x64 .bf16) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.G0RunB.lean ====
/- Region 0 (the gather kernel): the whole-body run at a middle tile of an edge block: one tile's product is added to the accumulator the tile before left; the output buffer is handed back untouched. -/
import proofs.«118646_j60988535603568_1_alg».proof.Proof.KI.G0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B, a middle tile of an edge block: one tile's product is added to the accumulator the tile before left; the output buffer is handed back untouched.
    The pieces the stores leave in the output buffer (`L3`) and in the accumulator (`LS0`), last first, are
    read off the body's stores; with them the body's triple on whole memrefs holds: the three inputs are owned at
    their contents before and after. -/
noncomputable def kernelRun0_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : ¬cond0_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.G0RunC.lean ====
/- Region 0 (the gather kernel): the whole-body run at the last tile of an edge block: one tile's product is added to the accumulator the tile before left, and the scaled accumulator is stored into the output buffer, found at any contents. -/
import proofs.«118646_j60988535603568_1_alg».proof.Proof.KI.G0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C, the last tile of an edge block: one tile's product is added to the accumulator the tile before left, and the scaled accumulator is stored into the output buffer, found at any contents.
    The pieces the stores leave in the output buffer (`L3`) and in the accumulator (`LS0`), last first, are
    read off the body's stores; with them the body's triple on whole memrefs holds: the three inputs are owned at
    their contents before and after. -/
noncomputable def kernelRun0_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.G0Body.lean ====
/- Region 0 (the gather kernel): what the accumulator and the output buffer hold after each grid point, the
   proof data of the region at any entry contents, and the body obligation. -/
import proofs.«118646_j60988535603568_1_alg».proof.Proof.KI.G0RunA
import proofs.«118646_j60988535603568_1_alg».proof.Proof.KI.G0RunB
import proofs.«118646_j60988535603568_1_alg».proof.Proof.KI.G0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the pieces cover the buffers -/

/-- Case A's stores into the accumulator tile it. -/
theorem scover0_A_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond0_0 i) (hc1 : ¬cond0_1 i)
    (x0 : Vec F S4096x1 .i32) (x1 : Vec F S4096x1 .f32) (x2 : Vec F S2000x64 .bf16) (y : S4096x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S4096x64.size (by sl_kernel_rfl) y

/-- What case A leaves in the accumulator. -/
def sout0_A_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond0_0 i) (hc1 : ¬cond0_1 i)
    (x0 : Vec F S4096x1 .i32) (x1 : Vec F S4096x1 .f32) (x2 : Vec F S2000x64 .bf16) : Vec F S4096x64 .f32 :=
  VS0_0.read (Elt F) (VS0_0.writes (Elt F) VS0_0.junk (kernelRun0_A c i arg2 harg2 arg3 harg3 arg4 harg4 arg5 harg5 arg6 harg6 hc0 hc1 x0 x1 x2).2.1)

/-- Case B's stores into the accumulator tile it. -/
theorem scover0_B_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : ¬cond0_1 i)
    (x0 : Vec F S4096x1 .i32) (x1 : Vec F S4096x1 .f32) (x2 : Vec F S2000x64 .bf16) (xs0 : Vec F S4096x64 .f32) (y : S4096x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S4096x64.size (by sl_kernel_rfl) y

/-- What case B leaves in the accumulator. -/
def sout0_B_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : ¬cond0_1 i)
    (x0 : Vec F S4096x1 .i32) (x1 : Vec F S4096x1 .f32) (x2 : Vec F S2000x64 .bf16) (xs0 : Vec F S4096x64 .f32) : Vec F S4096x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's stores into the accumulator tile it. -/
theorem scover0_C_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) (y : S4096x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S4096x64.size (by sl_kernel_rfl) y

/-- What case C leaves in the accumulator. -/
def sout0_C_0 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) : Vec F S4096x64 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- Case C's store into the output buffer tiles it. -/
theorem cover0_C_3 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) (y : S4096x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S4096x64.size (by sl_kernel_rfl) y

/-- What case C leaves in the output buffer. -/
def out0_C_3 (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) : Vec F S4096x64 .bf16 :=
  VO0_3.read (Elt F) (VO0_3.writes (Elt F) VO0_3.junk (kernelRun0_C c i arg2 harg2 arg3 harg3 arg4 harg4 arg5 harg5 arg6 harg6 hc0 hc1 x0 x1 x2 xs0).1)

/-- The output window's contents named at a point where the body stores nothing into it: never consulted, since
    there the block is neither written back nor read at the next point. -/
def out0_idle : Vec F S4096x64 .bf16 := VO0_3.read (Elt F) VO0_3.junk

/-! ## The conditions from the point's arithmetic -/

theorem r0hc0_of (t : Fin cfg0.N) (h : t.val % 25 = 0) : cond0_0 (grid0.coords t) := (hcond0_0 t).mpr h
theorem r0nhc0_of (t : Fin cfg0.N) (h : ¬t.val % 25 = 0) : ¬cond0_0 (grid0.coords t) := fun h' => h ((hcond0_0 t).mp h')
theorem r0hc1_of (t : Fin cfg0.N) (h : t.val % 25 = 24) : cond0_1 (grid0.coords t) := (hcond0_1 t).mpr h
theorem r0nhc1_of (t : Fin cfg0.N) (h : ¬t.val % 25 = 24) : ¬cond0_1 (grid0.coords t) := fun h' => h ((hcond0_1 t).mp h')
theorem r0nhc1_of0 (t : Fin cfg0.N) (h : t.val % 25 = 0) : ¬cond0_1 (grid0.coords t) := r0nhc1_of t (by omega)
theorem r0nhc0_of1 (t : Fin cfg0.N) (h : t.val % 25 = 24) : ¬cond0_0 (grid0.coords t) := r0nhc0_of t (by omega)

section Region
variable (V : (c : Dev nD) → (b : Ref sig .tc) → Buf (Elt F) ((c : Thread nD τ).loc b))

/-! ## One point's step, at the point's memrefs and input blocks -/

/-- The accumulator after a first tile. -/
def stepA0 (c : Dev nD) (t : Fin cfg0.N) (h0 : t.val % 25 = 0) : Vec F S4096x64 .f32 :=
  sout0_A_0 c (grid0.coords t) (ms0_0 t) (hs0_0 t) (ms0_1 t) (hs0_1 t) (ms0_2 t) (hs0_2 t) (ms0_3 t) (hs0_3 t) scM0_0 (Memref.isWhole_whole _) (r0hc0_of t h0) (r0nhc1_of0 t h0) (iblk0 V c 0 t) (iblk0 V c 1 t) (iblk0 V c 2 t)
/-- The accumulator after a middle tile, from what the tile before left. -/
def stepB0 (c : Dev nD) (t : Fin cfg0.N) (h0 : ¬t.val % 25 = 0) (h1 : ¬t.val % 25 = 24) (xs : Vec F S4096x64 .f32) : Vec F S4096x64 .f32 :=
  sout0_B_0 c (grid0.coords t) (ms0_0 t) (hs0_0 t) (ms0_1 t) (hs0_1 t) (ms0_2 t) (hs0_2 t) (ms0_3 t) (hs0_3 t) scM0_0 (Memref.isWhole_whole _) (r0nhc0_of t h0) (r0nhc1_of t h1) (iblk0 V c 0 t) (iblk0 V c 1 t) (iblk0 V c 2 t) xs
/-- The accumulator after a last tile, from what the tile before left. -/
def stepC0 (c : Dev nD) (t : Fin cfg0.N) (h1 : t.val % 25 = 24) (xs : Vec F S4096x64 .f32) : Vec F S4096x64 .f32 :=
  sout0_C_0 c (grid0.coords t) (ms0_0 t) (hs0_0 t) (ms0_1 t) (hs0_1 t) (ms0_2 t) (hs0_2 t) (ms0_3 t) (hs0_3 t) scM0_0 (Memref.isWhole_whole _) (r0nhc0_of1 t h1) (r0hc1_of t h1) (iblk0 V c 0 t) (iblk0 V c 1 t) (iblk0 V c 2 t) xs
/-- The output buffer after a last tile, from what the tile before left in the accumulator. -/
def stepO0 (c : Dev nD) (t : Fin cfg0.N) (h1 : t.val % 25 = 24) (xs : Vec F S4096x64 .f32) : Vec F S4096x64 .bf16 :=
  out0_C_3 c (grid0.coords t) (ms0_0 t) (hs0_0 t) (ms0_1 t) (hs0_1 t) (ms0_2 t) (hs0_2 t) (ms0_3 t) (hs0_3 t) scM0_0 (Memref.isWhole_whole _) (r0nhc0_of1 t h1) (r0hc1_of t h1) (iblk0 V c 0 t) (iblk0 V c 1 t) (iblk0 V c 2 t) xs

/-! ## What the output buffer and the accumulator hold after each point -/

/-- The accumulation, by recursion on the point: (the output buffer, the accumulator) after the body at point `n`.
    A first tile restarts the accumulator; a middle tile adds to what the point before left; a last tile adds and
    also stores the scaled accumulator as the output block. -/
def outsAt0 (c : Dev nD) : (n : ℕ) → n < cfg0.N → Vec F S4096x64 .bf16 × Vec F S4096x64 .f32
  | 0, hn => (out0_idle, stepA0 V c ⟨0, hn⟩ (Nat.zero_mod _))
  | n + 1, hn =>
    if h0 : (n + 1) % 25 = 0 then
      (out0_idle, stepA0 V c ⟨n + 1, hn⟩ h0)
    else
      if h1 : (n + 1) % 25 = 24 then
        (stepO0 V c ⟨n + 1, hn⟩ h1 (outsAt0 c n (Nat.lt_of_succ_lt hn)).2, stepC0 V c ⟨n + 1, hn⟩ h1 (outsAt0 c n (Nat.lt_of_succ_lt hn)).2)
      else
        (out0_idle, stepB0 V c ⟨n + 1, hn⟩ h0 h1 (outsAt0 c n (Nat.lt_of_succ_lt hn)).2)

/-- The accumulator the point before `t` left. -/
abbrev prevS0 (c : Dev nD) (t : Fin cfg0.N) : Vec F S4096x64 .f32 :=
  (outsAt0 V c (t.val - 1) (Nat.lt_of_le_of_lt (Nat.sub_le _ _) t.isLt)).2

theorem outsAt0_A (c : Dev nD) (t : Fin cfg0.N) (h0 : t.val % 25 = 0) :
    outsAt0 V c t.val t.isLt = (out0_idle, stepA0 V c t h0) := by
  obtain ⟨n, hn⟩ := t
  cases n with
  | zero => exact rfl
  | succ n => exact (dif_pos h0).trans rfl

theorem outsAt0_B (c : Dev nD) (t : Fin cfg0.N) (h0 : ¬t.val % 25 = 0) (h1 : ¬t.val % 25 = 24) :
    outsAt0 V c t.val t.isLt = (out0_idle, stepB0 V c t h0 h1 (prevS0 V c t)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h1 : t.val % 25 = 24) :
    outsAt0 V c t.val t.isLt = (stepO0 V c t h1 (prevS0 V c t), stepC0 V c t h1 (prevS0 V c t)) := by
  obtain ⟨n, hn⟩ := t
  cases n with
  | zero => exact (by exfalso; (try dsimp only at h1); omega)
  | succ n => exact (dif_neg (show ¬(n + 1) % 25 = 0 from fun h => by (try dsimp only at h1); omega)).trans ((dif_pos h1).trans rfl)

/-! ## The region's invariant, point by point -/

/-- Before the first point the region's own invariant (the accumulator at anything); afterwards the accumulator at
    what the point before left, the remainder of the scoped rest unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The region's proof data -/

/-- The arrays as the region finds them; after the body each input's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem Phi0_zero (c : Dev nD) : (dat0 V c).Φ 0 = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the point's residue mod 25 says which of the
    three cases it is in; the invariant hands the body the accumulator at what the point before left (at anything
    at the very first point) and takes it back at this point's contents; away from a last tile the output buffer
    is handed back as found, at a last tile it holds the case's store. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 5200 := lt_of_lt_of_eq t.isLt (show cfg0.N = 5200 from N_0)
  by_cases h0 : t.val % 25 = 0
  · rw [Dat.leavesExact_idle (dat0 V c) 3 t (idleAt0_3 t (r0nhc1_of0 t h0)) (noFlush0_3 t (r0nhc1_of0 t h0))]
    rw [outsAt0_A V c t h0]
    unfold stepA0 sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ (r0hc0_of t h0) (r0nhc1_of0 t h0) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ (r0hc0_of t h0) (r0nhc1_of0 t h0) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 25 = 24
    · rw [show (dat0 V c).leavesExact 3 t = owns (c : Thread nD τ) (ms0_3 t) fullShare ((dat0 V c).after 3 t) from by
        unfold Dat.leavesExact; rw [liveAt0_3 t (r0hc1_of t h1)], after0_3]
      rw [outsAt0_C V c t h1]
      unfold stepO0 stepC0 out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (r0nhc0_of1 t h1) (r0hc1_of t h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (r0nhc1_of t h1)) (noFlush0_3 t (r0nhc1_of t h1))]
      rw [outsAt0_B V c t h0 h1]
      unfold stepB0 sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (r0nhc0_of t h0) (r0nhc1_of t h1) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [Phi0_zero]
  try exact Idealize.SL.BI.Entails.refl _

/-- After any point but the first the invariant gives the region's own back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 5200 := N_0; omega)

end Region

end Cert.KernelIdeal.Hand

end
-- ==== Proof.KI.S1Runs.lean ====
/-
  Region 1 (the scatter kernel): what the three control cases of its body share.
  The grid is 25 node tiles by 208 edge blocks; point t is node tile t / 208, edge block t % 208.
  The first conditional (zero the accumulator) holds exactly at edge block 0, the second (scale the
  accumulator by the node norms and store the output block) exactly at edge block 207.
-/
import proofs.«118646_j60988535603568_1_alg».proof.Proof.Gen.KernelIdeal.Launch
import proofs.«118646_j60988535603568_1_alg».proof.Proof.Gen.KernelIdeal.Skeleton
import proofs.«118646_j60988535603568_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition: the edge-block coordinate is 0. -/
abbrev cond1_0 (i : grid1.Coords) : Prop := (Scalar.cmpi .ne (Scalar.extui (Scalar.cmpi .eq (BitVec.ofNat 32 (i 1).val) 0#32)) 0#32) = 1#1
/-- It holds exactly at the first edge block of each node tile. -/
theorem hcond1_0 : ∀ t : Fin cfg1.N, cond1_0 (grid1.coords t) ↔ t.val % 208 = 0 :=
  (by decide +kernel : ∀ t : Fin grid1.N, cond1_0 (grid1.coords t) ↔ t.val % 208 = 0)

/-- The second conditional's condition: the edge-block coordinate is 207. -/
abbrev cond1_1 (i : grid1.Coords) : Prop := k1_cond2 i = 1#1
/-- It holds exactly at the last edge block of each node tile. -/
theorem hcond1_1 : ∀ t : Fin cfg1.N, cond1_1 (grid1.coords t) ↔ t.val % 208 = 207 :=
  (by decide +kernel : ∀ t : Fin grid1.N, cond1_1 (grid1.coords t) ↔ t.val % 208 = 207)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Away from the last edge block the output window is idle: the body stores nothing into it. -/
theorem idleAt1_3 : ∀ t : Fin cfg1.N, ¬cond1_1 (grid1.coords t) → cfg1.idle 3 (grid1.coords t) = true := by
  intro t h
  show (!(k1_cond2 (grid1.coords t) == 1#1)) = true
  rw [Bool.not_eq_true', beq_eq_false_iff_ne]; exact h
/-- Away from the last edge block the output block is not written back. -/
theorem noFlush1_3 : ∀ t : Fin cfg1.N, ¬cond1_1 (grid1.coords t) → (cfg1.win 3).flush t = false := by
  intro t h
  rw [← Bool.not_eq_true]; intro hf
  exact h ((hcond1_1 t).mpr ((flush1_3 t).mp hf))
/-- At the last edge block the output window is live: the body stores its block. -/
theorem liveAt1_3 : ∀ t : Fin cfg1.N, cond1_1 (grid1.coords t) → cfg1.idle 3 (grid1.coords t) = false := by
  intro t h
  show (!(k1_cond2 (grid1.coords t) == 1#1)) = false
  rw [Bool.not_eq_false', beq_iff_eq]; exact h

/-! ## The memrefs the body is called with -/

/-- One staging buffer of the output window, through which its contents are stated. -/
abbrev VO1_3 : View sig .tc .vmem S2000x64 .f32 := (Memref.whole cc1_stg3_0 : Memref sig .tc .vmem S2000x64 .f32).view
/-- Each window's current staging memref at point t, and its wholeness. -/
abbrev ms1_0 (t : Fin cfg1.N) : Memref sig .tc .vmem S4096x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x64 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2000x64 .f32 := Memref.whole cc1_scratch0
/-- The accumulator as a view: what it holds is stated through it. -/
abbrev VS1_0 : View sig .tc .vmem S2000x64 .f32 := scM1_0.view

/-- The region's invariant with the accumulator taken out of the scoped rest as a memref owned at some
    contents; every other scoped buffer stays one unopened conjunct. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.S1RunA.lean ====
/-
  Region 1 (the scatter kernel), control case A: the whole-body run.
-/
import proofs.«118646_j60988535603568_1_alg».proof.Proof.KI.S1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case A — the first edge block of a node tile: the accumulator, found at any contents, is zeroed, then
    the block's contribution is added; the output window is idle and handed back untouched —,
    with the proof that on whole memrefs (the three inputs owned at their contents) the body runs to the
    continuation holding the inputs as they were and each stored buffer with its pieces written. -/
noncomputable def kernelRun1_A (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.S1RunB.lean ====
/-
  Region 1 (the scatter kernel), control case B: the whole-body run.
-/
import proofs.«118646_j60988535603568_1_alg».proof.Proof.KI.S1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case B — an edge block strictly between the first and the last: the block's contribution is added to the
    accumulator the point before left; the output window is idle and handed back untouched —,
    with the proof that on whole memrefs (the three inputs owned at their contents) the body runs to the
    continuation holding the inputs as they were and each stored buffer with its pieces written. -/
noncomputable def kernelRun1_B (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.S1RunC.lean ====
/-
  Region 1 (the scatter kernel), control case C: the whole-body run.
-/
import proofs.«118646_j60988535603568_1_alg».proof.Proof.KI.S1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case C — the last edge block of a node tile: the block's contribution is added to the accumulator the
    point before left, and the accumulator scaled row by row by the node norms is stored as the output block —,
    with the proof that on whole memrefs (the three inputs owned at their contents) the body runs to the
    continuation holding the inputs as they were and each stored buffer with its pieces written. -/
noncomputable def kernelRun1_C (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.S1Body.lean ====
/-
  Region 1 (the scatter kernel): what the output's staging buffer and the accumulator hold after each
  grid point, the region's proof data at any entry contents V, and the body obligation.
-/
import proofs.«118646_j60988535603568_1_alg».proof.Proof.KI.S1RunA
import proofs.«118646_j60988535603568_1_alg».proof.Proof.KI.S1RunB
import proofs.«118646_j60988535603568_1_alg».proof.Proof.KI.S1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: at an
    unfetched point the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: at an
    unfetched point the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: at an
    unfetched point the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the accumulator -/

/-- Case A's pieces for the accumulator cover it: whole-buffer stores. -/
theorem scover1_A_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) (y : S2000x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2000x64.size (by sl_kernel_rfl) y

/-- What case A leaves in the accumulator: its pieces read back. -/
def sout1_A_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) : Vec F S2000x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case A stores nothing into the output: no pieces. The value is a placeholder nothing consults, since at these
    points the window is neither written back nor read at the next point. -/
def out1_A_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) : Vec F S2000x64 .f32 :=
  VO1_3.read (Elt F) (VO1_3.writes (Elt F) VO1_3.junk (kernelRun1_A c i arg2 harg2 arg3 harg3 arg4 harg4 arg5 harg5 arg6 harg6 hc0 hc1 x0 x1 x2).1)

/-- Case B's pieces for the accumulator cover it: whole-buffer stores. -/
theorem scover1_B_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) (y : S2000x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2000x64.size (by sl_kernel_rfl) y

/-- What case B leaves in the accumulator: its pieces read back. -/
def sout1_B_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) : Vec F S2000x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case B stores nothing into the output: no pieces. The value is a placeholder nothing consults, since at these
    points the window is neither written back nor read at the next point. -/
def out1_B_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) : Vec F S2000x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case C's pieces for the accumulator cover it: whole-buffer stores. -/
theorem scover1_C_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) (y : S2000x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2000x64.size (by sl_kernel_rfl) y

/-- What case C leaves in the accumulator: its pieces read back. -/
def sout1_C_0 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) : Vec F S2000x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- Case C's pieces for the output cover its block: one whole-buffer store. -/
theorem cover1_C_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) (y : S2000x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2000x64.size (by sl_kernel_rfl) y

/-- What case C leaves in the output's staging buffer: its pieces read back. -/
def out1_C_3 (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) : Vec F S2000x64 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## What the output's buffer and the accumulator hold after each point -/

/-- THE ACCUMULATION. What the output's staging buffer (first component) and the accumulator (second component)
    hold after the body at position n: the case the closed forms select at n, run at the point's memrefs and input
    blocks, over the accumulator the point before left. -/
def outsAt1 (c : Dev nD) : (n : ℕ) → n < cfg1.N → Vec F S2000x64 .f32 × Vec F S2000x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 208 = 0 then
      if h1 : (n + 1) % 208 = 207 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 208 = 207 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- The accumulation at a point of case A. -/
theorem outsAt1_A (c : Dev nD) (t : Fin cfg1.N) (h0 : t.val % 208 = 0) (h1 : ¬t.val % 208 = 207) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- The accumulation at a point of case B: over what the point before left. -/
theorem outsAt1_B (c : Dev nD) (t : Fin cfg1.N) (h0 : ¬t.val % 208 = 0) (h1 : ¬t.val % 208 = 207) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: over what the point before left. -/
theorem outsAt1_C (c : Dev nD) (t : Fin cfg1.N) (h0 : ¬t.val % 208 = 0) (h1 : t.val % 208 = 207) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The region invariant before position n: before the first point the launch's (every scoped buffer at anything);
    afterwards the accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of region 1 on core c at the entry contents V: the arrays as the region finds them; after the body
    at point t each input's buffer at its block and the output's at the accumulation's first component; the invariant
    point by point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Before the first point the invariant is the launch's. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the first point),
    the other scoped buffers unopened and the generator register at some state, and takes the accumulator back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 208 = 0
  · by_cases h1 : t.val % 208 = 207
    · exfalso; omega
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h1 ((hcond1_1 t).mp h))) (noFlush1_3 t (fun h => h1 ((hcond1_1 t).mp h)))]
        rw [outsAt1_A V c t h0 h1]
        unfold sout1_A_0; (try dsimp only)

        by_cases hz : t.val = 0
        · rw [PhiS1_castSucc V c t, PhiS1_zero V c _ _ hz, PhiA1_eq]
          iintro ⟨⟨⟨HS0, HR⟩, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
        · rw [PhiS1_castSucc V c t, PhiS1_pos V c _ _ hz]
          iintro ⟨⟨⟨HS0, HR⟩, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
          isplitl [H0]; · iexact H0
          isplitl [H1]; · iexact H1
          isplitl [H2]; · iexact H2
          isplitl [H3]; · iexact H3
          isplitl [HS0]; · iexists _; iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
  · by_cases h1 : t.val % 208 = 207
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_1 t).mpr h1)], after1_3]
        rw [outsAt1_C V c t h0 h1]
        unfold out1_C_3 sout1_C_0; (try dsimp only)
        have hz : t.val ≠ 0 := fun e => h0 (by rw [e])
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h1 ((hcond1_1 t).mp h))) (noFlush1_3 t (fun h => h1 ((hcond1_1 t).mp h)))]
        rw [outsAt1_B V c t h0 h1]
        unfold sout1_B_0; (try dsimp only)
        have hz : t.val ≠ 0 := fun e => h0 (by rw [e])
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [Phi1_zero]
  try exact Idealize.SL.BI.Entails.refl _

/-- After any point but the first the invariant gives the launch's back: the accumulator's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 5200 := N_1; omega)

end Region1

end Cert.KernelIdeal.Hand

end
-- ==== Proof.KI.G2Runs.lean ====
/- Region 2 (the gather kernel) of the idealized program: what its three whole-body runs share.
   The grid is 208 edge blocks by 25 node tiles, point t = 25 * e + k. The body zeroes its accumulator at
   tile 0, adds one tile's one-hot product at every tile, and at tile 24 scales the accumulator by the
   norm block and stores it as the output block. -/
import proofs.«118646_j60988535603568_1_alg».proof.Proof.Gen.KernelIdeal.Launch
import proofs.«118646_j60988535603568_1_alg».proof.Proof.Gen.KernelIdeal.Skeleton
import proofs.«118646_j60988535603568_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid coordinates -/

/-- The first conditional: the node-tile coordinate is 0. -/
abbrev cond2_0 (i : grid2.Coords) : Prop := (Scalar.cmpi .ne (Scalar.extui (Scalar.cmpi .eq (BitVec.ofNat 32 (i 1).val) 0#32)) 0#32) = 1#1
/-- It holds exactly at the first tile of each edge block. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional: the node-tile coordinate is 24. -/
abbrev cond2_1 (i : grid2.Coords) : Prop := k2_cond2 i = 1#1
/-- It holds exactly at the last tile of each edge block. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

/-- The output window is idle exactly where the second conditional fails. -/
theorem idle2_3_eq (i : grid2.Coords) : cfg2.idle 3 i = !(k2_cond2 i == 1#1) := rfl

/-- Away from the last tile the output window is idle: nothing is stored into it. -/
theorem idleAt2_3 (t : Fin cfg2.N) (hc1 : ¬cond2_1 (grid2.coords t)) : cfg2.idle 3 (grid2.coords t) = true := by
  rw [idle2_3_eq]; simp only [Bool.not_eq_eq_eq_not, Bool.not_true, beq_eq_false_iff_ne, ne_eq]; exact hc1
/-- Away from the last tile the output block is not written back. -/
theorem noFlush2_3 (t : Fin cfg2.N) (hc1 : ¬cond2_1 (grid2.coords t)) : (cfg2.win 3).flush t = false :=
  Bool.eq_false_iff.2 fun h => hc1 ((hcond2_1 t).2 ((flush2_3 t).1 h))
/-- At the last tile the output window is live. -/
theorem liveAt2_3 (t : Fin cfg2.N) (hc1 : cond2_1 (grid2.coords t)) : cfg2.idle 3 (grid2.coords t) = false := by
  rw [idle2_3_eq]; simp only [Bool.not_eq_eq_eq_not, Bool.not_false, beq_iff_eq]; exact hc1

/-! ## The staging memrefs at a point, the scratch, and the views contents are stated through -/

abbrev VO2_3 : View sig .tc .vmem S4096x64 .bf16 := (Memref.whole cc2_stg3_0 : Memref sig .tc .vmem S4096x64 .bf16).view
abbrev ms2_0 (t : Fin cfg2.N) : Memref sig .tc .vmem S4096x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x64 .bf16 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S4096x64 .f32 := Memref.whole cc2_scratch0
abbrev VS2_0 : View sig .tc .vmem S4096x64 .f32 := scM2_0.view

/-- The region's invariant with the accumulator taken out of the scoped rest as a memref owned at some
    contents; the remainder of the scoped rest stays one unopened conjunct. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The windows' blocks at the region's entry contents -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched,
    the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end Blocks

end Cert.KernelIdeal.Hand

end
-- ==== Proof.KI.G2RunA.lean ====
/- Region 2 (the gather kernel): the whole-body run at the first tile of an edge block: the accumulator, found at any contents, is zeroed and one tile's product added; the output buffer is handed back untouched. -/
import proofs.«118646_j60988535603568_1_alg».proof.Proof.KI.G2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A, the first tile of an edge block: the accumulator, found at any contents, is zeroed and one tile's product added; the output buffer is handed back untouched.
    The pieces the stores leave in the output buffer (`L3`) and in the accumulator (`LS0`), last first, are
    read off the body's stores; with them the body's triple on whole memrefs holds: the three inputs are owned at
    their contents before and after. -/
noncomputable def kernelRun2_A (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond2_0 i) (hc1 : ¬cond2_1 i)
    (x0 : Vec F S4096x1 .i32) (x1 : Vec F S4096x1 .f32) (x2 : Vec F S2000x64 .bf16) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.G2RunB.lean ====
/- Region 2 (the gather kernel): the whole-body run at a middle tile of an edge block: one tile's product is added to the accumulator the tile before left; the output buffer is handed back untouched. -/
import proofs.«118646_j60988535603568_1_alg».proof.Proof.KI.G2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B, a middle tile of an edge block: one tile's product is added to the accumulator the tile before left; the output buffer is handed back untouched.
    The pieces the stores leave in the output buffer (`L3`) and in the accumulator (`LS0`), last first, are
    read off the body's stores; with them the body's triple on whole memrefs holds: the three inputs are owned at
    their contents before and after. -/
noncomputable def kernelRun2_B (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : ¬cond2_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.G2RunC.lean ====
/- Region 2 (the gather kernel): the whole-body run at the last tile of an edge block: one tile's product is added to the accumulator the tile before left, and the scaled accumulator is stored into the output buffer, found at any contents. -/
import proofs.«118646_j60988535603568_1_alg».proof.Proof.KI.G2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C, the last tile of an edge block: one tile's product is added to the accumulator the tile before left, and the scaled accumulator is stored into the output buffer, found at any contents.
    The pieces the stores leave in the output buffer (`L3`) and in the accumulator (`LS0`), last first, are
    read off the body's stores; with them the body's triple on whole memrefs holds: the three inputs are owned at
    their contents before and after. -/
noncomputable def kernelRun2_C (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.G2Body.lean ====
/- Region 2 (the gather kernel): what the accumulator and the output buffer hold after each grid point, the
   proof data of the region at any entry contents, and the body obligation. -/
import proofs.«118646_j60988535603568_1_alg».proof.Proof.KI.G2RunA
import proofs.«118646_j60988535603568_1_alg».proof.Proof.KI.G2RunB
import proofs.«118646_j60988535603568_1_alg».proof.Proof.KI.G2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the pieces cover the buffers -/

/-- Case A's stores into the accumulator tile it. -/
theorem scover2_A_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond2_0 i) (hc1 : ¬cond2_1 i)
    (x0 : Vec F S4096x1 .i32) (x1 : Vec F S4096x1 .f32) (x2 : Vec F S2000x64 .bf16) (y : S4096x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S4096x64.size (by sl_kernel_rfl) y

/-- What case A leaves in the accumulator. -/
def sout2_A_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond2_0 i) (hc1 : ¬cond2_1 i)
    (x0 : Vec F S4096x1 .i32) (x1 : Vec F S4096x1 .f32) (x2 : Vec F S2000x64 .bf16) : Vec F S4096x64 .f32 :=
  VS2_0.read (Elt F) (VS2_0.writes (Elt F) VS2_0.junk (kernelRun2_A c i arg2 harg2 arg3 harg3 arg4 harg4 arg5 harg5 arg6 harg6 hc0 hc1 x0 x1 x2).2.1)

/-- Case B's stores into the accumulator tile it. -/
theorem scover2_B_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : ¬cond2_1 i)
    (x0 : Vec F S4096x1 .i32) (x1 : Vec F S4096x1 .f32) (x2 : Vec F S2000x64 .bf16) (xs0 : Vec F S4096x64 .f32) (y : S4096x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S4096x64.size (by sl_kernel_rfl) y

/-- What case B leaves in the accumulator. -/
def sout2_B_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : ¬cond2_1 i)
    (x0 : Vec F S4096x1 .i32) (x1 : Vec F S4096x1 .f32) (x2 : Vec F S2000x64 .bf16) (xs0 : Vec F S4096x64 .f32) : Vec F S4096x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's stores into the accumulator tile it. -/
theorem scover2_C_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) (y : S4096x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S4096x64.size (by sl_kernel_rfl) y

/-- What case C leaves in the accumulator. -/
def sout2_C_0 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) : Vec F S4096x64 .f32 :=
  VS2_0.read (Elt F) (VS2_0.writes (Elt F) VS2_0.junk (kernelRun2_C c i arg2 harg2 arg3 harg3 arg4 harg4 arg5 harg5 arg6 harg6 hc0 hc1 x0 x1 x2 xs0).2.1)

/-- Case C's store into the output buffer tiles it. -/
theorem cover2_C_3 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) (y : S4096x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S4096x64.size (by sl_kernel_rfl) y

/-- What case C leaves in the output buffer. -/
def out2_C_3 (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) : Vec F S4096x64 .bf16 :=
  VO2_3.read (Elt F) (VO2_3.writes (Elt F) VO2_3.junk (kernelRun2_C c i arg2 harg2 arg3 harg3 arg4 harg4 arg5 harg5 arg6 harg6 hc0 hc1 x0 x1 x2 xs0).1)

/-- The output window's contents named at a point where the body stores nothing into it: never consulted, since
    there the block is neither written back nor read at the next point. -/
def out2_idle : Vec F S4096x64 .bf16 := VO2_3.read (Elt F) VO2_3.junk

/-! ## The conditions from the point's arithmetic -/

theorem r2hc0_of (t : Fin cfg2.N) (h : t.val % 25 = 0) : cond2_0 (grid2.coords t) := (hcond2_0 t).mpr h
theorem r2nhc0_of (t : Fin cfg2.N) (h : ¬t.val % 25 = 0) : ¬cond2_0 (grid2.coords t) := fun h' => h ((hcond2_0 t).mp h')
theorem r2hc1_of (t : Fin cfg2.N) (h : t.val % 25 = 24) : cond2_1 (grid2.coords t) := (hcond2_1 t).mpr h
theorem r2nhc1_of (t : Fin cfg2.N) (h : ¬t.val % 25 = 24) : ¬cond2_1 (grid2.coords t) := fun h' => h ((hcond2_1 t).mp h')
theorem r2nhc1_of0 (t : Fin cfg2.N) (h : t.val % 25 = 0) : ¬cond2_1 (grid2.coords t) := r2nhc1_of t (by omega)
theorem r2nhc0_of1 (t : Fin cfg2.N) (h : t.val % 25 = 24) : ¬cond2_0 (grid2.coords t) := r2nhc0_of t (by omega)

section Region
variable (V : (c : Dev nD) → (b : Ref sig .tc) → Buf (Elt F) ((c : Thread nD τ).loc b))

/-! ## One point's step, at the point's memrefs and input blocks -/

/-- The accumulator after a first tile. -/
def stepA2 (c : Dev nD) (t : Fin cfg2.N) (h0 : t.val % 25 = 0) : Vec F S4096x64 .f32 :=
  sout2_A_0 c (grid2.coords t) (ms2_0 t) (hs2_0 t) (ms2_1 t) (hs2_1 t) (ms2_2 t) (hs2_2 t) (ms2_3 t) (hs2_3 t) scM2_0 (Memref.isWhole_whole _) (r2hc0_of t h0) (r2nhc1_of0 t h0) (iblk2 V c 0 t) (iblk2 V c 1 t) (iblk2 V c 2 t)
/-- The accumulator after a middle tile, from what the tile before left. -/
def stepB2 (c : Dev nD) (t : Fin cfg2.N) (h0 : ¬t.val % 25 = 0) (h1 : ¬t.val % 25 = 24) (xs : Vec F S4096x64 .f32) : Vec F S4096x64 .f32 :=
  sout2_B_0 c (grid2.coords t) (ms2_0 t) (hs2_0 t) (ms2_1 t) (hs2_1 t) (ms2_2 t) (hs2_2 t) (ms2_3 t) (hs2_3 t) scM2_0 (Memref.isWhole_whole _) (r2nhc0_of t h0) (r2nhc1_of t h1) (iblk2 V c 0 t) (iblk2 V c 1 t) (iblk2 V c 2 t) xs
/-- The accumulator after a last tile, from what the tile before left. -/
def stepC2 (c : Dev nD) (t : Fin cfg2.N) (h1 : t.val % 25 = 24) (xs : Vec F S4096x64 .f32) : Vec F S4096x64 .f32 :=
  sout2_C_0 c (grid2.coords t) (ms2_0 t) (hs2_0 t) (ms2_1 t) (hs2_1 t) (ms2_2 t) (hs2_2 t) (ms2_3 t) (hs2_3 t) scM2_0 (Memref.isWhole_whole _) (r2nhc0_of1 t h1) (r2hc1_of t h1) (iblk2 V c 0 t) (iblk2 V c 1 t) (iblk2 V c 2 t) xs
/-- The output buffer after a last tile, from what the tile before left in the accumulator. -/
def stepO2 (c : Dev nD) (t : Fin cfg2.N) (h1 : t.val % 25 = 24) (xs : Vec F S4096x64 .f32) : Vec F S4096x64 .bf16 :=
  out2_C_3 c (grid2.coords t) (ms2_0 t) (hs2_0 t) (ms2_1 t) (hs2_1 t) (ms2_2 t) (hs2_2 t) (ms2_3 t) (hs2_3 t) scM2_0 (Memref.isWhole_whole _) (r2nhc0_of1 t h1) (r2hc1_of t h1) (iblk2 V c 0 t) (iblk2 V c 1 t) (iblk2 V c 2 t) xs

/-! ## What the output buffer and the accumulator hold after each point -/

/-- The accumulation, by recursion on the point: (the output buffer, the accumulator) after the body at point `n`.
    A first tile restarts the accumulator; a middle tile adds to what the point before left; a last tile adds and
    also stores the scaled accumulator as the output block. -/
def outsAt2 (c : Dev nD) : (n : ℕ) → n < cfg2.N → Vec F S4096x64 .bf16 × Vec F S4096x64 .f32
  | 0, hn => (out2_idle, stepA2 V c ⟨0, hn⟩ (Nat.zero_mod _))
  | n + 1, hn =>
    if h0 : (n + 1) % 25 = 0 then
      (out2_idle, stepA2 V c ⟨n + 1, hn⟩ h0)
    else
      if h1 : (n + 1) % 25 = 24 then
        (stepO2 V c ⟨n + 1, hn⟩ h1 (outsAt2 c n (Nat.lt_of_succ_lt hn)).2, stepC2 V c ⟨n + 1, hn⟩ h1 (outsAt2 c n (Nat.lt_of_succ_lt hn)).2)
      else
        (out2_idle, stepB2 V c ⟨n + 1, hn⟩ h0 h1 (outsAt2 c n (Nat.lt_of_succ_lt hn)).2)

/-- The accumulator the point before `t` left. -/
abbrev prevS2 (c : Dev nD) (t : Fin cfg2.N) : Vec F S4096x64 .f32 :=
  (outsAt2 V c (t.val - 1) (Nat.lt_of_le_of_lt (Nat.sub_le _ _) t.isLt)).2

theorem outsAt2_A (c : Dev nD) (t : Fin cfg2.N) (h0 : t.val % 25 = 0) :
    outsAt2 V c t.val t.isLt = (out2_idle, stepA2 V c t h0) := by
  obtain ⟨n, hn⟩ := t
  cases n with
  | zero => exact rfl
  | succ n => exact (dif_pos h0).trans rfl

theorem outsAt2_B (c : Dev nD) (t : Fin cfg2.N) (h0 : ¬t.val % 25 = 0) (h1 : ¬t.val % 25 = 24) :
    outsAt2 V c t.val t.isLt = (out2_idle, stepB2 V c t h0 h1 (prevS2 V c t)) := by
  obtain ⟨n, hn⟩ := t
  cases n with
  | zero => exact absurd (Nat.zero_mod _) h0
  | succ n => exact (dif_neg h0).trans ((dif_neg h1).trans rfl)

theorem outsAt2_C (c : Dev nD) (t : Fin cfg2.N) (h1 : t.val % 25 = 24) :
    outsAt2 V c t.val t.isLt = (stepO2 V c t h1 (prevS2 V c t), stepC2 V c t h1 (prevS2 V c t)) := by
  obtain ⟨n, hn⟩ := t
  cases n with
  | zero => exact (by exfalso; (try dsimp only at h1); omega)
  | succ n => exact (dif_neg (show ¬(n + 1) % 25 = 0 from fun h => by (try dsimp only at h1); omega)).trans ((dif_pos h1).trans rfl)

/-! ## The region's invariant, point by point -/

/-- Before the first point the region's own invariant (the accumulator at anything); afterwards the accumulator at
    what the point before left, the remainder of the scoped rest unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The region's proof data -/

/-- The arrays as the region finds them; after the body each input's buffer at its block and the output's at
    `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem Phi2_zero (c : Dev nD) : (dat2 V c).Φ 0 = Pipeline.ΦA spec2 c := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the point's residue mod 25 says which of the
    three cases it is in; the invariant hands the body the accumulator at what the point before left (at anything
    at the very first point) and takes it back at this point's contents; away from a last tile the output buffer
    is handed back as found, at a last tile it holds the case's store. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 5200 := lt_of_lt_of_eq t.isLt (show cfg2.N = 5200 from N_2)
  by_cases h0 : t.val % 25 = 0
  · rw [Dat.leavesExact_idle (dat2 V c) 3 t (idleAt2_3 t (r2nhc1_of0 t h0)) (noFlush2_3 t (r2nhc1_of0 t h0))]
    rw [outsAt2_A V c t h0]
    unfold stepA2 sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ (r2hc0_of t h0) (r2nhc1_of0 t h0) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ (r2hc0_of t h0) (r2nhc1_of0 t h0) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 25 = 24
    · rw [show (dat2 V c).leavesExact 3 t = owns (c : Thread nD τ) (ms2_3 t) fullShare ((dat2 V c).after 3 t) from by
        unfold Dat.leavesExact; rw [liveAt2_3 t (r2hc1_of t h1)], after2_3]
      rw [outsAt2_C V c t h1]
      unfold stepO2 stepC2 out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (r2nhc0_of1 t h1) (r2hc1_of t h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (r2nhc1_of t h1)) (noFlush2_3 t (r2nhc1_of t h1))]
      rw [outsAt2_B V c t h0 h1]
      unfold stepB2 sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (r2nhc0_of t h0) (r2nhc1_of t h1) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [Phi2_zero]
  try exact Idealize.SL.BI.Entails.refl _

/-- After any point but the first the invariant gives the region's own back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 5200 := N_2; omega)

end Region

end Cert.KernelIdeal.Hand

end
-- ==== Proof.KI.S3Runs.lean ====
/-
  Region 3 (the scatter kernel): what the three control cases of its body share.
  The grid is 25 node tiles by 208 edge blocks; point t is node tile t / 208, edge block t % 208.
  The first conditional (zero the accumulator) holds exactly at edge block 0, the second (scale the
  accumulator by the node norms and store the output block) exactly at edge block 207.
-/
import proofs.«118646_j60988535603568_1_alg».proof.Proof.Gen.KernelIdeal.Launch
import proofs.«118646_j60988535603568_1_alg».proof.Proof.Gen.KernelIdeal.Skeleton
import proofs.«118646_j60988535603568_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition: the edge-block coordinate is 0. -/
abbrev cond3_0 (i : grid3.Coords) : Prop := (Scalar.cmpi .ne (Scalar.extui (Scalar.cmpi .eq (BitVec.ofNat 32 (i 1).val) 0#32)) 0#32) = 1#1
/-- It holds exactly at the first edge block of each node tile. -/
theorem hcond3_0 : ∀ t : Fin cfg3.N, cond3_0 (grid3.coords t) ↔ t.val % 208 = 0 :=
  (by decide +kernel : ∀ t : Fin grid3.N, cond3_0 (grid3.coords t) ↔ t.val % 208 = 0)

/-- The second conditional's condition: the edge-block coordinate is 207. -/
abbrev cond3_1 (i : grid3.Coords) : Prop := k3_cond2 i = 1#1
/-- It holds exactly at the last edge block of each node tile. -/
theorem hcond3_1 : ∀ t : Fin cfg3.N, cond3_1 (grid3.coords t) ↔ t.val % 208 = 207 :=
  (by decide +kernel : ∀ t : Fin grid3.N, cond3_1 (grid3.coords t) ↔ t.val % 208 = 207)

/-! ## Where the windows are idle -/

/-- The three input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

/-- Away from the last edge block the output window is idle: the body stores nothing into it. -/
theorem idleAt3_3 : ∀ t : Fin cfg3.N, ¬cond3_1 (grid3.coords t) → cfg3.idle 3 (grid3.coords t) = true := by
  intro t h
  show (!(k3_cond2 (grid3.coords t) == 1#1)) = true
  rw [Bool.not_eq_true', beq_eq_false_iff_ne]; exact h
/-- Away from the last edge block the output block is not written back. -/
theorem noFlush3_3 : ∀ t : Fin cfg3.N, ¬cond3_1 (grid3.coords t) → (cfg3.win 3).flush t = false := by
  intro t h
  rw [← Bool.not_eq_true]; intro hf
  exact h ((hcond3_1 t).mpr ((flush3_3 t).mp hf))
/-- At the last edge block the output window is live: the body stores its block. -/
theorem liveAt3_3 : ∀ t : Fin cfg3.N, cond3_1 (grid3.coords t) → cfg3.idle 3 (grid3.coords t) = false := by
  intro t h
  show (!(k3_cond2 (grid3.coords t) == 1#1)) = false
  rw [Bool.not_eq_false', beq_iff_eq]; exact h

/-! ## The memrefs the body is called with -/

/-- One staging buffer of the output window, through which its contents are stated. -/
abbrev VO3_3 : View sig .tc .vmem S2000x64 .f32 := (Memref.whole cc3_stg3_0 : Memref sig .tc .vmem S2000x64 .f32).view
/-- Each window's current staging memref at point t, and its wholeness. -/
abbrev ms3_0 (t : Fin cfg3.N) : Memref sig .tc .vmem S4096x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x64 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S2000x64 .f32 := Memref.whole cc3_scratch0
/-- The accumulator as a view: what it holds is stated through it. -/
abbrev VS3_0 : View sig .tc .vmem S2000x64 .f32 := scM3_0.view

/-- The region's invariant with the accumulator taken out of the scoped rest as a memref owned at some
    contents; every other scoped buffer stays one unopened conjunct. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.S3RunA.lean ====
/-
  Region 3 (the scatter kernel), control case A: the whole-body run.
-/
import proofs.«118646_j60988535603568_1_alg».proof.Proof.KI.S3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case A — the first edge block of a node tile: the accumulator, found at any contents, is zeroed, then
    the block's contribution is added; the output window is idle and handed back untouched —,
    with the proof that on whole memrefs (the three inputs owned at their contents) the body runs to the
    continuation holding the inputs as they were and each stored buffer with its pieces written. -/
noncomputable def kernelRun3_A (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.S3RunB.lean ====
/-
  Region 3 (the scatter kernel), control case B: the whole-body run.
-/
import proofs.«118646_j60988535603568_1_alg».proof.Proof.KI.S3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case B — an edge block strictly between the first and the last: the block's contribution is added to the
    accumulator the point before left; the output window is idle and handed back untouched —,
    with the proof that on whole memrefs (the three inputs owned at their contents) the body runs to the
    continuation holding the inputs as they were and each stored buffer with its pieces written. -/
noncomputable def kernelRun3_B (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.S3RunC.lean ====
/-
  Region 3 (the scatter kernel), control case C: the whole-body run.
-/
import proofs.«118646_j60988535603568_1_alg».proof.Proof.KI.S3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case C — the last edge block of a node tile: the block's contribution is added to the accumulator the
    point before left, and the accumulator scaled row by row by the node norms is stored as the output block —,
    with the proof that on whole memrefs (the three inputs owned at their contents) the body runs to the
    continuation holding the inputs as they were and each stored buffer with its pieces written. -/
noncomputable def kernelRun3_C (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨?_, ?_, fun E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.S3Body.lean ====
/-
  Region 3 (the scatter kernel): what the output's staging buffer and the accumulator hold after each
  grid point, the region's proof data at any entry contents V, and the body obligation.
-/
import proofs.«118646_j60988535603568_1_alg».proof.Proof.KI.S3RunA
import proofs.«118646_j60988535603568_1_alg».proof.Proof.KI.S3RunB
import proofs.«118646_j60988535603568_1_alg».proof.Proof.KI.S3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: at an
    unfetched point the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: at an
    unfetched point the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: at an
    unfetched point the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the output's buffer and in the accumulator -/

/-- Case A's pieces for the accumulator cover it: whole-buffer stores. -/
theorem scover3_A_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) (y : S2000x64.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2000x64.size (by sl_kernel_rfl) y

/-- What case A leaves in the accumulator: its pieces read back. -/
def sout3_A_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) : Vec F S2000x64 .f32 :=
  VS3_0.read (Elt F) (VS3_0.writes (Elt F) VS3_0.junk (kernelRun3_A c i arg2 harg2 arg3 harg3 arg4 harg4 arg5 harg5 arg6 harg6 hc0 hc1 x0 x1 x2).2.1)

/-- Case A stores nothing into the output: no pieces. The value is a placeholder nothing consults, since at these
    points the window is neither written back nor read at the next point. -/
def out3_A_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) : Vec F S2000x64 .f32 :=
  VO3_3.read (Elt F) (VO3_3.writes (Elt F) VO3_3.junk (kernelRun3_A c i arg2 harg2 arg3 harg3 arg4 harg4 arg5 harg5 arg6 harg6 hc0 hc1 x0 x1 x2).1)

/-- Case B's pieces for the accumulator cover it: whole-buffer stores. -/
theorem scover3_B_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) (y : S2000x64.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2000x64.size (by sl_kernel_rfl) y

/-- What case B leaves in the accumulator: its pieces read back. -/
def sout3_B_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) : Vec F S2000x64 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case B stores nothing into the output: no pieces. The value is a placeholder nothing consults, since at these
    points the window is neither written back nor read at the next point. -/
def out3_B_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) : Vec F S2000x64 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case C's pieces for the accumulator cover it: whole-buffer stores. -/
theorem scover3_C_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) (y : S2000x64.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2000x64.size (by sl_kernel_rfl) y

/-- What case C leaves in the accumulator: its pieces read back. -/
def sout3_C_0 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) : Vec F S2000x64 .f32 :=
  VS3_0.read (Elt F) (VS3_0.writes (Elt F) VS3_0.junk (kernelRun3_C c i arg2 harg2 arg3 harg3 arg4 harg4 arg5 harg5 arg6 harg6 hc0 hc1 x0 x1 x2 xs0).2.1)

/-- Case C's pieces for the output cover its block: one whole-buffer store. -/
theorem cover3_C_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) (y : S2000x64.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2000x64.size (by sl_kernel_rfl) y

/-- What case C leaves in the output's staging buffer: its pieces read back. -/
def out3_C_3 (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) : Vec F S2000x64 .f32 :=
  VO3_3.read (Elt F) (VO3_3.writes (Elt F) VO3_3.junk (kernelRun3_C c i arg2 harg2 arg3 harg3 arg4 harg4 arg5 harg5 arg6 harg6 hc0 hc1 x0 x1 x2 xs0).1)

/-! ## What the output's buffer and the accumulator hold after each point -/

/-- THE ACCUMULATION. What the output's staging buffer (first component) and the accumulator (second component)
    hold after the body at position n: the case the closed forms select at n, run at the point's memrefs and input
    blocks, over the accumulator the point before left. -/
def outsAt3 (c : Dev nD) : (n : ℕ) → n < cfg3.N → Vec F S2000x64 .f32 × Vec F S2000x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 208 = 0 then
      if h1 : (n + 1) % 208 = 207 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 208 = 207 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- The accumulation at a point of case A. -/
theorem outsAt3_A (c : Dev nD) (t : Fin cfg3.N) (h0 : t.val % 208 = 0) (h1 : ¬t.val % 208 = 207) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- The accumulation at a point of case B: over what the point before left. -/
theorem outsAt3_B (c : Dev nD) (t : Fin cfg3.N) (h0 : ¬t.val % 208 = 0) (h1 : ¬t.val % 208 = 207) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: over what the point before left. -/
theorem outsAt3_C (c : Dev nD) (t : Fin cfg3.N) (h0 : ¬t.val % 208 = 0) (h1 : t.val % 208 = 207) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The region invariant before position n: before the first point the launch's (every scoped buffer at anything);
    afterwards the accumulator at what the point before left in it, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of region 3 on core c at the entry contents V: the arrays as the region finds them; after the body
    at point t each input's buffer at its block and the output's at the accumulation's first component; the invariant
    point by point; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- Before the first point the invariant is the launch's. -/
theorem Phi3_zero (c : Dev nD) : (dat3 V c).Φ 0 = Pipeline.ΦA spec3 c := by
  rw [show (dat3 V c).Φ 0 = PhiS3 V c 0 (Nat.zero_le _) from rfl, PhiS3_zero V c 0 _ rfl]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in;
    the invariant hands the body the accumulator at what the point before left (at anything at the first point),
    the other scoped buffers unopened and the generator register at some state, and takes the accumulator back at
    this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  by_cases h0 : t.val % 208 = 0
  · by_cases h1 : t.val % 208 = 207
    · exfalso; omega
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [Dat.leavesExact_idle (dat3 V c) 3 t (idleAt3_3 t (fun h => h1 ((hcond3_1 t).mp h))) (noFlush3_3 t (fun h => h1 ((hcond3_1 t).mp h)))]
        rw [outsAt3_A V c t h0 h1]
        unfold sout3_A_0; (try dsimp only)

        by_cases hz : t.val = 0
        · rw [PhiS3_castSucc V c t, PhiS3_zero V c _ _ hz, PhiA3_eq]
          iintro ⟨⟨⟨HS0, HR⟩, Hg⟩, Ho, ⟨%d0, H0⟩, ⟨%d1, H1⟩, ⟨%d2, H2⟩, ⟨%d3, H3⟩⟩
          iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover3_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
        · rw [PhiS3_castSucc V c t, PhiS3_pos V c _ _ hz]
          iintro ⟨⟨⟨HS0, HR⟩, Hg⟩, Ho, ⟨%d0, H0⟩, ⟨%d1, H1⟩, ⟨%d2, H2⟩, ⟨%d3, H3⟩⟩
          iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
          isplitl [H0]; · iexact H0
          isplitl [H1]; · iexact H1
          isplitl [H2]; · iexact H2
          isplitl [H3]; · iexact H3
          isplitl [HS0]; · iexists _; iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover3_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
  · by_cases h1 : t.val % 208 = 207
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t ((hcond3_1 t).mpr h1)], after3_3]
        rw [outsAt3_C V c t h0 h1]
        unfold out3_C_3 sout3_C_0; (try dsimp only)
        have hz : t.val ≠ 0 := fun e => h0 (by rw [e])
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [Dat.leavesExact_idle (dat3 V c) 3 t (idleAt3_3 t (fun h => h1 ((hcond3_1 t).mp h))) (noFlush3_3 t (fun h => h1 ((hcond3_1 t).mp h)))]
        rw [outsAt3_B V c t h0 h1]
        unfold sout3_B_0; (try dsimp only)
        have hz : t.val ≠ 0 := fun e => h0 (by rw [e])
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [Phi3_zero]
  try exact Idealize.SL.BI.Entails.refl _

/-- After any point but the first the invariant gives the launch's back: the accumulator's named contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi3_out V c _ (by rw [Fin.val_last]; have : cfg3.N = 5200 := N_3; omega)

end Region3

end Cert.KernelIdeal.Hand

end
-- ==== Proof.KI.G4Runs.lean ====
/- Region 4 (the gather kernel) of the idealized program: what its three whole-body runs share.
   The grid is 208 edge blocks by 25 node tiles, point t = 25 * e + k. The body zeroes its accumulator at
   tile 0, adds one tile's one-hot product at every tile, and at tile 24 scales the accumulator by the
   norm block and stores it as the output block. -/
import proofs.«118646_j60988535603568_1_alg».proof.Proof.Gen.KernelIdeal.Launch
import proofs.«118646_j60988535603568_1_alg».proof.Proof.Gen.KernelIdeal.Skeleton
import proofs.«118646_j60988535603568_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid coordinates -/

/-- The first conditional: the node-tile coordinate is 0. -/
abbrev cond4_0 (i : grid4.Coords) : Prop := (Scalar.cmpi .ne (Scalar.extui (Scalar.cmpi .eq (BitVec.ofNat 32 (i 1).val) 0#32)) 0#32) = 1#1
/-- It holds exactly at the first tile of each edge block. -/
theorem hcond4_0 : ∀ t : Fin cfg4.N, cond4_0 (grid4.coords t) ↔ t.val % 25 = 0 :=
  (by decide +kernel : ∀ t : Fin grid4.N, cond4_0 (grid4.coords t) ↔ t.val % 25 = 0)

/-- The second conditional: the node-tile coordinate is 24. -/
abbrev cond4_1 (i : grid4.Coords) : Prop := k4_cond2 i = 1#1
/-- It holds exactly at the last tile of each edge block. -/
theorem hcond4_1 : ∀ t : Fin cfg4.N, cond4_1 (grid4.coords t) ↔ t.val % 25 = 24 :=
  (by decide +kernel : ∀ t : Fin grid4.N, cond4_1 (grid4.coords t) ↔ t.val % 25 = 24)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

/-- The output window is idle exactly where the second conditional fails. -/
theorem idle4_3_eq (i : grid4.Coords) : cfg4.idle 3 i = !(k4_cond2 i == 1#1) := rfl

/-- Away from the last tile the output window is idle: nothing is stored into it. -/
theorem idleAt4_3 (t : Fin cfg4.N) (hc1 : ¬cond4_1 (grid4.coords t)) : cfg4.idle 3 (grid4.coords t) = true := by
  rw [idle4_3_eq]; simp only [Bool.not_eq_eq_eq_not, Bool.not_true, beq_eq_false_iff_ne, ne_eq]; exact hc1
/-- Away from the last tile the output block is not written back. -/
theorem noFlush4_3 (t : Fin cfg4.N) (hc1 : ¬cond4_1 (grid4.coords t)) : (cfg4.win 3).flush t = false :=
  Bool.eq_false_iff.2 fun h => hc1 ((hcond4_1 t).2 ((flush4_3 t).1 h))
/-- At the last tile the output window is live. -/
theorem liveAt4_3 (t : Fin cfg4.N) (hc1 : cond4_1 (grid4.coords t)) : cfg4.idle 3 (grid4.coords t) = false := by
  rw [idle4_3_eq]; simp only [Bool.not_eq_eq_eq_not, Bool.not_false, beq_iff_eq]; exact hc1

/-! ## The staging memrefs at a point, the scratch, and the views contents are stated through -/

abbrev VO4_3 : View sig .tc .vmem S4096x64 .bf16 := (Memref.whole cc4_stg3_0 : Memref sig .tc .vmem S4096x64 .bf16).view
abbrev ms4_0 (t : Fin cfg4.N) : Memref sig .tc .vmem S4096x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x64 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x64 .bf16 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows. -/
abbrev scM4_0 : Memref sig .tc .vmem S4096x64 .f32 := Memref.whole cc4_scratch0
abbrev VS4_0 : View sig .tc .vmem S4096x64 .f32 := scM4_0.view

/-- The region's invariant with the accumulator taken out of the scoped rest as a memref owned at some
    contents; the remainder of the scoped rest stays one unopened conjunct. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The windows' blocks at the region's entry contents -/

section Blocks
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (unfetched,
    the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
end Blocks

end Cert.KernelIdeal.Hand

end
-- ==== Proof.KI.G4RunA.lean ====
/- Region 4 (the gather kernel): the whole-body run at the first tile of an edge block: the accumulator, found at any contents, is zeroed and one tile's product added; the output buffer is handed back untouched. -/
import proofs.«118646_j60988535603568_1_alg».proof.Proof.KI.G4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A, the first tile of an edge block: the accumulator, found at any contents, is zeroed and one tile's product added; the output buffer is handed back untouched.
    The pieces the stores leave in the output buffer (`L3`) and in the accumulator (`LS0`), last first, are
    read off the body's stores; with them the body's triple on whole memrefs holds: the three inputs are owned at
    their contents before and after. -/
noncomputable def kernelRun4_A (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond4_0 i) (hc1 : ¬cond4_1 i)
    (x0 : Vec F S4096x1 .i32) (x1 : Vec F S4096x1 .f32) (x2 : Vec F S2000x64 .bf16) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.G4RunB.lean ====
/- Region 4 (the gather kernel): the whole-body run at a middle tile of an edge block: one tile's product is added to the accumulator the tile before left; the output buffer is handed back untouched. -/
import proofs.«118646_j60988535603568_1_alg».proof.Proof.KI.G4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B, a middle tile of an edge block: one tile's product is added to the accumulator the tile before left; the output buffer is handed back untouched.
    The pieces the stores leave in the output buffer (`L3`) and in the accumulator (`LS0`), last first, are
    read off the body's stores; with them the body's triple on whole memrefs holds: the three inputs are owned at
    their contents before and after. -/
noncomputable def kernelRun4_B (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : ¬cond4_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (xi3 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.G4RunC.lean ====
/- Region 4 (the gather kernel): the whole-body run at the last tile of an edge block: one tile's product is added to the accumulator the tile before left, and the scaled accumulator is stored into the output buffer, found at any contents. -/
import proofs.«118646_j60988535603568_1_alg».proof.Proof.KI.G4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C, the last tile of an edge block: one tile's product is added to the accumulator the tile before left, and the scaled accumulator is stored into the output buffer, found at any contents.
    The pieces the stores leave in the output buffer (`L3`) and in the accumulator (`LS0`), last first, are
    read off the body's stores; with them the body's triple on whole memrefs holds: the three inputs are owned at
    their contents before and after. -/
noncomputable def kernelRun4_C (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) :
    Σ' (L3 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.G4Body.lean ====
/- Region 4 (the gather kernel): what the accumulator and the output buffer hold after each grid point, the
   proof data of the region at any entry contents, and the body obligation. -/
import proofs.«118646_j60988535603568_1_alg».proof.Proof.KI.G4RunA
import proofs.«118646_j60988535603568_1_alg».proof.Proof.KI.G4RunB
import proofs.«118646_j60988535603568_1_alg».proof.Proof.KI.G4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the pieces cover the buffers -/

/-- Case A's stores into the accumulator tile it. -/
theorem scover4_A_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond4_0 i) (hc1 : ¬cond4_1 i)
    (x0 : Vec F S4096x1 .i32) (x1 : Vec F S4096x1 .f32) (x2 : Vec F S2000x64 .bf16) (y : S4096x64.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S4096x64.size (by sl_kernel_rfl) y

/-- What case A leaves in the accumulator. -/
def sout4_A_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond4_0 i) (hc1 : ¬cond4_1 i)
    (x0 : Vec F S4096x1 .i32) (x1 : Vec F S4096x1 .f32) (x2 : Vec F S2000x64 .bf16) : Vec F S4096x64 .f32 :=
  VS4_0.read (Elt F) (VS4_0.writes (Elt F) VS4_0.junk (kernelRun4_A c i arg2 harg2 arg3 harg3 arg4 harg4 arg5 harg5 arg6 harg6 hc0 hc1 x0 x1 x2).2.1)

/-- Case B's stores into the accumulator tile it. -/
theorem scover4_B_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : ¬cond4_1 i)
    (x0 : Vec F S4096x1 .i32) (x1 : Vec F S4096x1 .f32) (x2 : Vec F S2000x64 .bf16) (xs0 : Vec F S4096x64 .f32) (y : S4096x64.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S4096x64.size (by sl_kernel_rfl) y

/-- What case B leaves in the accumulator. -/
def sout4_B_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : ¬cond4_1 i)
    (x0 : Vec F S4096x1 .i32) (x1 : Vec F S4096x1 .f32) (x2 : Vec F S2000x64 .bf16) (xs0 : Vec F S4096x64 .f32) : Vec F S4096x64 .f32 :=
  VS4_0.read (Elt F) (VS4_0.writes (Elt F) VS4_0.junk (kernelRun4_B c i arg2 harg2 arg3 harg3 arg4 harg4 arg5 harg5 arg6 harg6 hc0 hc1 x0 x1 x2 xs0).2.1)

/-- Case C's stores into the accumulator tile it. -/
theorem scover4_C_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) (y : S4096x64.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S4096x64.size (by sl_kernel_rfl) y

/-- What case C leaves in the accumulator. -/
def sout4_C_0 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) : Vec F S4096x64 .f32 :=
  VS4_0.read (Elt F) (VS4_0.writes (Elt F) VS4_0.junk (kernelRun4_C c i arg2 harg2 arg3 harg3 arg4 harg4 arg5 harg5 arg6 harg6 hc0 hc1 x0 x1 x2 xs0).2.1)

/-- Case C's store into the output buffer tiles it. -/
theorem cover4_C_3 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) (y : S4096x64.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S4096x64.size (by sl_kernel_rfl) y

/-- What case C leaves in the output buffer. -/
def out4_C_3 (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) : Vec F S4096x64 .bf16 :=
  VO4_3.read (Elt F) (VO4_3.writes (Elt F) VO4_3.junk (kernelRun4_C c i arg2 harg2 arg3 harg3 arg4 harg4 arg5 harg5 arg6 harg6 hc0 hc1 x0 x1 x2 xs0).1)

/-- The output window's contents named at a point where the body stores nothing into it: never consulted, since
    there the block is neither written back nor read at the next point. -/
def out4_idle : Vec F S4096x64 .bf16 := VO4_3.read (Elt F) VO4_3.junk

/-! ## The conditions from the point's arithmetic -/

theorem r4hc0_of (t : Fin cfg4.N) (h : t.val % 25 = 0) : cond4_0 (grid4.coords t) := (hcond4_0 t).mpr h
theorem r4nhc0_of (t : Fin cfg4.N) (h : ¬t.val % 25 = 0) : ¬cond4_0 (grid4.coords t) := fun h' => h ((hcond4_0 t).mp h')
theorem r4hc1_of (t : Fin cfg4.N) (h : t.val % 25 = 24) : cond4_1 (grid4.coords t) := (hcond4_1 t).mpr h
theorem r4nhc1_of (t : Fin cfg4.N) (h : ¬t.val % 25 = 24) : ¬cond4_1 (grid4.coords t) := fun h' => h ((hcond4_1 t).mp h')
theorem r4nhc1_of0 (t : Fin cfg4.N) (h : t.val % 25 = 0) : ¬cond4_1 (grid4.coords t) := r4nhc1_of t (by omega)
theorem r4nhc0_of1 (t : Fin cfg4.N) (h : t.val % 25 = 24) : ¬cond4_0 (grid4.coords t) := r4nhc0_of t (by omega)

section Region
variable (V : (c : Dev nD) → (b : Ref sig .tc) → Buf (Elt F) ((c : Thread nD τ).loc b))

/-! ## One point's step, at the point's memrefs and input blocks -/

/-- The accumulator after a first tile. -/
def stepA4 (c : Dev nD) (t : Fin cfg4.N) (h0 : t.val % 25 = 0) : Vec F S4096x64 .f32 :=
  sout4_A_0 c (grid4.coords t) (ms4_0 t) (hs4_0 t) (ms4_1 t) (hs4_1 t) (ms4_2 t) (hs4_2 t) (ms4_3 t) (hs4_3 t) scM4_0 (Memref.isWhole_whole _) (r4hc0_of t h0) (r4nhc1_of0 t h0) (iblk4 V c 0 t) (iblk4 V c 1 t) (iblk4 V c 2 t)
/-- The accumulator after a middle tile, from what the tile before left. -/
def stepB4 (c : Dev nD) (t : Fin cfg4.N) (h0 : ¬t.val % 25 = 0) (h1 : ¬t.val % 25 = 24) (xs : Vec F S4096x64 .f32) : Vec F S4096x64 .f32 :=
  sout4_B_0 c (grid4.coords t) (ms4_0 t) (hs4_0 t) (ms4_1 t) (hs4_1 t) (ms4_2 t) (hs4_2 t) (ms4_3 t) (hs4_3 t) scM4_0 (Memref.isWhole_whole _) (r4nhc0_of t h0) (r4nhc1_of t h1) (iblk4 V c 0 t) (iblk4 V c 1 t) (iblk4 V c 2 t) xs
/-- The accumulator after a last tile, from what the tile before left. -/
def stepC4 (c : Dev nD) (t : Fin cfg4.N) (h1 : t.val % 25 = 24) (xs : Vec F S4096x64 .f32) : Vec F S4096x64 .f32 :=
  sout4_C_0 c (grid4.coords t) (ms4_0 t) (hs4_0 t) (ms4_1 t) (hs4_1 t) (ms4_2 t) (hs4_2 t) (ms4_3 t) (hs4_3 t) scM4_0 (Memref.isWhole_whole _) (r4nhc0_of1 t h1) (r4hc1_of t h1) (iblk4 V c 0 t) (iblk4 V c 1 t) (iblk4 V c 2 t) xs
/-- The output buffer after a last tile, from what the tile before left in the accumulator. -/
def stepO4 (c : Dev nD) (t : Fin cfg4.N) (h1 : t.val % 25 = 24) (xs : Vec F S4096x64 .f32) : Vec F S4096x64 .bf16 :=
  out4_C_3 c (grid4.coords t) (ms4_0 t) (hs4_0 t) (ms4_1 t) (hs4_1 t) (ms4_2 t) (hs4_2 t) (ms4_3 t) (hs4_3 t) scM4_0 (Memref.isWhole_whole _) (r4nhc0_of1 t h1) (r4hc1_of t h1) (iblk4 V c 0 t) (iblk4 V c 1 t) (iblk4 V c 2 t) xs

/-! ## What the output buffer and the accumulator hold after each point -/

/-- The accumulation, by recursion on the point: (the output buffer, the accumulator) after the body at point `n`.
    A first tile restarts the accumulator; a middle tile adds to what the point before left; a last tile adds and
    also stores the scaled accumulator as the output block. -/
def outsAt4 (c : Dev nD) : (n : ℕ) → n < cfg4.N → Vec F S4096x64 .bf16 × Vec F S4096x64 .f32
  | 0, hn => (out4_idle, stepA4 V c ⟨0, hn⟩ (Nat.zero_mod _))
  | n + 1, hn =>
    if h0 : (n + 1) % 25 = 0 then
      (out4_idle, stepA4 V c ⟨n + 1, hn⟩ h0)
    else
      if h1 : (n + 1) % 25 = 24 then
        (stepO4 V c ⟨n + 1, hn⟩ h1 (outsAt4 c n (Nat.lt_of_succ_lt hn)).2, stepC4 V c ⟨n + 1, hn⟩ h1 (outsAt4 c n (Nat.lt_of_succ_lt hn)).2)
      else
        (out4_idle, stepB4 V c ⟨n + 1, hn⟩ h0 h1 (outsAt4 c n (Nat.lt_of_succ_lt hn)).2)

/-- The accumulator the point before `t` left. -/
abbrev prevS4 (c : Dev nD) (t : Fin cfg4.N) : Vec F S4096x64 .f32 :=
  (outsAt4 V c (t.val - 1) (Nat.lt_of_le_of_lt (Nat.sub_le _ _) t.isLt)).2

theorem outsAt4_A (c : Dev nD) (t : Fin cfg4.N) (h0 : t.val % 25 = 0) :
    outsAt4 V c t.val t.isLt = (out4_idle, stepA4 V c t h0) := by
  obtain ⟨n, hn⟩ := t
  cases n with
  | zero => exact rfl
  | succ n => exact (dif_pos h0).trans rfl

theorem outsAt4_B (c : Dev nD) (t : Fin cfg4.N) (h0 : ¬t.val % 25 = 0) (h1 : ¬t.val % 25 = 24) :
    outsAt4 V c t.val t.isLt = (out4_idle, stepB4 V c t h0 h1 (prevS4 V c t)) := by
  obtain ⟨n, hn⟩ := t
  cases n with
  | zero => exact absurd (Nat.zero_mod _) h0
  | succ n => exact (dif_neg h0).trans ((dif_neg h1).trans rfl)

theorem outsAt4_C (c : Dev nD) (t : Fin cfg4.N) (h1 : t.val % 25 = 24) :
    outsAt4 V c t.val t.isLt = (stepO4 V c t h1 (prevS4 V c t), stepC4 V c t h1 (prevS4 V c t)) := by
  obtain ⟨n, hn⟩ := t
  cases n with
  | zero => exact (by exfalso; (try dsimp only at h1); omega)
  | succ n => exact (dif_neg (show ¬(n + 1) % 25 = 0 from fun h => by (try dsimp only at h1); omega)).trans ((dif_pos h1).trans rfl)

/-! ## The region's invariant, point by point -/

/-- Before the first point the region's own invariant (the accumulator at anything); afterwards the accumulator at
    what the point before left, the remainder of the scoped rest unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The region's proof data -/

/-- The arrays as the region finds them; after the body each input's buffer at its block and the output's at
    `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem Phi4_zero (c : Dev nD) : (dat4 V c).Φ 0 = Pipeline.ΦA spec4 c := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point. The inputs' memrefs hold their blocks; the point's residue mod 25 says which of the
    three cases it is in; the invariant hands the body the accumulator at what the point before left (at anything
    at the very first point) and takes it back at this point's contents; away from a last tile the output buffer
    is handed back as found, at a last tile it holds the case's store. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 5200 := lt_of_lt_of_eq t.isLt (show cfg4.N = 5200 from N_4)
  by_cases h0 : t.val % 25 = 0
  · rw [Dat.leavesExact_idle (dat4 V c) 3 t (idleAt4_3 t (r4nhc1_of0 t h0)) (noFlush4_3 t (r4nhc1_of0 t h0))]
    rw [outsAt4_A V c t h0]
    unfold stepA4 sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (r4hc0_of t h0) (r4nhc1_of0 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (r4hc0_of t h0) (r4nhc1_of0 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 25 = 24
    · rw [show (dat4 V c).leavesExact 3 t = owns (c : Thread nD τ) (ms4_3 t) fullShare ((dat4 V c).after 3 t) from by
        unfold Dat.leavesExact; rw [liveAt4_3 t (r4hc1_of t h1)], after4_3]
      rw [outsAt4_C V c t h1]
      unfold stepO4 stepC4 out4_C_3 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_C c (grid4.coords t) _ _ _ _ _ _ _ _ _ _ (r4nhc0_of1 t h1) (r4hc1_of t h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3 t (r4nhc1_of t h1)) (noFlush4_3 t (r4nhc1_of t h1))]
      rw [outsAt4_B V c t h0 h1]
      unfold stepB4 sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_B c (grid4.coords t) _ _ _ _ _ _ _ _ _ _ (r4nhc0_of t h0) (r4nhc1_of t h1) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [Phi4_zero]
  try exact Idealize.SL.BI.Entails.refl _

/-- After any point but the first the invariant gives the region's own back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 5200 := N_4; omega)

end Region

end Cert.KernelIdeal.Hand

end
-- ==== Proof.KI.S5Runs.lean ====
/-
  Region 5 (the scatter kernel): what the three control cases of its body share.
  The grid is 25 node tiles by 208 edge blocks; point t is node tile t / 208, edge block t % 208.
  The first conditional (zero the accumulator) holds exactly at edge block 0, the second (scale the
  accumulator by the node norms and store the output block) exactly at edge block 207.
-/
import proofs.«118646_j60988535603568_1_alg».proof.Proof.Gen.KernelIdeal.Launch
import proofs.«118646_j60988535603568_1_alg».proof.Proof.Gen.KernelIdeal.Skeleton
import proofs.«118646_j60988535603568_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition: the edge-block coordinate is 0. -/
abbrev cond5_0 (i : grid5.Coords) : Prop := (Scalar.cmpi .ne (Scalar.extui (Scalar.cmpi .eq (BitVec.ofNat 32 (i 1).val) 0#32)) 0#32) = 1#1
/-- It holds exactly at the first edge block of each node tile. -/
theorem hcond5_0 : ∀ t : Fin cfg5.N, cond5_0 (grid5.coords t) ↔ t.val % 208 = 0 :=
  (by decide +kernel : ∀ t : Fin grid5.N, cond5_0 (grid5.coords t) ↔ t.val % 208 = 0)

/-- The second conditional's condition: the edge-block coordinate is 207. -/
abbrev cond5_1 (i : grid5.Coords) : Prop := k5_cond2 i = 1#1
/-- It holds exactly at the last edge block of each node tile. -/
theorem hcond5_1 : ∀ t : Fin cfg5.N, cond5_1 (grid5.coords t) ↔ t.val % 208 = 207 :=
  (by decide +kernel : ∀ t : Fin grid5.N, cond5_1 (grid5.coords t) ↔ t.val % 208 = 207)

/-! ## Where the windows are idle -/

/-- The three input windows are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl

/-- Away from the last edge block the output window is idle: the body stores nothing into it. -/
theorem idleAt5_3 : ∀ t : Fin cfg5.N, ¬cond5_1 (grid5.coords t) → cfg5.idle 3 (grid5.coords t) = true := by
  intro t h
  show (!(k5_cond2 (grid5.coords t) == 1#1)) = true
  rw [Bool.not_eq_true', beq_eq_false_iff_ne]; exact h
/-- Away from the last edge block the output block is not written back. -/
theorem noFlush5_3 : ∀ t : Fin cfg5.N, ¬cond5_1 (grid5.coords t) → (cfg5.win 3).flush t = false := by
  intro t h
  rw [← Bool.not_eq_true]; intro hf
  exact h ((hcond5_1 t).mpr ((flush5_3 t).mp hf))
/-- At the last edge block the output window is live: the body stores its block. -/
theorem liveAt5_3 : ∀ t : Fin cfg5.N, cond5_1 (grid5.coords t) → cfg5.idle 3 (grid5.coords t) = false := by
  intro t h
  show (!(k5_cond2 (grid5.coords t) == 1#1)) = false
  rw [Bool.not_eq_false', beq_iff_eq]; exact h

/-! ## The memrefs the body is called with -/

/-- One staging buffer of the output window, through which its contents are stated. -/
abbrev VO5_3 : View sig .tc .vmem S2000x64 .f32 := (Memref.whole cc5_stg3_0 : Memref sig .tc .vmem S2000x64 .f32).view
/-- Each window's current staging memref at point t, and its wholeness. -/
abbrev ms5_0 (t : Fin cfg5.N) : Memref sig .tc .vmem S4096x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2000x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2000x64 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows. -/
abbrev scM5_0 : Memref sig .tc .vmem S2000x64 .f32 := Memref.whole cc5_scratch0
/-- The accumulator as a view: what it holds is stated through it. -/
abbrev VS5_0 : View sig .tc .vmem S2000x64 .f32 := scM5_0.view

/-- The region's invariant with the accumulator taken out of the scoped rest as a memref owned at some
    contents; every other scoped buffer stays one unopened conjunct. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.S5RunA.lean ====
/-
  Region 5 (the scatter kernel), control case A: the whole-body run.
-/
import proofs.«118646_j60988535603568_1_alg».proof.Proof.KI.S5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case A — the first edge block of a node tile: the accumulator, found at any contents, is zeroed, then
    the block's contribution is added; the output window is idle and handed back untouched —,
    with the proof that on whole memrefs (the three inputs owned at their contents) the body runs to the
    continuation holding the inputs as they were and each stored buffer with its pieces written. -/
noncomputable def kernelRun5_A (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.S5RunB.lean ====
/-
  Region 5 (the scatter kernel), control case B: the whole-body run.
-/
import proofs.«118646_j60988535603568_1_alg».proof.Proof.KI.S5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case B — an edge block strictly between the first and the last: the block's contribution is added to the
    accumulator the point before left; the output window is idle and handed back untouched —,
    with the proof that on whole memrefs (the three inputs owned at their contents) the body runs to the
    continuation holding the inputs as they were and each stored buffer with its pieces written. -/
noncomputable def kernelRun5_B (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.S5RunC.lean ====
/-
  Region 5 (the scatter kernel), control case C: the whole-body run.
-/
import proofs.«118646_j60988535603568_1_alg».proof.Proof.KI.S5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    in case C — the last edge block of a node tile: the block's contribution is added to the accumulator the
    point before left, and the accumulator scaled row by row by the node norms is stored as the output block —,
    with the proof that on whole memrefs (the three inputs owned at their contents) the body runs to the
    continuation holding the inputs as they were and each stored buffer with its pieces written. -/
noncomputable def kernelRun5_C (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.S5Body.lean ====
/-
  Region 5 (the scatter kernel): what the output's staging buffer and the accumulator hold after each
  grid point, the region's proof data at any entry contents V, and the body obligation.
-/
import proofs.«118646_j60988535603568_1_alg».proof.Proof.KI.S5RunA
import proofs.«118646_j60988535603568_1_alg».proof.Proof.KI.S5RunB
import proofs.«118646_j60988535603568_1_alg».proof.Proof.KI.S5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: at an
    unfetched point the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: at an
    unfetched point the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: at an
    unfetched point the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves in the output's buffer and in the accumulator -/

/-- Case A's pieces for the accumulator cover it: whole-buffer stores. -/
theorem scover5_A_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) (y : S2000x64.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S2000x64.size (by sl_kernel_rfl) y

/-- What case A leaves in the accumulator: its pieces read back. -/
def sout5_A_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) : Vec F S2000x64 .f32 :=
  VS5_0.read (Elt F) (VS5_0.writes (Elt F) VS5_0.junk (kernelRun5_A c i arg2 harg2 arg3 harg3 arg4 harg4 arg5 harg5 arg6 harg6 hc0 hc1 x0 x1 x2).2.1)

/-- Case A stores nothing into the output: no pieces. The value is a placeholder nothing consults, since at these
    points the window is neither written back nor read at the next point. -/
def out5_A_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) : Vec F S2000x64 .f32 :=
  VO5_3.read (Elt F) (VO5_3.writes (Elt F) VO5_3.junk (kernelRun5_A c i arg2 harg2 arg3 harg3 arg4 harg4 arg5 harg5 arg6 harg6 hc0 hc1 x0 x1 x2).1)

/-- Case B's pieces for the accumulator cover it: whole-buffer stores. -/
theorem scover5_B_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) (y : S2000x64.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S2000x64.size (by sl_kernel_rfl) y

/-- What case B leaves in the accumulator: its pieces read back. -/
def sout5_B_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) : Vec F S2000x64 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- Case B stores nothing into the output: no pieces. The value is a placeholder nothing consults, since at these
    points the window is neither written back nor read at the next point. -/
def out5_B_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) : Vec F S2000x64 .f32 :=
  VO5_3.read (Elt F) (VO5_3.writes (Elt F) VO5_3.junk (kernelRun5_B c i arg2 harg2 arg3 harg3 arg4 harg4 arg5 harg5 arg6 harg6 hc0 hc1 x0 x1 x2 xs0).1)

/-- Case C's pieces for the accumulator cover it: whole-buffer stores. -/
theorem scover5_C_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) (y : S2000x64.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S2000x64.size (by sl_kernel_rfl) y

/-- What case C leaves in the accumulator: its pieces read back. -/
def sout5_C_0 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) : Vec F S2000x64 .f32 :=
  VS5_0.read (Elt F) (VS5_0.writes (Elt F) VS5_0.junk (kernelRun5_C c i arg2 harg2 arg3 harg3 arg4 harg4 arg5 harg5 arg6 harg6 hc0 hc1 x0 x1 x2 xs0).2.1)

/-- Case C's pieces for the output cover its block: one whole-buffer store. -/
theorem cover5_C_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) (y : S2000x64.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S2000x64.size (by sl_kernel_rfl) y

/-- What case C leaves in the output's staging buffer: its pieces read back. -/
def out5_C_3 (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) : Vec F S2000x64 .f32 :=
  VO5_3.read (Elt F) (VO5_3.writes (Elt F) VO5_3.junk (kernelRun5_C c i arg2 harg2 arg3 harg3 arg4 harg4 arg5 harg5 arg6 harg6 hc0 hc1 x0 x1 x2 xs0).1)

/-! ## What the output's buffer and the accumulator hold after each point -/

/-- THE ACCUMULATION. What the output's staging buffer (first component) and the accumulator (second component)
    hold after the body at position n: the case the closed forms select at n, run at the point's memrefs and input
    blocks, over the accumulator the point before left. -/
def outsAt5 (c : Dev nD) : (n : ℕ) → n < cfg5.N → Vec F S2000x64 .f32 × Vec F S2000x64 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h' => by (try dsimp only at h'); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h' => by (try dsimp only at h'); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 208 = 0 then
      if h1 : (n + 1) % 208 = 207 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 208 = 207 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- The accumulation at a point of case A. -/
theorem outsAt5_A (c : Dev nD) (t : Fin cfg5.N) (h0 : t.val % 208 = 0) (h1 : ¬t.val % 208 = 207) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- The accumulation at a point of case B: over what the point before left. -/
theorem outsAt5_B (c : Dev nD) (t : Fin cfg5.N) (h0 : ¬t.val % 208 = 0) (h1 : ¬t.val % 208 = 207) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: over what the point before left. -/
theorem outsAt5_C (c : Dev nD) (t : Fin cfg5.N) (h0 : ¬t.val % 208 = 0) (h1 : t.val % 208 = 207) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The region invariant before position n: before the first point the launch's (every scoped buffer at anything);
    afterwards the accumulator at what the point before left in it, the other scoped buffers unopened, and the
    generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point n (before point n + 1): the accumulator at that point's contents. -/
theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of region 5 on core c at the entry contents V: the arrays as the region finds them; after the body
    at point t each input's buffer at its block and the output's at the accumulation's first component; the invariant
    point by point; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- Before the first point the invariant is the launch's. -/
theorem Phi5_zero (c : Dev nD) : (dat5 V c).Φ 0 = Pipeline.ΦA spec5 c := by
  rw [show (dat5 V c).Φ 0 = PhiS5 V c 0 (Nat.zero_le _) from rfl, PhiS5_zero V c 0 _ rfl]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in;
    the invariant hands the body the accumulator at what the point before left (at anything at the first point),
    the other scoped buffers unopened and the generator register at some state, and takes the accumulator back at
    this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  by_cases h0 : t.val % 208 = 0
  · by_cases h1 : t.val % 208 = 207
    · exfalso; omega
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [Dat.leavesExact_idle (dat5 V c) 3 t (idleAt5_3 t (fun h => h1 ((hcond5_1 t).mp h))) (noFlush5_3 t (fun h => h1 ((hcond5_1 t).mp h)))]
        rw [outsAt5_A V c t h0 h1]
        unfold sout5_A_0; (try dsimp only)

        by_cases hz : t.val = 0
        · rw [PhiS5_castSucc V c t, PhiS5_zero V c _ _ hz, PhiA5_eq]
          iintro ⟨⟨⟨HS0, HR⟩, Hg⟩, Ho, ⟨%d0, H0⟩, ⟨%d1, H1⟩, ⟨%d2, H2⟩, ⟨%d3, H3⟩⟩
          iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover5_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
        · rw [PhiS5_castSucc V c t, PhiS5_pos V c _ _ hz]
          iintro ⟨⟨⟨HS0, HR⟩, Hg⟩, Ho, ⟨%d0, H0⟩, ⟨%d1, H1⟩, ⟨%d2, H2⟩, ⟨%d3, H3⟩⟩
          iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
          isplitl [H0]; · iexact H0
          isplitl [H1]; · iexact H1
          isplitl [H2]; · iexact H2
          isplitl [H3]; · iexact H3
          isplitl [HS0]; · iexists _; iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover5_A_0 c _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
  · by_cases h1 : t.val % 208 = 207
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t ((hcond5_1 t).mpr h1)], after5_3]
        rw [outsAt5_C V c t h0 h1]
        unfold out5_C_3 sout5_C_0; (try dsimp only)
        have hz : t.val ≠ 0 := fun e => h0 (by rw [e])
        rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [Dat.leavesExact_idle (dat5 V c) 3 t (idleAt5_3 t (fun h => h1 ((hcond5_1 t).mp h))) (noFlush5_3 t (fun h => h1 ((hcond5_1 t).mp h)))]
        rw [outsAt5_B V c t h0 h1]
        unfold sout5_B_0; (try dsimp only)
        have hz : t.val ≠ 0 := fun e => h0 (by rw [e])
        rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [Phi5_zero]
  try exact Idealize.SL.BI.Entails.refl _

/-- After any point but the first the invariant gives the launch's back: the accumulator's named contents are forgotten. -/
theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi5_out V c _ (by rw [Fin.val_last]; have : cfg5.N = 5200 := N_5; omega)

end Region5

end Cert.KernelIdeal.Hand

end
-- ==== Proof.KI.Frames.lean ====
/-
  The six regions' halves put together: each region's proof data, arrays, invariant and body obligation as the
  record the launch takes, and the program's run and frame from them.
-/
import proofs.«118646_j60988535603568_1_alg».proof.Defs
import proofs.«118646_j60988535603568_1_alg».proof.Proof.Gen.KernelIdeal
import proofs.«118646_j60988535603568_1_alg».proof.Proof.Gen.Pre_finite_inputs
import proofs.«118646_j60988535603568_1_alg».proof.Proof.KI.Assemble
import proofs.«118646_j60988535603568_1_alg».proof.Proof.KI.G0Body
import proofs.«118646_j60988535603568_1_alg».proof.Proof.KI.S1Body
import proofs.«118646_j60988535603568_1_alg».proof.Proof.KI.G2Body
import proofs.«118646_j60988535603568_1_alg».proof.Proof.KI.S3Body
import proofs.«118646_j60988535603568_1_alg».proof.Proof.KI.G4Body
import proofs.«118646_j60988535603568_1_alg».proof.Proof.KI.S5Body

noncomputable section

namespace Cert.KernelIdeal.Hand

open Cert.KernelIdeal Cert.KernelIdeal.Gen
open Idealize.ShloMosaic Idealize.ShloMosaic.TcCoe Idealize.SL.Sem

variable {F : FTy → Type} [FloatOps F]

/-- Region 0's record. -/
def D0 : RD0 F := ⟨dat0, A_eq0, fun _ _ _ => rfl, fun _ _ _ => rfl, fun _ _ _ => rfl, Phi0_zero, hout0, body_obligation0⟩
/-- Region 1's record. -/
def D1 : RD1 F := ⟨dat1, A_eq1, fun _ _ _ => rfl, fun _ _ _ => rfl, fun _ _ _ => rfl, Phi1_zero, hout1, body_obligation1⟩
/-- Region 2's record. -/
def D2 : RD2 F := ⟨dat2, A_eq2, fun _ _ _ => rfl, fun _ _ _ => rfl, fun _ _ _ => rfl, Phi2_zero, hout2, body_obligation2⟩
/-- Region 3's record. -/
def D3 : RD3 F := ⟨dat3, A_eq3, fun _ _ _ => rfl, fun _ _ _ => rfl, fun _ _ _ => rfl, Phi3_zero, hout3, body_obligation3⟩
/-- Region 4's record. -/
def D4 : RD4 F := ⟨dat4, A_eq4, fun _ _ _ => rfl, fun _ _ _ => rfl, fun _ _ _ => rfl, Phi4_zero, hout4, body_obligation4⟩
/-- Region 5's record. -/
def D5 : RD5 F := ⟨dat5, A_eq5, fun _ _ _ => rfl, fun _ _ _ => rfl, fun _ _ _ => rfl, Phi5_zero, hout5, body_obligation5⟩

/-- The program's run: it terminates, nothing faulting, with the result array at the last valuation and the arguments kept. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v58) = V26 m (outs m (D0 (F := F)) D1 D2 D3 D4 D5) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_value m (D0 (F := F)) D1 D2 D3 D4 D5 ρ

end Cert.KernelIdeal.Hand

namespace Cert.Proof.KernelIdealClaims

open Idealize.ShloMosaic Idealize.SL.Sem

/-- The frame: the run, its result forgotten. -/
theorem frame : Cert.frame_KernelIdeal := fun m ρ _ =>
  (θ_run (Cert.KernelIdeal.defs (F := Ideal)) _ _).mono (fun _ h c => (h c).2) (Cert.KernelIdeal.Hand.run_all (F := Ideal) m ρ)

end Cert.Proof.KernelIdealClaims

end
-- ==== Proof.KI.RegionFns.lean ====
/-
  What the two kernels leave in their output arrays, as whole-array functions on the extended reals.

  The gather kernel: row `e` of the output is the row of `x` that the one-hot pattern of `sp e` selects among the
  25 node tiles of 2000 rows — a sum over the tiles and the rows of a tile of 0/1 weights against `x` —, scaled by
  `np e`. The scatter kernel: row `n` of the output is the sum over the 208 edge blocks of 4096 rows of the messages
  whose target word is `n`, scaled by `ni n`.
-/
import Idealize.ShloMosaic.PureOps.Ideal
import Idealize.ShloMosaic.Lib.ValueIdx

noncomputable section

namespace Cert.KernelIdeal.Val

open Idealize.ShloMosaic Idealize.ShloMosaic.ValueIdx

/-- The gather kernel's output array from the padded source words `sp`, the padded edge weights `np` and the node rows `x`. -/
def gatherArr (sp : (⟨2, ![851968, 1]⟩ : Shape).Idx → BitVec 32) (np : (⟨2, ![851968, 1]⟩ : Shape).Idx → EReal)
    (x : (⟨2, ![50000, 64]⟩ : Shape).Idx → EReal) : (⟨2, ![851968, 64]⟩ : Shape).Idx → EReal :=
  fun j => (0 + ∑ k : Fin 25, ∑ jj : Fin 2000,
      (if sp (ix2 (j 0) 0) = BitVec.ofNat 32 (k.val * 2000 + jj.val) then (1 : EReal) else 0)
        * x (ix2 ⟨k.val * 2000 + jj.val, by omega⟩ (j 1))) * np (ix2 (j 0) 0)

/-- The scatter kernel's output array from the padded target words `dp`, the messages `mm` and the node weights `ni`. -/
def scatterArr (dp : (⟨2, ![851968, 1]⟩ : Shape).Idx → BitVec 32) (mm : (⟨2, ![851968, 64]⟩ : Shape).Idx → EReal)
    (ni : (⟨2, ![50000, 1]⟩ : Shape).Idx → EReal) : (⟨2, ![50000, 64]⟩ : Shape).Idx → EReal :=
  fun j => (0 + ∑ s : Fin 208, ∑ r : Fin 4096,
      (if dp (ix2 ⟨s.val * 4096 + r.val, by omega⟩ 0) = BitVec.ofNat 32 (j 0).val then (1 : EReal) else 0)
        * mm (ix2 ⟨s.val * 4096 + r.val, by omega⟩ (j 1))) * ni (ix2 (j 0) 0)

end Cert.KernelIdeal.Val

end
-- ==== Proof.KI.VC2.lean ====
/-
  What each region leaves in its output array, given the region's whole-array function; and the buffers the regions
  share (the padded source and target words, the padded edge weights, the node weights) keep their contents.
-/
import proofs.«118646_j60988535603568_1_alg».proof.Proof.KI.Assemble
import proofs.«118646_j60988535603568_1_alg».proof.Proof.KI.RegionFns

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Cert.KernelIdeal.Hand
open Idealize.ShloMosaic.Pipeline (Dat)

/-! ## What each region leaves in its output array, from its whole-array function -/

section RegionOutputs

variable (m : (ℓ : Loc nD τ sig) → Buf (Elt Ideal) ℓ) (c : Dev nD)
variable (D0 : RD0 Ideal) (D1 : RD1 Ideal) (D2 : RD2 Ideal) (D3 : RD3 Ideal) (D4 : RD4 Ideal) (D5 : RD5 Ideal)

theorem out0 (harr0 : ∀ V c, (D0.dat V c).arrAt 3 cfg0.N = gatherArr (V c main_v27) (V c main_v31) (V c main_v34)) : V12 m (outs m D0 D1 D2 D3 D4 D5) c main_v35 = gatherArr (V11 m c main_v27) (V11 m c main_v31) (V11 m c main_v34) := by
  rw [V12_eq]; unfold U12; rw [Function.update_self]; unfold A0; rw [harr0]
theorem out1 (harr1 : ∀ V c, (D1.dat V c).arrAt 3 cfg1.N = scatterArr (V c main_v29) (V c main_v35) (V c main_v32)) : V13 m (outs m D0 D1 D2 D3 D4 D5) c main_v36 = scatterArr (V12 m (outs m D0 D1 D2 D3 D4 D5) c main_v29) (V12 m (outs m D0 D1 D2 D3 D4 D5) c main_v35) (V12 m (outs m D0 D1 D2 D3 D4 D5) c main_v32) := by
  rw [V13_eq, V12_eq]; unfold U13; rw [Function.update_self]; unfold A1; rw [harr1]
theorem out2 (harr2 : ∀ V c, (D2.dat V c).arrAt 3 cfg2.N = gatherArr (V c main_v27) (V c main_v31) (V c main_v41)) : V17 m (outs m D0 D1 D2 D3 D4 D5) c main_v42 = gatherArr (V16 m (outs m D0 D1 D2 D3 D4 D5) c main_v27) (V16 m (outs m D0 D1 D2 D3 D4 D5) c main_v31) (V16 m (outs m D0 D1 D2 D3 D4 D5) c main_v41) := by
  rw [V17_eq, V16_eq]; unfold U17; rw [Function.update_self]; unfold A2; rw [harr2]
theorem out3 (harr3 : ∀ V c, (D3.dat V c).arrAt 3 cfg3.N = scatterArr (V c main_v29) (V c main_v42) (V c main_v32)) : V18 m (outs m D0 D1 D2 D3 D4 D5) c main_v43 = scatterArr (V17 m (outs m D0 D1 D2 D3 D4 D5) c main_v29) (V17 m (outs m D0 D1 D2 D3 D4 D5) c main_v42) (V17 m (outs m D0 D1 D2 D3 D4 D5) c main_v32) := by
  rw [V18_eq, V17_eq]; unfold U18; rw [Function.update_self]; unfold A3; rw [harr3]
theorem out4 (harr4 : ∀ V c, (D4.dat V c).arrAt 3 cfg4.N = gatherArr (V c main_v27) (V c main_v31) (V c main_v49)) : V22 m (outs m D0 D1 D2 D3 D4 D5) c main_v50 = gatherArr (V21 m (outs m D0 D1 D2 D3 D4 D5) c main_v27) (V21 m (outs m D0 D1 D2 D3 D4 D5) c main_v31) (V21 m (outs m D0 D1 D2 D3 D4 D5) c main_v49) := by
  rw [V22_eq, V21_eq]; unfold U22; rw [Function.update_self]; unfold A4; rw [harr4]
theorem out5 (harr5 : ∀ V c, (D5.dat V c).arrAt 3 cfg5.N = scatterArr (V c main_v29) (V c main_v50) (V c main_v32)) : V23 m (outs m D0 D1 D2 D3 D4 D5) c main_v51 = scatterArr (V22 m (outs m D0 D1 D2 D3 D4 D5) c main_v29) (V22 m (outs m D0 D1 D2 D3 D4 D5) c main_v50) (V22 m (outs m D0 D1 D2 D3 D4 D5) c main_v32) := by
  rw [V23_eq, V22_eq]; unfold U23; rw [Function.update_self]; unfold A5; rw [harr5]

/-! ## The buffers the regions share keep their contents from region 0's entry on -/

theorem keep_main_v27_12 : V12 m (outs m D0 D1 D2 D3 D4 D5) c main_v27 = V11 m c main_v27 := (V12_of m (outs m D0 D1 D2 D3 D4 D5) c main_v27 (by decide))
theorem keep_main_v27_16 : V16 m (outs m D0 D1 D2 D3 D4 D5) c main_v27 = V11 m c main_v27 := ((V16_of m (outs m D0 D1 D2 D3 D4 D5) c main_v27 (by decide)).trans ((V15_of m (outs m D0 D1 D2 D3 D4 D5) c main_v27 (by decide)).trans ((V14_of m (outs m D0 D1 D2 D3 D4 D5) c main_v27 (by decide)).trans ((V13_of m (outs m D0 D1 D2 D3 D4 D5) c main_v27 (by decide)).trans (V12_of m (outs m D0 D1 D2 D3 D4 D5) c main_v27 (by decide))))))
theorem keep_main_v27_17 : V17 m (outs m D0 D1 D2 D3 D4 D5) c main_v27 = V11 m c main_v27 := ((V17_of m (outs m D0 D1 D2 D3 D4 D5) c main_v27 (by decide)).trans ((V16_of m (outs m D0 D1 D2 D3 D4 D5) c main_v27 (by decide)).trans ((V15_of m (outs m D0 D1 D2 D3 D4 D5) c main_v27 (by decide)).trans ((V14_of m (outs m D0 D1 D2 D3 D4 D5) c main_v27 (by decide)).trans ((V13_of m (outs m D0 D1 D2 D3 D4 D5) c main_v27 (by decide)).trans (V12_of m (outs m D0 D1 D2 D3 D4 D5) c main_v27 (by decide)))))))
theorem keep_main_v27_21 : V21 m (outs m D0 D1 D2 D3 D4 D5) c main_v27 = V11 m c main_v27 := ((V21_of m (outs m D0 D1 D2 D3 D4 D5) c main_v27 (by decide)).trans ((V20_of m (outs m D0 D1 D2 D3 D4 D5) c main_v27 (by decide)).trans ((V19_of m (outs m D0 D1 D2 D3 D4 D5) c main_v27 (by decide)).trans ((V18_of m (outs m D0 D1 D2 D3 D4 D5) c main_v27 (by decide)).trans ((V17_of m (outs m D0 D1 D2 D3 D4 D5) c main_v27 (by decide)).trans ((V16_of m (outs m D0 D1 D2 D3 D4 D5) c main_v27 (by decide)).trans ((V15_of m (outs m D0 D1 D2 D3 D4 D5) c main_v27 (by decide)).trans ((V14_of m (outs m D0 D1 D2 D3 D4 D5) c main_v27 (by decide)).trans ((V13_of m (outs m D0 D1 D2 D3 D4 D5) c main_v27 (by decide)).trans (V12_of m (outs m D0 D1 D2 D3 D4 D5) c main_v27 (by decide)))))))))))
theorem keep_main_v27_22 : V22 m (outs m D0 D1 D2 D3 D4 D5) c main_v27 = V11 m c main_v27 := ((V22_of m (outs m D0 D1 D2 D3 D4 D5) c main_v27 (by decide)).trans ((V21_of m (outs m D0 D1 D2 D3 D4 D5) c main_v27 (by decide)).trans ((V20_of m (outs m D0 D1 D2 D3 D4 D5) c main_v27 (by decide)).trans ((V19_of m (outs m D0 D1 D2 D3 D4 D5) c main_v27 (by decide)).trans ((V18_of m (outs m D0 D1 D2 D3 D4 D5) c main_v27 (by decide)).trans ((V17_of m (outs m D0 D1 D2 D3 D4 D5) c main_v27 (by decide)).trans ((V16_of m (outs m D0 D1 D2 D3 D4 D5) c main_v27 (by decide)).trans ((V15_of m (outs m D0 D1 D2 D3 D4 D5) c main_v27 (by decide)).trans ((V14_of m (outs m D0 D1 D2 D3 D4 D5) c main_v27 (by decide)).trans ((V13_of m (outs m D0 D1 D2 D3 D4 D5) c main_v27 (by decide)).trans (V12_of m (outs m D0 D1 D2 D3 D4 D5) c main_v27 (by decide))))))))))))
theorem keep_main_v31_12 : V12 m (outs m D0 D1 D2 D3 D4 D5) c main_v31 = V11 m c main_v31 := (V12_of m (outs m D0 D1 D2 D3 D4 D5) c main_v31 (by decide))
theorem keep_main_v31_16 : V16 m (outs m D0 D1 D2 D3 D4 D5) c main_v31 = V11 m c main_v31 := ((V16_of m (outs m D0 D1 D2 D3 D4 D5) c main_v31 (by decide)).trans ((V15_of m (outs m D0 D1 D2 D3 D4 D5) c main_v31 (by decide)).trans ((V14_of m (outs m D0 D1 D2 D3 D4 D5) c main_v31 (by decide)).trans ((V13_of m (outs m D0 D1 D2 D3 D4 D5) c main_v31 (by decide)).trans (V12_of m (outs m D0 D1 D2 D3 D4 D5) c main_v31 (by decide))))))
theorem keep_main_v31_17 : V17 m (outs m D0 D1 D2 D3 D4 D5) c main_v31 = V11 m c main_v31 := ((V17_of m (outs m D0 D1 D2 D3 D4 D5) c main_v31 (by decide)).trans ((V16_of m (outs m D0 D1 D2 D3 D4 D5) c main_v31 (by decide)).trans ((V15_of m (outs m D0 D1 D2 D3 D4 D5) c main_v31 (by decide)).trans ((V14_of m (outs m D0 D1 D2 D3 D4 D5) c main_v31 (by decide)).trans ((V13_of m (outs m D0 D1 D2 D3 D4 D5) c main_v31 (by decide)).trans (V12_of m (outs m D0 D1 D2 D3 D4 D5) c main_v31 (by decide)))))))
theorem keep_main_v31_21 : V21 m (outs m D0 D1 D2 D3 D4 D5) c main_v31 = V11 m c main_v31 := ((V21_of m (outs m D0 D1 D2 D3 D4 D5) c main_v31 (by decide)).trans ((V20_of m (outs m D0 D1 D2 D3 D4 D5) c main_v31 (by decide)).trans ((V19_of m (outs m D0 D1 D2 D3 D4 D5) c main_v31 (by decide)).trans ((V18_of m (outs m D0 D1 D2 D3 D4 D5) c main_v31 (by decide)).trans ((V17_of m (outs m D0 D1 D2 D3 D4 D5) c main_v31 (by decide)).trans ((V16_of m (outs m D0 D1 D2 D3 D4 D5) c main_v31 (by decide)).trans ((V15_of m (outs m D0 D1 D2 D3 D4 D5) c main_v31 (by decide)).trans ((V14_of m (outs m D0 D1 D2 D3 D4 D5) c main_v31 (by decide)).trans ((V13_of m (outs m D0 D1 D2 D3 D4 D5) c main_v31 (by decide)).trans (V12_of m (outs m D0 D1 D2 D3 D4 D5) c main_v31 (by decide)))))))))))
theorem keep_main_v31_22 : V22 m (outs m D0 D1 D2 D3 D4 D5) c main_v31 = V11 m c main_v31 := ((V22_of m (outs m D0 D1 D2 D3 D4 D5) c main_v31 (by decide)).trans ((V21_of m (outs m D0 D1 D2 D3 D4 D5) c main_v31 (by decide)).trans ((V20_of m (outs m D0 D1 D2 D3 D4 D5) c main_v31 (by decide)).trans ((V19_of m (outs m D0 D1 D2 D3 D4 D5) c main_v31 (by decide)).trans ((V18_of m (outs m D0 D1 D2 D3 D4 D5) c main_v31 (by decide)).trans ((V17_of m (outs m D0 D1 D2 D3 D4 D5) c main_v31 (by decide)).trans ((V16_of m (outs m D0 D1 D2 D3 D4 D5) c main_v31 (by decide)).trans ((V15_of m (outs m D0 D1 D2 D3 D4 D5) c main_v31 (by decide)).trans ((V14_of m (outs m D0 D1 D2 D3 D4 D5) c main_v31 (by decide)).trans ((V13_of m (outs m D0 D1 D2 D3 D4 D5) c main_v31 (by decide)).trans (V12_of m (outs m D0 D1 D2 D3 D4 D5) c main_v31 (by decide))))))))))))
theorem keep_main_v29_12 : V12 m (outs m D0 D1 D2 D3 D4 D5) c main_v29 = V11 m c main_v29 := (V12_of m (outs m D0 D1 D2 D3 D4 D5) c main_v29 (by decide))
theorem keep_main_v29_16 : V16 m (outs m D0 D1 D2 D3 D4 D5) c main_v29 = V11 m c main_v29 := ((V16_of m (outs m D0 D1 D2 D3 D4 D5) c main_v29 (by decide)).trans ((V15_of m (outs m D0 D1 D2 D3 D4 D5) c main_v29 (by decide)).trans ((V14_of m (outs m D0 D1 D2 D3 D4 D5) c main_v29 (by decide)).trans ((V13_of m (outs m D0 D1 D2 D3 D4 D5) c main_v29 (by decide)).trans (V12_of m (outs m D0 D1 D2 D3 D4 D5) c main_v29 (by decide))))))
theorem keep_main_v29_17 : V17 m (outs m D0 D1 D2 D3 D4 D5) c main_v29 = V11 m c main_v29 := ((V17_of m (outs m D0 D1 D2 D3 D4 D5) c main_v29 (by decide)).trans ((V16_of m (outs m D0 D1 D2 D3 D4 D5) c main_v29 (by decide)).trans ((V15_of m (outs m D0 D1 D2 D3 D4 D5) c main_v29 (by decide)).trans ((V14_of m (outs m D0 D1 D2 D3 D4 D5) c main_v29 (by decide)).trans ((V13_of m (outs m D0 D1 D2 D3 D4 D5) c main_v29 (by decide)).trans (V12_of m (outs m D0 D1 D2 D3 D4 D5) c main_v29 (by decide)))))))
theorem keep_main_v29_21 : V21 m (outs m D0 D1 D2 D3 D4 D5) c main_v29 = V11 m c main_v29 := ((V21_of m (outs m D0 D1 D2 D3 D4 D5) c main_v29 (by decide)).trans ((V20_of m (outs m D0 D1 D2 D3 D4 D5) c main_v29 (by decide)).trans ((V19_of m (outs m D0 D1 D2 D3 D4 D5) c main_v29 (by decide)).trans ((V18_of m (outs m D0 D1 D2 D3 D4 D5) c main_v29 (by decide)).trans ((V17_of m (outs m D0 D1 D2 D3 D4 D5) c main_v29 (by decide)).trans ((V16_of m (outs m D0 D1 D2 D3 D4 D5) c main_v29 (by decide)).trans ((V15_of m (outs m D0 D1 D2 D3 D4 D5) c main_v29 (by decide)).trans ((V14_of m (outs m D0 D1 D2 D3 D4 D5) c main_v29 (by decide)).trans ((V13_of m (outs m D0 D1 D2 D3 D4 D5) c main_v29 (by decide)).trans (V12_of m (outs m D0 D1 D2 D3 D4 D5) c main_v29 (by decide)))))))))))
theorem keep_main_v29_22 : V22 m (outs m D0 D1 D2 D3 D4 D5) c main_v29 = V11 m c main_v29 := ((V22_of m (outs m D0 D1 D2 D3 D4 D5) c main_v29 (by decide)).trans ((V21_of m (outs m D0 D1 D2 D3 D4 D5) c main_v29 (by decide)).trans ((V20_of m (outs m D0 D1 D2 D3 D4 D5) c main_v29 (by decide)).trans ((V19_of m (outs m D0 D1 D2 D3 D4 D5) c main_v29 (by decide)).trans ((V18_of m (outs m D0 D1 D2 D3 D4 D5) c main_v29 (by decide)).trans ((V17_of m (outs m D0 D1 D2 D3 D4 D5) c main_v29 (by decide)).trans ((V16_of m (outs m D0 D1 D2 D3 D4 D5) c main_v29 (by decide)).trans ((V15_of m (outs m D0 D1 D2 D3 D4 D5) c main_v29 (by decide)).trans ((V14_of m (outs m D0 D1 D2 D3 D4 D5) c main_v29 (by decide)).trans ((V13_of m (outs m D0 D1 D2 D3 D4 D5) c main_v29 (by decide)).trans (V12_of m (outs m D0 D1 D2 D3 D4 D5) c main_v29 (by decide))))))))))))
theorem keep_main_v32_12 : V12 m (outs m D0 D1 D2 D3 D4 D5) c main_v32 = V11 m c main_v32 := (V12_of m (outs m D0 D1 D2 D3 D4 D5) c main_v32 (by decide))
theorem keep_main_v32_16 : V16 m (outs m D0 D1 D2 D3 D4 D5) c main_v32 = V11 m c main_v32 := ((V16_of m (outs m D0 D1 D2 D3 D4 D5) c main_v32 (by decide)).trans ((V15_of m (outs m D0 D1 D2 D3 D4 D5) c main_v32 (by decide)).trans ((V14_of m (outs m D0 D1 D2 D3 D4 D5) c main_v32 (by decide)).trans ((V13_of m (outs m D0 D1 D2 D3 D4 D5) c main_v32 (by decide)).trans (V12_of m (outs m D0 D1 D2 D3 D4 D5) c main_v32 (by decide))))))
theorem keep_main_v32_17 : V17 m (outs m D0 D1 D2 D3 D4 D5) c main_v32 = V11 m c main_v32 := ((V17_of m (outs m D0 D1 D2 D3 D4 D5) c main_v32 (by decide)).trans ((V16_of m (outs m D0 D1 D2 D3 D4 D5) c main_v32 (by decide)).trans ((V15_of m (outs m D0 D1 D2 D3 D4 D5) c main_v32 (by decide)).trans ((V14_of m (outs m D0 D1 D2 D3 D4 D5) c main_v32 (by decide)).trans ((V13_of m (outs m D0 D1 D2 D3 D4 D5) c main_v32 (by decide)).trans (V12_of m (outs m D0 D1 D2 D3 D4 D5) c main_v32 (by decide)))))))
theorem keep_main_v32_21 : V21 m (outs m D0 D1 D2 D3 D4 D5) c main_v32 = V11 m c main_v32 := ((V21_of m (outs m D0 D1 D2 D3 D4 D5) c main_v32 (by decide)).trans ((V20_of m (outs m D0 D1 D2 D3 D4 D5) c main_v32 (by decide)).trans ((V19_of m (outs m D0 D1 D2 D3 D4 D5) c main_v32 (by decide)).trans ((V18_of m (outs m D0 D1 D2 D3 D4 D5) c main_v32 (by decide)).trans ((V17_of m (outs m D0 D1 D2 D3 D4 D5) c main_v32 (by decide)).trans ((V16_of m (outs m D0 D1 D2 D3 D4 D5) c main_v32 (by decide)).trans ((V15_of m (outs m D0 D1 D2 D3 D4 D5) c main_v32 (by decide)).trans ((V14_of m (outs m D0 D1 D2 D3 D4 D5) c main_v32 (by decide)).trans ((V13_of m (outs m D0 D1 D2 D3 D4 D5) c main_v32 (by decide)).trans (V12_of m (outs m D0 D1 D2 D3 D4 D5) c main_v32 (by decide)))))))))))
theorem keep_main_v32_22 : V22 m (outs m D0 D1 D2 D3 D4 D5) c main_v32 = V11 m c main_v32 := ((V22_of m (outs m D0 D1 D2 D3 D4 D5) c main_v32 (by decide)).trans ((V21_of m (outs m D0 D1 D2 D3 D4 D5) c main_v32 (by decide)).trans ((V20_of m (outs m D0 D1 D2 D3 D4 D5) c main_v32 (by decide)).trans ((V19_of m (outs m D0 D1 D2 D3 D4 D5) c main_v32 (by decide)).trans ((V18_of m (outs m D0 D1 D2 D3 D4 D5) c main_v32 (by decide)).trans ((V17_of m (outs m D0 D1 D2 D3 D4 D5) c main_v32 (by decide)).trans ((V16_of m (outs m D0 D1 D2 D3 D4 D5) c main_v32 (by decide)).trans ((V15_of m (outs m D0 D1 D2 D3 D4 D5) c main_v32 (by decide)).trans ((V14_of m (outs m D0 D1 D2 D3 D4 D5) c main_v32 (by decide)).trans ((V13_of m (outs m D0 D1 D2 D3 D4 D5) c main_v32 (by decide)).trans (V12_of m (outs m D0 D1 D2 D3 D4 D5) c main_v32 (by decide))))))))))))

end RegionOutputs

end Cert.KernelIdeal.Val

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KI.VC1.lean ====
/-
  The host stretches of the idealized kernel program read at the buffers its regions and its result need, over any
  contents before the stretch; and the layout operations among them read at an index.
-/
import proofs.«118646_j60988535603568_1_alg».proof.Proof.Gen.KernelIdeal.Regions
import proofs.«118646_j60988535603568_1_alg».proof.Proof.LibKeepdims
import Idealize.ShloMosaic.Lib.KernelVsHost

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

/-! ## Each host stretch read at the buffers the regions and the result need, over any contents `W` before it -/

section Stretches
variable (W : Valuation τ sig (Elt Ideal))

theorem s4_c9 : StableHlo.after hostOps0_4 W (Proc.devRef .tc main_c_9) = constantI S_ 32 0#32 := by after_results <;> rfl
theorem s5_v26 : StableHlo.after hostOps0_5 W (Proc.devRef .tc main_v26)
    = pad S851968 ![0] ![1968] ![0] (W main_arg1 : IVec S850000 32) (id (W main_c_9 : IVec S_ 32)) pads_S850000_S851968_019680 h_S_ := by after_results <;> rfl
theorem s6_v27 : StableHlo.after hostOps0_6 W (Proc.devRef .tc main_v27)
    = shapeCast S851968x1 (W main_v26 : IVec S851968 32) shapeCasts_S851968_S851968x1 := by after_results <;> rfl
theorem s6_c10 : StableHlo.after hostOps0_6 W (Proc.devRef .tc main_c_10) = constantI S_ 32 0#32 := by after_results <;> rfl
theorem s7_v28 : StableHlo.after hostOps0_7 W (Proc.devRef .tc main_v28)
    = pad S851968 ![0] ![1968] ![0] (W main_arg2 : IVec S850000 32) (id (W main_c_10 : IVec S_ 32)) pads_S850000_S851968_019680 h_S_ := by after_results <;> rfl
theorem s8_v29 : StableHlo.after hostOps0_8 W (Proc.devRef .tc main_v29)
    = shapeCast S851968x1 (W main_v28 : IVec S851968 32) shapeCasts_S851968_S851968x1 := by after_results <;> rfl
theorem s8_cst11 : StableHlo.after hostOps0_8 W (Proc.devRef .tc main_cst_11) = constant (F := Ideal) S_ .f32 0x00000000#32 := by after_results <;> rfl
theorem s9_v30 : StableHlo.after hostOps0_9 W (Proc.devRef .tc main_v30)
    = pad S851968 ![0] ![1968] ![0] (W main_v25 : FVec Ideal S850000 .f32) (id (W main_cst_11 : FVec Ideal S_ .f32)) pads_S850000_S851968_019680 h_S_ := by after_results <;> rfl
theorem s10_v31 : StableHlo.after hostOps0_10 W (Proc.devRef .tc main_v31)
    = shapeCast S851968x1 (W main_v30 : FVec Ideal S851968 .f32) shapeCasts_S851968_S851968x1 := by after_results <;> rfl
theorem s10_v32 : StableHlo.after hostOps0_10 W (Proc.devRef .tc main_v32)
    = shapeCast S50000x1 (W main_v18 : FVec Ideal S50000 .f32) shapeCasts_S50000_S50000x1 := by after_results <;> rfl
theorem s10_v34 : StableHlo.after hostOps0_10 W (Proc.devRef .tc main_v34)
    = truncf .bf16 (Host.dotGeneral (F := Ideal) (φ₁ := .f32) (φ₂ := .f32) dot_S50000x128_S128x64_S50000x64_1_0_0_1_n_n none
      (W main_arg0) (W main_arg3)) bitsLt_bf16_f32 := by after_results <;> rfl

theorem s2_v39 : StableHlo.after hostOps2 W (Proc.devRef .tc main_v39)
    = addf (F := Ideal) (φ := .f32) (W main_v36 : FVec Ideal S50000x64 .f32) (broadcastInDim S50000x64 ![0, 1] bcast_S1x64_S50000x64_0_1 (broadcastInDim S1x64 ![1] bcast_S64_S1x64_1 (W main_arg4 : FVec Ideal S64 .f32))) := by after_results <;> rfl
theorem s21_v40 : StableHlo.after hostOps2_1 W (Proc.devRef .tc main_v40)
    = maximumf (F := Ideal) (φ := .f32) (s := S50000x64) (W main_v39 : FVec Ideal S50000x64 .f32) (broadcastInDim S50000x64 ![] bcast_S_S50000x64 (constant (F := Ideal) S_ .f32 0x00000000#32)) := by after_results <;> rfl
theorem s22_v41 : StableHlo.after hostOps2_2 W (Proc.devRef .tc main_v41)
    = truncf (F := Ideal) (φ := .f32) (s := S50000x64) .bf16 (W main_v40 : FVec Ideal S50000x64 .f32) bitsLt_bf16_f32 := by after_results <;> rfl
theorem s4_v47 : StableHlo.after hostOps4 W (Proc.devRef .tc main_v47)
    = addf (F := Ideal) (φ := .f32) (s := S50000x64) (Host.dotGeneral (F := Ideal) (φ₁ := .f32) (φ₂ := .f32) dot_S50000x64_S64x64_S50000x64_1_0_0_1_n_n none (W main_v43) (W main_arg5))
        (broadcastInDim S50000x64 ![0, 1] bcast_S1x64_S50000x64_0_1 (broadcastInDim S1x64 ![1] bcast_S64_S1x64_1 (W main_arg6 : FVec Ideal S64 .f32))) := by after_results <;> rfl
theorem s41_v48 : StableHlo.after hostOps4_1 W (Proc.devRef .tc main_v48)
    = maximumf (F := Ideal) (φ := .f32) (s := S50000x64) (W main_v47 : FVec Ideal S50000x64 .f32) (broadcastInDim S50000x64 ![] bcast_S_S50000x64 (constant (F := Ideal) S_ .f32 0x00000000#32)) := by after_results <;> rfl
theorem s42_v49 : StableHlo.after hostOps4_2 W (Proc.devRef .tc main_v49)
    = truncf (F := Ideal) (φ := .f32) (s := S50000x64) .bf16 (W main_v48 : FVec Ideal S50000x64 .f32) bitsLt_bf16_f32 := by after_results <;> rfl
theorem s6_v55 : StableHlo.after hostOps6 W (Proc.devRef .tc main_v55)
    = addf (F := Ideal) (φ := .f32) (s := S50000x64) (Host.dotGeneral (F := Ideal) (φ₁ := .f32) (φ₂ := .f32) dot_S50000x64_S64x64_S50000x64_1_0_0_1_n_n none (W main_v51) (W main_arg7))
        (broadcastInDim S50000x64 ![0, 1] bcast_S1x64_S50000x64_0_1 (broadcastInDim S1x64 ![1] bcast_S64_S1x64_1 (W main_arg8 : FVec Ideal S64 .f32))) := by after_results <;> rfl
theorem s61_v56 : StableHlo.after hostOps6_1 W (Proc.devRef .tc main_v56)
    = maximumf (F := Ideal) (φ := .f32) (s := S50000x64) (W main_v55 : FVec Ideal S50000x64 .f32) (broadcastInDim S50000x64 ![] bcast_S_S50000x64 (constant (F := Ideal) S_ .f32 0x00000000#32)) := by after_results <;> rfl
theorem s62_v58 : StableHlo.after hostOps6_2 W (Proc.devRef .tc main_v58)
    = maximumf (F := Ideal) (φ := .f32) (s := S50000x64) (maximumf (F := Ideal) (φ := .f32) (s := S50000x64) (W main_v40 : FVec Ideal S50000x64 .f32) (W main_v48)) (W main_v56) := by after_results <;> rfl

end Stretches

/-! ## The host side read at an index -/

section Reads

/-- An edge array padded to the padded length and cast to a column, read at `(e, u)`: the entry of a real edge, the
    padding value on the padding rows. -/
theorem padcol_apply {α : Type} (x : S850000.Idx → α) (v : S_.Idx → α) (e : Fin 851968) (u : Fin 1) :
    shapeCast S851968x1 (pad S851968 ![0] ![1968] ![0] x v pads_S850000_S851968_019680 h_S_) shapeCasts_S851968_S851968x1 (ix2 e u)
      = if h : e.val < 850000 then x (ix1 ⟨e.val, h⟩) else v (Shape.Idx.first h_S_) := by
  refine (Idealize.ShloMosaic.Keepdims.shapeCast_a_a1_apply (a := 851968) _ shapeCasts_S851968_S851968x1 e u).trans ?_
  by_cases h : e.val < 850000
  · rw [dif_pos h]
    refine pad_apply_of_inside _ _ _ x v pads_S850000_S851968_019680 h_S_ (ix1 e) (ix1 ⟨e.val, h⟩) fun a => ?_
    obtain rfl : a = 0 := Subsingleton.elim _ _
    show e.val = 0 + e.val * (0 + 1)
    omega
  · rw [dif_neg h]
    refine pad_apply_of_not_inside _ _ _ x v pads_S850000_S851968_019680 h_S_ (ix1 e) 0 fun hh => h ?_
    have h3 := hh.2.2
    change (e.val - 0) / (0 + 1) < 850000 at h3
    omega

/-- A node array cast to a column, read at `(n, u)`. -/
theorem col_apply {α : Type} (x : S50000.Idx → α) (n : Fin 50000) (u : Fin 1) :
    shapeCast S50000x1 x shapeCasts_S50000_S50000x1 (ix2 n u) = x (ix1 n) :=
  Idealize.ShloMosaic.Keepdims.shapeCast_a_a1_apply (a := 50000) x shapeCasts_S50000_S50000x1 n u

/-- A bias vector broadcast along rows, read at `(n, f)`. -/
theorem bias_apply (b : S64.Idx → EReal) (n : Fin 50000) (f : Fin 64) :
    broadcastInDim S50000x64 ![0, 1] bcast_S1x64_S50000x64_0_1 (broadcastInDim S1x64 ![1] bcast_S64_S1x64_1 b) (ix2 n f) = b (ix1 f) := by
  refine (broadcastInDim_apply _ bcast_S1x64_S50000x64_0_1 _ (ix2 n f) (ix2 (0 : Fin 1) f) fun a => ?_).trans ?_
  · match a with
    | ⟨0, _⟩ => first | rfl | (show (0 : ℕ) = if _ then 0 else _; simp)
    | ⟨1, _⟩ => first | rfl | (show f.val = if _ then 0 else _; simp)
  · refine broadcastInDim_apply _ bcast_S64_S1x64_1 b (ix2 (0 : Fin 1) f) (ix1 f) fun a => ?_
    obtain rfl : a = 0 := Subsingleton.elim _ _
    first | rfl | (show f.val = if _ then 0 else _; simp)

end Reads

end Cert.KernelIdeal.Val

end
-- ==== Proof.Spec.lean ====
/-
  The network both programs compute, as one function of the argument arrays on the extended reals.

  Nodes `n < 50000`, edges `e < 850000` with source `src e` and target `dst e`, features of width 64 after the first
  projection. An edge reads the row of its source node (the index clamped into the node range, as a gather clamps it),
  scales it by the edge's weight `nsE e`; a node sums the messages of the edges whose target it is and scales the sum
  by its own weight `nIn n`. Three such layers — the first after the projection by `W1`, the second and third before
  the projection by `W2`, `W3` —, each followed by the bias and `max · 0`; the result is the entrywise maximum of the
  three layers. The two weight vectors are parameters here: both programs compute them from the degrees by the same
  host operations.
-/
import Idealize.ShloMosaic.PureOps.Ideal
import Idealize.ShloMosaic.Lib.ValueIdx

noncomputable section

namespace Cert.Spec

open Idealize.ShloMosaic Idealize.ShloMosaic.ValueIdx

abbrev SE : Shape := ⟨1, ![850000]⟩
abbrev SN : Shape := ⟨1, ![50000]⟩
abbrev SNF : Shape := ⟨2, ![50000, 64]⟩
abbrev SN128 : Shape := ⟨2, ![50000, 128]⟩
abbrev S128F : Shape := ⟨2, ![128, 64]⟩
abbrev SFF : Shape := ⟨2, ![64, 64]⟩
abbrev SF : Shape := ⟨1, ![64]⟩

/-- The node an edge reads: its source index, read signed and clamped into the node range. -/
def srcNode (src : SE.Idx → BitVec 32) (e : Fin 850000) : Fin 50000 :=
  ⟨min (src (ix1 e)).toInt.toNat 49999, by omega⟩

/-- An edge's message: the source node's row, scaled by the edge's weight. -/
def msg (src : SE.Idx → BitVec 32) (nsE : SE.Idx → EReal) (x : SNF.Idx → EReal) (e : Fin 850000) (f : Fin 64) : EReal :=
  x (ix2 (srcNode src e) f) * nsE (ix1 e)

/-- A node's aggregate: the sum of the messages of the edges that point at it, scaled by the node's weight. -/
def agg (src dst : SE.Idx → BitVec 32) (nsE : SE.Idx → EReal) (nIn : SN.Idx → EReal) (x : SNF.Idx → EReal) : SNF.Idx → EReal :=
  fun j => (∑ e ∈ Finset.univ.filter (fun e : Fin 850000 => (dst (ix1 e)).toInt = ((j 0).val : Int)), msg src nsE x e (j 1)) * nIn (ix1 (j 0))

/-- A projection: the row of `x` against the column of `W`. -/
def proj {K : Nat} (x : (⟨2, ![50000, K]⟩ : Shape).Idx → EReal) (W : (⟨2, ![K, 64]⟩ : Shape).Idx → EReal) : SNF.Idx → EReal :=
  fun j => ∑ k : Fin K, x (ix2 (j 0) k) * W (ix2 k (j 1))

/-- The bias added along rows, then `max · 0`. -/
def act (h : SNF.Idx → EReal) (b : SF.Idx → EReal) : SNF.Idx → EReal :=
  fun j => max (h j + b (ix1 (j 1))) 0

def layer1 (src dst : SE.Idx → BitVec 32) (nsE : SE.Idx → EReal) (nIn : SN.Idx → EReal) (feat : SN128.Idx → EReal)
    (W1 : S128F.Idx → EReal) (b1 : SF.Idx → EReal) : SNF.Idx → EReal :=
  act (agg src dst nsE nIn (proj feat W1)) b1

def layerNext (src dst : SE.Idx → BitVec 32) (nsE : SE.Idx → EReal) (nIn : SN.Idx → EReal) (h : SNF.Idx → EReal)
    (W : SFF.Idx → EReal) (b : SF.Idx → EReal) : SNF.Idx → EReal :=
  act (proj (agg src dst nsE nIn h) W) b

/-- The whole network. -/
def net (src dst : SE.Idx → BitVec 32) (nsE : SE.Idx → EReal) (nIn : SN.Idx → EReal) (feat : SN128.Idx → EReal)
    (W1 : S128F.Idx → EReal) (b1 : SF.Idx → EReal) (W2 : SFF.Idx → EReal) (b2 : SF.Idx → EReal)
    (W3 : SFF.Idx → EReal) (b3 : SF.Idx → EReal) : SNF.Idx → EReal :=
  let h1 := layer1 src dst nsE nIn feat W1 b1
  let h2 := layerNext src dst nsE nIn h1 W2 b2
  let h3 := layerNext src dst nsE nIn h2 W3 b3
  fun j => max (max (h1 j) (h2 j)) (h3 j)

end Cert.Spec

end
-- ==== Proof.LibOneHot.lean ====
/-
  One-hot selection on the extended reals.

  A row of a one-hot matrix is `1` at one column and `0` elsewhere, and on the extended reals `0 * x = 0`
  for EVERY `x` (also for the infinities) and `x + 0 = x`. So the product of a one-hot row with a column is
  the selected entry, with no finiteness hypothesis; the product of an all-zero row is `0`; and the product of
  a one-hot COLUMN pattern with a column is the sum of the entries the pattern selects. A 0/1 word converted to
  a float is such a `0` or `1`.
-/
import Idealize.ShloMosaic.PureOps.Ideal
import Idealize.ShloMosaic.PureOps.Vector

noncomputable section

namespace Cert.Lib.OneHot

open Idealize.ShloMosaic

/-- A one-hot row against a column: the selected entry. -/
theorem sum_ite_eq_mul {ι : Type} [Fintype ι] [DecidableEq ι] (a : ι) (x : ι → EReal) :
    ∑ k, (if a = k then (1 : EReal) else 0) * x k = x a := by
  simp only [ite_mul, one_mul, zero_mul, Finset.sum_ite_eq, Finset.mem_univ, if_true]

/-- A row that matches no column, against any column: zero. -/
theorem sum_ite_false_mul {ι : Type} [Fintype ι] (p : ι → Prop) [DecidablePred p] (x : ι → EReal)
    (h : ∀ k, ¬ p k) : ∑ k, (if p k then (1 : EReal) else 0) * x k = 0 := by
  refine Finset.sum_eq_zero fun k _ => ?_
  rw [if_neg (h k), zero_mul]

/-- A 0/1 pattern against a column: the sum of the selected entries. -/
theorem sum_ite_mul_eq_sum_filter {ι : Type} [Fintype ι] (p : ι → Prop) [DecidablePred p] (x : ι → EReal) :
    ∑ e, (if p e then (1 : EReal) else 0) * x e = ∑ e ∈ Finset.univ.filter p, x e := by
  rw [Finset.sum_filter]
  refine Finset.sum_congr rfl fun e _ => ?_
  by_cases h : p e
  · rw [if_pos h, if_pos h, one_mul]
  · rw [if_neg h, if_neg h, zero_mul]

/-- The one-bit word of a comparison, zero-extended to 32 bits and read as a signed integer, as an extended
    real: `1` when the bit is set, else `0`. -/
theorem sitofp_extui_bit (b : BitVec 1) :
    (((BitVec.zeroExtend 32 b).toInt : ℝ) : EReal) = if b = 1#1 then (1 : EReal) else 0 := by
  rcases BitVec.eq_zero_or_eq_one b with h | h <;> subst h <;> simp <;> decide

end Cert.Lib.OneHot

end
-- ==== Proof.KI.CoreAlgebra.lean ====
/-
  The two kernels in sequence are one aggregation step of the network.

  Row `e` of the gather kernel's output is `x(src e) · nsE e` when `e` is a real edge whose source word is a node
  index, and `0` on the padding rows, whose weight is `0`: the 0/1 pattern of a node index over 25 tiles of 2000
  rows hits exactly one (tile, row) pair. Row `n` of the scatter kernel's output then sums those messages over the
  edges whose target word is `n`; the padding rows add `0`. A word equals the 32-bit numeral of a small natural
  exactly when its signed reading is that natural, so no range assumption on the target words is needed.
  Everything is on the extended reals, where `0 · x = 0`, `x · 0 = 0` and `x + 0 = x` hold for every `x`.
-/
import proofs.«118646_j60988535603568_1_alg».proof.Proof.Spec
import proofs.«118646_j60988535603568_1_alg».proof.Proof.KI.RegionFns
import proofs.«118646_j60988535603568_1_alg».proof.Proof.LibOneHot

noncomputable section

namespace Cert.KernelIdeal.Val

open Idealize.ShloMosaic Idealize.ShloMosaic.ValueIdx Cert.Spec

/-- A 32-bit word is the numeral of a natural below `2^31` exactly when its signed reading is that natural. -/
theorem word_eq_ofNat_iff (b : BitVec 32) (i : ℕ) (hi : i < 2147483648) : b = BitVec.ofNat 32 i ↔ b.toInt = (i : Int) := by
  constructor
  · rintro rfl
    rw [BitVec.toInt_eq_toNat_cond, BitVec.toNat_ofNat]
    have : i % 2 ^ 32 = i := Nat.mod_eq_of_lt (by omega)
    rw [this]; split <;> omega
  · intro h
    apply BitVec.eq_of_toInt_eq
    rw [h, BitVec.toInt_eq_toNat_cond, BitVec.toNat_ofNat]
    have : i % 2 ^ 32 = i := Nat.mod_eq_of_lt (by omega)
    rw [this]; split <;> omega

/-- A sum over tiles and rows of a tile is the sum over all rows. -/
theorem sum_tiles {M : Type} [AddCommMonoid M] (A B : ℕ) (g : Fin (A * B) → M) :
    ∑ a : Fin A, ∑ b : Fin B, g ⟨a.val * B + b.val, by
      have := a.isLt; have := b.isLt
      calc a.val * B + b.val < a.val * B + B := by omega
        _ = (a.val + 1) * B := by ring
        _ ≤ A * B := Nat.mul_le_mul_right B (by omega)⟩ = ∑ i : Fin (A * B), g i := by
  rw [← Finset.sum_product', ← finProdFinEquiv.sum_comp]
  refine Finset.sum_congr rfl fun p _ => congrArg g (Fin.ext ?_)
  show p.1.val * B + p.2.val = p.2.val + B * p.1.val
  ring

/-- Padding an edge array of words to the padded length with the zero word, as a column. -/
def padWords (w : SE.Idx → BitVec 32) : (⟨2, ![851968, 1]⟩ : Shape).Idx → BitVec 32 :=
  fun j => if h : (j 0).val < 850000 then w (ix1 ⟨(j 0).val, h⟩) else 0#32
/-- Padding an edge array of numbers with zero, as a column. -/
def padNums (w : SE.Idx → EReal) : (⟨2, ![851968, 1]⟩ : Shape).Idx → EReal :=
  fun j => if h : (j 0).val < 850000 then w (ix1 ⟨(j 0).val, h⟩) else 0
/-- A node array as a column. -/
def colNums (w : SN.Idx → EReal) : (⟨2, ![50000, 1]⟩ : Shape).Idx → EReal := fun j => w (ix1 (j 0))

/-- A row of the gather kernel's output at a real edge whose source word is a node index: the message. -/
theorem gatherArr_edge (src : SE.Idx → BitVec 32) (nsE : SE.Idx → EReal) (x : SNF.Idx → EReal) (e : Fin 850000) (f : Fin 64)
    (h0 : 0 ≤ (src (ix1 e)).toInt) (h1 : (src (ix1 e)).toInt < 50000) :
    gatherArr (padWords src) (padNums nsE) x (ix2 ⟨e.val, by omega⟩ f) = msg src nsE x e f := by
  unfold gatherArr msg
  have hp : padWords src (ix2 (⟨e.val, by omega⟩ : Fin 851968) 0) = src (ix1 e) := by
    unfold padWords; rw [dif_pos (show ((ix2 (⟨e.val, by omega⟩ : Fin 851968) (0 : Fin 1)) 0).val < 850000 from e.isLt)]
  have hn : padNums nsE (ix2 (⟨e.val, by omega⟩ : Fin 851968) 0) = nsE (ix1 e) := by
    unfold padNums; rw [dif_pos (show ((ix2 (⟨e.val, by omega⟩ : Fin 851968) (0 : Fin 1)) 0).val < 850000 from e.isLt)]
  show (0 + ∑ k : Fin 25, ∑ jj : Fin 2000, (if padWords src (ix2 (⟨e.val, by omega⟩ : Fin 851968) 0) = BitVec.ofNat 32 (k.val * 2000 + jj.val) then (1 : EReal) else 0)
        * x (ix2 ⟨k.val * 2000 + jj.val, by omega⟩ f)) * padNums nsE (ix2 (⟨e.val, by omega⟩ : Fin 851968) 0) = _
  rw [hp, hn, zero_add]
  congr 1
  have key := sum_tiles 25 2000 (fun i : Fin (25 * 2000) =>
    (if src (ix1 e) = BitVec.ofNat 32 i.val then (1 : EReal) else 0) * x (ix2 ⟨i.val, i.isLt⟩ f))
  refine (key.trans ?_)
  have hsel : ∀ i : Fin (25 * 2000), (src (ix1 e) = BitVec.ofNat 32 i.val) ↔ (⟨(src (ix1 e)).toInt.toNat, by omega⟩ : Fin (25 * 2000)) = i := by
    intro i
    rw [word_eq_ofNat_iff _ _ (by have := i.isLt; omega)]
    constructor
    · intro h; apply Fin.ext; show (src (ix1 e)).toInt.toNat = i.val; omega
    · intro h; have := congrArg Fin.val h; simp only at this; omega
  simp only [hsel]
  rw [Cert.Lib.OneHot.sum_ite_eq_mul]
  refine congrArg x (congrArg (fun a => ix2 a f) (Fin.ext ?_))
  show (src (ix1 e)).toInt.toNat = min (src (ix1 e)).toInt.toNat 49999
  omega

/-- A row of the gather kernel's output on the padding: zero. -/
theorem gatherArr_pad (src : SE.Idx → BitVec 32) (nsE : SE.Idx → EReal) (x : SNF.Idx → EReal) (e : Fin 851968) (f : Fin 64)
    (he : 850000 ≤ e.val) : gatherArr (padWords src) (padNums nsE) x (ix2 e f) = 0 := by
  unfold gatherArr
  have hn : padNums nsE (ix2 e 0) = 0 := by
    unfold padNums; rw [dif_neg (show ¬ ((ix2 e (0 : Fin 1)) 0).val < 850000 from by show ¬ e.val < 850000; omega)]
  show _ * padNums nsE (ix2 e 0) = 0
  rw [hn, mul_zero]

/-- THE STEP: the scatter kernel's array over the gather kernel's array is the network's aggregation. -/
theorem scatter_gather_eq_agg (src dst : SE.Idx → BitVec 32) (nsE : SE.Idx → EReal) (nIn : SN.Idx → EReal) (x : SNF.Idx → EReal)
    (hsrc : ∀ e : Fin 850000, 0 ≤ (src (ix1 e)).toInt ∧ (src (ix1 e)).toInt < 50000) :
    scatterArr (padWords dst) (gatherArr (padWords src) (padNums nsE) x) (colNums nIn) = agg src dst nsE nIn x := by
  funext j
  obtain ⟨n, f, rfl⟩ : ∃ (n : Fin 50000) (f : Fin 64), j = ix2 n f := ⟨j 0, j 1, eq_ix2 j⟩
  unfold scatterArr agg
  show (0 + ∑ s : Fin 208, ∑ r : Fin 4096,
      (if padWords dst (ix2 ⟨s.val * 4096 + r.val, by omega⟩ 0) = BitVec.ofNat 32 n.val then (1 : EReal) else 0)
        * gatherArr (padWords src) (padNums nsE) x (ix2 ⟨s.val * 4096 + r.val, by omega⟩ f)) * nIn (ix1 n)
    = (∑ e ∈ Finset.univ.filter (fun e : Fin 850000 => (dst (ix1 e)).toInt = (n.val : Int)), msg src nsE x e f) * nIn (ix1 n)
  refine congrArg (· * nIn (ix1 n)) ?_
  rw [zero_add]
  have key := sum_tiles 208 4096 (fun i : Fin (208 * 4096) =>
    (if padWords dst (ix2 (⟨i.val, i.isLt⟩ : Fin 851968) 0) = BitVec.ofNat 32 n.val then (1 : EReal) else 0)
      * gatherArr (padWords src) (padNums nsE) x (ix2 (⟨i.val, i.isLt⟩ : Fin 851968) f))
  refine key.trans ?_
  -- the padded index set is the real edges followed by the padding
  have hsplit := Fin.sum_univ_add (a := 850000) (b := 1968) (fun i : Fin (850000 + 1968) =>
    (if padWords dst (ix2 (⟨i.val, i.isLt⟩ : Fin 851968) 0) = BitVec.ofNat 32 n.val then (1 : EReal) else 0)
      * gatherArr (padWords src) (padNums nsE) x (ix2 (⟨i.val, i.isLt⟩ : Fin 851968) f))
  refine (hsplit.trans ?_)
  have hpad : ∑ i : Fin 1968, (fun i : Fin (850000 + 1968) =>
      (if padWords dst (ix2 (⟨i.val, i.isLt⟩ : Fin 851968) 0) = BitVec.ofNat 32 n.val then (1 : EReal) else 0)
        * gatherArr (padWords src) (padNums nsE) x (ix2 (⟨i.val, i.isLt⟩ : Fin 851968) f)) (Fin.natAdd 850000 i) = 0 := by
    refine Finset.sum_eq_zero fun i _ => ?_
    show _ * gatherArr (padWords src) (padNums nsE) x (ix2 (⟨850000 + i.val, _⟩ : Fin 851968) f) = 0
    rw [gatherArr_pad src nsE x _ f (by show 850000 ≤ 850000 + i.val; omega), mul_zero]
  rw [hpad, add_zero]
  rw [← Cert.Lib.OneHot.sum_ite_mul_eq_sum_filter]
  refine Finset.sum_congr rfl fun e _ => ?_
  show (if padWords dst (ix2 (⟨e.val, _⟩ : Fin 851968) 0) = BitVec.ofNat 32 n.val then (1 : EReal) else 0)
      * gatherArr (padWords src) (padNums nsE) x (ix2 (⟨e.val, _⟩ : Fin 851968) f) = _
  rw [gatherArr_edge src nsE x e f (hsrc e).1 (hsrc e).2]
  have hd : padWords dst (ix2 (⟨e.val, by have := e.isLt; omega⟩ : Fin 851968) 0) = dst (ix1 e) := by
    unfold padWords; rw [dif_pos (show ((ix2 (⟨e.val, by have := e.isLt; omega⟩ : Fin 851968) (0 : Fin 1)) 0).val < 850000 from e.isLt)]
  rw [hd]
  by_cases h : (dst (ix1 e)).toInt = (n.val : Int)
  · rw [if_pos ((word_eq_ofNat_iff _ _ (by have := n.isLt; omega)).mpr h), if_pos h]
  · rw [if_neg (fun h' => h ((word_eq_ofNat_iff _ _ (by have := n.isLt; omega)).mp h')), if_neg h]

end Cert.KernelIdeal.Val

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.KI.VC3.lean ====
/-
  The arrays region 0 is entered with, as functions of the arguments: the source and target words padded and cast to
  columns, the edge weights padded, the node weights as a column, the features projected by the first weight matrix;
  and a bias with `max · 0` as the specification's activation.
-/
import proofs.«118646_j60988535603568_1_alg».proof.Proof.KI.VC1
import proofs.«118646_j60988535603568_1_alg».proof.Proof.KI.CoreAlgebra
import proofs.«118646_j60988535603568_1_alg».proof.Proof.Spec
import proofs.«118646_j60988535603568_1_alg».proof.Proof.LibMatmul

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

/-! ## The composition -/

section Main

variable (m : (ℓ : Loc nD τ sig) → Buf (Elt Ideal) ℓ) (c : Dev nD)

/-- The argument arrays as functions. -/
abbrev aFeat : Cert.Spec.SN128.Idx → EReal := m ((c.tc : Thread nD τ).loc main_arg0)
abbrev aSrc : Cert.Spec.SE.Idx → BitVec 32 := m ((c.tc : Thread nD τ).loc main_arg1)
abbrev aDst : Cert.Spec.SE.Idx → BitVec 32 := m ((c.tc : Thread nD τ).loc main_arg2)
abbrev aW1 : Cert.Spec.S128F.Idx → EReal := m ((c.tc : Thread nD τ).loc main_arg3)
abbrev ab1 : Cert.Spec.SF.Idx → EReal := m ((c.tc : Thread nD τ).loc main_arg4)
abbrev aW2 : Cert.Spec.SFF.Idx → EReal := m ((c.tc : Thread nD τ).loc main_arg5)
abbrev ab2 : Cert.Spec.SF.Idx → EReal := m ((c.tc : Thread nD τ).loc main_arg6)
abbrev aW3 : Cert.Spec.SFF.Idx → EReal := m ((c.tc : Thread nD τ).loc main_arg7)
abbrev ab3 : Cert.Spec.SF.Idx → EReal := m ((c.tc : Thread nD τ).loc main_arg8)
/-- The two weight vectors as this program's host operations compute them. -/
abbrev kNsE : Cert.Spec.SE.Idx → EReal := V5 m c main_v25
abbrev kNIn : Cert.Spec.SN.Idx → EReal := V4 m c main_v18

theorem f_sp : (V11 m c main_v27 : S851968x1.Idx → BitVec 32) = padWords (aSrc m c) := by
  have h27 : V7 m c main_v27 = shapeCast S851968x1 (V6 m c main_v26 : IVec S851968 32) shapeCasts_S851968_S851968x1 := s6_v27 (V6 m c)
  have h26 : V6 m c main_v26 = pad S851968 ![0] ![1968] ![0] (V5 m c main_arg1 : IVec S850000 32) (id (V5 m c main_c_9 : IVec S_ 32)) pads_S850000_S851968_019680 h_S_ := s5_v26 (V5 m c)
  have hc9 : V5 m c main_c_9 = constantI S_ 32 0#32 := s4_c9 (V4 m c)
  have ha : V5 m c main_arg1 = m ((c.tc : Thread nD τ).loc main_arg1) := ((V5_of m c main_arg1 (by decide)).trans ((V4_of m c main_arg1 (by decide)).trans ((V3_of m c main_arg1 (by decide)).trans ((V2_of m c main_arg1 (by decide)).trans (V1_of m c main_arg1 (by decide))))))
  rw [show V11 m c main_v27 = V7 m c main_v27 from ((V11_of m c main_v27 (by decide)).trans ((V10_of m c main_v27 (by decide)).trans ((V9_of m c main_v27 (by decide)).trans (V8_of m c main_v27 (by decide))))), h27, h26, hc9, ha]
  funext j
  obtain ⟨e, u, rfl⟩ : ∃ (e : Fin 851968) (u : Fin 1), j = ix2 e u := ⟨j 0, j 1, eq_ix2 j⟩
  refine (padcol_apply _ _ e u).trans ?_
  unfold padWords
  by_cases h : e.val < 850000
  · rw [dif_pos h, dif_pos (show ((ix2 e u) 0).val < 850000 from h)]
  · rw [dif_neg h, dif_neg (show ¬ ((ix2 e u) 0).val < 850000 from h)]; rfl

theorem f_dp : (V11 m c main_v29 : S851968x1.Idx → BitVec 32) = padWords (aDst m c) := by
  have h29 : V9 m c main_v29 = shapeCast S851968x1 (V8 m c main_v28 : IVec S851968 32) shapeCasts_S851968_S851968x1 := s8_v29 (V8 m c)
  have h28 : V8 m c main_v28 = pad S851968 ![0] ![1968] ![0] (V7 m c main_arg2 : IVec S850000 32) (id (V7 m c main_c_10 : IVec S_ 32)) pads_S850000_S851968_019680 h_S_ := s7_v28 (V7 m c)
  have hc10 : V7 m c main_c_10 = constantI S_ 32 0#32 := s6_c10 (V6 m c)
  have ha : V7 m c main_arg2 = m ((c.tc : Thread nD τ).loc main_arg2) := ((V7_of m c main_arg2 (by decide)).trans ((V6_of m c main_arg2 (by decide)).trans ((V5_of m c main_arg2 (by decide)).trans ((V4_of m c main_arg2 (by decide)).trans ((V3_of m c main_arg2 (by decide)).trans ((V2_of m c main_arg2 (by decide)).trans (V1_of m c main_arg2 (by decide))))))))
  rw [show V11 m c main_v29 = V9 m c main_v29 from ((V11_of m c main_v29 (by decide)).trans (V10_of m c main_v29 (by decide))), h29, h28, hc10, ha]
  funext j
  obtain ⟨e, u, rfl⟩ : ∃ (e : Fin 851968) (u : Fin 1), j = ix2 e u := ⟨j 0, j 1, eq_ix2 j⟩
  refine (padcol_apply _ _ e u).trans ?_
  unfold padWords
  by_cases h : e.val < 850000
  · rw [dif_pos h, dif_pos (show ((ix2 e u) 0).val < 850000 from h)]
  · rw [dif_neg h, dif_neg (show ¬ ((ix2 e u) 0).val < 850000 from h)]; rfl

theorem f_np : (V11 m c main_v31 : S851968x1.Idx → EReal) = padNums (kNsE m c) := by
  have h31 : V11 m c main_v31 = shapeCast S851968x1 (V10 m c main_v30 : FVec Ideal S851968 .f32) shapeCasts_S851968_S851968x1 := s10_v31 (V10 m c)
  have h30 : V10 m c main_v30 = pad S851968 ![0] ![1968] ![0] (V9 m c main_v25 : FVec Ideal S850000 .f32) (id (V9 m c main_cst_11 : FVec Ideal S_ .f32)) pads_S850000_S851968_019680 h_S_ := s9_v30 (V9 m c)
  have hc11 : V9 m c main_cst_11 = constant (F := Ideal) S_ .f32 0x00000000#32 := s8_cst11 (V8 m c)
  have ha : V9 m c main_v25 = V5 m c main_v25 := ((V9_of m c main_v25 (by decide)).trans ((V8_of m c main_v25 (by decide)).trans ((V7_of m c main_v25 (by decide)).trans (V6_of m c main_v25 (by decide)))))
  rw [h31, h30, hc11, ha]
  funext j
  obtain ⟨e, u, rfl⟩ : ∃ (e : Fin 851968) (u : Fin 1), j = ix2 e u := ⟨j 0, j 1, eq_ix2 j⟩
  refine (padcol_apply _ _ e u).trans ?_
  unfold padNums
  by_cases h : e.val < 850000
  · rw [dif_pos h, dif_pos (show ((ix2 e u) 0).val < 850000 from h)]
  · rw [dif_neg h, dif_neg (show ¬ ((ix2 e u) 0).val < 850000 from h)]
    exact Ideal.ofBits_zero_f32

theorem f_ni : (V11 m c main_v32 : S50000x1.Idx → EReal) = colNums (kNIn m c) := by
  have h32 : V11 m c main_v32 = shapeCast S50000x1 (V10 m c main_v18 : FVec Ideal S50000 .f32) shapeCasts_S50000_S50000x1 := s10_v32 (V10 m c)
  have ha : V10 m c main_v18 = V4 m c main_v18 := ((V10_of m c main_v18 (by decide)).trans ((V9_of m c main_v18 (by decide)).trans ((V8_of m c main_v18 (by decide)).trans ((V7_of m c main_v18 (by decide)).trans ((V6_of m c main_v18 (by decide)).trans (V5_of m c main_v18 (by decide)))))))
  rw [h32, ha]
  funext j
  obtain ⟨n, u, rfl⟩ : ∃ (n : Fin 50000) (u : Fin 1), j = ix2 n u := ⟨j 0, j 1, eq_ix2 j⟩
  exact col_apply _ n u

theorem f_x1 : (V11 m c main_v34 : S50000x64.Idx → EReal) = Cert.Spec.proj (aFeat m c) (aW1 m c) := by
  have h34 : V11 m c main_v34 = truncf (F := Ideal) (φ := .f32) (s := S50000x64) .bf16 (Host.dotGeneral (F := Ideal) (φ₁ := .f32) (φ₂ := .f32) dot_S50000x128_S128x64_S50000x64_1_0_0_1_n_n none
      (V10 m c main_arg0) (V10 m c main_arg3)) bitsLt_bf16_f32 := s10_v34 (V10 m c)
  have ha0 : V10 m c main_arg0 = m ((c.tc : Thread nD τ).loc main_arg0) := ((V10_of m c main_arg0 (by decide)).trans ((V9_of m c main_arg0 (by decide)).trans ((V8_of m c main_arg0 (by decide)).trans ((V7_of m c main_arg0 (by decide)).trans ((V6_of m c main_arg0 (by decide)).trans ((V5_of m c main_arg0 (by decide)).trans ((V4_of m c main_arg0 (by decide)).trans ((V3_of m c main_arg0 (by decide)).trans ((V2_of m c main_arg0 (by decide)).trans (V1_of m c main_arg0 (by decide)))))))))))
  have ha3 : V10 m c main_arg3 = m ((c.tc : Thread nD τ).loc main_arg3) := ((V10_of m c main_arg3 (by decide)).trans ((V9_of m c main_arg3 (by decide)).trans ((V8_of m c main_arg3 (by decide)).trans ((V7_of m c main_arg3 (by decide)).trans ((V6_of m c main_arg3 (by decide)).trans ((V5_of m c main_arg3 (by decide)).trans ((V4_of m c main_arg3 (by decide)).trans ((V3_of m c main_arg3 (by decide)).trans ((V2_of m c main_arg3 (by decide)).trans (V1_of m c main_arg3 (by decide)))))))))))
  rw [h34, ha0, ha3]
  funext j
  obtain ⟨n, f, rfl⟩ : ∃ (n : Fin 50000) (f : Fin 64), j = ix2 n f := ⟨j 0, j 1, eq_ix2 j⟩
  rw [truncf_apply]
  exact Cert.MatOps.dotGeneral_plain_apply (M := 50000) (K := 128) (N := 64) none _ _ n f

/-- A bias added along rows and `max · 0` of the host side, as the specification's activation. -/
theorem act_eq (h : S50000x64.Idx → EReal) (b : S64.Idx → EReal) :
    maximumf (F := Ideal) (φ := .f32) (s := S50000x64)
      (addf (F := Ideal) (φ := .f32) (s := S50000x64) h (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32)) = Cert.Spec.act h b := by
  funext j
  obtain ⟨n, f, rfl⟩ : ∃ (n : Fin 50000) (f : Fin 64), j = ix2 n f := ⟨j 0, j 1, eq_ix2 j⟩
  rw [maximumf_apply, addf_apply, bias_apply]
  unfold Cert.Spec.act
  congr 1
  exact Ideal.ofBits_zero_f32

end Main

end Cert.KernelIdeal.Val

end
-- ==== Proof.KI.VC4.lean ====
/-
  The first layer: region 0 then region 1 are one aggregation of the projected features; the bias and `max · 0` follow.
-/
import proofs.«118646_j60988535603568_1_alg».proof.Proof.KI.VC2
import proofs.«118646_j60988535603568_1_alg».proof.Proof.KI.VC3

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Cert.KernelIdeal.Hand
open Idealize.ShloMosaic.Pipeline (Dat)

section Layers

variable (m : (ℓ : Loc nD τ sig) → Buf (Elt Ideal) ℓ) (c : Dev nD)
variable (D0 : RD0 Ideal) (D1 : RD1 Ideal) (D2 : RD2 Ideal) (D3 : RD3 Ideal) (D4 : RD4 Ideal) (D5 : RD5 Ideal)
variable (harr0 : ∀ V c, (D0.dat V c).arrAt 3 cfg0.N = gatherArr (V c main_v27) (V c main_v31) (V c main_v34))
  (harr1 : ∀ V c, (D1.dat V c).arrAt 3 cfg1.N = scatterArr (V c main_v29) (V c main_v35) (V c main_v32))
  (harr2 : ∀ V c, (D2.dat V c).arrAt 3 cfg2.N = gatherArr (V c main_v27) (V c main_v31) (V c main_v41))
  (harr3 : ∀ V c, (D3.dat V c).arrAt 3 cfg3.N = scatterArr (V c main_v29) (V c main_v42) (V c main_v32))
  (harr4 : ∀ V c, (D4.dat V c).arrAt 3 cfg4.N = gatherArr (V c main_v27) (V c main_v31) (V c main_v49))
  (harr5 : ∀ V c, (D5.dat V c).arrAt 3 cfg5.N = scatterArr (V c main_v29) (V c main_v50) (V c main_v32))
  (hsrc : ∀ e : Fin 850000, 0 ≤ ((aSrc m c) (ix1 e)).toInt ∧ ((aSrc m c) (ix1 e)).toInt < 50000)

include harr0 harr1 hsrc in
/-- The first aggregation. -/
theorem agg1 : (V13 m (outs m D0 D1 D2 D3 D4 D5) c main_v36 : S50000x64.Idx → EReal) = Cert.Spec.agg (aSrc m c) (aDst m c) (kNsE m c) (kNIn m c) (Cert.Spec.proj (aFeat m c) (aW1 m c)) := by
  rw [out1 m c D0 D1 D2 D3 D4 D5 harr1, out0 m c D0 D1 D2 D3 D4 D5 harr0, keep_main_v29_12, keep_main_v32_12, f_sp, f_np, f_x1, f_dp, f_ni]
  exact scatter_gather_eq_agg _ _ _ _ _ hsrc

include harr0 harr1 hsrc in
/-- The first layer. -/
theorem h1_eq : (V15 m (outs m D0 D1 D2 D3 D4 D5) c main_v40 : S50000x64.Idx → EReal) = Cert.Spec.layer1 (aSrc m c) (aDst m c) (kNsE m c) (kNIn m c) (aFeat m c) (aW1 m c) (ab1 m c) := by
  have h40 : V15 m (outs m D0 D1 D2 D3 D4 D5) c main_v40 = maximumf (F := Ideal) (φ := .f32) (s := S50000x64) (V14 m (outs m D0 D1 D2 D3 D4 D5) c main_v39) (broadcastInDim S50000x64 ![] bcast_S_S50000x64 (constant (F := Ideal) S_ .f32 0x00000000#32)) := s21_v40 (V14 m (outs m D0 D1 D2 D3 D4 D5) c)
  have h39 : V14 m (outs m D0 D1 D2 D3 D4 D5) c main_v39 = addf (F := Ideal) (φ := .f32) (V13 m (outs m D0 D1 D2 D3 D4 D5) c main_v36 : FVec Ideal S50000x64 .f32) (broadcastInDim S50000x64 ![0, 1] bcast_S1x64_S50000x64_0_1 (broadcastInDim S1x64 ![1] bcast_S64_S1x64_1 (V13 m (outs m D0 D1 D2 D3 D4 D5) c main_arg4 : FVec Ideal S64 .f32))) := s2_v39 (V13 m (outs m D0 D1 D2 D3 D4 D5) c)
  have hb : V13 m (outs m D0 D1 D2 D3 D4 D5) c main_arg4 = m ((c.tc : Thread nD τ).loc main_arg4) := ((V13_of m (outs m D0 D1 D2 D3 D4 D5) c main_arg4 (by decide)).trans ((V12_of m (outs m D0 D1 D2 D3 D4 D5) c main_arg4 (by decide)).trans ((V11_of m c main_arg4 (by decide)).trans ((V10_of m c main_arg4 (by decide)).trans ((V9_of m c main_arg4 (by decide)).trans ((V8_of m c main_arg4 (by decide)).trans ((V7_of m c main_arg4 (by decide)).trans ((V6_of m c main_arg4 (by decide)).trans ((V5_of m c main_arg4 (by decide)).trans ((V4_of m c main_arg4 (by decide)).trans ((V3_of m c main_arg4 (by decide)).trans ((V2_of m c main_arg4 (by decide)).trans (V1_of m c main_arg4 (by decide))))))))))))))
  rw [h40, h39, hb, agg1 m c D0 D1 D2 D3 D4 D5 harr0 harr1 hsrc]
  exact act_eq _ _

end Layers

end Cert.KernelIdeal.Val

end
-- ==== Proof.KI.VC5.lean ====
/-
  The second layer: regions 2 and 3 aggregate the first layer's output; the projection, the bias and `max · 0` follow.
-/
import proofs.«118646_j60988535603568_1_alg».proof.Proof.KI.VC4

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Cert.KernelIdeal.Hand
open Idealize.ShloMosaic.Pipeline (Dat)

section Layers

variable (m : (ℓ : Loc nD τ sig) → Buf (Elt Ideal) ℓ) (c : Dev nD)
variable (D0 : RD0 Ideal) (D1 : RD1 Ideal) (D2 : RD2 Ideal) (D3 : RD3 Ideal) (D4 : RD4 Ideal) (D5 : RD5 Ideal)
variable (harr0 : ∀ V c, (D0.dat V c).arrAt 3 cfg0.N = gatherArr (V c main_v27) (V c main_v31) (V c main_v34))
  (harr1 : ∀ V c, (D1.dat V c).arrAt 3 cfg1.N = scatterArr (V c main_v29) (V c main_v35) (V c main_v32))
  (harr2 : ∀ V c, (D2.dat V c).arrAt 3 cfg2.N = gatherArr (V c main_v27) (V c main_v31) (V c main_v41))
  (harr3 : ∀ V c, (D3.dat V c).arrAt 3 cfg3.N = scatterArr (V c main_v29) (V c main_v42) (V c main_v32))
  (harr4 : ∀ V c, (D4.dat V c).arrAt 3 cfg4.N = gatherArr (V c main_v27) (V c main_v31) (V c main_v49))
  (harr5 : ∀ V c, (D5.dat V c).arrAt 3 cfg5.N = scatterArr (V c main_v29) (V c main_v50) (V c main_v32))
  (hsrc : ∀ e : Fin 850000, 0 ≤ ((aSrc m c) (ix1 e)).toInt ∧ ((aSrc m c) (ix1 e)).toInt < 50000)

include harr0 harr1 harr2 harr3 hsrc in
/-- The second aggregation. -/
theorem agg2 : (V18 m (outs m D0 D1 D2 D3 D4 D5) c main_v43 : S50000x64.Idx → EReal)
    = Cert.Spec.agg (aSrc m c) (aDst m c) (kNsE m c) (kNIn m c) (Cert.Spec.layer1 (aSrc m c) (aDst m c) (kNsE m c) (kNIn m c) (aFeat m c) (aW1 m c) (ab1 m c)) := by
  have h41 : V16 m (outs m D0 D1 D2 D3 D4 D5) c main_v41 = truncf (F := Ideal) (φ := .f32) (s := S50000x64) .bf16 (V15 m (outs m D0 D1 D2 D3 D4 D5) c main_v40) bitsLt_bf16_f32 := s22_v41 (V15 m (outs m D0 D1 D2 D3 D4 D5) c)
  have h41' : (V16 m (outs m D0 D1 D2 D3 D4 D5) c main_v41 : S50000x64.Idx → EReal) = Cert.Spec.layer1 (aSrc m c) (aDst m c) (kNsE m c) (kNIn m c) (aFeat m c) (aW1 m c) (ab1 m c) := by
    rw [h41, ← h1_eq m c D0 D1 D2 D3 D4 D5 harr0 harr1 hsrc]; rfl
  rw [out3 m c D0 D1 D2 D3 D4 D5 harr3, out2 m c D0 D1 D2 D3 D4 D5 harr2, keep_main_v29_17, keep_main_v32_17, keep_main_v27_16, keep_main_v31_16, h41', f_sp, f_np, f_dp, f_ni]
  exact scatter_gather_eq_agg _ _ _ _ _ hsrc

include harr0 harr1 harr2 harr3 hsrc in
/-- The second layer. -/
theorem h2_eq : (V20 m (outs m D0 D1 D2 D3 D4 D5) c main_v48 : S50000x64.Idx → EReal)
    = Cert.Spec.layerNext (aSrc m c) (aDst m c) (kNsE m c) (kNIn m c) (Cert.Spec.layer1 (aSrc m c) (aDst m c) (kNsE m c) (kNIn m c) (aFeat m c) (aW1 m c) (ab1 m c)) (aW2 m c) (ab2 m c) := by
  have h48 : V20 m (outs m D0 D1 D2 D3 D4 D5) c main_v48 = maximumf (F := Ideal) (φ := .f32) (s := S50000x64) (V19 m (outs m D0 D1 D2 D3 D4 D5) c main_v47) (broadcastInDim S50000x64 ![] bcast_S_S50000x64 (constant (F := Ideal) S_ .f32 0x00000000#32)) := s41_v48 (V19 m (outs m D0 D1 D2 D3 D4 D5) c)
  have h47 : V19 m (outs m D0 D1 D2 D3 D4 D5) c main_v47 = addf (F := Ideal) (φ := .f32) (s := S50000x64) (Host.dotGeneral (F := Ideal) (φ₁ := .f32) (φ₂ := .f32) dot_S50000x64_S64x64_S50000x64_1_0_0_1_n_n none (V18 m (outs m D0 D1 D2 D3 D4 D5) c main_v43) (V18 m (outs m D0 D1 D2 D3 D4 D5) c main_arg5))
        (broadcastInDim S50000x64 ![0, 1] bcast_S1x64_S50000x64_0_1 (broadcastInDim S1x64 ![1] bcast_S64_S1x64_1 (V18 m (outs m D0 D1 D2 D3 D4 D5) c main_arg6 : FVec Ideal S64 .f32))) := s4_v47 (V18 m (outs m D0 D1 D2 D3 D4 D5) c)
  have hW : V18 m (outs m D0 D1 D2 D3 D4 D5) c main_arg5 = m ((c.tc : Thread nD τ).loc main_arg5) := ((V18_of m (outs m D0 D1 D2 D3 D4 D5) c main_arg5 (by decide)).trans ((V17_of m (outs m D0 D1 D2 D3 D4 D5) c main_arg5 (by decide)).trans ((V16_of m (outs m D0 D1 D2 D3 D4 D5) c main_arg5 (by decide)).trans ((V15_of m (outs m D0 D1 D2 D3 D4 D5) c main_arg5 (by decide)).trans ((V14_of m (outs m D0 D1 D2 D3 D4 D5) c main_arg5 (by decide)).trans ((V13_of m (outs m D0 D1 D2 D3 D4 D5) c main_arg5 (by decide)).trans ((V12_of m (outs m D0 D1 D2 D3 D4 D5) c main_arg5 (by decide)).trans ((V11_of m c main_arg5 (by decide)).trans ((V10_of m c main_arg5 (by decide)).trans ((V9_of m c main_arg5 (by decide)).trans ((V8_of m c main_arg5 (by decide)).trans ((V7_of m c main_arg5 (by decide)).trans ((V6_of m c main_arg5 (by decide)).trans ((V5_of m c main_arg5 (by decide)).trans ((V4_of m c main_arg5 (by decide)).trans ((V3_of m c main_arg5 (by decide)).trans ((V2_of m c main_arg5 (by decide)).trans (V1_of m c main_arg5 (by decide)))))))))))))))))))
  have hb : V18 m (outs m D0 D1 D2 D3 D4 D5) c main_arg6 = m ((c.tc : Thread nD τ).loc main_arg6) := ((V18_of m (outs m D0 D1 D2 D3 D4 D5) c main_arg6 (by decide)).trans ((V17_of m (outs m D0 D1 D2 D3 D4 D5) c main_arg6 (by decide)).trans ((V16_of m (outs m D0 D1 D2 D3 D4 D5) c main_arg6 (by decide)).trans ((V15_of m (outs m D0 D1 D2 D3 D4 D5) c main_arg6 (by decide)).trans ((V14_of m (outs m D0 D1 D2 D3 D4 D5) c main_arg6 (by decide)).trans ((V13_of m (outs m D0 D1 D2 D3 D4 D5) c main_arg6 (by decide)).trans ((V12_of m (outs m D0 D1 D2 D3 D4 D5) c main_arg6 (by decide)).trans ((V11_of m c main_arg6 (by decide)).trans ((V10_of m c main_arg6 (by decide)).trans ((V9_of m c main_arg6 (by decide)).trans ((V8_of m c main_arg6 (by decide)).trans ((V7_of m c main_arg6 (by decide)).trans ((V6_of m c main_arg6 (by decide)).trans ((V5_of m c main_arg6 (by decide)).trans ((V4_of m c main_arg6 (by decide)).trans ((V3_of m c main_arg6 (by decide)).trans ((V2_of m c main_arg6 (by decide)).trans (V1_of m c main_arg6 (by decide)))))))))))))))))))
  rw [h48, h47, hW, hb, agg2 m c D0 D1 D2 D3 D4 D5 harr0 harr1 harr2 harr3 hsrc]
  unfold Cert.Spec.layerNext
  refine (congrArg (fun z => maximumf (F := Ideal) (φ := .f32) (s := S50000x64) (addf (F := Ideal) (φ := .f32) (s := S50000x64) z _) _) ?_).trans (act_eq _ _)
  funext j
  obtain ⟨n, f, rfl⟩ : ∃ (n : Fin 50000) (f : Fin 64), j = ix2 n f := ⟨j 0, j 1, eq_ix2 j⟩
  exact Cert.MatOps.dotGeneral_plain_apply (M := 50000) (K := 64) (N := 64) none _ _ n f

end Layers

end Cert.KernelIdeal.Val

end
-- ==== Proof.KI.VC6.lean ====
/-
  The third layer: regions 4 and 5 aggregate the second layer's output; the projection, the bias and `max · 0` follow.
-/
import proofs.«118646_j60988535603568_1_alg».proof.Proof.KI.VC5

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Cert.KernelIdeal.Hand
open Idealize.ShloMosaic.Pipeline (Dat)

section Layers

variable (m : (ℓ : Loc nD τ sig) → Buf (Elt Ideal) ℓ) (c : Dev nD)
variable (D0 : RD0 Ideal) (D1 : RD1 Ideal) (D2 : RD2 Ideal) (D3 : RD3 Ideal) (D4 : RD4 Ideal) (D5 : RD5 Ideal)
variable (harr0 : ∀ V c, (D0.dat V c).arrAt 3 cfg0.N = gatherArr (V c main_v27) (V c main_v31) (V c main_v34))
  (harr1 : ∀ V c, (D1.dat V c).arrAt 3 cfg1.N = scatterArr (V c main_v29) (V c main_v35) (V c main_v32))
  (harr2 : ∀ V c, (D2.dat V c).arrAt 3 cfg2.N = gatherArr (V c main_v27) (V c main_v31) (V c main_v41))
  (harr3 : ∀ V c, (D3.dat V c).arrAt 3 cfg3.N = scatterArr (V c main_v29) (V c main_v42) (V c main_v32))
  (harr4 : ∀ V c, (D4.dat V c).arrAt 3 cfg4.N = gatherArr (V c main_v27) (V c main_v31) (V c main_v49))
  (harr5 : ∀ V c, (D5.dat V c).arrAt 3 cfg5.N = scatterArr (V c main_v29) (V c main_v50) (V c main_v32))
  (hsrc : ∀ e : Fin 850000, 0 ≤ ((aSrc m c) (ix1 e)).toInt ∧ ((aSrc m c) (ix1 e)).toInt < 50000)

include harr0 harr1 harr2 harr3 harr4 harr5 hsrc in
/-- The third aggregation. -/
theorem agg3 : (V23 m (outs m D0 D1 D2 D3 D4 D5) c main_v51 : S50000x64.Idx → EReal)
    = Cert.Spec.agg (aSrc m c) (aDst m c) (kNsE m c) (kNIn m c) (Cert.Spec.layerNext (aSrc m c) (aDst m c) (kNsE m c) (kNIn m c) (Cert.Spec.layer1 (aSrc m c) (aDst m c) (kNsE m c) (kNIn m c) (aFeat m c) (aW1 m c) (ab1 m c)) (aW2 m c) (ab2 m c)) := by
  have h49 : V21 m (outs m D0 D1 D2 D3 D4 D5) c main_v49 = truncf (F := Ideal) (φ := .f32) (s := S50000x64) .bf16 (V20 m (outs m D0 D1 D2 D3 D4 D5) c main_v48) bitsLt_bf16_f32 := s42_v49 (V20 m (outs m D0 D1 D2 D3 D4 D5) c)
  have h49' : (V21 m (outs m D0 D1 D2 D3 D4 D5) c main_v49 : S50000x64.Idx → EReal)
      = Cert.Spec.layerNext (aSrc m c) (aDst m c) (kNsE m c) (kNIn m c) (Cert.Spec.layer1 (aSrc m c) (aDst m c) (kNsE m c) (kNIn m c) (aFeat m c) (aW1 m c) (ab1 m c)) (aW2 m c) (ab2 m c) := by
    rw [h49, ← h2_eq m c D0 D1 D2 D3 D4 D5 harr0 harr1 harr2 harr3 hsrc]; rfl
  rw [out5 m c D0 D1 D2 D3 D4 D5 harr5, out4 m c D0 D1 D2 D3 D4 D5 harr4, keep_main_v29_22, keep_main_v32_22, keep_main_v27_21, keep_main_v31_21, h49', f_sp, f_np, f_dp, f_ni]
  exact scatter_gather_eq_agg _ _ _ _ _ hsrc

include harr0 harr1 harr2 harr3 harr4 harr5 hsrc in
/-- The third layer. -/
theorem h3_eq : (V25 m (outs m D0 D1 D2 D3 D4 D5) c main_v56 : S50000x64.Idx → EReal)
    = Cert.Spec.layerNext (aSrc m c) (aDst m c) (kNsE m c) (kNIn m c) (Cert.Spec.layerNext (aSrc m c) (aDst m c) (kNsE m c) (kNIn m c) (Cert.Spec.layer1 (aSrc m c) (aDst m c) (kNsE m c) (kNIn m c) (aFeat m c) (aW1 m c) (ab1 m c)) (aW2 m c) (ab2 m c)) (aW3 m c) (ab3 m c) := by
  have h56 : V25 m (outs m D0 D1 D2 D3 D4 D5) c main_v56 = maximumf (F := Ideal) (φ := .f32) (s := S50000x64) (V24 m (outs m D0 D1 D2 D3 D4 D5) c main_v55) (broadcastInDim S50000x64 ![] bcast_S_S50000x64 (constant (F := Ideal) S_ .f32 0x00000000#32)) := s61_v56 (V24 m (outs m D0 D1 D2 D3 D4 D5) c)
  have h55 : V24 m (outs m D0 D1 D2 D3 D4 D5) c main_v55 = addf (F := Ideal) (φ := .f32) (s := S50000x64) (Host.dotGeneral (F := Ideal) (φ₁ := .f32) (φ₂ := .f32) dot_S50000x64_S64x64_S50000x64_1_0_0_1_n_n none (V23 m (outs m D0 D1 D2 D3 D4 D5) c main_v51) (V23 m (outs m D0 D1 D2 D3 D4 D5) c main_arg7))
        (broadcastInDim S50000x64 ![0, 1] bcast_S1x64_S50000x64_0_1 (broadcastInDim S1x64 ![1] bcast_S64_S1x64_1 (V23 m (outs m D0 D1 D2 D3 D4 D5) c main_arg8 : FVec Ideal S64 .f32))) := s6_v55 (V23 m (outs m D0 D1 D2 D3 D4 D5) c)
  have hW : V23 m (outs m D0 D1 D2 D3 D4 D5) c main_arg7 = m ((c.tc : Thread nD τ).loc main_arg7) := ((V23_of m (outs m D0 D1 D2 D3 D4 D5) c main_arg7 (by decide)).trans ((V22_of m (outs m D0 D1 D2 D3 D4 D5) c main_arg7 (by decide)).trans ((V21_of m (outs m D0 D1 D2 D3 D4 D5) c main_arg7 (by decide)).trans ((V20_of m (outs m D0 D1 D2 D3 D4 D5) c main_arg7 (by decide)).trans ((V19_of m (outs m D0 D1 D2 D3 D4 D5) c main_arg7 (by decide)).trans ((V18_of m (outs m D0 D1 D2 D3 D4 D5) c main_arg7 (by decide)).trans ((V17_of m (outs m D0 D1 D2 D3 D4 D5) c main_arg7 (by decide)).trans ((V16_of m (outs m D0 D1 D2 D3 D4 D5) c main_arg7 (by decide)).trans ((V15_of m (outs m D0 D1 D2 D3 D4 D5) c main_arg7 (by decide)).trans ((V14_of m (outs m D0 D1 D2 D3 D4 D5) c main_arg7 (by decide)).trans ((V13_of m (outs m D0 D1 D2 D3 D4 D5) c main_arg7 (by decide)).trans ((V12_of m (outs m D0 D1 D2 D3 D4 D5) c main_arg7 (by decide)).trans ((V11_of m c main_arg7 (by decide)).trans ((V10_of m c main_arg7 (by decide)).trans ((V9_of m c main_arg7 (by decide)).trans ((V8_of m c main_arg7 (by decide)).trans ((V7_of m c main_arg7 (by decide)).trans ((V6_of m c main_arg7 (by decide)).trans ((V5_of m c main_arg7 (by decide)).trans ((V4_of m c main_arg7 (by decide)).trans ((V3_of m c main_arg7 (by decide)).trans ((V2_of m c main_arg7 (by decide)).trans (V1_of m c main_arg7 (by decide))))))))))))))))))))))))
  have hb : V23 m (outs m D0 D1 D2 D3 D4 D5) c main_arg8 = m ((c.tc : Thread nD τ).loc main_arg8) := ((V23_of m (outs m D0 D1 D2 D3 D4 D5) c main_arg8 (by decide)).trans ((V22_of m (outs m D0 D1 D2 D3 D4 D5) c main_arg8 (by decide)).trans ((V21_of m (outs m D0 D1 D2 D3 D4 D5) c main_arg8 (by decide)).trans ((V20_of m (outs m D0 D1 D2 D3 D4 D5) c main_arg8 (by decide)).trans ((V19_of m (outs m D0 D1 D2 D3 D4 D5) c main_arg8 (by decide)).trans ((V18_of m (outs m D0 D1 D2 D3 D4 D5) c main_arg8 (by decide)).trans ((V17_of m (outs m D0 D1 D2 D3 D4 D5) c main_arg8 (by decide)).trans ((V16_of m (outs m D0 D1 D2 D3 D4 D5) c main_arg8 (by decide)).trans ((V15_of m (outs m D0 D1 D2 D3 D4 D5) c main_arg8 (by decide)).trans ((V14_of m (outs m D0 D1 D2 D3 D4 D5) c main_arg8 (by decide)).trans ((V13_of m (outs m D0 D1 D2 D3 D4 D5) c main_arg8 (by decide)).trans ((V12_of m (outs m D0 D1 D2 D3 D4 D5) c main_arg8 (by decide)).trans ((V11_of m c main_arg8 (by decide)).trans ((V10_of m c main_arg8 (by decide)).trans ((V9_of m c main_arg8 (by decide)).trans ((V8_of m c main_arg8 (by decide)).trans ((V7_of m c main_arg8 (by decide)).trans ((V6_of m c main_arg8 (by decide)).trans ((V5_of m c main_arg8 (by decide)).trans ((V4_of m c main_arg8 (by decide)).trans ((V3_of m c main_arg8 (by decide)).trans ((V2_of m c main_arg8 (by decide)).trans (V1_of m c main_arg8 (by decide))))))))))))))))))))))))
  rw [h56, h55, hW, hb, agg3 m c D0 D1 D2 D3 D4 D5 harr0 harr1 harr2 harr3 harr4 harr5 hsrc]
  unfold Cert.Spec.layerNext
  refine (congrArg (fun z => maximumf (F := Ideal) (φ := .f32) (s := S50000x64) (addf (F := Ideal) (φ := .f32) (s := S50000x64) z _) _) ?_).trans (act_eq _ _)
  funext j
  obtain ⟨n, f, rfl⟩ : ∃ (n : Fin 50000) (f : Fin 64), j = ix2 n f := ⟨j 0, j 1, eq_ix2 j⟩
  exact Cert.MatOps.dotGeneral_plain_apply (M := 50000) (K := 64) (N := 64) none _ _ n f

end Layers

end Cert.KernelIdeal.Val

end
-- ==== Proof.SpecLemmas.lean ====
/-
  The network of the specification read at an entry.
-/
import proofs.«118646_j60988535603568_1_alg».proof.Proof.Spec

noncomputable section

namespace Cert.Spec

open Idealize.ShloMosaic Idealize.ShloMosaic.ValueIdx

/-- The network at an entry: the maximum of the three layers there. -/
theorem net_eq (src dst : SE.Idx → BitVec 32) (nsE : SE.Idx → EReal) (nIn : SN.Idx → EReal) (feat : SN128.Idx → EReal)
    (W1 : S128F.Idx → EReal) (b1 : SF.Idx → EReal) (W2 : SFF.Idx → EReal) (b2 : SF.Idx → EReal)
    (W3 : SFF.Idx → EReal) (b3 : SF.Idx → EReal) :
    net src dst nsE nIn feat W1 b1 W2 b2 W3 b3 = fun j =>
      max (max (layer1 src dst nsE nIn feat W1 b1 j) (layerNext src dst nsE nIn (layer1 src dst nsE nIn feat W1 b1) W2 b2 j))
        (layerNext src dst nsE nIn (layerNext src dst nsE nIn (layer1 src dst nsE nIn feat W1 b1) W2 b2) W3 b3 j) := rfl

end Cert.Spec

end
-- ==== Proof.KI.VC7.lean ====
/-
  The result array: the entrywise maximum of the three layers, which is the network of the specification.
-/
import proofs.«118646_j60988535603568_1_alg».proof.Proof.KI.VC6
import proofs.«118646_j60988535603568_1_alg».proof.Proof.SpecLemmas

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Cert.KernelIdeal.Hand
open Idealize.ShloMosaic.Pipeline (Dat)

section Layers

variable (m : (ℓ : Loc nD τ sig) → Buf (Elt Ideal) ℓ) (c : Dev nD)
variable (D0 : RD0 Ideal) (D1 : RD1 Ideal) (D2 : RD2 Ideal) (D3 : RD3 Ideal) (D4 : RD4 Ideal) (D5 : RD5 Ideal)
variable (harr0 : ∀ V c, (D0.dat V c).arrAt 3 cfg0.N = gatherArr (V c main_v27) (V c main_v31) (V c main_v34))
  (harr1 : ∀ V c, (D1.dat V c).arrAt 3 cfg1.N = scatterArr (V c main_v29) (V c main_v35) (V c main_v32))
  (harr2 : ∀ V c, (D2.dat V c).arrAt 3 cfg2.N = gatherArr (V c main_v27) (V c main_v31) (V c main_v41))
  (harr3 : ∀ V c, (D3.dat V c).arrAt 3 cfg3.N = scatterArr (V c main_v29) (V c main_v42) (V c main_v32))
  (harr4 : ∀ V c, (D4.dat V c).arrAt 3 cfg4.N = gatherArr (V c main_v27) (V c main_v31) (V c main_v49))
  (harr5 : ∀ V c, (D5.dat V c).arrAt 3 cfg5.N = scatterArr (V c main_v29) (V c main_v50) (V c main_v32))
  (hsrc : ∀ e : Fin 850000, 0 ≤ ((aSrc m c) (ix1 e)).toInt ∧ ((aSrc m c) (ix1 e)).toInt < 50000)

include harr0 harr1 harr2 harr3 harr4 harr5 hsrc in
/-- THE RESULT: the last valuation's result array is the network of the specification. -/
theorem kernel_value : (V26 m (outs m D0 D1 D2 D3 D4 D5) c main_v58 : S50000x64.Idx → EReal)
    = Cert.Spec.net (aSrc m c) (aDst m c) (kNsE m c) (kNIn m c) (aFeat m c) (aW1 m c) (ab1 m c) (aW2 m c) (ab2 m c) (aW3 m c) (ab3 m c) := by
  have h58 : V26 m (outs m D0 D1 D2 D3 D4 D5) c main_v58 = maximumf (F := Ideal) (φ := .f32) (s := S50000x64) (maximumf (F := Ideal) (φ := .f32) (s := S50000x64) (V25 m (outs m D0 D1 D2 D3 D4 D5) c main_v40) (V25 m (outs m D0 D1 D2 D3 D4 D5) c main_v48)) (V25 m (outs m D0 D1 D2 D3 D4 D5) c main_v56) := s62_v58 (V25 m (outs m D0 D1 D2 D3 D4 D5) c)
  have k40 : V25 m (outs m D0 D1 D2 D3 D4 D5) c main_v40 = V15 m (outs m D0 D1 D2 D3 D4 D5) c main_v40 := ((V25_of m (outs m D0 D1 D2 D3 D4 D5) c main_v40 (by decide)).trans ((V24_of m (outs m D0 D1 D2 D3 D4 D5) c main_v40 (by decide)).trans ((V23_of m (outs m D0 D1 D2 D3 D4 D5) c main_v40 (by decide)).trans ((V22_of m (outs m D0 D1 D2 D3 D4 D5) c main_v40 (by decide)).trans ((V21_of m (outs m D0 D1 D2 D3 D4 D5) c main_v40 (by decide)).trans ((V20_of m (outs m D0 D1 D2 D3 D4 D5) c main_v40 (by decide)).trans ((V19_of m (outs m D0 D1 D2 D3 D4 D5) c main_v40 (by decide)).trans ((V18_of m (outs m D0 D1 D2 D3 D4 D5) c main_v40 (by decide)).trans ((V17_of m (outs m D0 D1 D2 D3 D4 D5) c main_v40 (by decide)).trans (V16_of m (outs m D0 D1 D2 D3 D4 D5) c main_v40 (by decide)))))))))))
  have k48 : V25 m (outs m D0 D1 D2 D3 D4 D5) c main_v48 = V20 m (outs m D0 D1 D2 D3 D4 D5) c main_v48 := ((V25_of m (outs m D0 D1 D2 D3 D4 D5) c main_v48 (by decide)).trans ((V24_of m (outs m D0 D1 D2 D3 D4 D5) c main_v48 (by decide)).trans ((V23_of m (outs m D0 D1 D2 D3 D4 D5) c main_v48 (by decide)).trans ((V22_of m (outs m D0 D1 D2 D3 D4 D5) c main_v48 (by decide)).trans (V21_of m (outs m D0 D1 D2 D3 D4 D5) c main_v48 (by decide))))))
  rw [h58, k40, k48, h1_eq m c D0 D1 D2 D3 D4 D5 harr0 harr1 hsrc, h2_eq m c D0 D1 D2 D3 D4 D5 harr0 harr1 harr2 harr3 hsrc,
    h3_eq m c D0 D1 D2 D3 D4 D5 harr0 harr1 harr2 harr3 harr4 harr5 hsrc, Cert.Spec.net_eq]
  funext j
  rw [maximumf_apply, maximumf_apply]

end Layers

end Cert.KernelIdeal.Val

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.RefValue.lean ====
/-
  The reference's result as the network function.

  The reference program computes, from the argument arrays, the two normalisation vectors (kept here as the two
  opaque terms `refNsE src`, per edge, and `refNIn dst`, per node: the printed host operations, never opened) and
  then three layers. Each layer's aggregation is a row gather at the edges' sources, a product with the per-edge
  vector, an accumulating scatter at the edges' targets into zeros, and a product with the per-node vector. Read at an
  element: the gather reads the row of the source node (the index word read signed and clamped; under the range
  hypothesis on `src` the program's "negative index + 50000" select is the identity), the scatter's element `(n, f)`
  is `0` plus the sum over the edges whose target word is `n` of the update's element `(e, f)`. The projections are
  the sums over the contracted axis, the bias is added along rows, `max · 0` is the clip, and the closing reduction
  with `max` from `−∞` over the stack of the three layers is their elementwise maximum.
-/
import proofs.«118646_j60988535603568_1_alg».proof.Proof.RefReadP
import proofs.«118646_j60988535603568_1_alg».proof.Proof.Spec
import proofs.«118646_j60988535603568_1_alg».proof.Proof.LibScatterGather
import Idealize.ShloMosaic.Lib.IdealHost

noncomputable section

open scoped BigOperators

namespace Cert.Proof.RefValue

open Cert.ReferenceIdeal Cert.ReferenceIdeal.Gen Cert.ReferenceIdeal.ReadP Idealize.ShloMosaic Idealize.ShloMosaic.ValueIdx
  Cert.Lib.ScatterGather

/-- The reference's per-edge normalisation vector: its printed operations up to the gather of the source
    normalisation at the edges' sources, as a function of `src`. Opaque here. -/
def refNsE (src : Cert.Spec.SE.Idx → BitVec 32) : Cert.Spec.SE.Idx → EReal := val_main_v25 (F := Ideal) src

/-- The reference's per-node normalisation vector: its printed operations up to the select on the target degrees, as a
    function of `dst`. Opaque here. -/
def refNIn (dst : Cert.Spec.SE.Idx → BitVec 32) : Cert.Spec.SN.Idx → EReal := val_main_v18 (F := Ideal) dst

/-! ## The small reads -/

/-- A word that is not negative is left alone by the "negative index + 50000" select. -/
theorem wrap_id (w : BitVec 32) (h0 : 0 ≤ w.toInt) :
    Scalar.select (IntOp.cmpi .slt w 0#32) (IntOp.addi w 50000#32) w = w := by
  have hc : IntOp.cmpi .slt w 0#32 = 0#1 := by
    show BitVec.ofBool (w.slt 0#32) = 0#1
    have hs : w.slt 0#32 = false := by
      rw [BitVec.slt_eq_decide]; simpa using h0
    rw [hs]; rfl
  rw [hc]; exact ValueIdx.select_zero _ _

/-- The f32 zero pattern at the ideal instance. -/
theorem ofBits_zero : (FloatOps.ofBits (F := Ideal) .f32 0x00000000#32) = (0 : EReal) := Ideal.ofBits_zero_f32

/-- The f32 pattern of `−∞` at the ideal instance. -/
theorem ofBits_neg_inf : (FloatOps.ofBits (F := Ideal) .f32 0xFF800000#32) = (⊥ : EReal) := by
  show Ideal.ofBits .f32 0xFF800000#32 = ⊥
  simp [Ideal.ofBits, Ideal.ieee]

/-! ## One aggregation, over any operands -/

/-- The aggregation of a layer read at `(n, f)`, for any row array `X` and any operands that read, element by
    element, as the layer's do: the index columns `I1` (the sources) and `I2` (the targets), the per-edge vector
    broadcast along rows `NE`, zeros `Z`, and the per-node vector broadcast along rows `ND`. -/
theorem agg_apply (x1 x2 : Cert.Spec.SE.Idx → BitVec 32) (nsE : Cert.Spec.SE.Idx → EReal) (nIn : Cert.Spec.SN.Idx → EReal)
    (X : FVec Ideal S50000x64 .f32)
    (I1 I2 : IVec S850000x1 32)
    (hI1 : ∀ e : Fin 850000, I1 (ix2 e (0 : Fin 1)) = x1 (ix1 e))
    (hI2 : ∀ e : Fin 850000, I2 (ix2 e (0 : Fin 1)) = x2 (ix1 e))
    (NE : FVec Ideal S850000x64 .f32) (hNE : ∀ (e : Fin 850000) (f : Fin 64), NE (ix2 e f) = nsE (ix1 e))
    (Z : FVec Ideal S50000x64 .f32) (hZ : ∀ (n : Fin 50000) (f : Fin 64), Z (ix2 n f) = 0)
    (ND : FVec Ideal S50000x64 .f32) (hND : ∀ (n : Fin 50000) (f : Fin 64), ND (ix2 n f) = nIn (ix1 n))
    (n : Fin 50000) (f : Fin 64) :
    mulf (Host.scatterAdd scatter_S50000x64_S850000x1_S850000x64_1_0_0_1 Z I2
        (mulf (Host.gather gather_S50000x64_S850000x1_S850000x64_1_0_n_n_0_1_164 X I1) NE)) ND (ix2 n f)
      = Cert.Spec.agg x1 x2 nsE nIn X (ix2 n f) := by
  show Host.scatterAdd (scatRowsDims 50000 64 850000 scatter_S50000x64_S850000x1_S850000x64_1_0_0_1_wf) Z I2
        (mulf (Host.gather gather_S50000x64_S850000x1_S850000x64_1_0_n_n_0_1_164 X I1) NE) (ix2 n f) * ND (ix2 n f) = _
  rw [scatterAddRows_apply, hZ, zero_add, hND]
  show _ = (∑ e ∈ Finset.univ.filter (fun e : Fin 850000 => (x2 (ix1 e)).toInt = (n.val : Int)),
      Cert.Spec.msg x1 nsE X e f) * nIn (ix1 n)
  refine congrArg (fun s : EReal => s * nIn (ix1 n)) ?_
  rw [Finset.sum_filter, Finset.sum_filter]
  refine Finset.sum_congr rfl fun e _ => ?_
  refine if_congr (by rw [hI2]) ?_ rfl
  show Host.gather (rowsDims 50000 64 850000 gather_S50000x64_S850000x1_S850000x64_1_0_n_n_0_1_164_wf) X I1 (ix2 e f)
      * NE (ix2 e f) = X (ix2 (Cert.Spec.srcNode x1 e) f) * nsE (ix1 e)
  rw [hNE]
  refine congrArg (fun s : EReal => s * nsE (ix1 e)) ?_
  refine (gather_rows_apply (by decide) _ X I1 e f).trans ?_
  refine congrArg (fun k : Fin 50000 => X (ix2 k f)) (Fin.ext ?_)
  show min (I1 (ix2 e (0 : Fin 1))).toInt.toNat (50000 - 1) = min (x1 (ix1 e)).toInt.toNat 49999
  rw [hI1]

/-! ## The three layers -/

section Layers

variable (x0 : FVec Ideal S50000x128 .f32) (x1 x2 : IVec S850000 32) (x3 : FVec Ideal S128x64 .f32) (x4 : FVec Ideal S64 .f32)
  (x5 : FVec Ideal S64x64 .f32) (x6 : FVec Ideal S64 .f32) (x7 : FVec Ideal S64x64 .f32) (x8 : FVec Ideal S64 .f32)

/-- The first projection is the row-by-column sum. -/
theorem proj1_eq : val_main_v26 (F := Ideal) x0 x3 = Cert.Spec.proj x0 x3 := by
  funext j
  obtain ⟨n, f, rfl⟩ : ∃ (n : Fin 50000) (f : Fin 64), j = ix2 n f := ⟨j 0, j 1, eq_ix2 j⟩
  rw [val_main_v26_apply]
  show _ = ∑ k : Fin 128, x0 (ix2 n k) * x3 (ix2 k f)
  refine Finset.sum_congr rfl fun k _ => ?_
  have hl : lidx_main_v26 (ix2 n f) k = ix2 n k := funext fun a => match a with | ⟨0, _⟩ => rfl | ⟨1, _⟩ => rfl
  have hr : ridx_main_v26 (ix2 n f) k = ix2 k f := funext fun a => match a with | ⟨0, _⟩ => rfl | ⟨1, _⟩ => rfl
  rw [hl, hr]

variable (hsrc : ∀ e : Fin 850000, 0 ≤ (x1 (ix1 e)).toInt ∧ (x1 (ix1 e)).toInt < 50000)
include hsrc

/-- The first layer's aggregation. -/
theorem agg1_eq (n : Fin 50000) (f : Fin 64) :
    val_main_v42 (F := Ideal) x0 x1 x2 x3 (ix2 n f)
      = Cert.Spec.agg x1 x2 (refNsE x1) (refNIn x2) (val_main_v26 (F := Ideal) x0 x3) (ix2 n f) := by
  unfold val_main_v42 val_main_v39 val_main_v36 val_main_v33
  refine agg_apply x1 x2 (refNsE x1) (refNIn x2) (val_main_v26 (F := Ideal) x0 x3)
    (val_main_v32 (F := Ideal) x1) (val_main_v38 (F := Ideal) x2) ?_ ?_
    (val_main_v35 (F := Ideal) x1) ?_ (val_main_v37 (F := Ideal)) ?_ (val_main_v41 (F := Ideal) x2) ?_ n f
  · intro e
    rw [val_main_v32_apply, show idx_main_v32 (ix2 e (0 : Fin 1)) = ix1 e from funext fun a => match a with | ⟨0, _⟩ => rfl,
      val_main_v31_apply, val_main_v28_apply, val_main_v30_apply, val_main_v27_apply, val_main_c_9_apply,
      val_main_v29_apply, val_main_c_10_apply]
    exact wrap_id _ (hsrc e).1
  · intro e
    rw [val_main_v38_apply]
    exact congrArg x2 (funext fun a => match a with | ⟨0, _⟩ => rfl)
  · intro e f
    rw [val_main_v35_apply,
      show idx_main_v35 (ix2 e f) = ix2 e (0 : Fin 1) from funext fun a => match a with | ⟨0, _⟩ => rfl | ⟨1, _⟩ => rfl,
      val_main_v34_apply, show idx_main_v34 (ix2 e (0 : Fin 1)) = ix1 e from funext fun a => match a with | ⟨0, _⟩ => rfl]
    rfl
  · intro n f
    rw [val_main_v37_apply, val_main_cst_11_apply]; exact ofBits_zero
  · intro n f
    rw [val_main_v41_apply,
      show idx_main_v41 (ix2 n f) = ix2 n (0 : Fin 1) from funext fun a => match a with | ⟨0, _⟩ => rfl | ⟨1, _⟩ => rfl,
      val_main_v40_apply, show idx_main_v40 (ix2 n (0 : Fin 1)) = ix1 n from funext fun a => match a with | ⟨0, _⟩ => rfl]
    rfl

/-- The first layer. -/
theorem h1_eq : val_main_v46 (F := Ideal) x0 x1 x2 x3 x4
    = Cert.Spec.layer1 x1 x2 (refNsE x1) (refNIn x2) x0 x3 x4 := by
  funext j
  obtain ⟨n, f, rfl⟩ : ∃ (n : Fin 50000) (f : Fin 64), j = ix2 n f := ⟨j 0, j 1, eq_ix2 j⟩
  rw [val_main_v46_apply, val_main_v45_apply, agg1_eq x0 x1 x2 x3 hsrc, proj1_eq, val_main_v44_apply,
    show idx_main_v44 (ix2 n f) = ix2 (0 : Fin 1) f from funext fun a => match a with | ⟨0, _⟩ => rfl | ⟨1, _⟩ => rfl,
    val_main_v43_apply, show idx_main_v43 (ix2 (0 : Fin 1) f) = ix1 f from funext fun a => match a with | ⟨0, _⟩ => rfl,
    val_main_call2_v0_apply, val_main_call2_cst_apply, ofBits_zero]
  rfl

/-- The second layer's aggregation. -/
theorem agg2_eq (n : Fin 50000) (f : Fin 64) :
    val_main_v62 (F := Ideal) x0 x1 x2 x3 x4 (ix2 n f)
      = Cert.Spec.agg x1 x2 (refNsE x1) (refNIn x2) (val_main_v46 (F := Ideal) x0 x1 x2 x3 x4) (ix2 n f) := by
  unfold val_main_v62 val_main_v59 val_main_v56 val_main_v53
  refine agg_apply x1 x2 (refNsE x1) (refNIn x2) (val_main_v46 (F := Ideal) x0 x1 x2 x3 x4)
    (val_main_v52 (F := Ideal) x1) (val_main_v58 (F := Ideal) x2) ?_ ?_
    (val_main_v55 (F := Ideal) x1) ?_ (val_main_v57 (F := Ideal)) ?_ (val_main_v61 (F := Ideal) x2) ?_ n f
  · intro e
    rw [val_main_v52_apply, show idx_main_v52 (ix2 e (0 : Fin 1)) = ix1 e from funext fun a => match a with | ⟨0, _⟩ => rfl,
      val_main_v51_apply, val_main_v48_apply, val_main_v50_apply, val_main_v47_apply, val_main_c_12_apply,
      val_main_v49_apply, val_main_c_13_apply]
    exact wrap_id _ (hsrc e).1
  · intro e
    rw [val_main_v58_apply]
    exact congrArg x2 (funext fun a => match a with | ⟨0, _⟩ => rfl)
  · intro e f
    rw [val_main_v55_apply,
      show idx_main_v55 (ix2 e f) = ix2 e (0 : Fin 1) from funext fun a => match a with | ⟨0, _⟩ => rfl | ⟨1, _⟩ => rfl,
      val_main_v54_apply, show idx_main_v54 (ix2 e (0 : Fin 1)) = ix1 e from funext fun a => match a with | ⟨0, _⟩ => rfl]
    rfl
  · intro n f
    rw [val_main_v57_apply, val_main_cst_14_apply]; exact ofBits_zero
  · intro n f
    rw [val_main_v61_apply,
      show idx_main_v61 (ix2 n f) = ix2 n (0 : Fin 1) from funext fun a => match a with | ⟨0, _⟩ => rfl | ⟨1, _⟩ => rfl,
      val_main_v60_apply, show idx_main_v60 (ix2 n (0 : Fin 1)) = ix1 n from funext fun a => match a with | ⟨0, _⟩ => rfl]
    rfl

/-- The second layer. -/
theorem h2_eq : val_main_v67 (F := Ideal) x0 x1 x2 x3 x4 x5 x6
    = Cert.Spec.layerNext x1 x2 (refNsE x1) (refNIn x2) (val_main_v46 (F := Ideal) x0 x1 x2 x3 x4) x5 x6 := by
  funext j
  obtain ⟨n, f, rfl⟩ : ∃ (n : Fin 50000) (f : Fin 64), j = ix2 n f := ⟨j 0, j 1, eq_ix2 j⟩
  rw [val_main_v67_apply, val_main_v66_apply, val_main_v63_apply, val_main_v65_apply,
    show idx_main_v65 (ix2 n f) = ix2 (0 : Fin 1) f from funext fun a => match a with | ⟨0, _⟩ => rfl | ⟨1, _⟩ => rfl,
    val_main_v64_apply, show idx_main_v64 (ix2 (0 : Fin 1) f) = ix1 f from funext fun a => match a with | ⟨0, _⟩ => rfl,
    val_main_call3_v0_apply, val_main_call3_cst_apply, ofBits_zero]
  have hs : (∑ k : Fin 64, (val_main_v62 (F := Ideal) x0 x1 x2 x3 x4) (lidx_main_v63 (ix2 n f) k) * x5 (ridx_main_v63 (ix2 n f) k))
      = ∑ k : Fin 64, Cert.Spec.agg x1 x2 (refNsE x1) (refNIn x2) (val_main_v46 (F := Ideal) x0 x1 x2 x3 x4) (ix2 n k) * x5 (ix2 k f) := by
    refine Finset.sum_congr rfl fun k _ => ?_
    have hl : lidx_main_v63 (ix2 n f) k = ix2 n k := funext fun a => match a with | ⟨0, _⟩ => rfl | ⟨1, _⟩ => rfl
    have hr : ridx_main_v63 (ix2 n f) k = ix2 k f := funext fun a => match a with | ⟨0, _⟩ => rfl | ⟨1, _⟩ => rfl
    rw [hl, hr, agg2_eq x0 x1 x2 x3 x4 hsrc]
  rw [hs]
  rfl

/-- The third layer's aggregation. -/
theorem agg3_eq (n : Fin 50000) (f : Fin 64) :
    val_main_v83 (F := Ideal) x0 x1 x2 x3 x4 x5 x6 (ix2 n f)
      = Cert.Spec.agg x1 x2 (refNsE x1) (refNIn x2) (val_main_v67 (F := Ideal) x0 x1 x2 x3 x4 x5 x6) (ix2 n f) := by
  unfold val_main_v83 val_main_v80 val_main_v77 val_main_v74
  refine agg_apply x1 x2 (refNsE x1) (refNIn x2) (val_main_v67 (F := Ideal) x0 x1 x2 x3 x4 x5 x6)
    (val_main_v73 (F := Ideal) x1) (val_main_v79 (F := Ideal) x2) ?_ ?_
    (val_main_v76 (F := Ideal) x1) ?_ (val_main_v78 (F := Ideal)) ?_ (val_main_v82 (F := Ideal) x2) ?_ n f
  · intro e
    rw [val_main_v73_apply, show idx_main_v73 (ix2 e (0 : Fin 1)) = ix1 e from funext fun a => match a with | ⟨0, _⟩ => rfl,
      val_main_v72_apply, val_main_v69_apply, val_main_v71_apply, val_main_v68_apply, val_main_c_15_apply,
      val_main_v70_apply, val_main_c_16_apply]
    exact wrap_id _ (hsrc e).1
  · intro e
    rw [val_main_v79_apply]
    exact congrArg x2 (funext fun a => match a with | ⟨0, _⟩ => rfl)
  · intro e f
    rw [val_main_v76_apply,
      show idx_main_v76 (ix2 e f) = ix2 e (0 : Fin 1) from funext fun a => match a with | ⟨0, _⟩ => rfl | ⟨1, _⟩ => rfl,
      val_main_v75_apply, show idx_main_v75 (ix2 e (0 : Fin 1)) = ix1 e from funext fun a => match a with | ⟨0, _⟩ => rfl]
    rfl
  · intro n f
    rw [val_main_v78_apply, val_main_cst_17_apply]; exact ofBits_zero
  · intro n f
    rw [val_main_v82_apply,
      show idx_main_v82 (ix2 n f) = ix2 n (0 : Fin 1) from funext fun a => match a with | ⟨0, _⟩ => rfl | ⟨1, _⟩ => rfl,
      val_main_v81_apply, show idx_main_v81 (ix2 n (0 : Fin 1)) = ix1 n from funext fun a => match a with | ⟨0, _⟩ => rfl]
    rfl

/-- The third layer. -/
theorem h3_eq : val_main_v88 (F := Ideal) x0 x1 x2 x3 x4 x5 x6 x7 x8
    = Cert.Spec.layerNext x1 x2 (refNsE x1) (refNIn x2) (val_main_v67 (F := Ideal) x0 x1 x2 x3 x4 x5 x6) x7 x8 := by
  funext j
  obtain ⟨n, f, rfl⟩ : ∃ (n : Fin 50000) (f : Fin 64), j = ix2 n f := ⟨j 0, j 1, eq_ix2 j⟩
  rw [val_main_v88_apply, val_main_v87_apply, val_main_v84_apply, val_main_v86_apply,
    show idx_main_v86 (ix2 n f) = ix2 (0 : Fin 1) f from funext fun a => match a with | ⟨0, _⟩ => rfl | ⟨1, _⟩ => rfl,
    val_main_v85_apply, show idx_main_v85 (ix2 (0 : Fin 1) f) = ix1 f from funext fun a => match a with | ⟨0, _⟩ => rfl,
    val_main_call4_v0_apply, val_main_call4_cst_apply, ofBits_zero]
  have hs : (∑ k : Fin 64, (val_main_v83 (F := Ideal) x0 x1 x2 x3 x4 x5 x6) (lidx_main_v84 (ix2 n f) k) * x7 (ridx_main_v84 (ix2 n f) k))
      = ∑ k : Fin 64, Cert.Spec.agg x1 x2 (refNsE x1) (refNIn x2) (val_main_v67 (F := Ideal) x0 x1 x2 x3 x4 x5 x6) (ix2 n k) * x7 (ix2 k f) := by
    refine Finset.sum_congr rfl fun k _ => ?_
    have hl : lidx_main_v84 (ix2 n f) k = ix2 n k := funext fun a => match a with | ⟨0, _⟩ => rfl | ⟨1, _⟩ => rfl
    have hr : ridx_main_v84 (ix2 n f) k = ix2 k f := funext fun a => match a with | ⟨0, _⟩ => rfl | ⟨1, _⟩ => rfl
    rw [hl, hr, agg3_eq x0 x1 x2 x3 x4 x5 x6 hsrc]
  rw [hs]
  rfl

end Layers

/-! ## The closing maximum over the stack of the three layers -/

/-- A fold over three positions, for any commutative and associative operation. -/
theorem fold_fin3 {α : Type} (op : α → α → α) [Std.Commutative op] [Std.Associative op] (b : α) (g : Fin 3 → α) :
    (Finset.univ : Finset (Fin 3)).fold op b g = op (g 0) (op (g 1) (op (g 2) b)) := by
  have hu : (Finset.univ : Finset (Fin 3)) = {0, 1, 2} := by decide
  rw [hu, Finset.fold_insert (by decide), Finset.fold_insert (by decide), Finset.fold_singleton]

/-- The reduced index `(n, f)` with the stack position `k` put back is `(k, n, f)`. -/
theorem lift_ix3 (h : S3x50000x64.Reduces [0] S50000x64) (n : Fin 50000) (f : Fin 64) (k : Fin (S3x50000x64.size 0)) :
    h.lift (ix2 n f) k = ix3 (⟨k.val, k.isLt⟩ : Fin 3) n f := by
  funext c; apply Fin.ext
  fin_cases c <;> rfl

/-- The stack of three arrays read at `(k, n, f)`: the array at position `k`, read at `(0, n, f)`. -/
theorem stack_apply (A B C : FVec Ideal S1x50000x64 .f32) (n : Fin 50000) (f : Fin 64) :
    concatenate S3x50000x64 0 [⟨S1x50000x64, A⟩, ⟨S1x50000x64, B⟩, ⟨S1x50000x64, C⟩]
        concatenates_S1x50000x64_S1x50000x64_S1x50000x64_S3x50000x64_d0 (ix3 (0 : Fin 3) n f) = A (ix3 (0 : Fin 1) n f)
    ∧ concatenate S3x50000x64 0 [⟨S1x50000x64, A⟩, ⟨S1x50000x64, B⟩, ⟨S1x50000x64, C⟩]
        concatenates_S1x50000x64_S1x50000x64_S1x50000x64_S3x50000x64_d0 (ix3 (1 : Fin 3) n f) = B (ix3 (0 : Fin 1) n f)
    ∧ concatenate S3x50000x64 0 [⟨S1x50000x64, A⟩, ⟨S1x50000x64, B⟩, ⟨S1x50000x64, C⟩]
        concatenates_S1x50000x64_S1x50000x64_S1x50000x64_S3x50000x64_d0 (ix3 (2 : Fin 3) n f) = C (ix3 (0 : Fin 1) n f) := by
  have hi : ∀ (k : Fin 3) (b : Fin S1x50000x64.rank), b.cast (rfl : S1x50000x64.rank = S3x50000x64.rank) ≠ (0 : Fin S3x50000x64.rank) →
      ((ix3 (0 : Fin 1) n f : S1x50000x64.Idx) b).val = ((ix3 k n f : S3x50000x64.Idx) (b.cast rfl)).val := by
    intro k b hb
    fin_cases b
    · exact absurd rfl hb
    · rfl
    · rfl
  refine ⟨?_, ?_, ?_⟩
  · exact concatenate_apply_piece (0 : Fin S3x50000x64.rank) _ _ (ix3 (0 : Fin 3) n f) 0 (by simp) S1x50000x64 A rfl rfl 0 rfl
      (ix3 (0 : Fin 1) n f) (hi 0) rfl
  · exact concatenate_apply_piece (0 : Fin S3x50000x64.rank) _ _ (ix3 (1 : Fin 3) n f) 1 (by simp) S1x50000x64 B rfl rfl 1 rfl
      (ix3 (0 : Fin 1) n f) (hi 1) rfl
  · exact concatenate_apply_piece (0 : Fin S3x50000x64.rank) _ _ (ix3 (2 : Fin 3) n f) 2 (by simp) S1x50000x64 C rfl rfl 2 rfl
      (ix3 (0 : Fin 1) n f) (hi 2) rfl

/-- The reduction with `max` from `−∞` over the first axis of any stack `V` of three arrays, read at `(n, f)`. -/
theorem reduce_stack_apply (V : FVec Ideal S3x50000x64 .f32) (init : FVec Ideal S_ .f32)
    (hinit : init (Shape.Idx.first h_S_) = (⊥ : EReal)) (n : Fin 50000) (f : Fin 64) :
    Host.reduce FloatOps.maximumf V init reducesTo_S3x50000x64_S50000x64_d0 h_S_ (ix2 n f)
      = max (max (V (ix3 (0 : Fin 3) n f)) (V (ix3 (1 : Fin 3) n f))) (V (ix3 (2 : Fin 3) n f)) := by
  have hred : S3x50000x64.Reduces [0] S50000x64 := by decide
  rw [Host.reduce_eq_fold_single FloatOps.maximumf V init reducesTo_S3x50000x64_S50000x64_d0 hred h_S_]
  refine (fold_fin3 (FloatOps.maximumf (F := Ideal) (φ := .f32)) _ _).trans ?_
  show max (V (hred.lift (ix2 n f) (0 : Fin 3))) (max (V (hred.lift (ix2 n f) (1 : Fin 3)))
      (max (V (hred.lift (ix2 n f) (2 : Fin 3))) (init (Shape.Idx.first h_S_)))) = _
  have e0 : hred.lift (ix2 n f) (0 : Fin 3) = ix3 (0 : Fin 3) n f := lift_ix3 hred n f (0 : Fin 3)
  have e1 : hred.lift (ix2 n f) (1 : Fin 3) = ix3 (1 : Fin 3) n f := lift_ix3 hred n f (1 : Fin 3)
  have e2 : hred.lift (ix2 n f) (2 : Fin 3) = ix3 (2 : Fin 3) n f := lift_ix3 hred n f (2 : Fin 3)
  rw [e0, e1, e2, hinit, max_bot_right, ← max_assoc]

section Out

variable (x0 : FVec Ideal S50000x128 .f32) (x1 x2 : IVec S850000 32) (x3 : FVec Ideal S128x64 .f32) (x4 : FVec Ideal S64 .f32)
  (x5 : FVec Ideal S64x64 .f32) (x6 : FVec Ideal S64 .f32) (x7 : FVec Ideal S64x64 .f32) (x8 : FVec Ideal S64 .f32)

/-- The result at `(n, f)`: the maximum of the three layers there. -/
theorem out_apply (n : Fin 50000) (f : Fin 64) :
    val_main_v93 (F := Ideal) x0 x1 x2 x3 x4 x5 x6 x7 x8 (ix2 n f)
      = max (max (val_main_v46 (F := Ideal) x0 x1 x2 x3 x4 (ix2 n f)) (val_main_v67 (F := Ideal) x0 x1 x2 x3 x4 x5 x6 (ix2 n f)))
          (val_main_v88 (F := Ideal) x0 x1 x2 x3 x4 x5 x6 x7 x8 (ix2 n f)) := by
  have hb : val_main_cst_18 (F := Ideal) (Shape.Idx.first h_S_) = (⊥ : EReal) := by
    rw [val_main_cst_18_apply]; exact ofBits_neg_inf
  have hst := stack_apply (val_main_v89 (F := Ideal) x0 x1 x2 x3 x4) (val_main_v90 (F := Ideal) x0 x1 x2 x3 x4 x5 x6)
    (val_main_v91 (F := Ideal) x0 x1 x2 x3 x4 x5 x6 x7 x8) n f
  have h89 : val_main_v89 (F := Ideal) x0 x1 x2 x3 x4 (ix3 (0 : Fin 1) n f) = val_main_v46 (F := Ideal) x0 x1 x2 x3 x4 (ix2 n f) := by
    rw [val_main_v89_apply]
    exact congrArg _ (funext fun a => match a with | ⟨0, _⟩ => rfl | ⟨1, _⟩ => rfl)
  have h90 : val_main_v90 (F := Ideal) x0 x1 x2 x3 x4 x5 x6 (ix3 (0 : Fin 1) n f) = val_main_v67 (F := Ideal) x0 x1 x2 x3 x4 x5 x6 (ix2 n f) := by
    rw [val_main_v90_apply]
    exact congrArg _ (funext fun a => match a with | ⟨0, _⟩ => rfl | ⟨1, _⟩ => rfl)
  have h91 : val_main_v91 (F := Ideal) x0 x1 x2 x3 x4 x5 x6 x7 x8 (ix3 (0 : Fin 1) n f)
      = val_main_v88 (F := Ideal) x0 x1 x2 x3 x4 x5 x6 x7 x8 (ix2 n f) := by
    rw [val_main_v91_apply]
    exact congrArg _ (funext fun a => match a with | ⟨0, _⟩ => rfl | ⟨1, _⟩ => rfl)
  have a0 : val_main_v92 (F := Ideal) x0 x1 x2 x3 x4 x5 x6 x7 x8 (ix3 (0 : Fin 3) n f)
      = val_main_v46 (F := Ideal) x0 x1 x2 x3 x4 (ix2 n f) := hst.1.trans h89
  have a1 : val_main_v92 (F := Ideal) x0 x1 x2 x3 x4 x5 x6 x7 x8 (ix3 (1 : Fin 3) n f)
      = val_main_v67 (F := Ideal) x0 x1 x2 x3 x4 x5 x6 (ix2 n f) := hst.2.1.trans h90
  have a2 : val_main_v92 (F := Ideal) x0 x1 x2 x3 x4 x5 x6 x7 x8 (ix3 (2 : Fin 3) n f)
      = val_main_v88 (F := Ideal) x0 x1 x2 x3 x4 x5 x6 x7 x8 (ix2 n f) := hst.2.2.trans h91
  unfold val_main_v93
  rw [reduce_stack_apply (val_main_v92 (F := Ideal) x0 x1 x2 x3 x4 x5 x6 x7 x8) (val_main_cst_18 (F := Ideal)) hb n f, a0, a1, a2]

variable (hsrc : ∀ e : Fin 850000, 0 ≤ (x1 (ix1 e)).toInt ∧ (x1 (ix1 e)).toInt < 50000)
include hsrc

/-- THE REFERENCE IS THE NETWORK: the reference's result stage, as a function of the argument arrays, is the network
    function at the reference's own two normalisation vectors. -/
theorem val_eq_net :
    val_main_v93 (F := Ideal) x0 x1 x2 x3 x4 x5 x6 x7 x8
      = Cert.Spec.net x1 x2 (refNsE x1) (refNIn x2) x0 x3 x4 x5 x6 x7 x8 := by
  funext j
  obtain ⟨n, f, rfl⟩ : ∃ (n : Fin 50000) (f : Fin 64), j = ix2 n f := ⟨j 0, j 1, eq_ix2 j⟩
  rw [out_apply, h3_eq x0 x1 x2 x3 x4 x5 x6 x7 x8 hsrc, h2_eq x0 x1 x2 x3 x4 x5 x6 hsrc, h1_eq x0 x1 x2 x3 x4 hsrc]
  rfl

end Out

end Cert.Proof.RefValue

end
-- ==== Proof.KI.Weights.lean ====
/-
  The kernel program's two normalisation vectors are the reference's.

  Before its first kernel region the kernel program applies to `src` and `dst` the same host operations as the
  reference: the accumulating scatters of ones (the degrees), the comparison with zero, the maximum with one, the
  inverse square root, the select, and for the per-edge vector the gather at the wrapped source indices. Each host
  stretch is read over an ARBITRARY valuation of the buffers (what the stretch leaves in a buffer it writes, as the
  operations' term of the buffers it reads); the stretches are then chained through the buffers no later stretch
  writes, down to the launch contents of `src` and `dst`; the composed term is, operation by operation, the
  reference's stage (the two programs' shape records are equal literal structures).
-/
import proofs.«118646_j60988535603568_1_alg».proof.Proof.Gen.KernelIdeal.Regions
import proofs.«118646_j60988535603568_1_alg».proof.Proof.RefValue

noncomputable section

namespace Cert.KernelIdeal.Val

open Cert.KernelIdeal Cert.KernelIdeal.Gen Idealize.ShloMosaic Idealize.ShloMosaic.TcCoe Idealize.SL.Sem
  Idealize.ShloMosaic.StableHlo

/-! ## The host stretches over any valuation -/

section Stretches

variable (W : Valuation τ sig (Elt Ideal))

/-- Stretch 0: the source degrees compared with zero. -/
theorem s0_v8 : after (hostOps0 (F := Ideal)) W (Proc.devRef .tc main_v8)
    = Cert.ReferenceIdeal.ReadP.val_main_v8 (F := Ideal) (W (Proc.devRef .tc main_arg1)) := by
  after_results <;> rfl

/-- Stretch 0: the inverse square root of the source degrees raised to one. -/
theorem s0_v11 : after (hostOps0 (F := Ideal)) W (Proc.devRef .tc main_v11)
    = Cert.ReferenceIdeal.ReadP.val_main_v11 (F := Ideal) (W (Proc.devRef .tc main_arg1)) := by
  after_results <;> rfl

/-- Stretch 0: the target degrees. -/
theorem s0_v6 : after (hostOps0 (F := Ideal)) W (Proc.devRef .tc main_v6)
    = Cert.ReferenceIdeal.ReadP.val_main_v6 (F := Ideal) (W (Proc.devRef .tc main_arg2)) := by
  after_results <;> rfl

/-- Stretch 0: the zero the first select falls back to. -/
theorem s0_cst4 : after (hostOps0 (F := Ideal)) W (Proc.devRef .tc main_cst_4)
    = Cert.ReferenceIdeal.ReadP.val_main_cst_4 (F := Ideal) := by
  after_results <;> rfl

/-- Stretch 1: the select that gives the source normalisation. -/
theorem s1_v12 : after (hostOps0_1 (F := Ideal)) W (Proc.devRef .tc main_v12)
    = select (W (Proc.devRef .tc main_v8)) (W (Proc.devRef .tc main_v11))
        (broadcastInDim S50000 ![] bcast_S_S50000 (id (W (Proc.devRef .tc main_cst_4)))) := by
  after_results <;> rfl

/-- Stretch 2: the target degrees compared with zero. -/
theorem s2_v14 : after (hostOps0_2 (F := Ideal)) W (Proc.devRef .tc main_v14)
    = cmpf (F := Ideal) .ogt (W (Proc.devRef .tc main_v6))
        (broadcastInDim S50000 ![] bcast_S_S50000 (constant (F := Ideal) S_ .f32 0x00000000#32)) := by
  after_results <;> rfl

/-- Stretch 2: the inverse square root of the target degrees raised to one. -/
theorem s2_v17 : after (hostOps0_2 (F := Ideal)) W (Proc.devRef .tc main_v17)
    = Host.rsqrt (F := Ideal) (maximumf (F := Ideal) (W (Proc.devRef .tc main_v6))
        (broadcastInDim S50000 ![] bcast_S_S50000 (constant (F := Ideal) S_ .f32 0x3F800000#32))) := by
  after_results <;> rfl

/-- Stretch 2: the zero the second select falls back to. -/
theorem s2_cst7 : after (hostOps0_2 (F := Ideal)) W (Proc.devRef .tc main_cst_7)
    = constant (F := Ideal) S_ .f32 0x00000000#32 := by
  after_results <;> rfl

/-- Stretch 3: the select that gives the target normalisation. -/
theorem s3_v18 : after (hostOps0_3 (F := Ideal)) W (Proc.devRef .tc main_v18)
    = select (W (Proc.devRef .tc main_v14)) (W (Proc.devRef .tc main_v17))
        (broadcastInDim S50000 ![] bcast_S_S50000 (id (W (Proc.devRef .tc main_cst_7)))) := by
  after_results <;> rfl

/-- Stretch 4: the gather of the source normalisation at the wrapped source indices. -/
theorem s4_v25 : after (hostOps0_4 (F := Ideal)) W (Proc.devRef .tc main_v25)
    = Host.gather gather_S50000_S850000x1_S850000_n_0_n_n_0_1_1 (W (Proc.devRef .tc main_v12))
        (broadcastInDim S850000x1 ![0] bcast_S850000_S850000x1_0
          (select (cmpi .slt (W (Proc.devRef .tc main_arg1)) (broadcastInDim S850000 ![] bcast_S_S850000 (constantI S_ 32 0#32)))
            (addi (W (Proc.devRef .tc main_arg1)) (broadcastInDim S850000 ![] bcast_S_S850000 (constantI S_ 32 50000#32)))
            (W (Proc.devRef .tc main_arg1)))) := by
  after_results <;> rfl

end Stretches

/-! ## The chain down to the launch contents -/

section Chain

variable (m : (ℓ : Loc nD τ sig) → Buf (Elt Ideal) ℓ) (c : Dev nD)

/-- The kernel program's per-node vector is the reference's. -/
theorem kernel_nIn : (V4 m c main_v18 : Cert.Spec.SN.Idx → EReal)
    = Cert.Proof.RefValue.refNIn (m ((c.tc : Thread nD τ).loc main_arg2)) := by
  have h6 : V2 m c main_v6 = Cert.ReferenceIdeal.ReadP.val_main_v6 (F := Ideal) (m ((c.tc : Thread nD τ).loc main_arg2)) :=
    (V2_of m c main_v6 (by decide)).trans (s0_v6 (V0 m c))
  have h14 := s2_v14 (V2 m c)
  have h17 := s2_v17 (V2 m c)
  have hc7 := s2_cst7 (V2 m c)
  refine (s3_v18 (V3 m c)).trans ?_
  rw [show V3 m c main_v14 = _ from h14, show V3 m c main_v17 = _ from h17, show V3 m c main_cst_7 = _ from hc7,
    show V2 m c main_v6 = _ from h6]
  rfl

/-- The kernel program's per-edge vector is the reference's. -/
theorem kernel_nsE : (V5 m c main_v25 : Cert.Spec.SE.Idx → EReal)
    = Cert.Proof.RefValue.refNsE (m ((c.tc : Thread nD τ).loc main_arg1)) := by
  have ha1 : V4 m c main_arg1 = m ((c.tc : Thread nD τ).loc main_arg1) :=
    (V4_of m c main_arg1 (by decide)).trans <| (V3_of m c main_arg1 (by decide)).trans <|
      (V2_of m c main_arg1 (by decide)).trans (V1_of m c main_arg1 (by decide))
  have h8 := s0_v8 (V0 m c)
  have h11 := s0_v11 (V0 m c)
  have hc4 := s0_cst4 (V0 m c)
  have h12 : V4 m c main_v12
      = select (Cert.ReferenceIdeal.ReadP.val_main_v8 (F := Ideal) (m ((c.tc : Thread nD τ).loc main_arg1)))
          (Cert.ReferenceIdeal.ReadP.val_main_v11 (F := Ideal) (m ((c.tc : Thread nD τ).loc main_arg1)))
          (broadcastInDim S50000 ![] bcast_S_S50000 (id (Cert.ReferenceIdeal.ReadP.val_main_cst_4 (F := Ideal)))) := by
    refine (V4_of m c main_v12 (by decide)).trans <| (V3_of m c main_v12 (by decide)).trans ?_
    refine (s1_v12 (V1 m c)).trans ?_
    rw [show V1 m c main_v8 = _ from h8, show V1 m c main_v11 = _ from h11, show V1 m c main_cst_4 = _ from hc4]
  refine (s4_v25 (V4 m c)).trans ?_
  rw [show V4 m c main_v12 = _ from h12, show V4 m c main_arg1 = _ from ha1]
  rfl

end Chain

end Cert.KernelIdeal.Val

end
-- ==== Proof.KI.G0Value.lean ====
/- Region 0 (the gather kernel): what each case leaves in the accumulator and in the output buffer, in closed form
   over the kernel's three payloads: the zero fill, "accumulator plus one tile's one-hot product", and "accumulator
   times the norm column, rounded to bf16". -/
import proofs.«118646_j60988535603568_1_alg».proof.Proof.KI.G0Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a rank-2 shape. -/
theorem hzr0 : (![0, 0] : Fin 2 → Nat) = fun _ => 0 := funext fun a => by fin_cases a <;> rfl

/-! ## The pieces of each case, read back -/
/-- A first tile leaves the tile's product added to the zero fill. -/
theorem soutA0_eq (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond0_0 i) (hc1 : ¬cond0_1 i)
    (x0 : Vec F S4096x1 .i32) (x1 : Vec F S4096x1 .f32) (x2 : Vec F S2000x64 .bf16) :
    sout0_A_0 c i arg2 harg2 arg3 harg3 arg4 harg4 arg5 harg5 arg6 harg6 hc0 hc1 x0 x1 x2 = k0_pay2 i x0 k0_pay1 x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  try sl_unfold_words
  rw [View.canon_cons_unit_zero hzr0]
  simp only [View.readAt_eq_ld, harg2.read_unread, harg3.read_unread, harg4.read_unread, harg6.read_unread,
    View.ld_unit_zero (S := S4096x1) hzr0, View.ld_unit_zero (S := S2000x64) hzr0, View.ld_unit_zero (S := S4096x64) hzr0,
    View.readCov_unit_zero (S := S4096x64) _ hzr0]

/-- A middle tile leaves the tile's product added to what the accumulator held. -/
theorem soutB0_eq (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : ¬cond0_1 i)
    (x0 : Vec F S4096x1 .i32) (x1 : Vec F S4096x1 .f32) (x2 : Vec F S2000x64 .bf16) (xs0 : Vec F S4096x64 .f32) :
    sout0_B_0 c i arg2 harg2 arg3 harg3 arg4 harg4 arg5 harg5 arg6 harg6 hc0 hc1 x0 x1 x2 xs0 = k0_pay2 i x0 xs0 x2 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  try sl_unfold_words
  rw [View.canon_cons_unit_zero hzr0]
  simp only [View.readAt_eq_ld, harg2.read_unread, harg3.read_unread, harg4.read_unread, harg6.read_unread,
    View.ld_unit_zero (S := S4096x1) hzr0, View.ld_unit_zero (S := S2000x64) hzr0, View.ld_unit_zero (S := S4096x64) hzr0,
    View.readCov_unit_zero (S := S4096x64) _ hzr0]

/-- A last tile leaves the same in the accumulator, -/
theorem soutC0_eq (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) :
    sout0_C_0 c i arg2 harg2 arg3 harg3 arg4 harg4 arg5 harg5 arg6 harg6 hc0 hc1 x0 x1 x2 xs0 = k0_pay2 i x0 xs0 x2 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  try sl_unfold_words
  rw [View.canon_cons_unit_zero hzr0]
  simp only [View.readAt_eq_ld, harg2.read_unread, harg3.read_unread, harg4.read_unread, harg6.read_unread,
    View.ld_unit_zero (S := S4096x1) hzr0, View.ld_unit_zero (S := S2000x64) hzr0, View.ld_unit_zero (S := S4096x64) hzr0,
    View.readCov_unit_zero (S := S4096x64) _ hzr0]

/-- and stores that, scaled by the norm column and rounded, as the output block. -/
theorem outC0_eq (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond0_0 i) (hc1 : cond0_1 i)
    (x0 : Vec F S4096x1 .i32) (x1 : Vec F S4096x1 .f32) (x2 : Vec F S2000x64 .bf16) (xs0 : Vec F S4096x64 .f32) :
    out0_C_3 c i arg2 harg2 arg3 harg3 arg4 harg4 arg5 harg5 arg6 harg6 hc0 hc1 x0 x1 x2 xs0 = k0_pay3 (k0_pay2 i x0 xs0 x2) x1 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  try sl_unfold_words
  rw [View.canon_cons_unit_zero hzr0]
  simp only [View.readAt_eq_ld, harg2.read_unread, harg3.read_unread, harg4.read_unread, harg6.read_unread,
    View.ld_unit_zero (S := S4096x1) hzr0, View.ld_unit_zero (S := S2000x64) hzr0, View.ld_unit_zero (S := S4096x64) hzr0,
    View.readCov_unit_zero (S := S4096x64) _ hzr0]

/-! ## The accumulator as a fold over the tiles of an edge block, and the output block -/

section Fold
variable (V : (c : Dev nD) → (b : Ref sig .tc) → Buf (Elt F) ((c : Thread nD τ).loc b))

/-- The accumulator after a first tile: that tile's product added to the zero fill. -/
def accA0 (c : Dev nD) (n : ℕ) (h : n < cfg0.N) : Vec F S4096x64 .f32 :=
  k0_pay2 (grid0.coords ⟨n, h⟩) (iblk0 V c 0 ⟨n, h⟩) k0_pay1 (iblk0 V c 2 ⟨n, h⟩)
/-- The accumulator after a later tile, from what it held. -/
def accG0 (c : Dev nD) (n : ℕ) (h : n < cfg0.N) (acc : Vec F S4096x64 .f32) : Vec F S4096x64 .f32 :=
  k0_pay2 (grid0.coords ⟨n, h⟩) (iblk0 V c 0 ⟨n, h⟩) acc (iblk0 V c 2 ⟨n, h⟩)

/-- After point `t` the accumulator is the fold of the tile steps over the tiles of `t`'s edge block up to `t`'s. -/
theorem sAcc0_eq (c : Dev nD) (t : Fin cfg0.N) :
    (outsAt0 V c t.val t.isLt).2 = Pipeline.accAt (accA0 V c) (accG0 V c) (25 * (t.val / 25)) (t.val % 25)
      (by have h1 := t.isLt; have h2 := Nat.div_add_mod t.val 25; omega) :=
  Pipeline.eq_accAt_of_mod (fun n h => (outsAt0 V c n h).2) 25 (accA0 V c) (accG0 V c)
    (fun n h hn => by
      rw [outsAt0_A V c ⟨n, h⟩ hn]; dsimp only; unfold stepA0 accA0
      exact soutA0_eq c _ _ _ _ _ _ _ _ _ _ _ _ _ _ _ _)
    (fun n h hn => by
      by_cases h1 : (n + 1) % 25 = 24
      · rw [outsAt0_C V c ⟨n + 1, h⟩ h1]; dsimp only; unfold stepC0 accG0
        exact soutC0_eq c _ _ _ _ _ _ _ _ _ _ _ _ _ _ _ _ _
      · rw [outsAt0_B V c ⟨n + 1, h⟩ hn h1]; dsimp only; unfold stepB0 accG0
        exact soutB0_eq c _ _ _ _ _ _ _ _ _ _ _ _ _ _ _ _ _)
    (by decide) t.val t.isLt _

/-- After a last tile the output buffer is the accumulator that tile leaves, scaled by the norm block and rounded. -/
theorem oAcc0_eq (c : Dev nD) (t : Fin cfg0.N) (h1 : t.val % 25 = 24) :
    (outsAt0 V c t.val t.isLt).1 = k0_pay3 ((outsAt0 V c t.val t.isLt).2) (iblk0 V c 1 t) := by
  rw [outsAt0_C V c t h1]; dsimp only; unfold stepO0 stepC0
  rw [outC0_eq, soutC0_eq]
end Fold

end Cert.KernelIdeal.Hand

end
-- ==== Proof.KI.PayCommon.lean ====
/-
  What the gather and the scatter kernels' stored values share, at the ideal instance.

  Both kernels build the same 0/1 matrix of shape [4096, 2000] from a column of 4096 indices and a tile number a:
  the entry at (r, j) is 1 exactly when the r-th index equals a * 2000 + j, the global number of the tile's j-th
  node. The number is computed on 32-bit words; a * 2000 + j is below 2 ^ 31 for the 25 tiles, so a word equals it
  exactly when the word's signed reading is that number. A row of the matrix against a column is then the column's
  entry the row selects, or 0 when the index is outside the tile: on the extended reals 0 * x = 0 for every x, so
  nothing finite is assumed. The scatter kernel multiplies the TRANSPOSE of the matrix with the message block: its
  contraction runs over axis 0 of both operands, and reads, at (j, f), the sum over r of l(r, j) * m(r, f).
-/
import proofs.«118646_j60988535603568_1_alg».proof.Proof.Gen.KernelIdeal.Skeleton
import proofs.«118646_j60988535603568_1_alg».proof.Proof.LibOneHot
import proofs.«118646_j60988535603568_1_alg».proof.Proof.LibMatmul
import proofs.«118646_j60988535603568_1_alg».proof.Proof.LibKeepdims

set_option pp.maxSteps 5000
set_option pp.deepTerms false

noncomputable section

namespace Cert.KernelIdeal.Val

open Cert.KernelIdeal Cert.KernelIdeal.Gen
open Idealize.ShloMosaic Idealize.ShloMosaic.ValueIdx
open scoped BigOperators

/-! ## Words: the tile's node numbers do not wrap -/

/-- The printed node number of the tile's j-th node, (tile) * 2000 + j computed on 32-bit words, is the word of that
    natural number. -/
theorem node_word (a j : ℕ) :
    Scalar.addi (Scalar.muli (BitVec.ofNat 32 a) 2000#32) (BitVec.ofNat 32 j) = BitVec.ofNat 32 (a * 2000 + j) := by
  show BitVec.ofNat 32 a * BitVec.ofNat 32 2000 + BitVec.ofNat 32 j = BitVec.ofNat 32 (a * 2000 + j)
  rw [← BitVec.ofNat_mul, ← BitVec.ofNat_add]

/-- Below 2 ^ 31 a word equals the word of a natural number exactly when its signed reading is that number. -/
theorem eq_ofNat_iff_toInt (w : BitVec 32) (n : ℕ) (hn : n < 2 ^ 31) :
    w = BitVec.ofNat 32 n ↔ w.toInt = (n : ℤ) := by
  have h1 : (BitVec.ofNat 32 n).toInt = (n : ℤ) := by
    have hn' : n % 2 ^ 32 = n := Nat.mod_eq_of_lt (by omega)
    rw [BitVec.toInt_eq_toNat_cond, BitVec.toNat_ofNat, hn', if_pos (by omega)]
  constructor
  · intro h; rw [h, h1]
  · intro h; exact BitVec.eq_of_toInt_eq (h.trans h1.symm)

/-- The one-bit word of an equality test is set exactly when the two words are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.2 h
    constructor
    · intro h'; rw [hb] at h'; exact absurd h' (by decide)
    · intro h'; exact absurd h' h

/-! ## The 0/1 matrix -/

/-- An entry of the 0/1 matrix: 1 exactly when the r-th source index is the number of the tile's j-th node. -/
theorem onehot_apply (a : ℕ) (s : Vec Ideal S4096x1 .i32) (r : Fin 4096) (j : Fin 2000) :
    (truncf .bf16 (sitofp .f32 (extui 32 (cmpi .eq (broadcastTo S4096x2000 s broadcasts_S4096x1_S4096x2000)
      (addi (broadcast S4096x2000 (Scalar.muli (BitVec.ofNat 32 a) 2000#32)) (iota .tc S4096x2000 32 [1] iota_S4096x2000_d1_w32))) natLt_1_32)) bitsLt_bf16_f32
        : FVec Ideal S4096x2000 .bf16) (ix2 r j)
      = if s (ix2 r 0) = BitVec.ofNat 32 (a * 2000 + j.val) then (1 : EReal) else 0 := by
  rw [truncf_apply, sitofp_apply, extui_apply]
  refine (Cert.Lib.OneHot.sitofp_extui_bit _).trans ?_
  have hA : broadcastTo S4096x2000 s broadcasts_S4096x1_S4096x2000 (ix2 r j) = s (ix2 r 0) :=
    Keepdims.broadcastTo_a1_ab_apply s _ r j 0
  have hB : addi (broadcast S4096x2000 (Scalar.muli (BitVec.ofNat 32 a) 2000#32)) (iota .tc S4096x2000 32 [1] iota_S4096x2000_d1_w32) (ix2 r j)
      = BitVec.ofNat 32 (a * 2000 + j.val) := by
    show Scalar.addi (Scalar.muli (BitVec.ofNat 32 a) 2000#32) (iota .tc S4096x2000 32 [1] iota_S4096x2000_d1_w32 (ix2 r j)) = _
    rw [iota_single_apply]
    exact node_word a j.val
  have hC : cmpi .eq (broadcastTo S4096x2000 s broadcasts_S4096x1_S4096x2000)
      (addi (broadcast S4096x2000 (Scalar.muli (BitVec.ofNat 32 a) 2000#32)) (iota .tc S4096x2000 32 [1] iota_S4096x2000_d1_w32)) (ix2 r j)
      = IntOp.cmpi .eq (s (ix2 r 0)) (BitVec.ofNat 32 (a * 2000 + j.val)) := by
    show IntOp.cmpi .eq _ _ = _
    rw [hA, hB]
  rw [hC]
  by_cases h : s (ix2 r 0) = BitVec.ofNat 32 (a * 2000 + j.val)
  · rw [if_pos h, if_pos ((cmpi_eq_one_iff _ _).2 h)]
  · rw [if_neg h, if_neg (fun h' => h ((cmpi_eq_one_iff _ _).1 h'))]

/-! ## A row of the 0/1 matrix against a column -/

/-- The index is the tile's j₀-th node: the row selects the column's j₀-th entry. -/
theorem onehot_row_hit (a : ℕ) (ha : a < 25) (w : BitVec 32) (x : Fin 2000 → EReal) (j₀ : Fin 2000)
    (h : w.toInt = (a : ℤ) * 2000 + (j₀.val : ℤ)) :
    ∑ j : Fin 2000, (if w = BitVec.ofNat 32 (a * 2000 + j.val) then (1 : EReal) else 0) * x j = x j₀ := by
  have key : ∀ j : Fin 2000, w = BitVec.ofNat 32 (a * 2000 + j.val) ↔ j₀ = j := by
    intro j
    rw [eq_ofNat_iff_toInt _ _ (by have := j.isLt; omega), h]
    constructor
    · intro e; exact Fin.ext (by push_cast at e; omega)
    · rintro rfl; push_cast; rfl
  refine (Finset.sum_congr rfl fun j _ => ?_).trans (Cert.Lib.OneHot.sum_ite_eq_mul j₀ x)
  by_cases hj : j₀ = j
  · rw [if_pos hj, if_pos ((key j).2 hj)]
  · rw [if_neg hj, if_neg (fun h' => hj ((key j).1 h'))]

/-- The index is outside the tile: the row is zero, and so is its product with any column. -/
theorem onehot_row_miss (a : ℕ) (ha : a < 25) (w : BitVec 32) (x : Fin 2000 → EReal)
    (h : w.toInt < (a : ℤ) * 2000 ∨ (a : ℤ) * 2000 + 2000 ≤ w.toInt) :
    ∑ j : Fin 2000, (if w = BitVec.ofNat 32 (a * 2000 + j.val) then (1 : EReal) else 0) * x j = 0 := by
  refine Cert.Lib.OneHot.sum_ite_false_mul _ x fun j hj => ?_
  have e := (eq_ofNat_iff_toInt _ _ (by have := j.isLt; omega)).1 hj
  have := j.isLt
  push_cast at e
  omega

/-! ## The scatter kernel's contraction: axis 0 of both operands -/

/-- The contraction index set of the printed record is `Fin 4096`. -/
abbrev scatContr : dot_S4096x2000_S4096x64_S2000x64_0_0_1_1_n_n.contr.Idx ≃ Fin 4096 :=
  contrEquiv1 dot_S4096x2000_S4096x64_S2000x64_0_0_1_1_n_n 4096 rfl rfl

/-- The left operand's index at output (j, f) and contraction coordinate k is (k, j). -/
theorem scat_lhsIdx (j : Fin 2000) (f : Fin 64) (k : Fin 4096) :
    dot_S4096x2000_S4096x64_S2000x64_0_0_1_1_n_n.lhsIdx (ix2 j f) (scatContr.symm k) = ix2 k j := by
  have hk := contrEquiv1_symm_val dot_S4096x2000_S4096x64_S2000x64_0_0_1_1_n_n 4096 rfl rfl k
  funext a
  refine Fin.ext ?_
  match a with
  | ⟨0, _⟩ => exact (dot_S4096x2000_S4096x64_S2000x64_0_0_1_1_n_n.lhsIdx_val_of_single rfl (ix2 j f) _).trans hk
  | ⟨1, _⟩ => rfl

/-- The right operand's index at output (j, f) and contraction coordinate k is (k, f). -/
theorem scat_rhsIdx (j : Fin 2000) (f : Fin 64) (k : Fin 4096) :
    dot_S4096x2000_S4096x64_S2000x64_0_0_1_1_n_n.rhsIdx (ix2 j f) (scatContr.symm k) = ix2 k f := by
  have hk := contrEquiv1_symm_val dot_S4096x2000_S4096x64_S2000x64_0_0_1_1_n_n 4096 rfl rfl k
  funext a
  refine Fin.ext ?_
  match a with
  | ⟨0, _⟩ => exact (dot_S4096x2000_S4096x64_S2000x64_0_0_1_1_n_n.rhsIdx_val_of_single rfl (ix2 j f) _).trans hk
  | ⟨1, _⟩ => rfl

/-- The product into the zero accumulator at (j, f): the sum over r of l(r, j) * m(r, f). -/
theorem matmul_scatter_zero_apply {φ₁ φ₂ : FTy} (prec : Option ContractPrecision) (l : FVec Ideal S4096x2000 φ₁) (m : FVec Ideal S4096x64 φ₂)
    (j : Fin 2000) (f : Fin 64) :
    matmul (F := Ideal) dot_S4096x2000_S4096x64_S2000x64_0_0_1_1_n_n prec l m (constant S2000x64 .f32 0x00000000#32) (ix2 j f)
      = ∑ k : Fin 4096, l (ix2 k j) * m (ix2 k f) := by
  simp only [matmul]
  rw [Ideal.matmul_constant_zero_apply]
  rw [← Equiv.sum_comp scatContr.symm]
  refine Finset.sum_congr rfl fun k _ => ?_
  rw [scat_lhsIdx, scat_rhsIdx]

end Cert.KernelIdeal.Val

end
-- ==== Proof.KI.PayGather.lean ====
/-
  The gather kernel (launch 0): its three stored values at the ideal instance, read at an index.

  The zero fill is 0 everywhere. The accumulation step adds to the accumulator the product of a 0/1 matrix with the
  node tile: the matrix has a 1 at (r, j) exactly when the r-th source index of the edge block equals the global number
  of the tile's j-th node, (tile number) * 2000 + j. So row r of the product is the tile's row selected by the r-th
  source index when that index falls in the tile, and 0 when it does not, whatever the node features are (also
  infinite ones). The last step scales row r of the accumulator by the r-th norm.
-/
import proofs.«118646_j60988535603568_1_alg».proof.Proof.KI.PayCommon

set_option pp.maxSteps 5000
set_option pp.deepTerms false

noncomputable section

namespace Cert.KernelIdeal.Val

open Cert.KernelIdeal Cert.KernelIdeal.Gen
open Idealize.ShloMosaic Idealize.ShloMosaic.ValueIdx
open scoped BigOperators

/-- The zero fill reads 0 at every index. -/
theorem k0_pay1_apply (j : S4096x64.Idx) : Gen.k0_pay1 (F := Ideal) j = 0 := by
  unfold Gen.k0_pay1
  rw [shapeCast_self]
  show Ideal.ofBits .f32 0x00000000#32 = 0
  exact Ideal.ofBits_zero_f32

/-- The accumulation step at (r, f): the accumulator there plus the 0/1 row r against column f of the node tile. -/
theorem k0_pay2_apply (i : grid0.Coords) (s : Vec Ideal S4096x1 .i32) (acc : Vec Ideal S4096x64 .f32) (xt : Vec Ideal S2000x64 .bf16)
    (r : Fin 4096) (f : Fin 64) :
    Gen.k0_pay2 (F := Ideal) i s acc xt (ix2 r f)
      = acc (ix2 r f) + ∑ j : Fin 2000, (if s (ix2 r 0) = BitVec.ofNat 32 ((i 1).val * 2000 + j.val) then (1 : EReal) else 0) * xt (ix2 j f) := by
  unfold Gen.k0_pay2
  simp only [shapeCast_self]
  rw [addf_apply]
  refine congrArg (fun z => acc (ix2 r f) + z) ?_
  refine (Cert.MatOps.matmul_plain_zero_apply (M := 4096) (K := 2000) (N := 64) (φ₁ := .bf16) (φ₂ := .bf16) none _ xt r f).trans ?_
  refine Finset.sum_congr rfl fun j _ => ?_
  refine congrArg (fun z => z * xt (ix2 j f)) ?_
  exact onehot_apply (i 1).val s r j

/-- The tile number is below 25. -/
theorem k0_tile_lt (i : grid0.Coords) : (i 1).val < 25 := (i 1).isLt

/-- When the r-th source index is the tile's j₀-th node, the step adds the tile's row j₀. -/
theorem k0_pay2_select_hit (i : grid0.Coords) (s : Vec Ideal S4096x1 .i32) (acc : Vec Ideal S4096x64 .f32) (xt : Vec Ideal S2000x64 .bf16)
    (r : Fin 4096) (f : Fin 64) (j₀ : Fin 2000) (h : (s (ix2 r 0)).toInt = ((i 1).val : ℤ) * 2000 + (j₀.val : ℤ)) :
    Gen.k0_pay2 (F := Ideal) i s acc xt (ix2 r f) = acc (ix2 r f) + xt (ix2 j₀ f) := by
  rw [k0_pay2_apply, onehot_row_hit (i 1).val (k0_tile_lt i) (s (ix2 r 0)) (fun j => xt (ix2 j f)) j₀ h]

/-- When the r-th source index is outside the tile, the step adds 0. -/
theorem k0_pay2_select_miss (i : grid0.Coords) (s : Vec Ideal S4096x1 .i32) (acc : Vec Ideal S4096x64 .f32) (xt : Vec Ideal S2000x64 .bf16)
    (r : Fin 4096) (f : Fin 64)
    (h : (s (ix2 r 0)).toInt < ((i 1).val : ℤ) * 2000 ∨ ((i 1).val : ℤ) * 2000 + 2000 ≤ (s (ix2 r 0)).toInt) :
    Gen.k0_pay2 (F := Ideal) i s acc xt (ix2 r f) = acc (ix2 r f) := by
  rw [k0_pay2_apply, onehot_row_miss (i 1).val (k0_tile_lt i) (s (ix2 r 0)) (fun j => xt (ix2 j f)) h, add_zero]

/-- The scaling step: row r of the accumulator times the r-th norm. -/
theorem k0_pay3_apply (acc : Vec Ideal S4096x64 .f32) (nrm : Vec Ideal S4096x1 .f32) (r : Fin 4096) (f : Fin 64) :
    Gen.k0_pay3 (F := Ideal) acc nrm (ix2 r f) = acc (ix2 r f) * nrm (ix2 r 0) := by
  unfold Gen.k0_pay3
  rw [shapeCast_self]
  rw [truncf_apply, mulf_apply]
  rw [Keepdims.broadcastTo_a1_ab_apply nrm _ r f 0]

end Cert.KernelIdeal.Val

end
-- ==== Proof.KI.G0Array.lean ====
/- Region 0 (the gather kernel) of the idealized program, on the extended reals: the output array after the region
   is ONE function of the three input arrays. Row e * 4096 + r of the output is written back once, by the last of
   the 25 node tiles of edge block e; there the accumulator holds the sum over the 25 tiles of the 0/1 pattern of
   source index r against the tile's 2000 node rows, and the store scales it by the r-th norm. -/
import proofs.«118646_j60988535603568_1_alg».proof.Proof.KI.G0Value
import proofs.«118646_j60988535603568_1_alg».proof.Proof.KI.PayGather
import proofs.«118646_j60988535603568_1_alg».proof.Proof.KI.RegionFns
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators
open Cert.KernelIdeal.Val

/-! ## The printed index maps over the grid: point t = 25 * e + k stages edge block e and node tile k -/
theorem idx0 : ∀ t : Fin cfg0.N,
    win0_0.index t (0 : Fin 2) = t.val / 25 ∧ win0_0.index t (1 : Fin 2) = 0
  ∧ win0_1.index t (0 : Fin 2) = t.val / 25 ∧ win0_1.index t (1 : Fin 2) = 0
  ∧ win0_2.index t (0 : Fin 2) = t.val % 25 ∧ win0_2.index t (1 : Fin 2) = 0
  ∧ win0_3.index t (0 : Fin 2) = t.val / 25 ∧ win0_3.index t (1 : Fin 2) = 0
  ∧ ((grid0.coords t) 1).val = t.val % 25 :=
  (by decide +kernel : ∀ t : Fin grid0.N, _)

section Arr
variable (V : (c : Dev nD) → (b : Ref sig .tc) → Buf (Elt F) ((c : Thread nD τ).loc b))

/-- The source-index block at point t is rows (t / 25) * 4096 … of the source-index array. -/
theorem iblk0_0_apply (c : Dev nD) (t : Fin cfg0.N) (r : Fin 4096) (k : S851968x1.Idx)
    (hk0 : (k 0).val = t.val / 25 * 4096 + r.val) (hk1 : (k 1).val = 0) :
    (iblk0 V c 0 t : Vec F S4096x1 .i32) (ix2 r 0) = (V c main_v27 : S851968x1.Idx → Elt F .i32) k := by
  obtain ⟨e0, e1, -⟩ := idx0 t
  unfold iblk0
  rw [View.read_apply]
  show V c main_v27 _ = V c main_v27 _
  refine congrArg (V c main_v27) ?_
  funext a
  apply Fin.ext
  match a with
  | ⟨0, _⟩ => show win0_0.index t 0 * 4096 + 1 * r.val = (k 0).val; rw [e0, hk0]; omega
  | ⟨1, _⟩ => show win0_0.index t 1 * 1 + 1 * 0 = (k 1).val; rw [e1, hk1]
end Arr

section Arr2
variable (V : (c : Dev nD) → (b : Ref sig .tc) → Buf (Elt F) ((c : Thread nD τ).loc b))

/-- The norm block at point t is rows (t / 25) * 4096 … of the norm array. -/
theorem iblk0_1_apply (c : Dev nD) (t : Fin cfg0.N) (r : Fin 4096) (k : S851968x1.Idx)
    (hk0 : (k 0).val = t.val / 25 * 4096 + r.val) (hk1 : (k 1).val = 0) :
    (iblk0 V c 1 t : Vec F S4096x1 .f32) (ix2 r 0) = (V c main_v31 : S851968x1.Idx → Elt F .f32) k := by
  obtain ⟨-, -, e0, e1, -⟩ := idx0 t
  unfold iblk0
  rw [View.read_apply]
  show V c main_v31 _ = V c main_v31 _
  refine congrArg (V c main_v31) ?_
  funext a
  apply Fin.ext
  match a with
  | ⟨0, _⟩ => show win0_1.index t 0 * 4096 + 1 * r.val = (k 0).val; rw [e0, hk0]; omega
  | ⟨1, _⟩ => show win0_1.index t 1 * 1 + 1 * 0 = (k 1).val; rw [e1, hk1]

/-- The node tile at point t is rows (t % 25) * 2000 … of the node array. -/
theorem iblk0_2_apply (c : Dev nD) (t : Fin cfg0.N) (j : Fin 2000) (f : Fin 64) (k : S50000x64.Idx)
    (hk0 : (k 0).val = t.val % 25 * 2000 + j.val) (hk1 : (k 1).val = f.val) :
    (iblk0 V c 2 t : Vec F S2000x64 .bf16) (ix2 j f) = (V c main_v34 : S50000x64.Idx → Elt F .bf16) k := by
  obtain ⟨-, -, -, -, e0, e1, -⟩ := idx0 t
  unfold iblk0
  rw [View.read_apply]
  show V c main_v34 _ = V c main_v34 _
  refine congrArg (V c main_v34) ?_
  funext a
  apply Fin.ext
  match a with
  | ⟨0, _⟩ => show win0_2.index t 0 * 2000 + 1 * j.val = (k 0).val; rw [e0, hk0]; omega
  | ⟨1, _⟩ => show win0_2.index t 1 * 64 + 1 * f.val = (k 1).val; rw [e1, hk1]; omega
end Arr2

section ArrIdeal
variable (V : (c : Dev nD) → (b : Ref sig .tc) → Buf (Elt Ideal) ((c : Thread nD τ).loc b))

/-- What point n adds to the accumulator at (r, f): row r's 0/1 pattern against column f of the point's node tile. -/
def addend0 (c : Dev nD) (n : ℕ) (r : Fin 4096) (f : Fin 64) : EReal :=
  if h : n < cfg0.N then
    ∑ j : Fin 2000, (if (iblk0 V c 0 ⟨n, h⟩ : Vec Ideal S4096x1 .i32) (ix2 r 0) = BitVec.ofNat 32 (((grid0.coords ⟨n, h⟩) 1).val * 2000 + j.val) then (1 : EReal) else 0)
      * (iblk0 V c 2 ⟨n, h⟩ : Vec Ideal S2000x64 .bf16) (ix2 j f)
  else 0

/-- The accumulator after point t, at (r, f): the sum of the addends of the tiles of t's edge block up to t's. -/
theorem acc0_apply (c : Dev nD) (t : Fin cfg0.N) (r : Fin 4096) (f : Fin 64) :
    (outsAt0 V c t.val t.isLt).2 (ix2 r f) = 0 + ∑ s ∈ Finset.range (t.val % 25 + 1), addend0 V c (25 * (t.val / 25) + s) r f := by
  rw [sAcc0_eq V c t]
  refine Pipeline.accAt_add_apply (ι := S4096x64.Idx) (β := EReal) (accA0 V c) (accG0 V c) (fun _ => 0) (fun n i => addend0 V c n (i 0) (i 1)) (25 * (t.val / 25)) 24
    (fun h i => ?_) (fun n h acc i hb he => ?_) (t.val % 25) (by omega) _ (ix2 r f)
  · obtain ⟨r, f, rfl⟩ : ∃ (r : Fin 4096) (f : Fin 64), i = ix2 r f := ⟨i 0, i 1, eq_ix2 i⟩
    unfold accA0
    have e := k0_pay2_apply (grid0.coords ⟨_, h⟩) (iblk0 V c 0 ⟨_, h⟩) (k0_pay1 (F := Ideal)) (iblk0 V c 2 ⟨_, h⟩) r f
    rw [k0_pay1_apply] at e
    refine e.trans ?_
    show _ = (0 : EReal) + addend0 V c _ r f
    unfold addend0; rw [dif_pos h]
  · obtain ⟨r, f, rfl⟩ : ∃ (r : Fin 4096) (f : Fin 64), i = ix2 r f := ⟨i 0, i 1, eq_ix2 i⟩
    unfold accG0
    refine (k0_pay2_apply (grid0.coords ⟨_, h⟩) (iblk0 V c 0 ⟨_, h⟩) acc (iblk0 V c 2 ⟨_, h⟩) r f).trans ?_
    show _ = acc (ix2 r f) + addend0 V c _ r f
    unfold addend0; rw [dif_pos h]
end ArrIdeal

section ArrIdeal2
variable (V : (c : Dev nD) → (b : Ref sig .tc) → Buf (Elt Ideal) ((c : Thread nD τ).loc b))

/-- The output block's entry (r, f) after the last tile of edge block t / 25 is the whole-array function at row
    (t / 25) * 4096 + r, column f. -/
theorem out0_point (c : Dev nD) (t : Fin cfg0.N) (h1 : t.val % 25 = 24) (r : Fin 4096) (f : Fin 64) (k : S851968x64.Idx)
    (hk0 : (k 0).val = t.val / 25 * 4096 + r.val) (hk1 : (k 1).val = f.val) :
    k0_pay3 (F := Ideal) (outsAt0 V c t.val t.isLt).2 (iblk0 V c 1 t) (ix2 r f)
      = gatherArr (V c main_v27) (V c main_v31) (V c main_v34) k := by
  have hN : t.val < 5200 := lt_of_lt_of_eq t.isLt N_0
  rw [k0_pay3_apply, acc0_apply V c t r f, h1]
  unfold gatherArr
  rw [iblk0_1_apply V c t r (ix2 (k 0) 0) hk0 rfl]
  refine congrArg (fun z => (0 + z) * (V c main_v31 : S851968x1.Idx → EReal) (ix2 (k 0) 0)) ?_
  rw [Finset.sum_range]
  refine Finset.sum_congr rfl fun s _ => ?_
  have hs : 25 * (t.val / 25) + s.val < cfg0.N := by have h5 : cfg0.N = 5200 := N_0; have := s.isLt; omega
  obtain ⟨-, -, -, -, -, -, -, -, ec⟩ := idx0 ⟨25 * (t.val / 25) + s.val, hs⟩
  have ec' : ((grid0.coords ⟨25 * (t.val / 25) + s.val, hs⟩) 1).val = s.val := by rw [ec]; show (25 * (t.val / 25) + s.val) % 25 = s.val; have := s.isLt; omega
  unfold addend0; rw [dif_pos hs]
  refine Finset.sum_congr rfl fun jj _ => ?_
  rw [iblk0_0_apply V c ⟨_, hs⟩ r (ix2 (k 0) 0) (by show (k 0).val = (25 * (t.val / 25) + s.val) / 25 * 4096 + r.val; rw [hk0]; have := s.isLt; omega) rfl,
    iblk0_2_apply V c ⟨_, hs⟩ jj f (ix2 ⟨s.val * 2000 + jj.val, by have := s.isLt; have := jj.isLt; omega⟩ (k 1)) (by show s.val * 2000 + jj.val = (25 * (t.val / 25) + s.val) % 25 * 2000 + jj.val; have := s.isLt; omega) hk1, ec']
end ArrIdeal2

section ArrIdeal3
variable (V : (c : Dev nD) → (b : Ref sig .tc) → Buf (Elt Ideal) ((c : Thread nD τ).loc b))

/-- The gather region's output array as one function of its three input arrays. -/
abbrev garr0 (c : Dev nD) : Buf (Elt Ideal) ((c : Thread nD τ).loc main_v35) :=
  gatherArr (V c main_v27) (V c main_v31) (V c main_v34)

/-- What a last tile writes back is its edge block's rows of the whole-array function. -/
theorem flushed0_eq (c : Dev nD) (t : Fin cfg0.N) (hf : (cfg0.win 3).flush t = true) :
    (dat0 (F := Ideal) V c).flushed 3 t = ((cfg0.win 3).blk t).view.read (Elt Ideal) (garr0 V c) := by
  have h1 : t.val % 25 = 24 := (flush0_3 t).mp hf
  obtain ⟨-, -, -, -, -, -, e0, e1, -⟩ := idx0 t
  show (cfg0.win 3).cut (grid0.coords t) ((dat0 V c).after 3 t) = _
  rw [after0_3, oAcc0_eq V c t h1]
  funext y
  rw [View.read_apply]
  show k0_pay3 (F := Ideal) (outsAt0 V c t.val t.isLt).2 (iblk0 V c 1 t) y
    = gatherArr (V c main_v27) (V c main_v31) (V c main_v34) (((cfg0.win 3).blk t).view.emb y)
  obtain ⟨r, f, rfl⟩ : ∃ (r : Fin 4096) (f : Fin 64), y = ix2 r f := ⟨y 0, y 1, eq_ix2 y⟩
  refine out0_point V c t h1 r f _ ?_ ?_
  · show win0_3.index t 0 * 4096 + 1 * r.val = _; rw [e0]; omega
  · show win0_3.index t 1 * 64 + 1 * f.val = _; rw [e1]; omega

/-- An index of the output array is in point t's block iff each coordinate is in the block's range. -/
theorem mem_blk0_3 (t : Fin cfg0.N) (i : S851968x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v35).slice (win0_3.rect t)).set ↔ _
  rw [View.set_slice_whole, Rect.mem_set_unit]
  exact Iff.rfl

/-- After the region the output array is the whole-array function: row e * 4096 + r is written back by the last
    tile of edge block e. -/
theorem arr0 (c : Dev nD) : (dat0 (F := Ideal) V c).arrAt 3 cfg0.N = garr0 V c :=
  (dat0 V c).arrAt_eq_of_cover 3 (garr0 V c) (fun t hf => flushed0_eq V c t hf) fun i => by
    have hi0 : (i 0).val < 851968 := (i 0).isLt
    have hi1 : (i 1).val < 64 := (i 1).isLt
    have ht : 25 * ((i 0).val / 4096) + 24 < cfg0.N := by have h5 : cfg0.N = 5200 := N_0; omega
    refine ⟨⟨25 * ((i 0).val / 4096) + 24, ht⟩, (flush0_3 _).mpr (by show (25 * ((i 0).val / 4096) + 24) % 25 = 24; omega), ?_⟩
    obtain ⟨-, -, -, -, -, -, e0, e1, -⟩ := idx0 ⟨25 * ((i 0).val / 4096) + 24, ht⟩
    rw [mem_blk0_3]
    intro a
    match a with
    | ⟨0, _⟩ =>
      show win0_3.index ⟨25 * ((i 0).val / 4096) + 24, ht⟩ 0 * 4096 ≤ (i 0).val ∧ (i 0).val < win0_3.index ⟨25 * ((i 0).val / 4096) + 24, ht⟩ 0 * 4096 + 4096
      rw [e0]; show (25 * ((i 0).val / 4096) + 24) / 25 * 4096 ≤ (i 0).val ∧ (i 0).val < (25 * ((i 0).val / 4096) + 24) / 25 * 4096 + 4096; omega
    | ⟨1, _⟩ =>
      show win0_3.index ⟨25 * ((i 0).val / 4096) + 24, ht⟩ 1 * 64 ≤ (i 1).val ∧ (i 1).val < win0_3.index ⟨25 * ((i 0).val / 4096) + 24, ht⟩ 1 * 64 + 64
      rw [e1]; omega
end ArrIdeal3

end Cert.KernelIdeal.Hand

end
-- ==== Proof.KI.G2Value.lean ====
/- Region 2 (the gather kernel): what each case leaves in the accumulator and in the output buffer, in closed form
   over the kernel's three payloads: the zero fill, "accumulator plus one tile's one-hot product", and "accumulator
   times the norm column, rounded to bf16". -/
import proofs.«118646_j60988535603568_1_alg».proof.Proof.KI.G2Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a rank-2 shape. -/
theorem hzr2 : (![0, 0] : Fin 2 → Nat) = fun _ => 0 := funext fun a => by fin_cases a <;> rfl

/-! ## The pieces of each case, read back -/
/-- A first tile leaves the tile's product added to the zero fill. -/
theorem soutA2_eq (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond2_0 i) (hc1 : ¬cond2_1 i)
    (x0 : Vec F S4096x1 .i32) (x1 : Vec F S4096x1 .f32) (x2 : Vec F S2000x64 .bf16) :
    sout2_A_0 c i arg2 harg2 arg3 harg3 arg4 harg4 arg5 harg5 arg6 harg6 hc0 hc1 x0 x1 x2 = k2_pay2 i x0 k2_pay1 x2 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  try sl_unfold_words
  rw [View.canon_cons_unit_zero hzr2]
  simp only [View.readAt_eq_ld, harg2.read_unread, harg3.read_unread, harg4.read_unread, harg6.read_unread,
    View.ld_unit_zero (S := S4096x1) hzr2, View.ld_unit_zero (S := S2000x64) hzr2, View.ld_unit_zero (S := S4096x64) hzr2,
    View.readCov_unit_zero (S := S4096x64) _ hzr2]

/-- A middle tile leaves the tile's product added to what the accumulator held. -/
theorem soutB2_eq (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : ¬cond2_1 i)
    (x0 : Vec F S4096x1 .i32) (x1 : Vec F S4096x1 .f32) (x2 : Vec F S2000x64 .bf16) (xs0 : Vec F S4096x64 .f32) :
    sout2_B_0 c i arg2 harg2 arg3 harg3 arg4 harg4 arg5 harg5 arg6 harg6 hc0 hc1 x0 x1 x2 xs0 = k2_pay2 i x0 xs0 x2 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  try sl_unfold_words
  rw [View.canon_cons_unit_zero hzr2]
  simp only [View.readAt_eq_ld, harg2.read_unread, harg3.read_unread, harg4.read_unread, harg6.read_unread,
    View.ld_unit_zero (S := S4096x1) hzr2, View.ld_unit_zero (S := S2000x64) hzr2, View.ld_unit_zero (S := S4096x64) hzr2,
    View.readCov_unit_zero (S := S4096x64) _ hzr2]

/-- A last tile leaves the same in the accumulator, -/
theorem soutC2_eq (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) :
    sout2_C_0 c i arg2 harg2 arg3 harg3 arg4 harg4 arg5 harg5 arg6 harg6 hc0 hc1 x0 x1 x2 xs0 = k2_pay2 i x0 xs0 x2 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  try sl_unfold_words
  rw [View.canon_cons_unit_zero hzr2]
  simp only [View.readAt_eq_ld, harg2.read_unread, harg3.read_unread, harg4.read_unread, harg6.read_unread,
    View.ld_unit_zero (S := S4096x1) hzr2, View.ld_unit_zero (S := S2000x64) hzr2, View.ld_unit_zero (S := S4096x64) hzr2,
    View.readCov_unit_zero (S := S4096x64) _ hzr2]

/-- and stores that, scaled by the norm column and rounded, as the output block. -/
theorem outC2_eq (c : Dev nD) (i : grid2.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond2_0 i) (hc1 : cond2_1 i)
    (x0 : Vec F S4096x1 .i32) (x1 : Vec F S4096x1 .f32) (x2 : Vec F S2000x64 .bf16) (xs0 : Vec F S4096x64 .f32) :
    out2_C_3 c i arg2 harg2 arg3 harg3 arg4 harg4 arg5 harg5 arg6 harg6 hc0 hc1 x0 x1 x2 xs0 = k2_pay3 (k2_pay2 i x0 xs0 x2) x1 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  try sl_unfold_words
  rw [View.canon_cons_unit_zero hzr2]
  simp only [View.readAt_eq_ld, harg2.read_unread, harg3.read_unread, harg4.read_unread, harg6.read_unread,
    View.ld_unit_zero (S := S4096x1) hzr2, View.ld_unit_zero (S := S2000x64) hzr2, View.ld_unit_zero (S := S4096x64) hzr2,
    View.readCov_unit_zero (S := S4096x64) _ hzr2]

/-! ## The accumulator as a fold over the tiles of an edge block, and the output block -/

section Fold
variable (V : (c : Dev nD) → (b : Ref sig .tc) → Buf (Elt F) ((c : Thread nD τ).loc b))

/-- The accumulator after a first tile: that tile's product added to the zero fill. -/
def accA2 (c : Dev nD) (n : ℕ) (h : n < cfg2.N) : Vec F S4096x64 .f32 :=
  k2_pay2 (grid2.coords ⟨n, h⟩) (iblk2 V c 0 ⟨n, h⟩) k2_pay1 (iblk2 V c 2 ⟨n, h⟩)
/-- The accumulator after a later tile, from what it held. -/
def accG2 (c : Dev nD) (n : ℕ) (h : n < cfg2.N) (acc : Vec F S4096x64 .f32) : Vec F S4096x64 .f32 :=
  k2_pay2 (grid2.coords ⟨n, h⟩) (iblk2 V c 0 ⟨n, h⟩) acc (iblk2 V c 2 ⟨n, h⟩)

/-- After point `t` the accumulator is the fold of the tile steps over the tiles of `t`'s edge block up to `t`'s. -/
theorem sAcc2_eq (c : Dev nD) (t : Fin cfg2.N) :
    (outsAt2 V c t.val t.isLt).2 = Pipeline.accAt (accA2 V c) (accG2 V c) (25 * (t.val / 25)) (t.val % 25)
      (by have h1 := t.isLt; have h2 := Nat.div_add_mod t.val 25; omega) :=
  Pipeline.eq_accAt_of_mod (fun n h => (outsAt2 V c n h).2) 25 (accA2 V c) (accG2 V c)
    (fun n h hn => by
      rw [outsAt2_A V c ⟨n, h⟩ hn]; dsimp only; unfold stepA2 accA2
      exact soutA2_eq c _ _ _ _ _ _ _ _ _ _ _ _ _ _ _ _)
    (fun n h hn => by
      by_cases h1 : (n + 1) % 25 = 24
      · rw [outsAt2_C V c ⟨n + 1, h⟩ h1]; dsimp only; unfold stepC2 accG2
        exact soutC2_eq c _ _ _ _ _ _ _ _ _ _ _ _ _ _ _ _ _
      · rw [outsAt2_B V c ⟨n + 1, h⟩ hn h1]; dsimp only; unfold stepB2 accG2
        exact soutB2_eq c _ _ _ _ _ _ _ _ _ _ _ _ _ _ _ _ _)
    (by decide) t.val t.isLt _

/-- After a last tile the output buffer is the accumulator that tile leaves, scaled by the norm block and rounded. -/
theorem oAcc2_eq (c : Dev nD) (t : Fin cfg2.N) (h1 : t.val % 25 = 24) :
    (outsAt2 V c t.val t.isLt).1 = k2_pay3 ((outsAt2 V c t.val t.isLt).2) (iblk2 V c 1 t) := by
  rw [outsAt2_C V c t h1]; dsimp only; unfold stepO2 stepC2
  rw [outC2_eq, soutC2_eq]
end Fold

end Cert.KernelIdeal.Hand

end
-- ==== Proof.KI.PayGather2.lean ====
/-
  The gather kernel (launch 2): its three stored values at the ideal instance, read at an index.

  The zero fill is 0 everywhere. The accumulation step adds to the accumulator the product of a 0/1 matrix with the
  node tile: the matrix has a 1 at (r, j) exactly when the r-th source index of the edge block equals the global number
  of the tile's j-th node, (tile number) * 2000 + j. So row r of the product is the tile's row selected by the r-th
  source index when that index falls in the tile, and 0 when it does not, whatever the node features are (also
  infinite ones). The last step scales row r of the accumulator by the r-th norm.
-/
import proofs.«118646_j60988535603568_1_alg».proof.Proof.KI.PayCommon

set_option pp.maxSteps 5000
set_option pp.deepTerms false

noncomputable section

namespace Cert.KernelIdeal.Val

open Cert.KernelIdeal Cert.KernelIdeal.Gen
open Idealize.ShloMosaic Idealize.ShloMosaic.ValueIdx
open scoped BigOperators

/-- The zero fill reads 0 at every index. -/
theorem k2_pay1_apply (j : S4096x64.Idx) : Gen.k2_pay1 (F := Ideal) j = 0 := by
  unfold Gen.k2_pay1
  rw [shapeCast_self]
  show Ideal.ofBits .f32 0x00000000#32 = 0
  exact Ideal.ofBits_zero_f32

/-- The accumulation step at (r, f): the accumulator there plus the 0/1 row r against column f of the node tile. -/
theorem k2_pay2_apply (i : grid2.Coords) (s : Vec Ideal S4096x1 .i32) (acc : Vec Ideal S4096x64 .f32) (xt : Vec Ideal S2000x64 .bf16)
    (r : Fin 4096) (f : Fin 64) :
    Gen.k2_pay2 (F := Ideal) i s acc xt (ix2 r f)
      = acc (ix2 r f) + ∑ j : Fin 2000, (if s (ix2 r 0) = BitVec.ofNat 32 ((i 1).val * 2000 + j.val) then (1 : EReal) else 0) * xt (ix2 j f) := by
  unfold Gen.k2_pay2
  simp only [shapeCast_self]
  rw [addf_apply]
  refine congrArg (fun z => acc (ix2 r f) + z) ?_
  refine (Cert.MatOps.matmul_plain_zero_apply (M := 4096) (K := 2000) (N := 64) (φ₁ := .bf16) (φ₂ := .bf16) none _ xt r f).trans ?_
  refine Finset.sum_congr rfl fun j _ => ?_
  refine congrArg (fun z => z * xt (ix2 j f)) ?_
  exact onehot_apply (i 1).val s r j

/-- The tile number is below 25. -/
theorem k2_tile_lt (i : grid2.Coords) : (i 1).val < 25 := (i 1).isLt

/-- When the r-th source index is the tile's j₀-th node, the step adds the tile's row j₀. -/
theorem k2_pay2_select_hit (i : grid2.Coords) (s : Vec Ideal S4096x1 .i32) (acc : Vec Ideal S4096x64 .f32) (xt : Vec Ideal S2000x64 .bf16)
    (r : Fin 4096) (f : Fin 64) (j₀ : Fin 2000) (h : (s (ix2 r 0)).toInt = ((i 1).val : ℤ) * 2000 + (j₀.val : ℤ)) :
    Gen.k2_pay2 (F := Ideal) i s acc xt (ix2 r f) = acc (ix2 r f) + xt (ix2 j₀ f) := by
  rw [k2_pay2_apply, onehot_row_hit (i 1).val (k2_tile_lt i) (s (ix2 r 0)) (fun j => xt (ix2 j f)) j₀ h]

/-- When the r-th source index is outside the tile, the step adds 0. -/
theorem k2_pay2_select_miss (i : grid2.Coords) (s : Vec Ideal S4096x1 .i32) (acc : Vec Ideal S4096x64 .f32) (xt : Vec Ideal S2000x64 .bf16)
    (r : Fin 4096) (f : Fin 64)
    (h : (s (ix2 r 0)).toInt < ((i 1).val : ℤ) * 2000 ∨ ((i 1).val : ℤ) * 2000 + 2000 ≤ (s (ix2 r 0)).toInt) :
    Gen.k2_pay2 (F := Ideal) i s acc xt (ix2 r f) = acc (ix2 r f) := by
  rw [k2_pay2_apply, onehot_row_miss (i 1).val (k2_tile_lt i) (s (ix2 r 0)) (fun j => xt (ix2 j f)) h, add_zero]

/-- The scaling step: row r of the accumulator times the r-th norm. -/
theorem k2_pay3_apply (acc : Vec Ideal S4096x64 .f32) (nrm : Vec Ideal S4096x1 .f32) (r : Fin 4096) (f : Fin 64) :
    Gen.k2_pay3 (F := Ideal) acc nrm (ix2 r f) = acc (ix2 r f) * nrm (ix2 r 0) := by
  unfold Gen.k2_pay3
  rw [shapeCast_self]
  rw [truncf_apply, mulf_apply]
  rw [Keepdims.broadcastTo_a1_ab_apply nrm _ r f 0]

end Cert.KernelIdeal.Val

end
-- ==== Proof.KI.G2Array.lean ====
/- Region 2 (the gather kernel) of the idealized program, on the extended reals: the output array after the region
   is ONE function of the three input arrays. Row e * 4096 + r of the output is written back once, by the last of
   the 25 node tiles of edge block e; there the accumulator holds the sum over the 25 tiles of the 0/1 pattern of
   source index r against the tile's 2000 node rows, and the store scales it by the r-th norm. -/
import proofs.«118646_j60988535603568_1_alg».proof.Proof.KI.G2Value
import proofs.«118646_j60988535603568_1_alg».proof.Proof.KI.PayGather2
import proofs.«118646_j60988535603568_1_alg».proof.Proof.KI.RegionFns
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators
open Cert.KernelIdeal.Val

/-! ## The printed index maps over the grid: point t = 25 * e + k stages edge block e and node tile k -/
theorem idx2 : ∀ t : Fin cfg2.N,
    win2_0.index t (0 : Fin 2) = t.val / 25 ∧ win2_0.index t (1 : Fin 2) = 0
  ∧ win2_1.index t (0 : Fin 2) = t.val / 25 ∧ win2_1.index t (1 : Fin 2) = 0
  ∧ win2_2.index t (0 : Fin 2) = t.val % 25 ∧ win2_2.index t (1 : Fin 2) = 0
  ∧ win2_3.index t (0 : Fin 2) = t.val / 25 ∧ win2_3.index t (1 : Fin 2) = 0
  ∧ ((grid2.coords t) 1).val = t.val % 25 :=
  (by decide +kernel : ∀ t : Fin grid2.N, _)

section Arr
variable (V : (c : Dev nD) → (b : Ref sig .tc) → Buf (Elt F) ((c : Thread nD τ).loc b))

/-- The source-index block at point t is rows (t / 25) * 4096 … of the source-index array. -/
theorem iblk2_0_apply (c : Dev nD) (t : Fin cfg2.N) (r : Fin 4096) (k : S851968x1.Idx)
    (hk0 : (k 0).val = t.val / 25 * 4096 + r.val) (hk1 : (k 1).val = 0) :
    (iblk2 V c 0 t : Vec F S4096x1 .i32) (ix2 r 0) = (V c main_v27 : S851968x1.Idx → Elt F .i32) k := by
  obtain ⟨e0, e1, -⟩ := idx2 t
  unfold iblk2
  rw [View.read_apply]
  show V c main_v27 _ = V c main_v27 _
  refine congrArg (V c main_v27) ?_
  funext a
  apply Fin.ext
  match a with
  | ⟨0, _⟩ => show win2_0.index t 0 * 4096 + 1 * r.val = (k 0).val; rw [e0, hk0]; omega
  | ⟨1, _⟩ => show win2_0.index t 1 * 1 + 1 * 0 = (k 1).val; rw [e1, hk1]
end Arr

section Arr2
variable (V : (c : Dev nD) → (b : Ref sig .tc) → Buf (Elt F) ((c : Thread nD τ).loc b))

/-- The norm block at point t is rows (t / 25) * 4096 … of the norm array. -/
theorem iblk2_1_apply (c : Dev nD) (t : Fin cfg2.N) (r : Fin 4096) (k : S851968x1.Idx)
    (hk0 : (k 0).val = t.val / 25 * 4096 + r.val) (hk1 : (k 1).val = 0) :
    (iblk2 V c 1 t : Vec F S4096x1 .f32) (ix2 r 0) = (V c main_v31 : S851968x1.Idx → Elt F .f32) k := by
  obtain ⟨-, -, e0, e1, -⟩ := idx2 t
  unfold iblk2
  rw [View.read_apply]
  show V c main_v31 _ = V c main_v31 _
  refine congrArg (V c main_v31) ?_
  funext a
  apply Fin.ext
  match a with
  | ⟨0, _⟩ => show win2_1.index t 0 * 4096 + 1 * r.val = (k 0).val; rw [e0, hk0]; omega
  | ⟨1, _⟩ => show win2_1.index t 1 * 1 + 1 * 0 = (k 1).val; rw [e1, hk1]

/-- The node tile at point t is rows (t % 25) * 2000 … of the node array. -/
theorem iblk2_2_apply (c : Dev nD) (t : Fin cfg2.N) (j : Fin 2000) (f : Fin 64) (k : S50000x64.Idx)
    (hk0 : (k 0).val = t.val % 25 * 2000 + j.val) (hk1 : (k 1).val = f.val) :
    (iblk2 V c 2 t : Vec F S2000x64 .bf16) (ix2 j f) = (V c main_v41 : S50000x64.Idx → Elt F .bf16) k := by
  obtain ⟨-, -, -, -, e0, e1, -⟩ := idx2 t
  unfold iblk2
  rw [View.read_apply]
  show V c main_v41 _ = V c main_v41 _
  refine congrArg (V c main_v41) ?_
  funext a
  apply Fin.ext
  match a with
  | ⟨0, _⟩ => show win2_2.index t 0 * 2000 + 1 * j.val = (k 0).val; rw [e0, hk0]; omega
  | ⟨1, _⟩ => show win2_2.index t 1 * 64 + 1 * f.val = (k 1).val; rw [e1, hk1]; omega
end Arr2

section ArrIdeal
variable (V : (c : Dev nD) → (b : Ref sig .tc) → Buf (Elt Ideal) ((c : Thread nD τ).loc b))

/-- What point n adds to the accumulator at (r, f): row r's 0/1 pattern against column f of the point's node tile. -/
def addend2 (c : Dev nD) (n : ℕ) (r : Fin 4096) (f : Fin 64) : EReal :=
  if h : n < cfg2.N then
    ∑ j : Fin 2000, (if (iblk2 V c 0 ⟨n, h⟩ : Vec Ideal S4096x1 .i32) (ix2 r 0) = BitVec.ofNat 32 (((grid2.coords ⟨n, h⟩) 1).val * 2000 + j.val) then (1 : EReal) else 0)
      * (iblk2 V c 2 ⟨n, h⟩ : Vec Ideal S2000x64 .bf16) (ix2 j f)
  else 0

/-- The accumulator after point t, at (r, f): the sum of the addends of the tiles of t's edge block up to t's. -/
theorem acc2_apply (c : Dev nD) (t : Fin cfg2.N) (r : Fin 4096) (f : Fin 64) :
    (outsAt2 V c t.val t.isLt).2 (ix2 r f) = 0 + ∑ s ∈ Finset.range (t.val % 25 + 1), addend2 V c (25 * (t.val / 25) + s) r f := by
  rw [sAcc2_eq V c t]
  refine Pipeline.accAt_add_apply (ι := S4096x64.Idx) (β := EReal) (accA2 V c) (accG2 V c) (fun _ => 0) (fun n i => addend2 V c n (i 0) (i 1)) (25 * (t.val / 25)) 24
    (fun h i => ?_) (fun n h acc i hb he => ?_) (t.val % 25) (by omega) _ (ix2 r f)
  · obtain ⟨r, f, rfl⟩ : ∃ (r : Fin 4096) (f : Fin 64), i = ix2 r f := ⟨i 0, i 1, eq_ix2 i⟩
    unfold accA2
    have e := k2_pay2_apply (grid2.coords ⟨_, h⟩) (iblk2 V c 0 ⟨_, h⟩) (k2_pay1 (F := Ideal)) (iblk2 V c 2 ⟨_, h⟩) r f
    rw [k2_pay1_apply] at e
    refine e.trans ?_
    show _ = (0 : EReal) + addend2 V c _ r f
    unfold addend2; rw [dif_pos h]
  · obtain ⟨r, f, rfl⟩ : ∃ (r : Fin 4096) (f : Fin 64), i = ix2 r f := ⟨i 0, i 1, eq_ix2 i⟩
    unfold accG2
    refine (k2_pay2_apply (grid2.coords ⟨_, h⟩) (iblk2 V c 0 ⟨_, h⟩) acc (iblk2 V c 2 ⟨_, h⟩) r f).trans ?_
    show _ = acc (ix2 r f) + addend2 V c _ r f
    unfold addend2; rw [dif_pos h]
end ArrIdeal

section ArrIdeal2
variable (V : (c : Dev nD) → (b : Ref sig .tc) → Buf (Elt Ideal) ((c : Thread nD τ).loc b))

/-- The output block's entry (r, f) after the last tile of edge block t / 25 is the whole-array function at row
    (t / 25) * 4096 + r, column f. -/
theorem out2_point (c : Dev nD) (t : Fin cfg2.N) (h1 : t.val % 25 = 24) (r : Fin 4096) (f : Fin 64) (k : S851968x64.Idx)
    (hk0 : (k 0).val = t.val / 25 * 4096 + r.val) (hk1 : (k 1).val = f.val) :
    k2_pay3 (F := Ideal) (outsAt2 V c t.val t.isLt).2 (iblk2 V c 1 t) (ix2 r f)
      = gatherArr (V c main_v27) (V c main_v31) (V c main_v41) k := by
  have hN : t.val < 5200 := lt_of_lt_of_eq t.isLt N_2
  rw [k2_pay3_apply, acc2_apply V c t r f, h1]
  unfold gatherArr
  rw [iblk2_1_apply V c t r (ix2 (k 0) 0) hk0 rfl]
  refine congrArg (fun z => (0 + z) * (V c main_v31 : S851968x1.Idx → EReal) (ix2 (k 0) 0)) ?_
  rw [Finset.sum_range]
  refine Finset.sum_congr rfl fun s _ => ?_
  have hs : 25 * (t.val / 25) + s.val < cfg2.N := by have h5 : cfg2.N = 5200 := N_2; have := s.isLt; omega
  obtain ⟨-, -, -, -, -, -, -, -, ec⟩ := idx2 ⟨25 * (t.val / 25) + s.val, hs⟩
  have ec' : ((grid2.coords ⟨25 * (t.val / 25) + s.val, hs⟩) 1).val = s.val := by rw [ec]; show (25 * (t.val / 25) + s.val) % 25 = s.val; have := s.isLt; omega
  unfold addend2; rw [dif_pos hs]
  refine Finset.sum_congr rfl fun jj _ => ?_
  rw [iblk2_0_apply V c ⟨_, hs⟩ r (ix2 (k 0) 0) (by show (k 0).val = (25 * (t.val / 25) + s.val) / 25 * 4096 + r.val; rw [hk0]; have := s.isLt; omega) rfl,
    iblk2_2_apply V c ⟨_, hs⟩ jj f (ix2 ⟨s.val * 2000 + jj.val, by have := s.isLt; have := jj.isLt; omega⟩ (k 1)) (by show s.val * 2000 + jj.val = (25 * (t.val / 25) + s.val) % 25 * 2000 + jj.val; have := s.isLt; omega) hk1, ec']
end ArrIdeal2

section ArrIdeal3
variable (V : (c : Dev nD) → (b : Ref sig .tc) → Buf (Elt Ideal) ((c : Thread nD τ).loc b))

/-- The gather region's output array as one function of its three input arrays. -/
abbrev garr2 (c : Dev nD) : Buf (Elt Ideal) ((c : Thread nD τ).loc main_v42) :=
  gatherArr (V c main_v27) (V c main_v31) (V c main_v41)

/-- What a last tile writes back is its edge block's rows of the whole-array function. -/
theorem flushed2_eq (c : Dev nD) (t : Fin cfg2.N) (hf : (cfg2.win 3).flush t = true) :
    (dat2 (F := Ideal) V c).flushed 3 t = ((cfg2.win 3).blk t).view.read (Elt Ideal) (garr2 V c) := by
  have h1 : t.val % 25 = 24 := (flush2_3 t).mp hf
  obtain ⟨-, -, -, -, -, -, e0, e1, -⟩ := idx2 t
  show (cfg2.win 3).cut (grid2.coords t) ((dat2 V c).after 3 t) = _
  rw [after2_3, oAcc2_eq V c t h1]
  funext y
  rw [View.read_apply]
  show k2_pay3 (F := Ideal) (outsAt2 V c t.val t.isLt).2 (iblk2 V c 1 t) y
    = gatherArr (V c main_v27) (V c main_v31) (V c main_v41) (((cfg2.win 3).blk t).view.emb y)
  obtain ⟨r, f, rfl⟩ : ∃ (r : Fin 4096) (f : Fin 64), y = ix2 r f := ⟨y 0, y 1, eq_ix2 y⟩
  refine out2_point V c t h1 r f _ ?_ ?_
  · show win2_3.index t 0 * 4096 + 1 * r.val = _; rw [e0]; omega
  · show win2_3.index t 1 * 64 + 1 * f.val = _; rw [e1]; omega

/-- An index of the output array is in point t's block iff each coordinate is in the block's range. -/
theorem mem_blk2_3 (t : Fin cfg2.N) (i : S851968x64.Idx) :
    i ∈ ((cfg2.win 3).blk t).view.set ↔ ∀ a : Fin 2, win2_3.index t a * S4096x64.size a ≤ (i a).val ∧ (i a).val < win2_3.index t a * S4096x64.size a + S4096x64.size a := by
  show i ∈ ((View.whole main_v42).slice (win2_3.rect t)).set ↔ _
  rw [View.set_slice_whole, Rect.mem_set_unit]
  exact Iff.rfl

/-- After the region the output array is the whole-array function: row e * 4096 + r is written back by the last
    tile of edge block e. -/
theorem arr2 (c : Dev nD) : (dat2 (F := Ideal) V c).arrAt 3 cfg2.N = garr2 V c :=
  (dat2 V c).arrAt_eq_of_cover 3 (garr2 V c) (fun t hf => flushed2_eq V c t hf) fun i => by
    have hi0 : (i 0).val < 851968 := (i 0).isLt
    have hi1 : (i 1).val < 64 := (i 1).isLt
    have ht : 25 * ((i 0).val / 4096) + 24 < cfg2.N := by have h5 : cfg2.N = 5200 := N_2; omega
    refine ⟨⟨25 * ((i 0).val / 4096) + 24, ht⟩, (flush2_3 _).mpr (by show (25 * ((i 0).val / 4096) + 24) % 25 = 24; omega), ?_⟩
    obtain ⟨-, -, -, -, -, -, e0, e1, -⟩ := idx2 ⟨25 * ((i 0).val / 4096) + 24, ht⟩
    rw [mem_blk2_3]
    intro a
    match a with
    | ⟨0, _⟩ =>
      show win2_3.index ⟨25 * ((i 0).val / 4096) + 24, ht⟩ 0 * 4096 ≤ (i 0).val ∧ (i 0).val < win2_3.index ⟨25 * ((i 0).val / 4096) + 24, ht⟩ 0 * 4096 + 4096
      rw [e0]; show (25 * ((i 0).val / 4096) + 24) / 25 * 4096 ≤ (i 0).val ∧ (i 0).val < (25 * ((i 0).val / 4096) + 24) / 25 * 4096 + 4096; omega
    | ⟨1, _⟩ =>
      show win2_3.index ⟨25 * ((i 0).val / 4096) + 24, ht⟩ 1 * 64 ≤ (i 1).val ∧ (i 1).val < win2_3.index ⟨25 * ((i 0).val / 4096) + 24, ht⟩ 1 * 64 + 64
      rw [e1]; omega
end ArrIdeal3

end Cert.KernelIdeal.Hand

end
-- ==== Proof.KI.G4Value.lean ====
/- Region 4 (the gather kernel): what each case leaves in the accumulator and in the output buffer, in closed form
   over the kernel's three payloads: the zero fill, "accumulator plus one tile's one-hot product", and "accumulator
   times the norm column, rounded to bf16". -/
import proofs.«118646_j60988535603568_1_alg».proof.Proof.KI.G4Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a rank-2 shape. -/
theorem hzr4 : (![0, 0] : Fin 2 → Nat) = fun _ => 0 := funext fun a => by fin_cases a <;> rfl

/-! ## The pieces of each case, read back -/
/-- A first tile leaves the tile's product added to the zero fill. -/
theorem soutA4_eq (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : cond4_0 i) (hc1 : ¬cond4_1 i)
    (x0 : Vec F S4096x1 .i32) (x1 : Vec F S4096x1 .f32) (x2 : Vec F S2000x64 .bf16) :
    sout4_A_0 c i arg2 harg2 arg3 harg3 arg4 harg4 arg5 harg5 arg6 harg6 hc0 hc1 x0 x1 x2 = k4_pay2 i x0 k4_pay1 x2 := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  try sl_unfold_words
  rw [View.canon_cons_unit_zero hzr4]
  simp only [View.readAt_eq_ld, harg2.read_unread, harg3.read_unread, harg4.read_unread, harg6.read_unread,
    View.ld_unit_zero (S := S4096x1) hzr4, View.ld_unit_zero (S := S2000x64) hzr4, View.ld_unit_zero (S := S4096x64) hzr4,
    View.readCov_unit_zero (S := S4096x64) _ hzr4]

/-- A middle tile leaves the tile's product added to what the accumulator held. -/
theorem soutB4_eq (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : ¬cond4_1 i)
    (x0 : Vec F S4096x1 .i32) (x1 : Vec F S4096x1 .f32) (x2 : Vec F S2000x64 .bf16) (xs0 : Vec F S4096x64 .f32) :
    sout4_B_0 c i arg2 harg2 arg3 harg3 arg4 harg4 arg5 harg5 arg6 harg6 hc0 hc1 x0 x1 x2 xs0 = k4_pay2 i x0 xs0 x2 := by
  unfold sout4_B_0
  rw [View.read_writes_eq_canon _ _ _ (scover4_B_0 c i arg2 harg2 arg3 harg3 arg4 harg4 arg5 harg5 arg6 harg6 hc0 hc1 x0 x1 x2 xs0)]
  unfold kernelRun4_B
  dsimp only
  try sl_unfold_words
  rw [View.canon_cons_unit_zero hzr4]
  simp only [View.readAt_eq_ld, harg2.read_unread, harg3.read_unread, harg4.read_unread, harg6.read_unread,
    View.ld_unit_zero (S := S4096x1) hzr4, View.ld_unit_zero (S := S2000x64) hzr4, View.ld_unit_zero (S := S4096x64) hzr4,
    View.readCov_unit_zero (S := S4096x64) _ hzr4]

/-- A last tile leaves the same in the accumulator, -/
theorem soutC4_eq (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) :
    sout4_C_0 c i arg2 harg2 arg3 harg3 arg4 harg4 arg5 harg5 arg6 harg6 hc0 hc1 x0 x1 x2 xs0 = k4_pay2 i x0 xs0 x2 := by
  unfold sout4_C_0
  rw [View.read_writes_eq_canon _ _ _ (scover4_C_0 c i arg2 harg2 arg3 harg3 arg4 harg4 arg5 harg5 arg6 harg6 hc0 hc1 x0 x1 x2 xs0)]
  unfold kernelRun4_C
  dsimp only
  try sl_unfold_words
  rw [View.canon_cons_unit_zero hzr4]
  simp only [View.readAt_eq_ld, harg2.read_unread, harg3.read_unread, harg4.read_unread, harg6.read_unread,
    View.ld_unit_zero (S := S4096x1) hzr4, View.ld_unit_zero (S := S2000x64) hzr4, View.ld_unit_zero (S := S4096x64) hzr4,
    View.readCov_unit_zero (S := S4096x64) _ hzr4]

/-- and stores that, scaled by the norm column and rounded, as the output block. -/
theorem outC4_eq (c : Dev nD) (i : grid4.Coords) (arg2 : Memref sig .tc .vmem S4096x1 .i32) (harg2 : arg2.IsWhole) (arg3 : Memref sig .tc .vmem S4096x1 .f32) (harg3 : arg3.IsWhole) (arg4 : Memref sig .tc .vmem S2000x64 .bf16) (harg4 : arg4.IsWhole) (arg5 : Memref sig .tc .vmem S4096x64 .bf16) (harg5 : arg5.IsWhole) (arg6 : Memref sig .tc .vmem S4096x64 .f32) (harg6 : arg6.IsWhole) (hc0 : ¬cond4_0 i) (hc1 : cond4_1 i)
    (x0 : Vec F S4096x1 .i32) (x1 : Vec F S4096x1 .f32) (x2 : Vec F S2000x64 .bf16) (xs0 : Vec F S4096x64 .f32) :
    out4_C_3 c i arg2 harg2 arg3 harg3 arg4 harg4 arg5 harg5 arg6 harg6 hc0 hc1 x0 x1 x2 xs0 = k4_pay3 (k4_pay2 i x0 xs0 x2) x1 := by
  unfold out4_C_3
  rw [View.read_writes_eq_canon _ _ _ (cover4_C_3 c i arg2 harg2 arg3 harg3 arg4 harg4 arg5 harg5 arg6 harg6 hc0 hc1 x0 x1 x2 xs0)]
  unfold kernelRun4_C
  dsimp only
  try sl_unfold_words
  rw [View.canon_cons_unit_zero hzr4]
  simp only [View.readAt_eq_ld, harg2.read_unread, harg3.read_unread, harg4.read_unread, harg6.read_unread,
    View.ld_unit_zero (S := S4096x1) hzr4, View.ld_unit_zero (S := S2000x64) hzr4, View.ld_unit_zero (S := S4096x64) hzr4,
    View.readCov_unit_zero (S := S4096x64) _ hzr4]

/-! ## The accumulator as a fold over the tiles of an edge block, and the output block -/

section Fold
variable (V : (c : Dev nD) → (b : Ref sig .tc) → Buf (Elt F) ((c : Thread nD τ).loc b))

/-- The accumulator after a first tile: that tile's product added to the zero fill. -/
def accA4 (c : Dev nD) (n : ℕ) (h : n < cfg4.N) : Vec F S4096x64 .f32 :=
  k4_pay2 (grid4.coords ⟨n, h⟩) (iblk4 V c 0 ⟨n, h⟩) k4_pay1 (iblk4 V c 2 ⟨n, h⟩)
/-- The accumulator after a later tile, from what it held. -/
def accG4 (c : Dev nD) (n : ℕ) (h : n < cfg4.N) (acc : Vec F S4096x64 .f32) : Vec F S4096x64 .f32 :=
  k4_pay2 (grid4.coords ⟨n, h⟩) (iblk4 V c 0 ⟨n, h⟩) acc (iblk4 V c 2 ⟨n, h⟩)

/-- After point `t` the accumulator is the fold of the tile steps over the tiles of `t`'s edge block up to `t`'s. -/
theorem sAcc4_eq (c : Dev nD) (t : Fin cfg4.N) :
    (outsAt4 V c t.val t.isLt).2 = Pipeline.accAt (accA4 V c) (accG4 V c) (25 * (t.val / 25)) (t.val % 25)
      (by have h1 := t.isLt; have h2 := Nat.div_add_mod t.val 25; omega) :=
  Pipeline.eq_accAt_of_mod (fun n h => (outsAt4 V c n h).2) 25 (accA4 V c) (accG4 V c)
    (fun n h hn => by
      rw [outsAt4_A V c ⟨n, h⟩ hn]; dsimp only; unfold stepA4 accA4
      exact soutA4_eq c _ _ _ _ _ _ _ _ _ _ _ _ _ _ _ _)
    (fun n h hn => by
      by_cases h1 : (n + 1) % 25 = 24
      · rw [outsAt4_C V c ⟨n + 1, h⟩ h1]; dsimp only; unfold stepC4 accG4
        exact soutC4_eq c _ _ _ _ _ _ _ _ _ _ _ _ _ _ _ _ _
      · rw [outsAt4_B V c ⟨n + 1, h⟩ hn h1]; dsimp only; unfold stepB4 accG4
        exact soutB4_eq c _ _ _ _ _ _ _ _ _ _ _ _ _ _ _ _ _)
    (by decide) t.val t.isLt _

/-- After a last tile the output buffer is the accumulator that tile leaves, scaled by the norm block and rounded. -/
theorem oAcc4_eq (c : Dev nD) (t : Fin cfg4.N) (h1 : t.val % 25 = 24) :
    (outsAt4 V c t.val t.isLt).1 = k4_pay3 ((outsAt4 V c t.val t.isLt).2) (iblk4 V c 1 t) := by
  rw [outsAt4_C V c t h1]; dsimp only; unfold stepO4 stepC4
  rw [outC4_eq, soutC4_eq]
end Fold

end Cert.KernelIdeal.Hand

end
-- ==== Proof.KI.PayGather4.lean ====
/-
  The gather kernel (launch 4): its three stored values at the ideal instance, read at an index.

  The zero fill is 0 everywhere. The accumulation step adds to the accumulator the product of a 0/1 matrix with the
  node tile: the matrix has a 1 at (r, j) exactly when the r-th source index of the edge block equals the global number
  of the tile's j-th node, (tile number) * 2000 + j. So row r of the product is the tile's row selected by the r-th
  source index when that index falls in the tile, and 0 when it does not, whatever the node features are (also
  infinite ones). The last step scales row r of the accumulator by the r-th norm.
-/
import proofs.«118646_j60988535603568_1_alg».proof.Proof.KI.PayCommon

set_option pp.maxSteps 5000
set_option pp.deepTerms false

noncomputable section

namespace Cert.KernelIdeal.Val

open Cert.KernelIdeal Cert.KernelIdeal.Gen
open Idealize.ShloMosaic Idealize.ShloMosaic.ValueIdx
open scoped BigOperators

/-- The zero fill reads 0 at every index. -/
theorem k4_pay1_apply (j : S4096x64.Idx) : Gen.k4_pay1 (F := Ideal) j = 0 := by
  unfold Gen.k4_pay1
  rw [shapeCast_self]
  show Ideal.ofBits .f32 0x00000000#32 = 0
  exact Ideal.ofBits_zero_f32

/-- The accumulation step at (r, f): the accumulator there plus the 0/1 row r against column f of the node tile. -/
theorem k4_pay2_apply (i : grid4.Coords) (s : Vec Ideal S4096x1 .i32) (acc : Vec Ideal S4096x64 .f32) (xt : Vec Ideal S2000x64 .bf16)
    (r : Fin 4096) (f : Fin 64) :
    Gen.k4_pay2 (F := Ideal) i s acc xt (ix2 r f)
      = acc (ix2 r f) + ∑ j : Fin 2000, (if s (ix2 r 0) = BitVec.ofNat 32 ((i 1).val * 2000 + j.val) then (1 : EReal) else 0) * xt (ix2 j f) := by
  unfold Gen.k4_pay2
  simp only [shapeCast_self]
  rw [addf_apply]
  refine congrArg (fun z => acc (ix2 r f) + z) ?_
  refine (Cert.MatOps.matmul_plain_zero_apply (M := 4096) (K := 2000) (N := 64) (φ₁ := .bf16) (φ₂ := .bf16) none _ xt r f).trans ?_
  refine Finset.sum_congr rfl fun j _ => ?_
  refine congrArg (fun z => z * xt (ix2 j f)) ?_
  exact onehot_apply (i 1).val s r j

/-- The tile number is below 25. -/
theorem k4_tile_lt (i : grid4.Coords) : (i 1).val < 25 := (i 1).isLt

/-- When the r-th source index is the tile's j₀-th node, the step adds the tile's row j₀. -/
theorem k4_pay2_select_hit (i : grid4.Coords) (s : Vec Ideal S4096x1 .i32) (acc : Vec Ideal S4096x64 .f32) (xt : Vec Ideal S2000x64 .bf16)
    (r : Fin 4096) (f : Fin 64) (j₀ : Fin 2000) (h : (s (ix2 r 0)).toInt = ((i 1).val : ℤ) * 2000 + (j₀.val : ℤ)) :
    Gen.k4_pay2 (F := Ideal) i s acc xt (ix2 r f) = acc (ix2 r f) + xt (ix2 j₀ f) := by
  rw [k4_pay2_apply, onehot_row_hit (i 1).val (k4_tile_lt i) (s (ix2 r 0)) (fun j => xt (ix2 j f)) j₀ h]

/-- When the r-th source index is outside the tile, the step adds 0. -/
theorem k4_pay2_select_miss (i : grid4.Coords) (s : Vec Ideal S4096x1 .i32) (acc : Vec Ideal S4096x64 .f32) (xt : Vec Ideal S2000x64 .bf16)
    (r : Fin 4096) (f : Fin 64)
    (h : (s (ix2 r 0)).toInt < ((i 1).val : ℤ) * 2000 ∨ ((i 1).val : ℤ) * 2000 + 2000 ≤ (s (ix2 r 0)).toInt) :
    Gen.k4_pay2 (F := Ideal) i s acc xt (ix2 r f) = acc (ix2 r f) := by
  rw [k4_pay2_apply, onehot_row_miss (i 1).val (k4_tile_lt i) (s (ix2 r 0)) (fun j => xt (ix2 j f)) h, add_zero]

/-- The scaling step: row r of the accumulator times the r-th norm. -/
theorem k4_pay3_apply (acc : Vec Ideal S4096x64 .f32) (nrm : Vec Ideal S4096x1 .f32) (r : Fin 4096) (f : Fin 64) :
    Gen.k4_pay3 (F := Ideal) acc nrm (ix2 r f) = acc (ix2 r f) * nrm (ix2 r 0) := by
  unfold Gen.k4_pay3
  rw [shapeCast_self]
  rw [truncf_apply, mulf_apply]
  rw [Keepdims.broadcastTo_a1_ab_apply nrm _ r f 0]

end Cert.KernelIdeal.Val

end
-- ==== Proof.KI.G4Array.lean ====
/- Region 4 (the gather kernel) of the idealized program, on the extended reals: the output array after the region
   is ONE function of the three input arrays. Row e * 4096 + r of the output is written back once, by the last of
   the 25 node tiles of edge block e; there the accumulator holds the sum over the 25 tiles of the 0/1 pattern of
   source index r against the tile's 2000 node rows, and the store scales it by the r-th norm. -/
import proofs.«118646_j60988535603568_1_alg».proof.Proof.KI.G4Value
import proofs.«118646_j60988535603568_1_alg».proof.Proof.KI.PayGather4
import proofs.«118646_j60988535603568_1_alg».proof.Proof.KI.RegionFns
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators
open Cert.KernelIdeal.Val

/-! ## The printed index maps over the grid: point t = 25 * e + k stages edge block e and node tile k -/
theorem idx4 : ∀ t : Fin cfg4.N,
    win4_0.index t (0 : Fin 2) = t.val / 25 ∧ win4_0.index t (1 : Fin 2) = 0
  ∧ win4_1.index t (0 : Fin 2) = t.val / 25 ∧ win4_1.index t (1 : Fin 2) = 0
  ∧ win4_2.index t (0 : Fin 2) = t.val % 25 ∧ win4_2.index t (1 : Fin 2) = 0
  ∧ win4_3.index t (0 : Fin 2) = t.val / 25 ∧ win4_3.index t (1 : Fin 2) = 0
  ∧ ((grid4.coords t) 1).val = t.val % 25 :=
  (by decide +kernel : ∀ t : Fin grid4.N, _)

section Arr
variable (V : (c : Dev nD) → (b : Ref sig .tc) → Buf (Elt F) ((c : Thread nD τ).loc b))

/-- The source-index block at point t is rows (t / 25) * 4096 … of the source-index array. -/
theorem iblk4_0_apply (c : Dev nD) (t : Fin cfg4.N) (r : Fin 4096) (k : S851968x1.Idx)
    (hk0 : (k 0).val = t.val / 25 * 4096 + r.val) (hk1 : (k 1).val = 0) :
    (iblk4 V c 0 t : Vec F S4096x1 .i32) (ix2 r 0) = (V c main_v27 : S851968x1.Idx → Elt F .i32) k := by
  obtain ⟨e0, e1, -⟩ := idx4 t
  unfold iblk4
  rw [View.read_apply]
  show V c main_v27 _ = V c main_v27 _
  refine congrArg (V c main_v27) ?_
  funext a
  apply Fin.ext
  match a with
  | ⟨0, _⟩ => show win4_0.index t 0 * 4096 + 1 * r.val = (k 0).val; rw [e0, hk0]; omega
  | ⟨1, _⟩ => show win4_0.index t 1 * 1 + 1 * 0 = (k 1).val; rw [e1, hk1]
end Arr

section Arr2
variable (V : (c : Dev nD) → (b : Ref sig .tc) → Buf (Elt F) ((c : Thread nD τ).loc b))

/-- The norm block at point t is rows (t / 25) * 4096 … of the norm array. -/
theorem iblk4_1_apply (c : Dev nD) (t : Fin cfg4.N) (r : Fin 4096) (k : S851968x1.Idx)
    (hk0 : (k 0).val = t.val / 25 * 4096 + r.val) (hk1 : (k 1).val = 0) :
    (iblk4 V c 1 t : Vec F S4096x1 .f32) (ix2 r 0) = (V c main_v31 : S851968x1.Idx → Elt F .f32) k := by
  obtain ⟨-, -, e0, e1, -⟩ := idx4 t
  unfold iblk4
  rw [View.read_apply]
  show V c main_v31 _ = V c main_v31 _
  refine congrArg (V c main_v31) ?_
  funext a
  apply Fin.ext
  match a with
  | ⟨0, _⟩ => show win4_1.index t 0 * 4096 + 1 * r.val = (k 0).val; rw [e0, hk0]; omega
  | ⟨1, _⟩ => show win4_1.index t 1 * 1 + 1 * 0 = (k 1).val; rw [e1, hk1]

/-- The node tile at point t is rows (t % 25) * 2000 … of the node array. -/
theorem iblk4_2_apply (c : Dev nD) (t : Fin cfg4.N) (j : Fin 2000) (f : Fin 64) (k : S50000x64.Idx)
    (hk0 : (k 0).val = t.val % 25 * 2000 + j.val) (hk1 : (k 1).val = f.val) :
    (iblk4 V c 2 t : Vec F S2000x64 .bf16) (ix2 j f) = (V c main_v49 : S50000x64.Idx → Elt F .bf16) k := by
  obtain ⟨-, -, -, -, e0, e1, -⟩ := idx4 t
  unfold iblk4
  rw [View.read_apply]
  show V c main_v49 _ = V c main_v49 _
  refine congrArg (V c main_v49) ?_
  funext a
  apply Fin.ext
  match a with
  | ⟨0, _⟩ => show win4_2.index t 0 * 2000 + 1 * j.val = (k 0).val; rw [e0, hk0]; omega
  | ⟨1, _⟩ => show win4_2.index t 1 * 64 + 1 * f.val = (k 1).val; rw [e1, hk1]; omega
end Arr2

section ArrIdeal
variable (V : (c : Dev nD) → (b : Ref sig .tc) → Buf (Elt Ideal) ((c : Thread nD τ).loc b))

/-- What point n adds to the accumulator at (r, f): row r's 0/1 pattern against column f of the point's node tile. -/
def addend4 (c : Dev nD) (n : ℕ) (r : Fin 4096) (f : Fin 64) : EReal :=
  if h : n < cfg4.N then
    ∑ j : Fin 2000, (if (iblk4 V c 0 ⟨n, h⟩ : Vec Ideal S4096x1 .i32) (ix2 r 0) = BitVec.ofNat 32 (((grid4.coords ⟨n, h⟩) 1).val * 2000 + j.val) then (1 : EReal) else 0)
      * (iblk4 V c 2 ⟨n, h⟩ : Vec Ideal S2000x64 .bf16) (ix2 j f)
  else 0

/-- The accumulator after point t, at (r, f): the sum of the addends of the tiles of t's edge block up to t's. -/
theorem acc4_apply (c : Dev nD) (t : Fin cfg4.N) (r : Fin 4096) (f : Fin 64) :
    (outsAt4 V c t.val t.isLt).2 (ix2 r f) = 0 + ∑ s ∈ Finset.range (t.val % 25 + 1), addend4 V c (25 * (t.val / 25) + s) r f := by
  rw [sAcc4_eq V c t]
  refine Pipeline.accAt_add_apply (ι := S4096x64.Idx) (β := EReal) (accA4 V c) (accG4 V c) (fun _ => 0) (fun n i => addend4 V c n (i 0) (i 1)) (25 * (t.val / 25)) 24
    (fun h i => ?_) (fun n h acc i hb he => ?_) (t.val % 25) (by omega) _ (ix2 r f)
  · obtain ⟨r, f, rfl⟩ : ∃ (r : Fin 4096) (f : Fin 64), i = ix2 r f := ⟨i 0, i 1, eq_ix2 i⟩
    unfold accA4
    have e := k4_pay2_apply (grid4.coords ⟨_, h⟩) (iblk4 V c 0 ⟨_, h⟩) (k4_pay1 (F := Ideal)) (iblk4 V c 2 ⟨_, h⟩) r f
    rw [k4_pay1_apply] at e
    refine e.trans ?_
    show _ = (0 : EReal) + addend4 V c _ r f
    unfold addend4; rw [dif_pos h]
  · obtain ⟨r, f, rfl⟩ : ∃ (r : Fin 4096) (f : Fin 64), i = ix2 r f := ⟨i 0, i 1, eq_ix2 i⟩
    unfold accG4
    refine (k4_pay2_apply (grid4.coords ⟨_, h⟩) (iblk4 V c 0 ⟨_, h⟩) acc (iblk4 V c 2 ⟨_, h⟩) r f).trans ?_
    show _ = acc (ix2 r f) + addend4 V c _ r f
    unfold addend4; rw [dif_pos h]
end ArrIdeal

section ArrIdeal2
variable (V : (c : Dev nD) → (b : Ref sig .tc) → Buf (Elt Ideal) ((c : Thread nD τ).loc b))

/-- The output block's entry (r, f) after the last tile of edge block t / 25 is the whole-array function at row
    (t / 25) * 4096 + r, column f. -/
theorem out4_point (c : Dev nD) (t : Fin cfg4.N) (h1 : t.val % 25 = 24) (r : Fin 4096) (f : Fin 64) (k : S851968x64.Idx)
    (hk0 : (k 0).val = t.val / 25 * 4096 + r.val) (hk1 : (k 1).val = f.val) :
    k4_pay3 (F := Ideal) (outsAt4 V c t.val t.isLt).2 (iblk4 V c 1 t) (ix2 r f)
      = gatherArr (V c main_v27) (V c main_v31) (V c main_v49) k := by
  have hN : t.val < 5200 := lt_of_lt_of_eq t.isLt N_4
  rw [k4_pay3_apply, acc4_apply V c t r f, h1]
  unfold gatherArr
  rw [iblk4_1_apply V c t r (ix2 (k 0) 0) hk0 rfl]
  refine congrArg (fun z => (0 + z) * (V c main_v31 : S851968x1.Idx → EReal) (ix2 (k 0) 0)) ?_
  rw [Finset.sum_range]
  refine Finset.sum_congr rfl fun s _ => ?_
  have hs : 25 * (t.val / 25) + s.val < cfg4.N := by have h5 : cfg4.N = 5200 := N_4; have := s.isLt; omega
  obtain ⟨-, -, -, -, -, -, -, -, ec⟩ := idx4 ⟨25 * (t.val / 25) + s.val, hs⟩
  have ec' : ((grid4.coords ⟨25 * (t.val / 25) + s.val, hs⟩) 1).val = s.val := by rw [ec]; show (25 * (t.val / 25) + s.val) % 25 = s.val; have := s.isLt; omega
  unfold addend4; rw [dif_pos hs]
  refine Finset.sum_congr rfl fun jj _ => ?_
  rw [iblk4_0_apply V c ⟨_, hs⟩ r (ix2 (k 0) 0) (by show (k 0).val = (25 * (t.val / 25) + s.val) / 25 * 4096 + r.val; rw [hk0]; have := s.isLt; omega) rfl,
    iblk4_2_apply V c ⟨_, hs⟩ jj f (ix2 ⟨s.val * 2000 + jj.val, by have := s.isLt; have := jj.isLt; omega⟩ (k 1)) (by show s.val * 2000 + jj.val = (25 * (t.val / 25) + s.val) % 25 * 2000 + jj.val; have := s.isLt; omega) hk1, ec']
end ArrIdeal2

section ArrIdeal3
variable (V : (c : Dev nD) → (b : Ref sig .tc) → Buf (Elt Ideal) ((c : Thread nD τ).loc b))

/-- The gather region's output array as one function of its three input arrays. -/
abbrev garr4 (c : Dev nD) : Buf (Elt Ideal) ((c : Thread nD τ).loc main_v50) :=
  gatherArr (V c main_v27) (V c main_v31) (V c main_v49)

/-- What a last tile writes back is its edge block's rows of the whole-array function. -/
theorem flushed4_eq (c : Dev nD) (t : Fin cfg4.N) (hf : (cfg4.win 3).flush t = true) :
    (dat4 (F := Ideal) V c).flushed 3 t = ((cfg4.win 3).blk t).view.read (Elt Ideal) (garr4 V c) := by
  have h1 : t.val % 25 = 24 := (flush4_3 t).mp hf
  obtain ⟨-, -, -, -, -, -, e0, e1, -⟩ := idx4 t
  show (cfg4.win 3).cut (grid4.coords t) ((dat4 V c).after 3 t) = _
  rw [after4_3, oAcc4_eq V c t h1]
  funext y
  rw [View.read_apply]
  show k4_pay3 (F := Ideal) (outsAt4 V c t.val t.isLt).2 (iblk4 V c 1 t) y
    = gatherArr (V c main_v27) (V c main_v31) (V c main_v49) (((cfg4.win 3).blk t).view.emb y)
  obtain ⟨r, f, rfl⟩ : ∃ (r : Fin 4096) (f : Fin 64), y = ix2 r f := ⟨y 0, y 1, eq_ix2 y⟩
  refine out4_point V c t h1 r f _ ?_ ?_
  · show win4_3.index t 0 * 4096 + 1 * r.val = _; rw [e0]; omega
  · show win4_3.index t 1 * 64 + 1 * f.val = _; rw [e1]; omega

/-- An index of the output array is in point t's block iff each coordinate is in the block's range. -/
theorem mem_blk4_3 (t : Fin cfg4.N) (i : S851968x64.Idx) :
    i ∈ ((cfg4.win 3).blk t).view.set ↔ ∀ a : Fin 2, win4_3.index t a * S4096x64.size a ≤ (i a).val ∧ (i a).val < win4_3.index t a * S4096x64.size a + S4096x64.size a := by
  show i ∈ ((View.whole main_v50).slice (win4_3.rect t)).set ↔ _
  rw [View.set_slice_whole, Rect.mem_set_unit]
  exact Iff.rfl

/-- After the region the output array is the whole-array function: row e * 4096 + r is written back by the last
    tile of edge block e. -/
theorem arr4 (c : Dev nD) : (dat4 (F := Ideal) V c).arrAt 3 cfg4.N = garr4 V c :=
  (dat4 V c).arrAt_eq_of_cover 3 (garr4 V c) (fun t hf => flushed4_eq V c t hf) fun i => by
    have hi0 : (i 0).val < 851968 := (i 0).isLt
    have hi1 : (i 1).val < 64 := (i 1).isLt
    have ht : 25 * ((i 0).val / 4096) + 24 < cfg4.N := by have h5 : cfg4.N = 5200 := N_4; omega
    refine ⟨⟨25 * ((i 0).val / 4096) + 24, ht⟩, (flush4_3 _).mpr (by show (25 * ((i 0).val / 4096) + 24) % 25 = 24; omega), ?_⟩
    obtain ⟨-, -, -, -, -, -, e0, e1, -⟩ := idx4 ⟨25 * ((i 0).val / 4096) + 24, ht⟩
    rw [mem_blk4_3]
    intro a
    match a with
    | ⟨0, _⟩ =>
      show win4_3.index ⟨25 * ((i 0).val / 4096) + 24, ht⟩ 0 * 4096 ≤ (i 0).val ∧ (i 0).val < win4_3.index ⟨25 * ((i 0).val / 4096) + 24, ht⟩ 0 * 4096 + 4096
      rw [e0]; show (25 * ((i 0).val / 4096) + 24) / 25 * 4096 ≤ (i 0).val ∧ (i 0).val < (25 * ((i 0).val / 4096) + 24) / 25 * 4096 + 4096; omega
    | ⟨1, _⟩ =>
      show win4_3.index ⟨25 * ((i 0).val / 4096) + 24, ht⟩ 1 * 64 ≤ (i 1).val ∧ (i 1).val < win4_3.index ⟨25 * ((i 0).val / 4096) + 24, ht⟩ 1 * 64 + 64
      rw [e1]; omega
end ArrIdeal3

end Cert.KernelIdeal.Hand

end
-- ==== Proof.KI.S1Val.lean ====
/-
  Region 1 (the scatter kernel): what the accumulator and the output's staging buffer hold, in closed form.
  Each case's stores are whole-buffer stores, so what a case leaves is its last stored payload: the zero
  fill followed by one accumulation step at the first edge block, one accumulation step at every later edge
  block, and at the last edge block the output is the accumulator scaled by the node norms. After point t the
  accumulator is therefore the fold of the accumulation step over the edge blocks of t's node tile up to t,
  started from the zero fill.
-/
import proofs.«118646_j60988535603568_1_alg».proof.Proof.KI.S1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros1 : (![0, 0] : Fin 2 → Nat) = fun _ => 0 := funext fun a => by fin_cases a <;> rfl

/-! ## What each case leaves, as payloads -/

/-- The first edge block: the zero fill, then one accumulation step over it. -/
theorem sout1_A_0_eq (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond1_0 i) (hc1 : ¬cond1_1 i)
    (x0 : Vec F S4096x1 .i32) (x1 : Vec F S4096x64 .bf16) (x2 : Vec F S2000x1 .f32) :
    sout1_A_0 c i arg2 harg2 arg3 harg3 arg4 harg4 arg5 harg5 arg6 harg6 hc0 hc1 x0 x1 x2 = k1_pay2 i x0 (k1_pay1 (F := F)) x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero zeros1]
  rw [View.readCov_unit_zero (S := S2000x64) _ zeros1]
  simp only [View.readAt_eq_ld, harg2.read_unread, harg3.read_unread, View.ld_unit_zero (S := S4096x1) zeros1, View.ld_unit_zero (S := S4096x64) zeros1, View.ld_unit_zero (S := S2000x64) zeros1, View.ld_unit_zero (S := S2000x1) zeros1]

/-- A middle edge block: one accumulation step over what the accumulator held. -/
theorem sout1_B_0_eq (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : ¬cond1_1 i)
    (x0 : Vec F S4096x1 .i32) (x1 : Vec F S4096x64 .bf16) (x2 : Vec F S2000x1 .f32) (xs0 : Vec F S2000x64 .f32) :
    sout1_B_0 c i arg2 harg2 arg3 harg3 arg4 harg4 arg5 harg5 arg6 harg6 hc0 hc1 x0 x1 x2 xs0 = k1_pay2 i x0 xs0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  try sl_unfold_words
  rw [View.canon_unit_zero zeros1]
  simp only [View.readAt_eq_ld, harg2.read_unread, harg3.read_unread, harg6.read_unread, View.ld_unit_zero (S := S4096x1) zeros1, View.ld_unit_zero (S := S4096x64) zeros1, View.ld_unit_zero (S := S2000x64) zeros1, View.ld_unit_zero (S := S2000x1) zeros1]

/-- The last edge block: one accumulation step over what the accumulator held. -/
theorem sout1_C_0_eq (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) :
    sout1_C_0 c i arg2 harg2 arg3 harg3 arg4 harg4 arg5 harg5 arg6 harg6 hc0 hc1 x0 x1 x2 xs0 = k1_pay2 i x0 xs0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero zeros1]
  simp only [View.readAt_eq_ld, harg2.read_unread, harg3.read_unread, harg6.read_unread, View.ld_unit_zero (S := S4096x1) zeros1, View.ld_unit_zero (S := S4096x64) zeros1, View.ld_unit_zero (S := S2000x64) zeros1, View.ld_unit_zero (S := S2000x1) zeros1]

/-- The last edge block's output: the accumulator after its step, scaled row by row by the node norms. -/
theorem out1_C_3_eq (c : Dev nD) (i : grid1.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond1_0 i) (hc1 : cond1_1 i)
    (x0 : Vec F S4096x1 .i32) (x1 : Vec F S4096x64 .bf16) (x2 : Vec F S2000x1 .f32) (xs0 : Vec F S2000x64 .f32) :
    out1_C_3 c i arg2 harg2 arg3 harg3 arg4 harg4 arg5 harg5 arg6 harg6 hc0 hc1 x0 x1 x2 xs0 = k1_pay3 (k1_pay2 i x0 xs0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero zeros1, View.readCov_unit_zero (S := S2000x64) _ zeros1]
  simp only [View.readAt_eq_ld, harg2.read_unread, harg3.read_unread, harg4.read_unread, harg6.read_unread, View.ld_unit_zero (S := S4096x1) zeros1, View.ld_unit_zero (S := S4096x64) zeros1, View.ld_unit_zero (S := S2000x64) zeros1, View.ld_unit_zero (S := S2000x1) zeros1]

section Region1

variable (V : (c : Dev nD) → (b : Ref sig .tc) → Buf (Elt F) ((c : Thread nD τ).loc b))

/-- One accumulation step at point n over the accumulator acc: the one-hot of the destination block against node tile
    (n / 208), transposed, times the message block, added to acc. -/
def step1 (c : Dev nD) (n : ℕ) (hb : n < cfg1.N) (acc : Vec F S2000x64 .f32) : Vec F S2000x64 .f32 :=
  k1_pay2 (grid1.coords (⟨n, hb⟩ : Fin cfg1.N)) (iblk1 V c 0 (⟨n, hb⟩ : Fin cfg1.N)) acc (iblk1 V c 1 (⟨n, hb⟩ : Fin cfg1.N))

/-- WHAT THE ACCUMULATOR HOLDS after point t: the fold of the accumulation step over the points of t's node tile up to t
    (from point 208·(t / 208), the tile's first edge block), started from the zero fill. -/
theorem soutsAt1_eq (c : Dev nD) (t : Fin cfg1.N) :
    (outsAt1 V c t.val t.isLt).2 = Pipeline.accAt (fun n h => step1 V c n h (k1_pay1 (F := F))) (step1 V c) (208 * (t.val / 208)) (t.val % 208)
      (by have h1 := t.isLt; have h2 := Nat.div_add_mod t.val 208; omega) :=
  Pipeline.eq_accAt_of_mod (fun n h => (outsAt1 V c n h).2) 208 (fun n h => step1 V c n h (k1_pay1 (F := F))) (step1 V c)
    (fun n h hn => by
      have h1 : ¬n % 208 = 207 := by omega
      rw [outsAt1_A V c ⟨n, h⟩ hn h1]; dsimp only; rw [sout1_A_0_eq]; rfl)
    (fun n h hn => by
      by_cases h1 : (n + 1) % 208 = 207
      · rw [outsAt1_C V c ⟨n + 1, h⟩ hn h1]; dsimp only; rw [sout1_C_0_eq]; rfl
      · rw [outsAt1_B V c ⟨n + 1, h⟩ hn h1]; dsimp only; rw [sout1_B_0_eq]; rfl)
    (by decide) t.val t.isLt _

/-- WHAT THE OUTPUT'S STAGING BUFFER HOLDS after the last edge block of a node tile (the one point that writes it
    back): the accumulator after that point, scaled row by row by the tile's node norms. -/
theorem out1_last (c : Dev nD) (t : Fin cfg1.N) (h1 : t.val % 208 = 207) :
    (dat1 V c).after 3 t = k1_pay3 ((outsAt1 V c t.val t.isLt).2) (iblk1 V c 2 t) := by
  have h0 : ¬t.val % 208 = 0 := by omega
  rw [after1_3, outsAt1_C V c t h0 h1]; dsimp only; rw [out1_C_3_eq, sout1_C_0_eq]

end Region1

end Cert.KernelIdeal.Hand

end
-- ==== Proof.KI.S1Blocks.lean ====
/-
  Region 1 (the scatter kernel): where its windows' blocks sit in their arrays.
  At point t (node tile t / 208, edge block t % 208) the destination block and the message block are rows
  (t % 208) * 4096 … + 4095 of their arrays, the norm block and the output block are rows (t / 208) * 2000 … + 1999
  of theirs; the output block is written back at the tile's last edge block, and the 25 tiles' blocks tile the output.
-/
import proofs.«118646_j60988535603568_1_alg».proof.Proof.KI.S1Val
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps and the grid coordinates, decided over the grid. -/
theorem idx_facts1 : ∀ t : Fin cfg1.N,
    win1_0.index t (0 : Fin 2) = t.val % 208 ∧ win1_0.index t (1 : Fin 2) = 0
    ∧ win1_1.index t (0 : Fin 2) = t.val % 208 ∧ win1_1.index t (1 : Fin 2) = 0
    ∧ win1_2.index t (0 : Fin 2) = t.val / 208 ∧ win1_2.index t (1 : Fin 2) = 0
    ∧ win1_3.index t (0 : Fin 2) = t.val / 208 ∧ win1_3.index t (1 : Fin 2) = 0
    ∧ ((grid1.coords t) 0).val = t.val / 208 ∧ ((grid1.coords t) 1).val = t.val % 208 :=
  (by decide +kernel : ∀ t : Fin grid1.N, _)

section Region1

variable (V : (c : Dev nD) → (b : Ref sig .tc) → Buf (Elt F) ((c : Thread nD τ).loc b))

/-- The destination block at point t is rows (t % 208) * 4096 … of the destination array. -/
theorem iblk1_0_apply (c : Dev nD) (t : Fin cfg1.N) (r : Fin 4096) (k : S851968x1.Idx)
    (hk0 : (k 0).val = (t.val % 208) * 4096 + r.val) :
    (iblk1 V c 0 t : Vec F S4096x1 .i32) (ix2 r 0) = (V c main_v29 : S851968x1.Idx → Elt F .i32) k := by
  obtain ⟨e00, e01, -⟩ := idx_facts1 t
  unfold iblk1
  rw [View.read_apply]
  show V c main_v29 _ = V c main_v29 _
  congr 1
  funext a
  apply Fin.ext
  match a with
  | ⟨0, _⟩ => show win1_0.index t 0 * 4096 + 1 * r.val = (k 0).val; rw [e00, hk0]; omega
  | ⟨1, _⟩ => show win1_0.index t 1 * 1 + 1 * 0 = (k 1).val; rw [e01]; have hk1 : (k 1).val < 1 := (k 1).isLt; omega

/-- The message block at point t is rows (t % 208) * 4096 … of the message array. -/
theorem iblk1_1_apply (c : Dev nD) (t : Fin cfg1.N) (r : Fin 4096) (f : Fin 64) (k : S851968x64.Idx)
    (hk0 : (k 0).val = (t.val % 208) * 4096 + r.val) (hk1 : (k 1).val = f.val) :
    (iblk1 V c 1 t : Vec F S4096x64 .bf16) (ix2 r f) = (V c main_v35 : S851968x64.Idx → Elt F .bf16) k := by
  obtain ⟨-, -, e10, e11, -⟩ := idx_facts1 t
  unfold iblk1
  rw [View.read_apply]
  show V c main_v35 _ = V c main_v35 _
  congr 1
  funext a
  apply Fin.ext
  match a with
  | ⟨0, _⟩ => show win1_1.index t 0 * 4096 + 1 * r.val = (k 0).val; rw [e10, hk0]; omega
  | ⟨1, _⟩ => show win1_1.index t 1 * 64 + 1 * f.val = (k 1).val; rw [e11, hk1]; omega

/-- The norm block at point t is rows (t / 208) * 2000 … of the norm array. -/
theorem iblk1_2_apply (c : Dev nD) (t : Fin cfg1.N) (j : Fin 2000) (k : S50000x1.Idx)
    (hk0 : (k 0).val = (t.val / 208) * 2000 + j.val) :
    (iblk1 V c 2 t : Vec F S2000x1 .f32) (ix2 j 0) = (V c main_v32 : S50000x1.Idx → Elt F .f32) k := by
  obtain ⟨-, -, -, -, e20, e21, -⟩ := idx_facts1 t
  unfold iblk1
  rw [View.read_apply]
  show V c main_v32 _ = V c main_v32 _
  congr 1
  funext a
  apply Fin.ext
  match a with
  | ⟨0, _⟩ => show win1_2.index t 0 * 2000 + 1 * j.val = (k 0).val; rw [e20, hk0]; omega
  | ⟨1, _⟩ => show win1_2.index t 1 * 1 + 1 * 0 = (k 1).val; rw [e21]; have hk1 : (k 1).val < 1 := (k 1).isLt; omega

/-- An element of the output block at point t sits in the output array at row (t / 208) * 2000 + its row, same column. -/
theorem oblk1_emb (t : Fin cfg1.N) (y : S2000x64.Idx) :
    ((((cfg1.win 3).blk t).view.emb y : S50000x64.Idx) 0).val = (t.val / 208) * 2000 + (y 0).val
    ∧ ((((cfg1.win 3).blk t).view.emb y : S50000x64.Idx) 1).val = (y 1).val := by
  obtain ⟨-, -, -, -, -, -, e30, e31, -⟩ := idx_facts1 t
  constructor
  · show win1_3.index t 0 * 2000 + 1 * (y 0).val = _; rw [e30]; omega
  · show win1_3.index t 1 * 64 + 1 * (y 1).val = _; rw [e31]; omega

/-- An index of the output array is in point t's block iff each coordinate is in the block's range on its axis. -/
theorem mem_oblk1 (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v36).slice (win1_3.rect t)).set ↔ _
  rw [View.set_slice_whole, Rect.mem_set_unit]
  exact Iff.rfl

/-- Every index of the output array is in the block of its node tile's last point, which writes the block back. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 5200 := N_1
  let t : Fin cfg1.N := ⟨(i 0).val / 2000 * 208 + 207, by rw [hN]; omega⟩
  have htv : t.val = (i 0).val / 2000 * 208 + 207 := rfl
  obtain ⟨-, -, -, -, -, -, e30, e31, -⟩ := idx_facts1 t
  refine ⟨t, (flush1_3 t).mpr (by rw [htv]; omega), ?_⟩
  rw [mem_oblk1]
  intro a
  match a with
  | ⟨0, _⟩ => show win1_3.index t 0 * 2000 ≤ (i 0).val ∧ (i 0).val < win1_3.index t 0 * 2000 + 2000; rw [e30, htv]; omega
  | ⟨1, _⟩ => show win1_3.index t 1 * 64 ≤ (i 1).val ∧ (i 1).val < win1_3.index t 1 * 64 + 64; rw [e31]; omega

end Region1

end Cert.KernelIdeal.Hand

end
-- ==== Proof.KI.PayScatter.lean ====
/-
  The scatter kernel (launch 1): its three stored values at the ideal instance, read at an index.

  The zero fill is 0 everywhere. The accumulation step adds to the accumulator the product of the transposed 0/1 matrix
  with the message block: the matrix has a 1 at (r, j) exactly when the r-th destination index of the edge block equals
  the global number of the tile's j-th node, (tile number) * 2000 + j. So row j of the product is the sum of the message
  rows whose destination is node j of the tile, whatever the messages are (also infinite ones). The last step scales
  row j of the accumulator by the j-th norm.
-/
import proofs.«118646_j60988535603568_1_alg».proof.Proof.KI.PayCommon

set_option pp.maxSteps 5000
set_option pp.deepTerms false

noncomputable section

namespace Cert.KernelIdeal.Val

open Cert.KernelIdeal Cert.KernelIdeal.Gen
open Idealize.ShloMosaic Idealize.ShloMosaic.ValueIdx
open scoped BigOperators

/-- The zero fill reads 0 at every index. -/
theorem k1_pay1_apply (j : S2000x64.Idx) : Gen.k1_pay1 (F := Ideal) j = 0 := by
  unfold Gen.k1_pay1
  rw [shapeCast_self]
  show Ideal.ofBits .f32 0x00000000#32 = 0
  exact Ideal.ofBits_zero_f32

/-- The accumulation step at (j, f): the accumulator there plus column j of the 0/1 matrix against column f of the
    message block. -/
theorem k1_pay2_apply (i : grid1.Coords) (d : Vec Ideal S4096x1 .i32) (acc : Vec Ideal S2000x64 .f32) (mb : Vec Ideal S4096x64 .bf16)
    (j : Fin 2000) (f : Fin 64) :
    Gen.k1_pay2 (F := Ideal) i d acc mb (ix2 j f)
      = acc (ix2 j f) + ∑ r : Fin 4096, (if d (ix2 r 0) = BitVec.ofNat 32 ((i 0).val * 2000 + j.val) then (1 : EReal) else 0) * mb (ix2 r f) := by
  unfold Gen.k1_pay2
  simp only [shapeCast_self]
  rw [addf_apply]
  refine congrArg (fun z => acc (ix2 j f) + z) ?_
  refine (matmul_scatter_zero_apply (φ₁ := .bf16) (φ₂ := .bf16) none _ mb j f).trans ?_
  refine Finset.sum_congr rfl fun r _ => ?_
  refine congrArg (fun z => z * mb (ix2 r f)) ?_
  exact onehot_apply (i 0).val d r j

/-- The same step as a sum over the edges of the block whose destination is node j of the tile. -/
theorem k1_pay2_filter (i : grid1.Coords) (d : Vec Ideal S4096x1 .i32) (acc : Vec Ideal S2000x64 .f32) (mb : Vec Ideal S4096x64 .bf16)
    (j : Fin 2000) (f : Fin 64) :
    Gen.k1_pay2 (F := Ideal) i d acc mb (ix2 j f)
      = acc (ix2 j f) + ∑ r ∈ Finset.univ.filter (fun r : Fin 4096 => d (ix2 r 0) = BitVec.ofNat 32 ((i 0).val * 2000 + j.val)), mb (ix2 r f) := by
  rw [k1_pay2_apply]
  refine congrArg (fun z => acc (ix2 j f) + z) ?_
  exact Cert.Lib.OneHot.sum_ite_mul_eq_sum_filter (fun r : Fin 4096 => d (ix2 r 0) = BitVec.ofNat 32 ((i 0).val * 2000 + j.val)) (fun r => mb (ix2 r f))

/-- The tile number is below 25. -/
theorem k1_tile_lt (i : grid1.Coords) : (i 0).val < 25 := (i 0).isLt

/-- The selecting condition in signed readings: no 32-bit wrap for the 25 tiles. -/
theorem k1_dst_iff (i : grid1.Coords) (w : BitVec 32) (j : Fin 2000) :
    w = BitVec.ofNat 32 ((i 0).val * 2000 + j.val) ↔ w.toInt = ((i 0).val : ℤ) * 2000 + (j.val : ℤ) := by
  have h1 := k1_tile_lt i
  have h2 := j.isLt
  rw [eq_ofNat_iff_toInt _ _ (by omega)]
  push_cast
  rfl

/-- The scaling step: row j of the accumulator times the j-th norm. -/
theorem k1_pay3_apply (acc : Vec Ideal S2000x64 .f32) (nrm : Vec Ideal S2000x1 .f32) (j : Fin 2000) (f : Fin 64) :
    Gen.k1_pay3 (F := Ideal) acc nrm (ix2 j f) = acc (ix2 j f) * nrm (ix2 j 0) := by
  unfold Gen.k1_pay3
  rw [shapeCast_self]
  rw [mulf_apply]
  rw [Keepdims.broadcastTo_a1_ab_apply nrm _ j f 0]

end Cert.KernelIdeal.Val

end
-- ==== Proof.KI.SCommon.lean ====
/-
  The scatter kernels' output function, point by point: the share one edge block adds to a node row, and the
  scaled sum of a node tile's 208 shares as the output function at an index of the tile.
-/
import proofs.«118646_j60988535603568_1_alg».proof.Proof.KI.RegionFns

noncomputable section

namespace Cert.KernelIdeal.Hand

open Idealize.ShloMosaic Idealize.ShloMosaic.ValueIdx Cert.KernelIdeal.Val
open scoped BigOperators

/-- Edge block s's share of node nd, feature q: the message rows of the block whose destination word is nd. -/
def contribS (dp : (⟨2, ![851968, 1]⟩ : Shape).Idx → BitVec 32) (mm : (⟨2, ![851968, 64]⟩ : Shape).Idx → EReal) (s : ℕ) (hs : s < 208) (nd : ℕ) (q : Fin 64) : EReal :=
  ∑ r : Fin 4096, (if dp (ix2 ⟨s * 4096 + r.val, by have := r.isLt; omega⟩ 0) = BitVec.ofNat 32 nd then (1 : EReal) else 0)
    * mm (ix2 ⟨s * 4096 + r.val, by have := r.isLt; omega⟩ q)

theorem contribS_congr (dp : (⟨2, ![851968, 1]⟩ : Shape).Idx → BitVec 32) (mm : (⟨2, ![851968, 64]⟩ : Shape).Idx → EReal) (s s' : ℕ) (hs : s < 208) (hs' : s' < 208)
    (nd nd' : ℕ) (es : s = s') (en : nd = nd') (q : Fin 64) : contribS dp mm s hs nd q = contribS dp mm s' hs' nd' q := by
  subst es; subst en; rfl

/-- The share of grid point n (node tile n / 208, edge block n % 208) at index i of the tile's block. -/
def shareS (dp : (⟨2, ![851968, 1]⟩ : Shape).Idx → BitVec 32) (mm : (⟨2, ![851968, 64]⟩ : Shape).Idx → EReal) (n : ℕ) (i : (⟨2, ![2000, 64]⟩ : Shape).Idx) : EReal :=
  contribS dp mm (n % 208) (Nat.mod_lt n (by decide)) (n / 208 * 2000 + (i 0).val) (i 1)

/-- The scaled sum of the shares of a node tile's 208 points, at an index of the output array that sits in the tile
    at row p and column q, is the output function there. -/
theorem scatter_point (dp : (⟨2, ![851968, 1]⟩ : Shape).Idx → BitVec 32) (mm : (⟨2, ![851968, 64]⟩ : Shape).Idx → EReal) (ni : (⟨2, ![50000, 1]⟩ : Shape).Idx → EReal)
    (T : ℕ) (p : Fin 2000) (q : Fin 64) (nrm : EReal) (k : (⟨2, ![50000, 64]⟩ : Shape).Idx)
    (hk0 : (k 0).val = T * 2000 + p.val) (hk1 : (k 1).val = q.val) (hn : nrm = ni (ix2 (k 0) 0)) :
    (0 + ∑ s ∈ Finset.range 208, shareS dp mm (208 * T + s) (ix2 p q)) * nrm = scatterArr dp mm ni k := by
  obtain ⟨a, b, rfl⟩ : ∃ (a : Fin 50000) (b : Fin 64), k = ix2 a b := ⟨k 0, k 1, eq_ix2 k⟩
  subst hn
  have hb : b = q := Fin.ext hk1
  subst hb
  have h0 : a.val = T * 2000 + p.val := hk0
  unfold scatterArr
  refine congrArg (fun z => (0 + z) * ni (ix2 a 0)) ?_
  rw [Finset.sum_range]
  refine Finset.sum_congr rfl fun s _ => ?_
  have hs := s.isLt
  unfold shareS
  refine (contribS_congr dp mm _ s.val _ s.isLt _ a.val (by omega)
    (by rw [show (208 * T + s.val) / 208 = T from by omega]; exact h0.symm) _).trans ?_
  rfl

end Cert.KernelIdeal.Hand

end
-- ==== Proof.KI.S1Array.lean ====
/-
  Region 1 (the scatter kernel) at the extended reals: its output array as one function of the three input arrays.
  Row n of the output is the sum, over the 208 edge blocks of 4096 edges, of the message rows whose destination
  word is n, times the norm of node n: each edge block adds its share to the accumulator of n's node tile, and the
  tile's last edge block scales the accumulator by the norms and writes the block back.
-/
import proofs.«118646_j60988535603568_1_alg».proof.Proof.KI.S1Blocks
import proofs.«118646_j60988535603568_1_alg».proof.Proof.KI.PayScatter
import proofs.«118646_j60988535603568_1_alg».proof.Proof.KI.RegionFns
import proofs.«118646_j60988535603568_1_alg».proof.Proof.KI.SCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Val
open scoped BigOperators

section Region1

variable (V : (c : Dev nD) → (b : Ref sig .tc) → Buf (Elt Ideal) ((c : Thread nD τ).loc b))

/-- One accumulation step at point n adds the point's share. -/
theorem step1_apply (c : Dev nD) (n : ℕ) (hb : n < cfg1.N) (acc : Vec Ideal S2000x64 .f32) (p : Fin 2000) (q : Fin 64) :
    step1 V c n hb acc (ix2 p q) = acc (ix2 p q)
      + shareS (V c main_v29 : S851968x1.Idx → BitVec 32) (V c main_v35 : S851968x64.Idx → EReal) n (ix2 p q) := by
  have eg0 : ((grid1.coords (⟨n, hb⟩ : Fin cfg1.N)) 0).val = n / 208 := (idx_facts1 ⟨n, hb⟩).2.2.2.2.2.2.2.2.1
  have hm : n % 208 < 208 := Nat.mod_lt n (by decide)
  unfold step1 shareS contribS
  refine (k1_pay2_apply (grid1.coords (⟨n, hb⟩ : Fin cfg1.N)) (iblk1 V c 0 ⟨n, hb⟩) acc (iblk1 V c 1 ⟨n, hb⟩) p q).trans ?_
  refine congrArg (fun z => acc (ix2 p q) + z) ?_
  refine Finset.sum_congr rfl fun r _ => ?_
  have hr := r.isLt
  rw [iblk1_0_apply V c ⟨n, hb⟩ r (ix2 ⟨(n % 208) * 4096 + r.val, by omega⟩ 0) rfl,
    iblk1_1_apply V c ⟨n, hb⟩ r q (ix2 ⟨(n % 208) * 4096 + r.val, by omega⟩ q) rfl rfl, eg0] <;> rfl

/-- WHAT THE ACCUMULATOR HOLDS after point t, at an index: the sum of the shares of the points of t's node tile up to t. -/
theorem acc1_apply (c : Dev nD) (t : Fin cfg1.N) (i : S2000x64.Idx) :
    (outsAt1 V c t.val t.isLt).2 i = 0 + ∑ s ∈ Finset.range (t.val % 208 + 1),
      shareS (V c main_v29 : S851968x1.Idx → BitVec 32) (V c main_v35 : S851968x64.Idx → EReal) (208 * (t.val / 208) + s) i := by
  rw [soutsAt1_eq]
  exact Pipeline.accAt_add_apply (ι := S2000x64.Idx) (β := EReal) (fun n h => step1 V c n h (k1_pay1 (F := Ideal))) (step1 V c) (fun _ => 0)
    (shareS (V c main_v29 : S851968x1.Idx → BitVec 32) (V c main_v35 : S851968x64.Idx → EReal)) (208 * (t.val / 208)) (t.val % 208)
    (fun h i => by
      obtain ⟨p, q, rfl⟩ : ∃ (p : Fin 2000) (q : Fin 64), i = ix2 p q := ⟨i 0, i 1, eq_ix2 i⟩
      (try dsimp only)
      rw [step1_apply, k1_pay1_apply])
    (fun n h acc i _ _ => by
      obtain ⟨p, q, rfl⟩ : ∃ (p : Fin 2000) (q : Fin 64), i = ix2 p q := ⟨i 0, i 1, eq_ix2 i⟩
      (try dsimp only)
      rw [step1_apply])
    (t.val % 208) le_rfl _ i

/-- WHAT A WRITE-BACK WRITES: at the last edge block of a node tile, the tile's block of the output function. -/
theorem flushed1_eq (c : Dev nD) (t : Fin cfg1.N) (hf : (cfg1.win 3).flush t = true) :
    (dat1 V c).flushed 3 t = ((cfg1.win 3).blk t).view.read (Elt Ideal)
      (scatterArr (V c main_v29) (V c main_v35) (V c main_v32)) := by
  have h1 : t.val % 208 = 207 := (flush1_3 t).mp hf
  show (cfg1.win 3).cut (grid1.coords t) ((dat1 V c).after 3 t) = _
  rw [out1_last V c t h1]
  funext y
  obtain ⟨p, q, rfl⟩ : ∃ (p : Fin 2000) (q : Fin 64), y = ix2 p q := ⟨y 0, y 1, eq_ix2 (n0 := 2000) (n1 := 64) y⟩
  rw [View.read_apply]
  obtain ⟨e0, e1⟩ := oblk1_emb t (ix2 p q)
  refine (k1_pay3_apply ((outsAt1 V c t.val t.isLt).2) (iblk1 V c 2 t) p q).trans ?_
  rw [acc1_apply V c t (ix2 p q), h1]
  exact scatter_point (V c main_v29) (V c main_v35) (V c main_v32) (t.val / 208) p q _ _ e0 e1
    (iblk1_2_apply V c t p (ix2 ((((cfg1.win 3).blk t).view.emb (ix2 p q) : S50000x64.Idx) 0) 0) e0)

/-- THE OUTPUT ARRAY after the region: the output function of the three input arrays as the region finds them. -/
theorem arr1 (c : Dev nD) :
    (dat1 (F := Ideal) V c).arrAt 3 cfg1.N = scatterArr (V c main_v29) (V c main_v35) (V c main_v32) :=
  (dat1 V c).arrAt_eq_of_cover 3 _ (flushed1_eq V c) cover1

end Region1

end Cert.KernelIdeal.Hand

end
-- ==== Proof.KI.S3Val.lean ====
/-
  Region 3 (the scatter kernel): what the accumulator and the output's staging buffer hold, in closed form.
  Each case's stores are whole-buffer stores, so what a case leaves is its last stored payload: the zero
  fill followed by one accumulation step at the first edge block, one accumulation step at every later edge
  block, and at the last edge block the output is the accumulator scaled by the node norms. After point t the
  accumulator is therefore the fold of the accumulation step over the edge blocks of t's node tile up to t,
  started from the zero fill.
-/
import proofs.«118646_j60988535603568_1_alg».proof.Proof.KI.S3Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros3 : (![0, 0] : Fin 2 → Nat) = fun _ => 0 := funext fun a => by fin_cases a <;> rfl

/-! ## What each case leaves, as payloads -/

/-- The first edge block: the zero fill, then one accumulation step over it. -/
theorem sout3_A_0_eq (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond3_0 i) (hc1 : ¬cond3_1 i)
    (x0 : Vec F S4096x1 .i32) (x1 : Vec F S4096x64 .bf16) (x2 : Vec F S2000x1 .f32) :
    sout3_A_0 c i arg2 harg2 arg3 harg3 arg4 harg4 arg5 harg5 arg6 harg6 hc0 hc1 x0 x1 x2 = k3_pay2 i x0 (k3_pay1 (F := F)) x1 := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  try sl_unfold_words
  rw [View.canon_cons_unit_zero zeros3]
  rw [View.readCov_unit_zero (S := S2000x64) _ zeros3]
  simp only [View.readAt_eq_ld, harg2.read_unread, harg3.read_unread, View.ld_unit_zero (S := S4096x1) zeros3, View.ld_unit_zero (S := S4096x64) zeros3, View.ld_unit_zero (S := S2000x64) zeros3, View.ld_unit_zero (S := S2000x1) zeros3]

/-- A middle edge block: one accumulation step over what the accumulator held. -/
theorem sout3_B_0_eq (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : ¬cond3_1 i)
    (x0 : Vec F S4096x1 .i32) (x1 : Vec F S4096x64 .bf16) (x2 : Vec F S2000x1 .f32) (xs0 : Vec F S2000x64 .f32) :
    sout3_B_0 c i arg2 harg2 arg3 harg3 arg4 harg4 arg5 harg5 arg6 harg6 hc0 hc1 x0 x1 x2 xs0 = k3_pay2 i x0 xs0 x1 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  try sl_unfold_words
  rw [View.canon_unit_zero zeros3]
  simp only [View.readAt_eq_ld, harg2.read_unread, harg3.read_unread, harg6.read_unread, View.ld_unit_zero (S := S4096x1) zeros3, View.ld_unit_zero (S := S4096x64) zeros3, View.ld_unit_zero (S := S2000x64) zeros3, View.ld_unit_zero (S := S2000x1) zeros3]

/-- The last edge block: one accumulation step over what the accumulator held. -/
theorem sout3_C_0_eq (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) :
    sout3_C_0 c i arg2 harg2 arg3 harg3 arg4 harg4 arg5 harg5 arg6 harg6 hc0 hc1 x0 x1 x2 xs0 = k3_pay2 i x0 xs0 x1 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  try sl_unfold_words
  rw [View.canon_unit_zero zeros3]
  simp only [View.readAt_eq_ld, harg2.read_unread, harg3.read_unread, harg6.read_unread, View.ld_unit_zero (S := S4096x1) zeros3, View.ld_unit_zero (S := S4096x64) zeros3, View.ld_unit_zero (S := S2000x64) zeros3, View.ld_unit_zero (S := S2000x1) zeros3]

/-- The last edge block's output: the accumulator after its step, scaled row by row by the node norms. -/
theorem out3_C_3_eq (c : Dev nD) (i : grid3.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond3_0 i) (hc1 : cond3_1 i)
    (x0 : Vec F S4096x1 .i32) (x1 : Vec F S4096x64 .bf16) (x2 : Vec F S2000x1 .f32) (xs0 : Vec F S2000x64 .f32) :
    out3_C_3 c i arg2 harg2 arg3 harg3 arg4 harg4 arg5 harg5 arg6 harg6 hc0 hc1 x0 x1 x2 xs0 = k3_pay3 (k3_pay2 i x0 xs0 x1) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  try sl_unfold_words
  rw [View.canon_unit_zero zeros3, View.readCov_unit_zero (S := S2000x64) _ zeros3]
  simp only [View.readAt_eq_ld, harg2.read_unread, harg3.read_unread, harg4.read_unread, harg6.read_unread, View.ld_unit_zero (S := S4096x1) zeros3, View.ld_unit_zero (S := S4096x64) zeros3, View.ld_unit_zero (S := S2000x64) zeros3, View.ld_unit_zero (S := S2000x1) zeros3]

section Region3

variable (V : (c : Dev nD) → (b : Ref sig .tc) → Buf (Elt F) ((c : Thread nD τ).loc b))

/-- One accumulation step at point n over the accumulator acc: the one-hot of the destination block against node tile
    (n / 208), transposed, times the message block, added to acc. -/
def step3 (c : Dev nD) (n : ℕ) (hb : n < cfg3.N) (acc : Vec F S2000x64 .f32) : Vec F S2000x64 .f32 :=
  k3_pay2 (grid3.coords (⟨n, hb⟩ : Fin cfg3.N)) (iblk3 V c 0 (⟨n, hb⟩ : Fin cfg3.N)) acc (iblk3 V c 1 (⟨n, hb⟩ : Fin cfg3.N))

/-- WHAT THE ACCUMULATOR HOLDS after point t: the fold of the accumulation step over the points of t's node tile up to t
    (from point 208·(t / 208), the tile's first edge block), started from the zero fill. -/
theorem soutsAt3_eq (c : Dev nD) (t : Fin cfg3.N) :
    (outsAt3 V c t.val t.isLt).2 = Pipeline.accAt (fun n h => step3 V c n h (k3_pay1 (F := F))) (step3 V c) (208 * (t.val / 208)) (t.val % 208)
      (by have h1 := t.isLt; have h2 := Nat.div_add_mod t.val 208; omega) :=
  Pipeline.eq_accAt_of_mod (fun n h => (outsAt3 V c n h).2) 208 (fun n h => step3 V c n h (k3_pay1 (F := F))) (step3 V c)
    (fun n h hn => by
      have h1 : ¬n % 208 = 207 := by omega
      rw [outsAt3_A V c ⟨n, h⟩ hn h1]; dsimp only; rw [sout3_A_0_eq]; rfl)
    (fun n h hn => by
      by_cases h1 : (n + 1) % 208 = 207
      · rw [outsAt3_C V c ⟨n + 1, h⟩ hn h1]; dsimp only; rw [sout3_C_0_eq]; rfl
      · rw [outsAt3_B V c ⟨n + 1, h⟩ hn h1]; dsimp only; rw [sout3_B_0_eq]; rfl)
    (by decide) t.val t.isLt _

/-- WHAT THE OUTPUT'S STAGING BUFFER HOLDS after the last edge block of a node tile (the one point that writes it
    back): the accumulator after that point, scaled row by row by the tile's node norms. -/
theorem out3_last (c : Dev nD) (t : Fin cfg3.N) (h1 : t.val % 208 = 207) :
    (dat3 V c).after 3 t = k3_pay3 ((outsAt3 V c t.val t.isLt).2) (iblk3 V c 2 t) := by
  have h0 : ¬t.val % 208 = 0 := by omega
  rw [after3_3, outsAt3_C V c t h0 h1]; dsimp only; rw [out3_C_3_eq, sout3_C_0_eq]

end Region3

end Cert.KernelIdeal.Hand

end
-- ==== Proof.KI.S3Blocks.lean ====
/-
  Region 3 (the scatter kernel): where its windows' blocks sit in their arrays.
  At point t (node tile t / 208, edge block t % 208) the destination block and the message block are rows
  (t % 208) * 4096 … + 4095 of their arrays, the norm block and the output block are rows (t / 208) * 2000 … + 1999
  of theirs; the output block is written back at the tile's last edge block, and the 25 tiles' blocks tile the output.
-/
import proofs.«118646_j60988535603568_1_alg».proof.Proof.KI.S3Val
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps and the grid coordinates, decided over the grid. -/
theorem idx_facts3 : ∀ t : Fin cfg3.N,
    win3_0.index t (0 : Fin 2) = t.val % 208 ∧ win3_0.index t (1 : Fin 2) = 0
    ∧ win3_1.index t (0 : Fin 2) = t.val % 208 ∧ win3_1.index t (1 : Fin 2) = 0
    ∧ win3_2.index t (0 : Fin 2) = t.val / 208 ∧ win3_2.index t (1 : Fin 2) = 0
    ∧ win3_3.index t (0 : Fin 2) = t.val / 208 ∧ win3_3.index t (1 : Fin 2) = 0
    ∧ ((grid3.coords t) 0).val = t.val / 208 ∧ ((grid3.coords t) 1).val = t.val % 208 :=
  (by decide +kernel : ∀ t : Fin grid3.N, _)

section Region3

variable (V : (c : Dev nD) → (b : Ref sig .tc) → Buf (Elt F) ((c : Thread nD τ).loc b))

/-- The destination block at point t is rows (t % 208) * 4096 … of the destination array. -/
theorem iblk3_0_apply (c : Dev nD) (t : Fin cfg3.N) (r : Fin 4096) (k : S851968x1.Idx)
    (hk0 : (k 0).val = (t.val % 208) * 4096 + r.val) :
    (iblk3 V c 0 t : Vec F S4096x1 .i32) (ix2 r 0) = (V c main_v29 : S851968x1.Idx → Elt F .i32) k := by
  obtain ⟨e00, e01, -⟩ := idx_facts3 t
  unfold iblk3
  rw [View.read_apply]
  show V c main_v29 _ = V c main_v29 _
  congr 1
  funext a
  apply Fin.ext
  match a with
  | ⟨0, _⟩ => show win3_0.index t 0 * 4096 + 1 * r.val = (k 0).val; rw [e00, hk0]; omega
  | ⟨1, _⟩ => show win3_0.index t 1 * 1 + 1 * 0 = (k 1).val; rw [e01]; have hk1 : (k 1).val < 1 := (k 1).isLt; omega

/-- The message block at point t is rows (t % 208) * 4096 … of the message array. -/
theorem iblk3_1_apply (c : Dev nD) (t : Fin cfg3.N) (r : Fin 4096) (f : Fin 64) (k : S851968x64.Idx)
    (hk0 : (k 0).val = (t.val % 208) * 4096 + r.val) (hk1 : (k 1).val = f.val) :
    (iblk3 V c 1 t : Vec F S4096x64 .bf16) (ix2 r f) = (V c main_v42 : S851968x64.Idx → Elt F .bf16) k := by
  obtain ⟨-, -, e10, e11, -⟩ := idx_facts3 t
  unfold iblk3
  rw [View.read_apply]
  show V c main_v42 _ = V c main_v42 _
  congr 1
  funext a
  apply Fin.ext
  match a with
  | ⟨0, _⟩ => show win3_1.index t 0 * 4096 + 1 * r.val = (k 0).val; rw [e10, hk0]; omega
  | ⟨1, _⟩ => show win3_1.index t 1 * 64 + 1 * f.val = (k 1).val; rw [e11, hk1]; omega

/-- The norm block at point t is rows (t / 208) * 2000 … of the norm array. -/
theorem iblk3_2_apply (c : Dev nD) (t : Fin cfg3.N) (j : Fin 2000) (k : S50000x1.Idx)
    (hk0 : (k 0).val = (t.val / 208) * 2000 + j.val) :
    (iblk3 V c 2 t : Vec F S2000x1 .f32) (ix2 j 0) = (V c main_v32 : S50000x1.Idx → Elt F .f32) k := by
  obtain ⟨-, -, -, -, e20, e21, -⟩ := idx_facts3 t
  unfold iblk3
  rw [View.read_apply]
  show V c main_v32 _ = V c main_v32 _
  congr 1
  funext a
  apply Fin.ext
  match a with
  | ⟨0, _⟩ => show win3_2.index t 0 * 2000 + 1 * j.val = (k 0).val; rw [e20, hk0]; omega
  | ⟨1, _⟩ => show win3_2.index t 1 * 1 + 1 * 0 = (k 1).val; rw [e21]; have hk1 : (k 1).val < 1 := (k 1).isLt; omega

/-- An element of the output block at point t sits in the output array at row (t / 208) * 2000 + its row, same column. -/
theorem oblk3_emb (t : Fin cfg3.N) (y : S2000x64.Idx) :
    ((((cfg3.win 3).blk t).view.emb y : S50000x64.Idx) 0).val = (t.val / 208) * 2000 + (y 0).val
    ∧ ((((cfg3.win 3).blk t).view.emb y : S50000x64.Idx) 1).val = (y 1).val := by
  obtain ⟨-, -, -, -, -, -, e30, e31, -⟩ := idx_facts3 t
  constructor
  · show win3_3.index t 0 * 2000 + 1 * (y 0).val = _; rw [e30]; omega
  · show win3_3.index t 1 * 64 + 1 * (y 1).val = _; rw [e31]; omega

/-- An index of the output array is in point t's block iff each coordinate is in the block's range on its axis. -/
theorem mem_oblk3 (t : Fin cfg3.N) (i : S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v43).slice (win3_3.rect t)).set ↔ _
  rw [View.set_slice_whole, Rect.mem_set_unit]
  exact Iff.rfl

/-- Every index of the output array is in the block of its node tile's last point, which writes the block back. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 5200 := N_3
  let t : Fin cfg3.N := ⟨(i 0).val / 2000 * 208 + 207, by rw [hN]; omega⟩
  have htv : t.val = (i 0).val / 2000 * 208 + 207 := rfl
  obtain ⟨-, -, -, -, -, -, e30, e31, -⟩ := idx_facts3 t
  refine ⟨t, (flush3_3 t).mpr (by rw [htv]; omega), ?_⟩
  rw [mem_oblk3]
  intro a
  match a with
  | ⟨0, _⟩ => show win3_3.index t 0 * 2000 ≤ (i 0).val ∧ (i 0).val < win3_3.index t 0 * 2000 + 2000; rw [e30, htv]; omega
  | ⟨1, _⟩ => show win3_3.index t 1 * 64 ≤ (i 1).val ∧ (i 1).val < win3_3.index t 1 * 64 + 64; rw [e31]; omega

end Region3

end Cert.KernelIdeal.Hand

end
-- ==== Proof.KI.PayBridge3.lean ====
/-
  The scatter kernel of launch 1 again, at launch 3: its three stored values are the same functions of the
  same arguments (the two launches' grids have the same bounds), so each value read at an index is launch 1's.
-/
import proofs.«118646_j60988535603568_1_alg».proof.Proof.KI.PayScatter

noncomputable section

namespace Cert.KernelIdeal.Hand

open Cert.KernelIdeal Cert.KernelIdeal.Gen Cert.KernelIdeal.Val
open Idealize.ShloMosaic Idealize.ShloMosaic.ValueIdx
open scoped BigOperators

/-- The zero fill reads 0 at every index. -/
theorem sc3_pay1_apply (j : S2000x64.Idx) : Gen.k3_pay1 (F := Ideal) j = 0 :=
  k1_pay1_apply j

/-- The accumulation step at (j, f): the accumulator there plus column j of the 0/1 matrix against column f of the
    message block. -/
theorem sc3_pay2_apply (i : grid3.Coords) (d : Vec Ideal S4096x1 .i32) (acc : Vec Ideal S2000x64 .f32) (mb : Vec Ideal S4096x64 .bf16)
    (j : Fin 2000) (f : Fin 64) :
    Gen.k3_pay2 (F := Ideal) i d acc mb (ix2 j f)
      = acc (ix2 j f) + ∑ r : Fin 4096, (if d (ix2 r 0) = BitVec.ofNat 32 ((i 0).val * 2000 + j.val) then (1 : EReal) else 0) * mb (ix2 r f) :=
  k1_pay2_apply i d acc mb j f

/-- The scaling step: row j of the accumulator times the j-th norm. -/
theorem sc3_pay3_apply (acc : Vec Ideal S2000x64 .f32) (nrm : Vec Ideal S2000x1 .f32) (j : Fin 2000) (f : Fin 64) :
    Gen.k3_pay3 (F := Ideal) acc nrm (ix2 j f) = acc (ix2 j f) * nrm (ix2 j 0) :=
  k1_pay3_apply acc nrm j f

end Cert.KernelIdeal.Hand

end
-- ==== Proof.KI.S3Array.lean ====
/-
  Region 3 (the scatter kernel) at the extended reals: its output array as one function of the three input arrays.
  Row n of the output is the sum, over the 208 edge blocks of 4096 edges, of the message rows whose destination
  word is n, times the norm of node n: each edge block adds its share to the accumulator of n's node tile, and the
  tile's last edge block scales the accumulator by the norms and writes the block back.
-/
import proofs.«118646_j60988535603568_1_alg».proof.Proof.KI.S3Blocks
import proofs.«118646_j60988535603568_1_alg».proof.Proof.KI.PayBridge3
import proofs.«118646_j60988535603568_1_alg».proof.Proof.KI.RegionFns
import proofs.«118646_j60988535603568_1_alg».proof.Proof.KI.SCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Val
open scoped BigOperators

section Region3

variable (V : (c : Dev nD) → (b : Ref sig .tc) → Buf (Elt Ideal) ((c : Thread nD τ).loc b))

/-- One accumulation step at point n adds the point's share. -/
theorem step3_apply (c : Dev nD) (n : ℕ) (hb : n < cfg3.N) (acc : Vec Ideal S2000x64 .f32) (p : Fin 2000) (q : Fin 64) :
    step3 V c n hb acc (ix2 p q) = acc (ix2 p q)
      + shareS (V c main_v29 : S851968x1.Idx → BitVec 32) (V c main_v42 : S851968x64.Idx → EReal) n (ix2 p q) := by
  have eg0 : ((grid3.coords (⟨n, hb⟩ : Fin cfg3.N)) 0).val = n / 208 := (idx_facts3 ⟨n, hb⟩).2.2.2.2.2.2.2.2.1
  have hm : n % 208 < 208 := Nat.mod_lt n (by decide)
  unfold step3 shareS contribS
  refine (sc3_pay2_apply (grid3.coords (⟨n, hb⟩ : Fin cfg3.N)) (iblk3 V c 0 ⟨n, hb⟩) acc (iblk3 V c 1 ⟨n, hb⟩) p q).trans ?_
  refine congrArg (fun z => acc (ix2 p q) + z) ?_
  refine Finset.sum_congr rfl fun r _ => ?_
  have hr := r.isLt
  rw [iblk3_0_apply V c ⟨n, hb⟩ r (ix2 ⟨(n % 208) * 4096 + r.val, by omega⟩ 0) rfl,
    iblk3_1_apply V c ⟨n, hb⟩ r q (ix2 ⟨(n % 208) * 4096 + r.val, by omega⟩ q) rfl rfl, eg0] <;> rfl

/-- WHAT THE ACCUMULATOR HOLDS after point t, at an index: the sum of the shares of the points of t's node tile up to t. -/
theorem acc3_apply (c : Dev nD) (t : Fin cfg3.N) (i : S2000x64.Idx) :
    (outsAt3 V c t.val t.isLt).2 i = 0 + ∑ s ∈ Finset.range (t.val % 208 + 1),
      shareS (V c main_v29 : S851968x1.Idx → BitVec 32) (V c main_v42 : S851968x64.Idx → EReal) (208 * (t.val / 208) + s) i := by
  rw [soutsAt3_eq]
  exact Pipeline.accAt_add_apply (ι := S2000x64.Idx) (β := EReal) (fun n h => step3 V c n h (k3_pay1 (F := Ideal))) (step3 V c) (fun _ => 0)
    (shareS (V c main_v29 : S851968x1.Idx → BitVec 32) (V c main_v42 : S851968x64.Idx → EReal)) (208 * (t.val / 208)) (t.val % 208)
    (fun h i => by
      obtain ⟨p, q, rfl⟩ : ∃ (p : Fin 2000) (q : Fin 64), i = ix2 p q := ⟨i 0, i 1, eq_ix2 i⟩
      (try dsimp only)
      rw [step3_apply, sc3_pay1_apply])
    (fun n h acc i _ _ => by
      obtain ⟨p, q, rfl⟩ : ∃ (p : Fin 2000) (q : Fin 64), i = ix2 p q := ⟨i 0, i 1, eq_ix2 i⟩
      (try dsimp only)
      rw [step3_apply])
    (t.val % 208) le_rfl _ i

/-- WHAT A WRITE-BACK WRITES: at the last edge block of a node tile, the tile's block of the output function. -/
theorem flushed3_eq (c : Dev nD) (t : Fin cfg3.N) (hf : (cfg3.win 3).flush t = true) :
    (dat3 V c).flushed 3 t = ((cfg3.win 3).blk t).view.read (Elt Ideal)
      (scatterArr (V c main_v29) (V c main_v42) (V c main_v32)) := by
  have h1 : t.val % 208 = 207 := (flush3_3 t).mp hf
  show (cfg3.win 3).cut (grid3.coords t) ((dat3 V c).after 3 t) = _
  rw [out3_last V c t h1]
  funext y
  obtain ⟨p, q, rfl⟩ : ∃ (p : Fin 2000) (q : Fin 64), y = ix2 p q := ⟨y 0, y 1, eq_ix2 (n0 := 2000) (n1 := 64) y⟩
  rw [View.read_apply]
  obtain ⟨e0, e1⟩ := oblk3_emb t (ix2 p q)
  refine (sc3_pay3_apply ((outsAt3 V c t.val t.isLt).2) (iblk3 V c 2 t) p q).trans ?_
  rw [acc3_apply V c t (ix2 p q), h1]
  exact scatter_point (V c main_v29) (V c main_v42) (V c main_v32) (t.val / 208) p q _ _ e0 e1
    (iblk3_2_apply V c t p (ix2 ((((cfg3.win 3).blk t).view.emb (ix2 p q) : S50000x64.Idx) 0) 0) e0)

/-- THE OUTPUT ARRAY after the region: the output function of the three input arrays as the region finds them. -/
theorem arr3 (c : Dev nD) :
    (dat3 (F := Ideal) V c).arrAt 3 cfg3.N = scatterArr (V c main_v29) (V c main_v42) (V c main_v32) :=
  (dat3 V c).arrAt_eq_of_cover 3 _ (flushed3_eq V c) cover3

end Region3

end Cert.KernelIdeal.Hand

end
-- ==== Proof.KI.S5Val.lean ====
/-
  Region 5 (the scatter kernel): what the accumulator and the output's staging buffer hold, in closed form.
  Each case's stores are whole-buffer stores, so what a case leaves is its last stored payload: the zero
  fill followed by one accumulation step at the first edge block, one accumulation step at every later edge
  block, and at the last edge block the output is the accumulator scaled by the node norms. After point t the
  accumulator is therefore the fold of the accumulation step over the edge blocks of t's node tile up to t,
  started from the zero fill.
-/
import proofs.«118646_j60988535603568_1_alg».proof.Proof.KI.S5Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros5 : (![0, 0] : Fin 2 → Nat) = fun _ => 0 := funext fun a => by fin_cases a <;> rfl

/-! ## What each case leaves, as payloads -/

/-- The first edge block: the zero fill, then one accumulation step over it. -/
theorem sout5_A_0_eq (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : cond5_0 i) (hc1 : ¬cond5_1 i)
    (x0 : Vec F S4096x1 .i32) (x1 : Vec F S4096x64 .bf16) (x2 : Vec F S2000x1 .f32) :
    sout5_A_0 c i arg2 harg2 arg3 harg3 arg4 harg4 arg5 harg5 arg6 harg6 hc0 hc1 x0 x1 x2 = k5_pay2 i x0 (k5_pay1 (F := F)) x1 := by
  unfold sout5_A_0
  rw [View.read_writes_eq_canon _ _ _ (scover5_A_0 c i arg2 harg2 arg3 harg3 arg4 harg4 arg5 harg5 arg6 harg6 hc0 hc1 x0 x1 x2)]
  unfold kernelRun5_A
  dsimp only
  try sl_unfold_words
  rw [View.canon_cons_unit_zero zeros5]
  rw [View.readCov_unit_zero (S := S2000x64) _ zeros5]
  simp only [View.readAt_eq_ld, harg2.read_unread, harg3.read_unread, View.ld_unit_zero (S := S4096x1) zeros5, View.ld_unit_zero (S := S4096x64) zeros5, View.ld_unit_zero (S := S2000x64) zeros5, View.ld_unit_zero (S := S2000x1) zeros5]

/-- A middle edge block: one accumulation step over what the accumulator held. -/
theorem sout5_B_0_eq (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : ¬cond5_1 i)
    (x0 : Vec F S4096x1 .i32) (x1 : Vec F S4096x64 .bf16) (x2 : Vec F S2000x1 .f32) (xs0 : Vec F S2000x64 .f32) :
    sout5_B_0 c i arg2 harg2 arg3 harg3 arg4 harg4 arg5 harg5 arg6 harg6 hc0 hc1 x0 x1 x2 xs0 = k5_pay2 i x0 xs0 x1 := by
  unfold sout5_B_0
  rw [View.read_writes_eq_canon _ _ _ (scover5_B_0 c i arg2 harg2 arg3 harg3 arg4 harg4 arg5 harg5 arg6 harg6 hc0 hc1 x0 x1 x2 xs0)]
  unfold kernelRun5_B
  dsimp only
  try sl_unfold_words
  rw [View.canon_unit_zero zeros5]
  simp only [View.readAt_eq_ld, harg2.read_unread, harg3.read_unread, harg6.read_unread, View.ld_unit_zero (S := S4096x1) zeros5, View.ld_unit_zero (S := S4096x64) zeros5, View.ld_unit_zero (S := S2000x64) zeros5, View.ld_unit_zero (S := S2000x1) zeros5]

/-- The last edge block: one accumulation step over what the accumulator held. -/
theorem sout5_C_0_eq (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) :
    sout5_C_0 c i arg2 harg2 arg3 harg3 arg4 harg4 arg5 harg5 arg6 harg6 hc0 hc1 x0 x1 x2 xs0 = k5_pay2 i x0 xs0 x1 := by
  unfold sout5_C_0
  rw [View.read_writes_eq_canon _ _ _ (scover5_C_0 c i arg2 harg2 arg3 harg3 arg4 harg4 arg5 harg5 arg6 harg6 hc0 hc1 x0 x1 x2 xs0)]
  unfold kernelRun5_C
  dsimp only
  try sl_unfold_words
  rw [View.canon_unit_zero zeros5]
  simp only [View.readAt_eq_ld, harg2.read_unread, harg3.read_unread, harg6.read_unread, View.ld_unit_zero (S := S4096x1) zeros5, View.ld_unit_zero (S := S4096x64) zeros5, View.ld_unit_zero (S := S2000x64) zeros5, View.ld_unit_zero (S := S2000x1) zeros5]

/-- The last edge block's output: the accumulator after its step, scaled row by row by the node norms. -/
theorem out5_C_3_eq (c : Dev nD) (i : grid5.Coords) (arg2 : Memref sig .tc .vmem S4096x1 .i32) (harg2 : arg2.IsWhole) (arg3 : Memref sig .tc .vmem S4096x64 .bf16) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x64 .f32) (harg6 : arg6.IsWhole) (hc0 : ¬cond5_0 i) (hc1 : cond5_1 i)
    (x0 : Vec F S4096x1 .i32) (x1 : Vec F S4096x64 .bf16) (x2 : Vec F S2000x1 .f32) (xs0 : Vec F S2000x64 .f32) :
    out5_C_3 c i arg2 harg2 arg3 harg3 arg4 harg4 arg5 harg5 arg6 harg6 hc0 hc1 x0 x1 x2 xs0 = k5_pay3 (k5_pay2 i x0 xs0 x1) x2 := by
  unfold out5_C_3
  rw [View.read_writes_eq_canon _ _ _ (cover5_C_3 c i arg2 harg2 arg3 harg3 arg4 harg4 arg5 harg5 arg6 harg6 hc0 hc1 x0 x1 x2 xs0)]
  unfold kernelRun5_C
  dsimp only
  try sl_unfold_words
  rw [View.canon_unit_zero zeros5, View.readCov_unit_zero (S := S2000x64) _ zeros5]
  simp only [View.readAt_eq_ld, harg2.read_unread, harg3.read_unread, harg4.read_unread, harg6.read_unread, View.ld_unit_zero (S := S4096x1) zeros5, View.ld_unit_zero (S := S4096x64) zeros5, View.ld_unit_zero (S := S2000x64) zeros5, View.ld_unit_zero (S := S2000x1) zeros5]

section Region5

variable (V : (c : Dev nD) → (b : Ref sig .tc) → Buf (Elt F) ((c : Thread nD τ).loc b))

/-- One accumulation step at point n over the accumulator acc: the one-hot of the destination block against node tile
    (n / 208), transposed, times the message block, added to acc. -/
def step5 (c : Dev nD) (n : ℕ) (hb : n < cfg5.N) (acc : Vec F S2000x64 .f32) : Vec F S2000x64 .f32 :=
  k5_pay2 (grid5.coords (⟨n, hb⟩ : Fin cfg5.N)) (iblk5 V c 0 (⟨n, hb⟩ : Fin cfg5.N)) acc (iblk5 V c 1 (⟨n, hb⟩ : Fin cfg5.N))

/-- WHAT THE ACCUMULATOR HOLDS after point t: the fold of the accumulation step over the points of t's node tile up to t
    (from point 208·(t / 208), the tile's first edge block), started from the zero fill. -/
theorem soutsAt5_eq (c : Dev nD) (t : Fin cfg5.N) :
    (outsAt5 V c t.val t.isLt).2 = Pipeline.accAt (fun n h => step5 V c n h (k5_pay1 (F := F))) (step5 V c) (208 * (t.val / 208)) (t.val % 208)
      (by have h1 := t.isLt; have h2 := Nat.div_add_mod t.val 208; omega) :=
  Pipeline.eq_accAt_of_mod (fun n h => (outsAt5 V c n h).2) 208 (fun n h => step5 V c n h (k5_pay1 (F := F))) (step5 V c)
    (fun n h hn => by
      have h1 : ¬n % 208 = 207 := by omega
      rw [outsAt5_A V c ⟨n, h⟩ hn h1]; dsimp only; rw [sout5_A_0_eq]; rfl)
    (fun n h hn => by
      by_cases h1 : (n + 1) % 208 = 207
      · rw [outsAt5_C V c ⟨n + 1, h⟩ hn h1]; dsimp only; rw [sout5_C_0_eq]; rfl
      · rw [outsAt5_B V c ⟨n + 1, h⟩ hn h1]; dsimp only; rw [sout5_B_0_eq]; rfl)
    (by decide) t.val t.isLt _

/-- WHAT THE OUTPUT'S STAGING BUFFER HOLDS after the last edge block of a node tile (the one point that writes it
    back): the accumulator after that point, scaled row by row by the tile's node norms. -/
theorem out5_last (c : Dev nD) (t : Fin cfg5.N) (h1 : t.val % 208 = 207) :
    (dat5 V c).after 3 t = k5_pay3 ((outsAt5 V c t.val t.isLt).2) (iblk5 V c 2 t) := by
  have h0 : ¬t.val % 208 = 0 := by omega
  rw [after5_3, outsAt5_C V c t h0 h1]; dsimp only; rw [out5_C_3_eq, sout5_C_0_eq]

end Region5

end Cert.KernelIdeal.Hand

end
-- ==== Proof.KI.S5Blocks.lean ====
/-
  Region 5 (the scatter kernel): where its windows' blocks sit in their arrays.
  At point t (node tile t / 208, edge block t % 208) the destination block and the message block are rows
  (t % 208) * 4096 … + 4095 of their arrays, the norm block and the output block are rows (t / 208) * 2000 … + 1999
  of theirs; the output block is written back at the tile's last edge block, and the 25 tiles' blocks tile the output.
-/
import proofs.«118646_j60988535603568_1_alg».proof.Proof.KI.S5Val
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps and the grid coordinates, decided over the grid. -/
theorem idx_facts5 : ∀ t : Fin cfg5.N,
    win5_0.index t (0 : Fin 2) = t.val % 208 ∧ win5_0.index t (1 : Fin 2) = 0
    ∧ win5_1.index t (0 : Fin 2) = t.val % 208 ∧ win5_1.index t (1 : Fin 2) = 0
    ∧ win5_2.index t (0 : Fin 2) = t.val / 208 ∧ win5_2.index t (1 : Fin 2) = 0
    ∧ win5_3.index t (0 : Fin 2) = t.val / 208 ∧ win5_3.index t (1 : Fin 2) = 0
    ∧ ((grid5.coords t) 0).val = t.val / 208 ∧ ((grid5.coords t) 1).val = t.val % 208 :=
  (by decide +kernel : ∀ t : Fin grid5.N, _)

section Region5

variable (V : (c : Dev nD) → (b : Ref sig .tc) → Buf (Elt F) ((c : Thread nD τ).loc b))

/-- The destination block at point t is rows (t % 208) * 4096 … of the destination array. -/
theorem iblk5_0_apply (c : Dev nD) (t : Fin cfg5.N) (r : Fin 4096) (k : S851968x1.Idx)
    (hk0 : (k 0).val = (t.val % 208) * 4096 + r.val) :
    (iblk5 V c 0 t : Vec F S4096x1 .i32) (ix2 r 0) = (V c main_v29 : S851968x1.Idx → Elt F .i32) k := by
  obtain ⟨e00, e01, -⟩ := idx_facts5 t
  unfold iblk5
  rw [View.read_apply]
  show V c main_v29 _ = V c main_v29 _
  congr 1
  funext a
  apply Fin.ext
  match a with
  | ⟨0, _⟩ => show win5_0.index t 0 * 4096 + 1 * r.val = (k 0).val; rw [e00, hk0]; omega
  | ⟨1, _⟩ => show win5_0.index t 1 * 1 + 1 * 0 = (k 1).val; rw [e01]; have hk1 : (k 1).val < 1 := (k 1).isLt; omega

/-- The message block at point t is rows (t % 208) * 4096 … of the message array. -/
theorem iblk5_1_apply (c : Dev nD) (t : Fin cfg5.N) (r : Fin 4096) (f : Fin 64) (k : S851968x64.Idx)
    (hk0 : (k 0).val = (t.val % 208) * 4096 + r.val) (hk1 : (k 1).val = f.val) :
    (iblk5 V c 1 t : Vec F S4096x64 .bf16) (ix2 r f) = (V c main_v50 : S851968x64.Idx → Elt F .bf16) k := by
  obtain ⟨-, -, e10, e11, -⟩ := idx_facts5 t
  unfold iblk5
  rw [View.read_apply]
  show V c main_v50 _ = V c main_v50 _
  congr 1
  funext a
  apply Fin.ext
  match a with
  | ⟨0, _⟩ => show win5_1.index t 0 * 4096 + 1 * r.val = (k 0).val; rw [e10, hk0]; omega
  | ⟨1, _⟩ => show win5_1.index t 1 * 64 + 1 * f.val = (k 1).val; rw [e11, hk1]; omega

/-- The norm block at point t is rows (t / 208) * 2000 … of the norm array. -/
theorem iblk5_2_apply (c : Dev nD) (t : Fin cfg5.N) (j : Fin 2000) (k : S50000x1.Idx)
    (hk0 : (k 0).val = (t.val / 208) * 2000 + j.val) :
    (iblk5 V c 2 t : Vec F S2000x1 .f32) (ix2 j 0) = (V c main_v32 : S50000x1.Idx → Elt F .f32) k := by
  obtain ⟨-, -, -, -, e20, e21, -⟩ := idx_facts5 t
  unfold iblk5
  rw [View.read_apply]
  show V c main_v32 _ = V c main_v32 _
  congr 1
  funext a
  apply Fin.ext
  match a with
  | ⟨0, _⟩ => show win5_2.index t 0 * 2000 + 1 * j.val = (k 0).val; rw [e20, hk0]; omega
  | ⟨1, _⟩ => show win5_2.index t 1 * 1 + 1 * 0 = (k 1).val; rw [e21]; have hk1 : (k 1).val < 1 := (k 1).isLt; omega

/-- An element of the output block at point t sits in the output array at row (t / 208) * 2000 + its row, same column. -/
theorem oblk5_emb (t : Fin cfg5.N) (y : S2000x64.Idx) :
    ((((cfg5.win 3).blk t).view.emb y : S50000x64.Idx) 0).val = (t.val / 208) * 2000 + (y 0).val
    ∧ ((((cfg5.win 3).blk t).view.emb y : S50000x64.Idx) 1).val = (y 1).val := by
  obtain ⟨-, -, -, -, -, -, e30, e31, -⟩ := idx_facts5 t
  constructor
  · show win5_3.index t 0 * 2000 + 1 * (y 0).val = _; rw [e30]; omega
  · show win5_3.index t 1 * 64 + 1 * (y 1).val = _; rw [e31]; omega

/-- An index of the output array is in point t's block iff each coordinate is in the block's range on its axis. -/
theorem mem_oblk5 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v51).slice (win5_3.rect t)).set ↔ _
  rw [View.set_slice_whole, Rect.mem_set_unit]
  exact Iff.rfl

/-- Every index of the output array is in the block of its node tile's last point, which writes the block back. -/
theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 5200 := N_5
  let t : Fin cfg5.N := ⟨(i 0).val / 2000 * 208 + 207, by rw [hN]; omega⟩
  have htv : t.val = (i 0).val / 2000 * 208 + 207 := rfl
  obtain ⟨-, -, -, -, -, -, e30, e31, -⟩ := idx_facts5 t
  refine ⟨t, (flush5_3 t).mpr (by rw [htv]; omega), ?_⟩
  rw [mem_oblk5]
  intro a
  match a with
  | ⟨0, _⟩ => show win5_3.index t 0 * 2000 ≤ (i 0).val ∧ (i 0).val < win5_3.index t 0 * 2000 + 2000; rw [e30, htv]; omega
  | ⟨1, _⟩ => show win5_3.index t 1 * 64 ≤ (i 1).val ∧ (i 1).val < win5_3.index t 1 * 64 + 64; rw [e31]; omega

end Region5

end Cert.KernelIdeal.Hand

end
-- ==== Proof.KI.PayBridge5.lean ====
/-
  The scatter kernel of launch 1 again, at launch 5: its three stored values are the same functions of the
  same arguments (the two launches' grids have the same bounds), so each value read at an index is launch 1's.
-/
import proofs.«118646_j60988535603568_1_alg».proof.Proof.KI.PayScatter

noncomputable section

namespace Cert.KernelIdeal.Hand

open Cert.KernelIdeal Cert.KernelIdeal.Gen Cert.KernelIdeal.Val
open Idealize.ShloMosaic Idealize.ShloMosaic.ValueIdx
open scoped BigOperators

/-- The zero fill reads 0 at every index. -/
theorem sc5_pay1_apply (j : S2000x64.Idx) : Gen.k5_pay1 (F := Ideal) j = 0 :=
  k1_pay1_apply j

/-- The accumulation step at (j, f): the accumulator there plus column j of the 0/1 matrix against column f of the
    message block. -/
theorem sc5_pay2_apply (i : grid5.Coords) (d : Vec Ideal S4096x1 .i32) (acc : Vec Ideal S2000x64 .f32) (mb : Vec Ideal S4096x64 .bf16)
    (j : Fin 2000) (f : Fin 64) :
    Gen.k5_pay2 (F := Ideal) i d acc mb (ix2 j f)
      = acc (ix2 j f) + ∑ r : Fin 4096, (if d (ix2 r 0) = BitVec.ofNat 32 ((i 0).val * 2000 + j.val) then (1 : EReal) else 0) * mb (ix2 r f) :=
  k1_pay2_apply i d acc mb j f

/-- The scaling step: row j of the accumulator times the j-th norm. -/
theorem sc5_pay3_apply (acc : Vec Ideal S2000x64 .f32) (nrm : Vec Ideal S2000x1 .f32) (j : Fin 2000) (f : Fin 64) :
    Gen.k5_pay3 (F := Ideal) acc nrm (ix2 j f) = acc (ix2 j f) * nrm (ix2 j 0) :=
  k1_pay3_apply acc nrm j f

end Cert.KernelIdeal.Hand

end
-- ==== Proof.KI.S5Array.lean ====
/-
  Region 5 (the scatter kernel) at the extended reals: its output array as one function of the three input arrays.
  Row n of the output is the sum, over the 208 edge blocks of 4096 edges, of the message rows whose destination
  word is n, times the norm of node n: each edge block adds its share to the accumulator of n's node tile, and the
  tile's last edge block scales the accumulator by the norms and writes the block back.
-/
import proofs.«118646_j60988535603568_1_alg».proof.Proof.KI.S5Blocks
import proofs.«118646_j60988535603568_1_alg».proof.Proof.KI.PayBridge5
import proofs.«118646_j60988535603568_1_alg».proof.Proof.KI.RegionFns
import proofs.«118646_j60988535603568_1_alg».proof.Proof.KI.SCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Val
open scoped BigOperators

section Region5

variable (V : (c : Dev nD) → (b : Ref sig .tc) → Buf (Elt Ideal) ((c : Thread nD τ).loc b))

/-- One accumulation step at point n adds the point's share. -/
theorem step5_apply (c : Dev nD) (n : ℕ) (hb : n < cfg5.N) (acc : Vec Ideal S2000x64 .f32) (p : Fin 2000) (q : Fin 64) :
    step5 V c n hb acc (ix2 p q) = acc (ix2 p q)
      + shareS (V c main_v29 : S851968x1.Idx → BitVec 32) (V c main_v50 : S851968x64.Idx → EReal) n (ix2 p q) := by
  have eg0 : ((grid5.coords (⟨n, hb⟩ : Fin cfg5.N)) 0).val = n / 208 := (idx_facts5 ⟨n, hb⟩).2.2.2.2.2.2.2.2.1
  have hm : n % 208 < 208 := Nat.mod_lt n (by decide)
  unfold step5 shareS contribS
  refine (sc5_pay2_apply (grid5.coords (⟨n, hb⟩ : Fin cfg5.N)) (iblk5 V c 0 ⟨n, hb⟩) acc (iblk5 V c 1 ⟨n, hb⟩) p q).trans ?_
  refine congrArg (fun z => acc (ix2 p q) + z) ?_
  refine Finset.sum_congr rfl fun r _ => ?_
  have hr := r.isLt
  rw [iblk5_0_apply V c ⟨n, hb⟩ r (ix2 ⟨(n % 208) * 4096 + r.val, by omega⟩ 0) rfl,
    iblk5_1_apply V c ⟨n, hb⟩ r q (ix2 ⟨(n % 208) * 4096 + r.val, by omega⟩ q) rfl rfl, eg0] <;> rfl

/-- WHAT THE ACCUMULATOR HOLDS after point t, at an index: the sum of the shares of the points of t's node tile up to t. -/
theorem acc5_apply (c : Dev nD) (t : Fin cfg5.N) (i : S2000x64.Idx) :
    (outsAt5 V c t.val t.isLt).2 i = 0 + ∑ s ∈ Finset.range (t.val % 208 + 1),
      shareS (V c main_v29 : S851968x1.Idx → BitVec 32) (V c main_v50 : S851968x64.Idx → EReal) (208 * (t.val / 208) + s) i := by
  rw [soutsAt5_eq]
  exact Pipeline.accAt_add_apply (ι := S2000x64.Idx) (β := EReal) (fun n h => step5 V c n h (k5_pay1 (F := Ideal))) (step5 V c) (fun _ => 0)
    (shareS (V c main_v29 : S851968x1.Idx → BitVec 32) (V c main_v50 : S851968x64.Idx → EReal)) (208 * (t.val / 208)) (t.val % 208)
    (fun h i => by
      obtain ⟨p, q, rfl⟩ : ∃ (p : Fin 2000) (q : Fin 64), i = ix2 p q := ⟨i 0, i 1, eq_ix2 i⟩
      (try dsimp only)
      rw [step5_apply, sc5_pay1_apply])
    (fun n h acc i _ _ => by
      obtain ⟨p, q, rfl⟩ : ∃ (p : Fin 2000) (q : Fin 64), i = ix2 p q := ⟨i 0, i 1, eq_ix2 i⟩
      (try dsimp only)
      rw [step5_apply])
    (t.val % 208) le_rfl _ i

/-- WHAT A WRITE-BACK WRITES: at the last edge block of a node tile, the tile's block of the output function. -/
theorem flushed5_eq (c : Dev nD) (t : Fin cfg5.N) (hf : (cfg5.win 3).flush t = true) :
    (dat5 V c).flushed 3 t = ((cfg5.win 3).blk t).view.read (Elt Ideal)
      (scatterArr (V c main_v29) (V c main_v50) (V c main_v32)) := by
  have h1 : t.val % 208 = 207 := (flush5_3 t).mp hf
  show (cfg5.win 3).cut (grid5.coords t) ((dat5 V c).after 3 t) = _
  rw [out5_last V c t h1]
  funext y
  obtain ⟨p, q, rfl⟩ : ∃ (p : Fin 2000) (q : Fin 64), y = ix2 p q := ⟨y 0, y 1, eq_ix2 (n0 := 2000) (n1 := 64) y⟩
  rw [View.read_apply]
  obtain ⟨e0, e1⟩ := oblk5_emb t (ix2 p q)
  refine (sc5_pay3_apply ((outsAt5 V c t.val t.isLt).2) (iblk5 V c 2 t) p q).trans ?_
  rw [acc5_apply V c t (ix2 p q), h1]
  exact scatter_point (V c main_v29) (V c main_v50) (V c main_v32) (t.val / 208) p q _ _ e0 e1
    (iblk5_2_apply V c t p (ix2 ((((cfg5.win 3).blk t).view.emb (ix2 p q) : S50000x64.Idx) 0) 0) e0)

/-- THE OUTPUT ARRAY after the region: the output function of the three input arrays as the region finds them. -/
theorem arr5 (c : Dev nD) :
    (dat5 (F := Ideal) V c).arrAt 3 cfg5.N = scatterArr (V c main_v29) (V c main_v50) (V c main_v32) :=
  (dat5 V c).arrAt_eq_of_cover 3 _ (flushed5_eq V c) cover5

end Region5

end Cert.KernelIdeal.Hand

end
-- ==== Proof.RefFrame.lean ====
/-
  The reference program's frame: its run ends with every argument array as launched.
  The run itself (every weakly fair execution of the host operations terminates, each result at the
  operations' composed term of the arguments) is the run module's; the frame keeps only its second half.
-/
import proofs.«118646_j60988535603568_1_alg».proof.Defs
import proofs.«118646_j60988535603568_1_alg».proof.Proof.Gen.ReferenceIdeal
import proofs.«118646_j60988535603568_1_alg».proof.Proof.Gen.Pre_finite_inputs
import proofs.«118646_j60988535603568_1_alg».proof.Proof.RefRunP

noncomputable section

namespace Cert.Proof.RefClaims

open Idealize.ShloMosaic Idealize.SL.Sem

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefClaims

end
-- ==== Proof.RefResult.lean ====
/-
  The reference run's result is the network function.

  The run module states the result buffer of the reference program at one composed term of the arguments'
  launch contents; that term is, by unfolding, the last of the stages (one per printed operation), and the last
  stage is the network function of the argument arrays at the reference's own two normalisation vectors.
-/
import proofs.«118646_j60988535603568_1_alg».proof.Proof.RefRunP
import proofs.«118646_j60988535603568_1_alg».proof.Proof.RefValue

noncomputable section

namespace Cert.Proof.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The term the run module names `res_main_v93` is the last stage, for any float values. -/
theorem res_eq_val {F : FTy → Type} [FloatOps F] (m : (ℓ : Loc nD τ sig) → Buf (Elt F) ℓ) (c : Dev nD) :
    Cert.ReferenceIdeal.ValueP.res_main_v93 m c = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v93; rfl

/-- THE REFERENCE'S RESULT IS THE NETWORK: at the ideal values, on every device, the run's result term is the network
    function of the argument arrays' launch contents, at the reference's own per-edge and per-node vectors, when every
    source index is a node. -/
theorem result_eq (m : (ℓ : Loc nD τ sig) → Buf (Elt Ideal) ℓ) (c : Dev nD)
    (hsrc : ∀ e : Fin 850000, 0 ≤ ((m ((c.tc : Thread nD τ).loc main_arg1) : IVec S850000 32) (ix1 e)).toInt
      ∧ ((m ((c.tc : Thread nD τ).loc main_arg1) : IVec S850000 32) (ix1 e)).toInt < 50000) :
    (Cert.ReferenceIdeal.ValueP.res_main_v93 (F := Ideal) m c : S50000x64.Idx → EReal)
      = Cert.Spec.net (m ((c.tc : Thread nD τ).loc main_arg1)) (m ((c.tc : Thread nD τ).loc main_arg2))
          (refNsE (m ((c.tc : Thread nD τ).loc main_arg1))) (refNIn (m ((c.tc : Thread nD τ).loc main_arg2)))
          (m ((c.tc : Thread nD τ).loc main_arg0)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (res_eq_val m c).trans (val_eq_net _ _ _ _ _ _ _ _ _ hsrc)

end Cert.Proof.RefValue

end
-- ==== Proof.PreSrc.lean ====
/-
  The precondition's range fact on the source indices, read back.

  The printed predicate ends with `jnp.all((src ≥ 0) & (src < 50000))`: a reduction by `and`, from the constant 1, of
  the elementwise `and` of the two signed comparisons, itself `and`-ed into the finiteness conjuncts. When the whole
  predicate is 1, that reduction is 1, so every element of the compared array is 1, so both comparisons hold at every
  edge: every source word, read signed, is in `[0, 50000)`.
-/
import proofs.«118646_j60988535603568_1_alg».proof.Pre_finite_inputs
import proofs.«118646_j60988535603568_1_alg».proof.Proof.Gen.Pre_finite_inputs
import Idealize.ShloMosaic.Lib.ReduceAll
import Idealize.ShloMosaic.Lib.ValueIdx

noncomputable section

namespace Cert.Proof.PreSrc

open Cert.Pre_finite_inputs Idealize.ShloMosaic Idealize.ShloMosaic.ValueIdx

/-- The scalar shape has one index. -/
instance : Subsingleton S_.Idx := ⟨fun _ _ => funext fun d => d.elim0⟩

/-- When the printed predicate holds, every source index word, read signed, names a node. -/
theorem src_in_range [Cert.Pre_finite_inputs.Facts] {F : FTy → Type} [FloatOps F]
    (x0 : FVec F S50000x128 .f32) (x1 x2 : IVec S850000 32) (x3 : FVec F S128x64 .f32) (x4 : FVec F S64 .f32)
    (x5 : FVec F S64x64 .f32) (x6 : FVec F S64 .f32) (x7 : FVec F S64x64 .f32) (x8 : FVec F S64 .f32)
    (h : Cert.Pre_finite_inputs.fn (F := F) x0 x1 x2 x3 x4 x5 x6 x7 x8 = fun _ => 1#1) (e : Fin 850000) :
    0 ≤ (x1 (ix1 e)).toInt ∧ (x1 (ix1 e)).toInt < 50000 := by
  have h0 := congrFun h ix0
  dsimp only [fn, fn_part1, fn_part2] at h0
  obtain ⟨-, h39⟩ := IntOp.andi_eq_one.1 h0
  have h38 := Host.reduce_andi_all _ _ _ _ _ h39 (ix1 e)
  obtain ⟨hge, hlt⟩ := IntOp.andi_eq_one.1 h38
  have hge' : (0#32 : BitVec 32).toInt ≤ (x1 (ix1 e)).toInt := IntOp.cmpi_sge.1 hge
  have hlt' : (x1 (ix1 e)).toInt < (50000#32 : BitVec 32).toInt := IntOp.cmpi_slt.1 hlt
  have z : (0#32 : BitVec 32).toInt = 0 := by decide
  have w : (50000#32 : BitVec 32).toInt = 50000 := by decide
  rw [z] at hge'; rw [w] at hlt'
  exact ⟨hge', hlt'⟩

end Cert.Proof.PreSrc

end
-- ==== Proof.RefHalf.lean ====
/-
  The reference's half of the equality of results.

  From a memory that agrees with the kernel program's on the nine argument arrays, under the precondition on the
  kernel program's memory, the reference program runs, leaves its arguments as launched, and ends with its result at
  the network function of the KERNEL program's argument arrays (at the two normalisation vectors, as the reference's
  own operations compute them from those arrays): the precondition gives the range of the source indices, the run
  gives the result as the network function of the reference's own arguments, and the agreement carries the arguments
  over.
-/
import proofs.«118646_j60988535603568_1_alg».proof.Defs
import proofs.«118646_j60988535603568_1_alg».proof.Proof.RefResult
import proofs.«118646_j60988535603568_1_alg».proof.Proof.PreSrc
import proofs.«118646_j60988535603568_1_alg».proof.Proof.Spec

noncomputable section

namespace Cert.Proof.RefValue

open Idealize.ShloMosaic Idealize.ShloMosaic.TcCoe Idealize.SL.Sem Idealize.ShloMosaic.ValueIdx

/-- The network function of the kernel program's argument arrays on device `c`, at the two normalisation vectors the
    reference's operations compute from `src` and `dst`. -/
def netOf (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v58) :=
  (Cert.Spec.net (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (refNsE (m ((c.tc : Thread Cert.KernelIdeal.nD Cert.KernelIdeal.τ).loc Cert.KernelIdeal.main_arg1))) (refNIn (m ((c.tc : Thread Cert.KernelIdeal.nD Cert.KernelIdeal.τ).loc Cert.KernelIdeal.main_arg2)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) : Cert.Spec.SNF.Idx → EReal)

/-- THE REFERENCE'S HALF: the reference runs from `m'`, its arguments end as launched, and its result is `netOf m`. -/
theorem ref_half [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v93) = netOf m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono (fun _ h c => by
    obtain ⟨h0, h1, h2, h3, h4, h5, h6, h7, h8⟩ := hagree c
    have hsrc : ∀ e : Fin 850000,
        0 ≤ ((m' ((c.tc : Thread Cert.ReferenceIdeal.nD Cert.ReferenceIdeal.τ).loc Cert.ReferenceIdeal.main_arg1) : IVec Cert.ReferenceIdeal.S850000 32) (ix1 e)).toInt
        ∧ ((m' ((c.tc : Thread Cert.ReferenceIdeal.nD Cert.ReferenceIdeal.τ).loc Cert.ReferenceIdeal.main_arg1) : IVec Cert.ReferenceIdeal.S850000 32) (ix1 e)).toInt < 50000 := by
      intro e
      rw [h1]
      exact Cert.Proof.PreSrc.src_in_range _ _ _ _ _ _ _ _ _ (hpre c) e
    refine ⟨((h c).1.trans (result_eq m' c hsrc)).trans ?_, (h c).2⟩
    unfold netOf
    rw [h0, h1, h2, h3, h4, h5, h6, h7, h8])
    (Cert.ReferenceIdeal.ValueP.run (F := Ideal) m' g')

end Cert.Proof.RefValue

end
-- ==== Proof.lean ====
/-
  The certificate's claims.

  Both kernel programs launch six kernel regions between stretches of host operations: three pairs of a gather
  kernel (a one-hot matrix of the source words against the node rows, accumulated over 25 node tiles) and a scatter
  kernel (the transposed one-hot matrix of the target words against the messages, accumulated over 208 edge blocks).
  Their frames are the runs of @main as its list of segments, each region's record proved from its own kernel.
  The reference is host operations only. At the ideal values both programs compute the same network: a one-hot
  row against a matrix is the selected row, a one-hot column pattern against a matrix is the sum of the selected
  rows — on the extended reals `0 · x = 0` and `x + 0 = x` for every `x`, so no finiteness is used —, the padding
  rows carry weight `0`, the roundings to bf16 are the identity, and both programs compute the two weight vectors by
  the same host operations. The source words are node indices by the precondition, which makes the reference's
  clamped gather and the kernel's one-hot selection the same row.
-/
import proofs.«118646_j60988535603568_1_alg».proof.Defs
import proofs.«118646_j60988535603568_1_alg».proof.Proof.Gen.Kernel
import proofs.«118646_j60988535603568_1_alg».proof.Proof.Gen.KernelIdeal
import proofs.«118646_j60988535603568_1_alg».proof.Proof.Gen.ReferenceIdeal
import proofs.«118646_j60988535603568_1_alg».proof.Proof.Gen.Pre_finite_inputs
import proofs.«118646_j60988535603568_1_alg».proof.Proof.K.Frames
import proofs.«118646_j60988535603568_1_alg».proof.Proof.KI.Frames
import proofs.«118646_j60988535603568_1_alg».proof.Proof.KI.VC7
import proofs.«118646_j60988535603568_1_alg».proof.Proof.KI.Weights
import proofs.«118646_j60988535603568_1_alg».proof.Proof.KI.G0Array
import proofs.«118646_j60988535603568_1_alg».proof.Proof.KI.G2Array
import proofs.«118646_j60988535603568_1_alg».proof.Proof.KI.G4Array
import proofs.«118646_j60988535603568_1_alg».proof.Proof.KI.S1Array
import proofs.«118646_j60988535603568_1_alg».proof.Proof.KI.S3Array
import proofs.«118646_j60988535603568_1_alg».proof.Proof.KI.S5Array
import proofs.«118646_j60988535603568_1_alg».proof.Proof.RefFrame
import proofs.«118646_j60988535603568_1_alg».proof.Proof.RefResult
import proofs.«118646_j60988535603568_1_alg».proof.Proof.RefHalf
import proofs.«118646_j60988535603568_1_alg».proof.Proof.PreSrc

noncomputable section

namespace Cert.Proof

open Idealize.ShloMosaic Idealize.SL.Sem Idealize.ShloMosaic.ValueIdx

/-- The two idealized programs, run from memories that agree on the arguments, end with equal result arrays: the
    network of the specification over the kernel program's argument arrays. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨Cert.Proof.RefValue.netOf m, ?_, Cert.Proof.RefValue.ref_half m m' ρ' hpre hagree⟩
  refine (θ_run (Cert.KernelIdeal.defs (F := Ideal)) _ _).mono (fun _ h c => ⟨(h c).1.trans ?_, (h c).2⟩)
    (Cert.KernelIdeal.Hand.run_all (F := Ideal) m ρ)
  have hsrc : ∀ e : Fin 850000,
      0 ≤ ((Cert.KernelIdeal.Val.aSrc m c) (ix1 e)).toInt ∧ ((Cert.KernelIdeal.Val.aSrc m c) (ix1 e)).toInt < 50000 :=
    fun e => Cert.Proof.PreSrc.src_in_range (F := Ideal) _ _ _ _ _ _ _ _ _ (hpre c) e
  refine (Cert.KernelIdeal.Val.kernel_value m c Cert.KernelIdeal.Hand.D0 Cert.KernelIdeal.Hand.D1 Cert.KernelIdeal.Hand.D2
    Cert.KernelIdeal.Hand.D3 Cert.KernelIdeal.Hand.D4 Cert.KernelIdeal.Hand.D5
    Cert.KernelIdeal.Hand.arr0 Cert.KernelIdeal.Hand.arr1 Cert.KernelIdeal.Hand.arr2 Cert.KernelIdeal.Hand.arr3
    Cert.KernelIdeal.Hand.arr4 Cert.KernelIdeal.Hand.arr5 hsrc).trans ?_
  rw [show Cert.KernelIdeal.Val.kNsE m c = _ from Cert.KernelIdeal.Val.kernel_nsE m c,
    show Cert.KernelIdeal.Val.kNIn m c = _ from Cert.KernelIdeal.Val.kernel_nIn m c]
  rfl

/-- Everything the certificate claims. -/
theorem claim : Cert.Claim := ⟨Cert.Kernel.Gen.facts, Cert.KernelIdeal.Gen.facts, Cert.ReferenceIdeal.Gen.facts, Cert.Pre_finite_inputs.Gen.facts,
  Cert.Proof.KernelClaims.frame, Cert.Proof.KernelIdealClaims.frame, Cert.Proof.RefClaims.frame_ri, trivial, Cert.Proof.algebraic⟩

end Cert.Proof

end
